-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S50000x16 : Shape := ⟨2, ![50000, 16]⟩
abbrev S150000 : Shape := ⟨1, ![150000]⟩
abbrev S200000 : Shape := ⟨1, ![200000]⟩
abbrev S2x500000 : Shape := ⟨2, ![2, 500000]⟩
abbrev S8192 : Shape := ⟨1, ![8192]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S150000 : S_.BroadcastsInDim S150000 (![] : Fin 0 → Fin S150000.rank)
  reducesTo_S150000_S_d0 : S150000.ReducesTo [0] S_
  bcast_S_S200000 : S_.BroadcastsInDim S200000 (![] : Fin 0 → Fin S200000.rank)
  reducesTo_S200000_S_d0 : S200000.ReducesTo [0] S_

variable [Facts]

def fn_part1 {F : FTy → Type} [FloatOps F] (main_arg4 : FVec F S200000 .f32) (main_v13 : IVec S_ 1) (main_v16 : IVec S150000 1) : IVec S_ 1 :=
  let main_c_5 : IVec S_ 1 := constantI S_ 1 1#1
  let main_v17 : IVec S_ 1 := (fun x v => Host.reduce IntOp.andi x v reducesTo_S150000_S_d0 h_S_) main_v16 main_c_5
  let main_v18 : IVec S_ 1 := andi main_v13 main_v17
  let main_v19 : FVec F S200000 .f32 := Host.absf main_arg4
  let main_cst_6 : FVec F S_ .f32 := constant S_ .f32 0x7F800000#32
  let main_v20 : FVec F S200000 .f32 := broadcastInDim S200000 ![] bcast_S_S200000 main_cst_6
  let main_v21 : IVec S200000 1 := cmpf .olt main_v19 main_v20
  let main_c_7 : IVec S_ 1 := constantI S_ 1 1#1
  let main_v22 : IVec S_ 1 := (fun x v => Host.reduce IntOp.andi x v reducesTo_S200000_S_d0 h_S_) main_v21 main_c_7
  let main_v23 : IVec S_ 1 := andi main_v18 main_v22
  main_v23

def fn {F : FTy → Type} [FloatOps F] (main_arg0 : FVec F S100000x16 .f32) (main_arg1 : FVec F S100000x16 .f32) (main_arg2 : FVec F S50000x16 .f32) (main_arg3 : FVec F S150000 .f32) (main_arg4 : FVec F S200000 .f32) (main_arg5 : IVec S2x500000 32) (main_arg6 : IVec S2x500000 32) (main_arg7 : IVec S8192 32) (main_arg8 : IVec S8192 32) (main_arg9 : IVec S8192 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S50000x16 .f32 := Host.absf main_arg2
  let main_cst_2 : FVec F S_ .f32 := constant S_ .f32 0x7F800000#32
  let main_v10 : FVec F S50000x16 .f32 := broadcastInDim S50000x16 ![] bcast_S_S50000x16 main_cst_2
  let main_v11 : IVec S50000x16 1 := cmpf .olt main_v9 main_v10
  let main_c_3 : IVec S_ 1 := constantI S_ 1 1#1
  let main_v12 : IVec S_ 1 := (fun x v => Host.reduce IntOp.andi x v reducesTo_S50000x16_S_d0_1 h_S_) main_v11 main_c_3
  let main_v13 : IVec S_ 1 := andi main_v8 main_v12
  let main_v14 : FVec F S150000 .f32 := Host.absf main_arg3
  let main_cst_4 : FVec F S_ .f32 := constant S_ .f32 0x7F800000#32
  let main_v15 : FVec F S150000 .f32 := broadcastInDim S150000 ![] bcast_S_S150000 main_cst_4
  let main_v16 : IVec S150000 1 := cmpf .olt main_v14 main_v15
  fn_part1 (F := F) main_arg4 main_v13 main_v16
-- ==== Kernel.lean ====
abbrev S100000x16 : Shape := ⟨2, ![100000, 16]⟩
abbrev S50000x16 : Shape := ⟨2, ![50000, 16]⟩
abbrev S150000 : Shape := ⟨1, ![150000]⟩
abbrev S200000 : Shape := ⟨1, ![200000]⟩
abbrev S2x500000 : Shape := ⟨2, ![2, 500000]⟩
abbrev S8192 : Shape := ⟨1, ![8192]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x16 : Shape := ⟨2, ![500000, 16]⟩
abbrev S8192x1 : Shape := ⟨2, ![8192, 1]⟩
abbrev S8192x16 : Shape := ⟨2, ![8192, 16]⟩
abbrev S1x1 : Shape := ⟨2, ![1, 1]⟩
abbrev S10000x16 : Shape := ⟨2, ![10000, 16]⟩
abbrev S10000 : Shape := ⟨1, ![10000]⟩
abbrev S10000x1 : Shape := ⟨2, ![10000, 1]⟩
abbrev S1 : Shape := ⟨1, ![1]⟩
abbrev S1x8192 : Shape := ⟨2, ![1, 8192]⟩
abbrev S1024x16 : Shape := ⟨2, ![1024, 16]⟩
abbrev S1024x1 : Shape := ⟨2, ![1024, 1]⟩
abbrev S1x1024 : Shape := ⟨2, ![1, 1024]⟩
abbrev S1024 : Shape := ⟨1, ![1024]⟩
abbrev S16x1024 : Shape := ⟨2, ![16, 1024]⟩
abbrev S1024x1024 : Shape := ⟨2, ![1024, 1024]⟩

abbrev nBuf : Space → Nat
  | .hbm => 212
  | .vmem => 34
  | .smem => 0
  | _ => 0

abbrev hbmTy0_0 (i : Nat) : BufTy := match i % 128 with
  | 0 => ⟨S100000x16, .f32⟩
  | 1 => ⟨S100000x16, .f32⟩
  | 2 => ⟨S50000x16, .f32⟩
  | 3 => ⟨S150000, .f32⟩
  | 4 => ⟨S200000, .f32⟩
  | 5 => ⟨S2x500000, .i32⟩
  | 6 => ⟨S2x500000, .i32⟩
  | 7 => ⟨S8192, .i32⟩
  | 8 => ⟨S8192, .i32⟩
  | 9 => ⟨S8192, .i32⟩
  | 10 => ⟨S1x500000, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x16, .f32⟩
  | 21 => ⟨S1x500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x16, .f32⟩
  | 32 => ⟨S1x500000, .i32⟩
  | 33 => ⟨S500000, .i32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000, .f32⟩
  | 43 => ⟨S1x500000, .i32⟩
  | 44 => ⟨S500000, .i32⟩
  | 45 => ⟨S_, .i32⟩
  | 46 => ⟨S500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000, .f32⟩
  | 57 => ⟨S1x500000, .i32⟩
  | 58 => ⟨S500000, .i32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x16, .f32⟩
  | 68 => ⟨S1x500000, .i32⟩
  | 69 => ⟨S500000, .i32⟩
  | 70 => ⟨S_, .i32⟩
  | 71 => ⟨S500000, .i32⟩
  | 72 => ⟨S500000, .i32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x16, .f32⟩
  | 82 => ⟨S1x500000, .i32⟩
  | 83 => ⟨S500000, .i32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000, .f32⟩
  | 93 => ⟨S1x500000, .i32⟩
  | 94 => ⟨S500000, .i32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S500000x1, .i32⟩
  | 103 => ⟨S500000, .f32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192x16, .f32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S8192x16, .f32⟩
  | 122 => ⟨S_, .i32⟩
  | 123 => ⟨S8192, .i32⟩
  | 124 => ⟨S8192, .i32⟩
  | 125 => ⟨S_, .i32⟩
  | 126 => ⟨S8192, .i32⟩
  | 127 => ⟨S8192, .i1⟩
  | _ => ⟨S100000x16, .f32⟩

abbrev hbmTy0_1 (i : Nat) : BufTy := match i % 128 with
  | 0 => ⟨S_, .i32⟩
  | 1 => ⟨S8192, .i32⟩
  | 2 => ⟨S8192, .i32⟩
  | 3 => ⟨S8192, .i32⟩
  | 4 => ⟨S8192x1, .i32⟩
  | 5 => ⟨S8192x16, .f32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192, .f32⟩
  | 15 => ⟨S_, .i32⟩
  | 16 => ⟨S8192, .i32⟩
  | 17 => ⟨S8192, .i32⟩
  | 18 => ⟨S_, .i32⟩
  | 19 => ⟨S8192, .i32⟩
  | 20 => ⟨S8192, .i1⟩
  | 21 => ⟨S_, .i32⟩
  | 22 => ⟨S8192, .i32⟩
  | 23 => ⟨S8192, .i32⟩
  | 24 => ⟨S8192, .i32⟩
  | 25 => ⟨S8192x1, .i32⟩
  | 26 => ⟨S8192, .f32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192, .f32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192, .f32⟩
  | 45 => ⟨S1x1, .f32⟩
  | 46 => ⟨S_, .f32⟩
  | 47 => ⟨S1x1, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S8192x1, .f32⟩
  | 62 => ⟨S1x8192, .f32⟩
  | 63 => ⟨S8192x1, .f32⟩
  | 64 => ⟨S_, .f32⟩
  | 65 => ⟨S_, .f32⟩
  | 66 => ⟨S8192x1, .f32⟩
  | 67 => ⟨S1x8192, .f32⟩
  | 68 => ⟨S8192x1, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S10000x16, .f32⟩
  | .local _ .vmem, ⟨3, _⟩ => ⟨S10000x16, .f32⟩
  | .local _ .vmem, ⟨4, _⟩ => ⟨S1x1, .f32⟩
  | .local _ .vmem, ⟨5, _⟩ => ⟨S1x1, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S1x1, .f32⟩
  | .local _ .vmem, ⟨11, _⟩ => ⟨S1x1, .f32⟩
  | .local _ .vmem, ⟨12, _⟩ => ⟨S1024x16, .f32⟩
  | .local _ .vmem, ⟨13, _⟩ => ⟨S1024x16, .f32⟩
  | .local _ .vmem, ⟨14, _⟩ => ⟨S1024x16, .f32⟩
  | .local _ .vmem, ⟨15, _⟩ => ⟨S1024x16, .f32⟩
  | .local _ .vmem, ⟨16, _⟩ => ⟨S1024x1, .f32⟩
  | .local _ .vmem, ⟨17, _⟩ => ⟨S1024x1, .f32⟩
  | .local _ .vmem, ⟨18, _⟩ => ⟨S1x1024, .f32⟩
  | .local _ .vmem, ⟨19, _⟩ => ⟨S1x1024, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x16, .f32⟩
  | .local _ .vmem, ⟨24, _⟩ => ⟨S1024x16, .f32⟩
  | .local _ .vmem, ⟨25, _⟩ => ⟨S1024x16, .f32⟩
  | .local _ .vmem, ⟨26, _⟩ => ⟨S1024x16, .f32⟩
  | .local _ .vmem, ⟨27, _⟩ => ⟨S1024x1, .f32⟩
  | .local _ .vmem, ⟨28, _⟩ => ⟨S1024x1, .f32⟩
  | .local _ .vmem, ⟨29, _⟩ => ⟨S1x1024, .f32⟩
  | .local _ .vmem, ⟨30, _⟩ => ⟨S1x1024, .f32⟩
  | .local _ .vmem, ⟨31, _⟩ => ⟨S1024x1, .f32⟩
  | .local _ .vmem, ⟨32, _⟩ => ⟨S1024x1, .f32⟩
  | .local _ .vmem, ⟨33, _⟩ => ⟨S1024x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_c_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_15 : Ref sig .tc := ⟨.hbm, 95, rfl⟩
abbrev main_v69 : Ref sig .tc := ⟨.hbm, 96, rfl⟩
abbrev main_v70 : Ref sig .tc := ⟨.hbm, 97, rfl⟩
abbrev main_c_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_17 : Ref sig .tc := ⟨.hbm, 104, rfl⟩
abbrev main_v76 : Ref sig .tc := ⟨.hbm, 105, rfl⟩
abbrev main_v77 : Ref sig .tc := ⟨.hbm, 106, rfl⟩
abbrev main_c_18 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_19 : Ref sig .tc := ⟨.hbm, 113, rfl⟩
abbrev main_v83 : Ref sig .tc := ⟨.hbm, 114, rfl⟩
abbrev main_v84 : Ref sig .tc := ⟨.hbm, 115, rfl⟩
abbrev main_c_20 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_21 : Ref sig .tc := ⟨.hbm, 122, rfl⟩
abbrev main_v90 : Ref sig .tc := ⟨.hbm, 123, rfl⟩
abbrev main_v91 : Ref sig .tc := ⟨.hbm, 124, rfl⟩
abbrev main_c_22 : Ref sig .tc := ⟨.hbm, 125, rfl⟩
abbrev main_v92 : Ref sig .tc := ⟨.hbm, 126, rfl⟩
abbrev main_v93 : Ref sig .tc := ⟨.hbm, 127, rfl⟩
abbrev main_c_23 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_24 : Ref sig .tc := ⟨.hbm, 134, rfl⟩
abbrev main_v99 : Ref sig .tc := ⟨.hbm, 135, rfl⟩
abbrev main_v100 : Ref sig .tc := ⟨.hbm, 136, rfl⟩
abbrev main_c_25 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_26 : Ref sig .tc := ⟨.hbm, 143, rfl⟩
abbrev main_v106 : Ref sig .tc := ⟨.hbm, 144, rfl⟩
abbrev main_v107 : Ref sig .tc := ⟨.hbm, 145, rfl⟩
abbrev main_c_27 : Ref sig .tc := ⟨.hbm, 146, rfl⟩
abbrev main_v108 : Ref sig .tc := ⟨.hbm, 147, rfl⟩
abbrev main_v109 : Ref sig .tc := ⟨.hbm, 148, rfl⟩
abbrev main_c_28 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_c_29 : Ref sig .tc := ⟨.hbm, 155, rfl⟩
abbrev main_v115 : Ref sig .tc := ⟨.hbm, 156, rfl⟩
abbrev main_v116 : Ref sig .tc := ⟨.hbm, 157, rfl⟩
abbrev main_c_30 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_c_31 : Ref sig .tc := ⟨.hbm, 164, rfl⟩
abbrev main_v122 : Ref sig .tc := ⟨.hbm, 165, rfl⟩
abbrev main_v123 : Ref sig .tc := ⟨.hbm, 166, rfl⟩
abbrev main_c_32 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst : Ref sig .tc := ⟨.hbm, 177, rfl⟩
abbrev main_v133 : Ref sig .tc := ⟨.hbm, 178, rfl⟩
abbrev main_cst_33 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_34 : Ref sig .tc := ⟨.hbm, 183, rfl⟩
abbrev main_v137 : Ref sig .tc := ⟨.hbm, 184, rfl⟩
abbrev main_cst_35 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_36 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_37 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_38 : Ref sig .tc := ⟨.hbm, 203, rfl⟩
abbrev main_v153 : Ref sig .tc := ⟨.hbm, 204, rfl⟩
abbrev main_cst_39 : Ref sig .tc := ⟨.hbm, 205, rfl⟩
abbrev main_v154 : Ref sig .tc := ⟨.hbm, 206, rfl⟩
abbrev main_cst_40 : Ref sig .tc := ⟨.hbm, 207, rfl⟩
abbrev main_v155 : Ref sig .tc := ⟨.hbm, 208, rfl⟩
abbrev main_cst_41 : Ref sig .tc := ⟨.hbm, 209, rfl⟩
abbrev main_v156 : Ref sig .tc := ⟨.hbm, 210, rfl⟩
abbrev main_v157 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v21 : BitVec 1 := Scalar.cmpi .eq arg0 c49_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v21 : BitVec 1 := Scalar.cmpi .eq arg0 c49_i32
  let v22 : BitVec 32 := Scalar.extui v21
  let c0_i32_10 : BitVec 32 := 0#32
  let v23 : BitVec 1 := Scalar.cmpi .ne v22 c0_i32_10
  v23

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![8, 8], ![false, false]⟩

def k2_cond3 (i : grid2.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_4 : BitVec 32 := 0#32
  let v12 : BitVec 1 := Scalar.cmpi .ne v11 c0_i32_4
  v12

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_17 : BitVec 32 := 0#32
  let v42 : BitVec 1 := Scalar.cmpi .ne v41 c0_i32_17
  v42

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S8192 : S_.BroadcastsInDim S8192 (![] : Fin 0 → Fin S8192.rank)
  bcast_S8192_S8192x1_0 : S8192.BroadcastsInDim S8192x1 (![0] : Fin 1 → Fin S8192x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  reduces_S10000x16_S10000 : S10000x16.Reduces [1] S10000
  shapeCasts_S10000_S10000x1 : S10000.ShapeCasts S10000x1
  reduces_S10000x1_S1 : S10000x1.Reduces [0] S1
  shapeCasts_S1_S1x1 : S1.ShapeCasts S1x1
  shapeCasts_S1x1_S_ : S1x1.ShapeCasts S_
  reducesTo_S500000_S_d0 : S500000.ReducesTo [0] S_
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  reduces_S1024x16_S1024 : S1024x16.Reduces [1] S1024
  shapeCasts_S1024_S1024x1 : S1024.ShapeCasts S1024x1
  shapeCasts_S1024_S1x1024 : S1024.ShapeCasts S1x1024
  transposes_S1024x16_p1_0_S16x1024 : S1024x16.Transposes [1, 0] S16x1024
  broadcasts_S1024x1_S1024x1024 : S1024x1.Broadcasts S1024x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1024_d0_w32 : S1024x1024.Iotas .tc 32 [0]
  iota_S1024x1024_d1_w32 : S1024x1024.Iotas .tc 32 [1]
  reduces_S1024x1024_S1024 : S1024x1024.Reduces [1] S1024
  reducesTo_S8192x1_S_d0_1 : S8192x1.ReducesTo [0, 1] S_
  gather_S100000x16_S500000x1_S500000x16_1_0_n_n_0_1_116_wf : GatherDims.WF S100000x16 S500000x1 S500000x16 [1] [0] [] [0] [] 1 ![1, 16]
  gather_S200000_S500000x1_S500000_n_0_n_n_0_1_1_wf : GatherDims.WF S200000 S500000x1 S500000 [] [0] [] [0] [] 1 ![1]
  gather_S50000x16_S500000x1_S500000x16_1_0_n_n_0_1_116_wf : GatherDims.WF S50000x16 S500000x1 S500000x16 [1] [0] [] [0] [] 1 ![1, 16]
  gather_S150000_S500000x1_S500000_n_0_n_n_0_1_1_wf : GatherDims.WF S150000 S500000x1 S500000 [] [0] [] [0] [] 1 ![1]
  gather_S100000x16_S8192x1_S8192x16_1_0_n_n_0_1_116_wf : GatherDims.WF S100000x16 S8192x1 S8192x16 [1] [0] [] [0] [] 1 ![1, 16]
  gather_S50000x16_S8192x1_S8192x16_1_0_n_n_0_1_116_wf : GatherDims.WF S50000x16 S8192x1 S8192x16 [1] [0] [] [0] [] 1 ![1, 16]
  gather_S200000_S8192x1_S8192_n_0_n_n_0_1_1_wf : GatherDims.WF S200000 S8192x1 S8192 [] [0] [] [0] [] 1 ![1]
  gather_S150000_S8192x1_S8192_n_0_n_n_0_1_1_wf : GatherDims.WF S150000 S8192x1 S8192 [] [0] [] [0] [] 1 ![1]
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S500000x16.size a
  hwx0_0 : ∀ i : grid0.Coords, EltTy.bits .f32 = 32 ∨ (Rect.block (s := S500000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S500000x16.size a
  hwx0_1 : ∀ i : grid0.Coords, EltTy.bits .f32 = 32 ∨ (Rect.block (s := S500000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S500000x16.size a
  hwx1_0 : ∀ i : grid1.Coords, EltTy.bits .f32 = 32 ∨ (Rect.block (s := S500000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S500000x16.size a
  hwx1_1 : ∀ i : grid1.Coords, EltTy.bits .f32 = 32 ∨ (Rect.block (s := S500000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x16.size a ≤ S8192x16.size a
  hwx2_0 : ∀ i : grid2.Coords, EltTy.bits .f32 = 32 ∨ (Rect.block (s := S8192x16) S1024x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x16.size a ≤ S8192x16.size a
  hwx2_1 : ∀ i : grid2.Coords, EltTy.bits .f32 = 32 ∨ (Rect.block (s := S8192x16) S1024x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .f32 = 32 ∨ (Rect.block (s := S8192x1) S1024x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x16.size a ≤ S8192x16.size a
  hwx3_0 : ∀ i : grid3.Coords, EltTy.bits .f32 = 32 ∨ (Rect.block (s := S8192x16) S1024x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x16.size a ≤ S8192x16.size a
  hwx3_1 : ∀ i : grid3.Coords, EltTy.bits .f32 = 32 ∨ (Rect.block (s := S8192x16) S1024x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x8192.size a
  hwx3_3 : ∀ i : grid3.Coords, EltTy.bits .f32 = 32 ∨ (Rect.block (s := S1x8192) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1.size a ≤ S8192x1.size a
  hwx3_4 : ∀ i : grid3.Coords, EltTy.bits .f32 = 32 ∨ (Rect.block (s := S8192x1) S1024x1.size (cc3_transform_4 i) (hinb3_4 i)).WholeWords (EltTy.packing .f32)

variable [Facts₀]

def gather_S100000x16_S500000x1_S500000x16_1_0_n_n_0_1_116 : GatherDims S100000x16 S500000x1 S500000x16 where
  offsetDims := [1]
  collapsedSliceDims := [0]
  operandBatchingDims := []
  startIndicesBatchingDims := []
  startIndexMap := [0]
  indexVectorDim := 1
  sliceSizes := ![1, 16]
  wf := gather_S100000x16_S500000x1_S500000x16_1_0_n_n_0_1_116_wf
def gather_S200000_S500000x1_S500000_n_0_n_n_0_1_1 : GatherDims S200000 S500000x1 S500000 where
  offsetDims := []
  collapsedSliceDims := [0]
  operandBatchingDims := []
  startIndicesBatchingDims := []
  startIndexMap := [0]
  indexVectorDim := 1
  sliceSizes := ![1]
  wf := gather_S200000_S500000x1_S500000_n_0_n_n_0_1_1_wf
def gather_S50000x16_S500000x1_S500000x16_1_0_n_n_0_1_116 : GatherDims S50000x16 S500000x1 S500000x16 where
  offsetDims := [1]
  collapsedSliceDims := [0]
  operandBatchingDims := []
  startIndicesBatchingDims := []
  startIndexMap := [0]
  indexVectorDim := 1
  sliceSizes := ![1, 16]
  wf := gather_S50000x16_S500000x1_S500000x16_1_0_n_n_0_1_116_wf
def gather_S150000_S500000x1_S500000_n_0_n_n_0_1_1 : GatherDims S150000 S500000x1 S500000 where
  offsetDims := []
  collapsedSliceDims := [0]
  operandBatchingDims := []
  startIndicesBatchingDims := []
  startIndexMap := [0]
  indexVectorDim := 1
  sliceSizes := ![1]
  wf := gather_S150000_S500000x1_S500000_n_0_n_n_0_1_1_wf
def gather_S100000x16_S8192x1_S8192x16_1_0_n_n_0_1_116 : GatherDims S100000x16 S8192x1 S8192x16 where
  offsetDims := [1]
  collapsedSliceDims := [0]
  operandBatchingDims := []
  startIndicesBatchingDims := []
  startIndexMap := [0]
  indexVectorDim := 1
  sliceSizes := ![1, 16]
  wf := gather_S100000x16_S8192x1_S8192x16_1_0_n_n_0_1_116_wf
def gather_S50000x16_S8192x1_S8192x16_1_0_n_n_0_1_116 : GatherDims S50000x16 S8192x1 S8192x16 where
  offsetDims := [1]
  collapsedSliceDims := [0]
  operandBatchingDims := []
  startIndicesBatchingDims := []
  startIndexMap := [0]
  indexVectorDim := 1
  sliceSizes := ![1, 16]
  wf := gather_S50000x16_S8192x1_S8192x16_1_0_n_n_0_1_116_wf
def gather_S200000_S8192x1_S8192_n_0_n_n_0_1_1 : GatherDims S200000 S8192x1 S8192 where
  offsetDims := []
  collapsedSliceDims := [0]
  operandBatchingDims := []
  startIndicesBatchingDims := []
  startIndexMap := [0]
  indexVectorDim := 1
  sliceSizes := ![1]
  wf := gather_S200000_S8192x1_S8192_n_0_n_n_0_1_1_wf
def gather_S150000_S8192x1_S8192_n_0_n_n_0_1_1 : GatherDims S150000 S8192x1 S8192 where
  offsetDims := []
  collapsedSliceDims := [0]
  operandBatchingDims := []
  startIndicesBatchingDims := []
  startIndexMap := [0]
  indexVectorDim := 1
  sliceSizes := ![1]
  wf := gather_S150000_S8192x1_S8192_n_0_n_n_0_1_1_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v8) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v129) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v46) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v131) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v82) S1024x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S1024x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v141) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v142) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v143) S1024x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond3 i == 1#1) | ⟨_ + 5, h⟩ => absurd h (Nat.not_lt.2 (Nat.le_add_left _ _))

abbrev win3_0 : Pipeline.Window sig grid3 :=
  Pipeline.Window.ofSpec (Memref.whole main_v82) S1024x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v98) S1024x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v145) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v146) S1x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v147) S1024x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x16 : Shape := ⟨2, ![100000, 16]⟩
abbrev S50000x16 : Shape := ⟨2, ![50000, 16]⟩
abbrev S150000 : Shape := ⟨1, ![150000]⟩
abbrev S200000 : Shape := ⟨1, ![200000]⟩
abbrev S2x500000 : Shape := ⟨2, ![2, 500000]⟩
abbrev S8192 : Shape := ⟨1, ![8192]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x16 : Shape := ⟨2, ![500000, 16]⟩
abbrev S8192x1 : Shape := ⟨2, ![8192, 1]⟩
abbrev S1x8192 : Shape := ⟨2, ![1, 8192]⟩
abbrev S8192x8192 : Shape := ⟨2, ![8192, 8192]⟩
abbrev S8192x16 : Shape := ⟨2, ![8192, 16]⟩
abbrev S16x8192 : Shape := ⟨2, ![16, 8192]⟩

abbrev nBuf : Space → Nat
  | .hbm => 288
  | .vmem => 0
  | .smem => 0
  | _ => 0

abbrev hbmTy0_0 (i : Nat) : BufTy := match i % 128 with
  | 0 => ⟨S100000x16, .f32⟩
  | 1 => ⟨S100000x16, .f32⟩
  | 2 => ⟨S50000x16, .f32⟩
  | 3 => ⟨S150000, .f32⟩
  | 4 => ⟨S200000, .f32⟩
  | 5 => ⟨S2x500000, .i32⟩
  | 6 => ⟨S2x500000, .i32⟩
  | 7 => ⟨S8192, .i32⟩
  | 8 => ⟨S8192, .i32⟩
  | 9 => ⟨S8192, .i32⟩
  | 10 => ⟨S1x500000, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000, .f32⟩
  | 21 => ⟨S1x500000, .i32⟩
  | 22 => ⟨S500000, .i32⟩
  | 23 => ⟨S_, .i32⟩
  | 24 => ⟨S500000, .i32⟩
  | 25 => ⟨S500000, .i32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000, .f32⟩
  | 35 => ⟨S500000, .f32⟩
  | 36 => ⟨S1x500000, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x16, .f32⟩
  | 47 => ⟨S1x500000, .i32⟩
  | 48 => ⟨S500000, .i32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x16, .f32⟩
  | 58 => ⟨S500000x16, .f32⟩
  | 59 => ⟨S500000x16, .f32⟩
  | 60 => ⟨S_, .f32⟩
  | 61 => ⟨S500000, .f32⟩
  | 62 => ⟨S_, .f32⟩
  | 63 => ⟨S500000, .f32⟩
  | 64 => ⟨S500000, .f32⟩
  | 65 => ⟨S500000, .f32⟩
  | 66 => ⟨S500000, .f32⟩
  | 67 => ⟨S_, .f32⟩
  | 68 => ⟨S_, .f32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S8192, .f32⟩
  | 78 => ⟨S_, .i32⟩
  | 79 => ⟨S8192, .i32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S8192, .f32⟩
  | 90 => ⟨S8192x1, .f32⟩
  | 91 => ⟨S1x8192, .f32⟩
  | 92 => ⟨S8192x8192, .f32⟩
  | 93 => ⟨S8192x8192, .f32⟩
  | 94 => ⟨S8192x8192, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x16, .f32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192x16, .f32⟩
  | 113 => ⟨S8192x16, .f32⟩
  | 114 => ⟨S_, .f32⟩
  | 115 => ⟨S8192, .f32⟩
  | 116 => ⟨S8192x1, .f32⟩
  | 117 => ⟨S8192x16, .f32⟩
  | 118 => ⟨S_, .f32⟩
  | 119 => ⟨S8192, .f32⟩
  | 120 => ⟨S1x8192, .f32⟩
  | 121 => ⟨S8192x8192, .f32⟩
  | 122 => ⟨S8192x8192, .f32⟩
  | 123 => ⟨S8192x8192, .f32⟩
  | 124 => ⟨S_, .f32⟩
  | 125 => ⟨S8192x16, .f32⟩
  | 126 => ⟨S8192x16, .f32⟩
  | 127 => ⟨S16x8192, .f32⟩
  | _ => ⟨S100000x16, .f32⟩

abbrev hbmTy0_1 (i : Nat) : BufTy := match i % 128 with
  | 0 => ⟨S8192x8192, .f32⟩
  | 1 => ⟨S8192x8192, .f32⟩
  | 2 => ⟨S_, .f32⟩
  | 3 => ⟨S8192x8192, .f32⟩
  | 4 => ⟨S8192x8192, .f32⟩
  | 5 => ⟨S8192x8192, .f32⟩
  | 6 => ⟨S8192x8192, .f32⟩
  | 7 => ⟨S8192x8192, .f32⟩
  | 8 => ⟨S8192x8192, .i32⟩
  | 9 => ⟨S_, .i32⟩
  | 10 => ⟨S8192x8192, .i32⟩
  | 11 => ⟨S8192x8192, .i32⟩
  | 12 => ⟨S8192x8192, .i32⟩
  | 13 => ⟨S8192x8192, .i1⟩
  | 14 => ⟨S_, .f32⟩
  | 15 => ⟨S8192x8192, .f32⟩
  | 16 => ⟨S8192x8192, .f32⟩
  | 17 => ⟨S_, .f32⟩
  | 18 => ⟨S_, .f32⟩
  | 19 => ⟨S_, .f32⟩
  | 20 => ⟨S_, .f32⟩
  | 21 => ⟨S1x500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000, .f32⟩
  | 32 => ⟨S1x500000, .i32⟩
  | 33 => ⟨S500000, .i32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000, .f32⟩
  | 43 => ⟨S500000, .f32⟩
  | 44 => ⟨S1x500000, .i32⟩
  | 45 => ⟨S500000, .i32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x16, .f32⟩
  | 55 => ⟨S1x500000, .i32⟩
  | 56 => ⟨S500000, .i32⟩
  | 57 => ⟨S_, .i32⟩
  | 58 => ⟨S500000, .i32⟩
  | 59 => ⟨S500000, .i32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x16, .f32⟩
  | 69 => ⟨S500000x16, .f32⟩
  | 70 => ⟨S500000x16, .f32⟩
  | 71 => ⟨S_, .f32⟩
  | 72 => ⟨S500000, .f32⟩
  | 73 => ⟨S_, .f32⟩
  | 74 => ⟨S500000, .f32⟩
  | 75 => ⟨S500000, .f32⟩
  | 76 => ⟨S500000, .f32⟩
  | 77 => ⟨S500000, .f32⟩
  | 78 => ⟨S_, .f32⟩
  | 79 => ⟨S_, .f32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S8192, .f32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S8192, .f32⟩
  | 98 => ⟨S8192x1, .f32⟩
  | 99 => ⟨S1x8192, .f32⟩
  | 100 => ⟨S8192x8192, .f32⟩
  | 101 => ⟨S8192x8192, .f32⟩
  | 102 => ⟨S8192x8192, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x16, .f32⟩
  | 112 => ⟨S_, .i32⟩
  | 113 => ⟨S8192, .i32⟩
  | 114 => ⟨S8192, .i32⟩
  | 115 => ⟨S_, .i32⟩
  | 116 => ⟨S8192, .i32⟩
  | 117 => ⟨S8192, .i1⟩
  | 118 => ⟨S_, .i32⟩
  | 119 => ⟨S8192, .i32⟩
  | 120 => ⟨S8192, .i32⟩
  | 121 => ⟨S8192, .i32⟩
  | 122 => ⟨S8192x1, .i32⟩
  | 123 => ⟨S8192x16, .f32⟩
  | 124 => ⟨S8192x16, .f32⟩
  | 125 => ⟨S_, .f32⟩
  | 126 => ⟨S8192, .f32⟩
  | 127 => ⟨S8192x1, .f32⟩
  | _ => ⟨S100000x16, .f32⟩

abbrev hbmTy0_2 (i : Nat) : BufTy := match i % 128 with
  | 0 => ⟨S8192x16, .f32⟩
  | 1 => ⟨S_, .f32⟩
  | 2 => ⟨S8192, .f32⟩
  | 3 => ⟨S1x8192, .f32⟩
  | 4 => ⟨S8192x8192, .f32⟩
  | 5 => ⟨S8192x8192, .f32⟩
  | 6 => ⟨S8192x8192, .f32⟩
  | 7 => ⟨S_, .f32⟩
  | 8 => ⟨S8192x16, .f32⟩
  | 9 => ⟨S8192x16, .f32⟩
  | 10 => ⟨S16x8192, .f32⟩
  | 11 => ⟨S8192x8192, .f32⟩
  | 12 => ⟨S8192x8192, .f32⟩
  | 13 => ⟨S_, .f32⟩
  | 14 => ⟨S8192x8192, .f32⟩
  | 15 => ⟨S8192x8192, .f32⟩
  | 16 => ⟨S8192x8192, .f32⟩
  | 17 => ⟨S8192x8192, .f32⟩
  | 18 => ⟨S8192x8192, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_20 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_21 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_22 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_call0_v0 : Ref sig .tc := ⟨.hbm, 136, rfl⟩
abbrev main_call0_c : Ref sig .tc := ⟨.hbm, 137, rfl⟩
abbrev main_call0_v1 : Ref sig .tc := ⟨.hbm, 138, rfl⟩
abbrev main_call0_v2 : Ref sig .tc := ⟨.hbm, 139, rfl⟩
abbrev main_call0_v3 : Ref sig .tc := ⟨.hbm, 140, rfl⟩
abbrev main_call0_v4 : Ref sig .tc := ⟨.hbm, 141, rfl⟩
abbrev main_call0_cst : Ref sig .tc := ⟨.hbm, 142, rfl⟩
abbrev main_call0_v5 : Ref sig .tc := ⟨.hbm, 143, rfl⟩
abbrev main_v101 : Ref sig .tc := ⟨.hbm, 144, rfl⟩
abbrev main_cst_23 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_c_24 : Ref sig .tc := ⟨.hbm, 151, rfl⟩
abbrev main_v107 : Ref sig .tc := ⟨.hbm, 152, rfl⟩
abbrev main_v108 : Ref sig .tc := ⟨.hbm, 153, rfl⟩
abbrev main_c_25 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_26 : Ref sig .tc := ⟨.hbm, 162, rfl⟩
abbrev main_v116 : Ref sig .tc := ⟨.hbm, 163, rfl⟩
abbrev main_v117 : Ref sig .tc := ⟨.hbm, 164, rfl⟩
abbrev main_c_27 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_c_28 : Ref sig .tc := ⟨.hbm, 174, rfl⟩
abbrev main_v126 : Ref sig .tc := ⟨.hbm, 175, rfl⟩
abbrev main_v127 : Ref sig .tc := ⟨.hbm, 176, rfl⟩
abbrev main_c_29 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_c_30 : Ref sig .tc := ⟨.hbm, 185, rfl⟩
abbrev main_v135 : Ref sig .tc := ⟨.hbm, 186, rfl⟩
abbrev main_v136 : Ref sig .tc := ⟨.hbm, 187, rfl⟩
abbrev main_c_31 : Ref sig .tc := ⟨.hbm, 188, rfl⟩
abbrev main_v137 : Ref sig .tc := ⟨.hbm, 189, rfl⟩
abbrev main_v138 : Ref sig .tc := ⟨.hbm, 190, rfl⟩
abbrev main_c_32 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_cst_33 : Ref sig .tc := ⟨.hbm, 199, rfl⟩
abbrev main_v146 : Ref sig .tc := ⟨.hbm, 200, rfl⟩
abbrev main_cst_34 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_cst_35 : Ref sig .tc := ⟨.hbm, 206, rfl⟩
abbrev main_v151 : Ref sig .tc := ⟨.hbm, 207, rfl⟩
abbrev main_c_36 : Ref sig .tc := ⟨.hbm, 208, rfl⟩
abbrev main_v152 : Ref sig .tc := ⟨.hbm, 209, rfl⟩
abbrev main_v153 : Ref sig .tc := ⟨.hbm, 210, rfl⟩
abbrev main_c_37 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_c_38 : Ref sig .tc := ⟨.hbm, 217, rfl⟩
abbrev main_v159 : Ref sig .tc := ⟨.hbm, 218, rfl⟩
abbrev main_v160 : Ref sig .tc := ⟨.hbm, 219, rfl⟩
abbrev main_c_39 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_c_40 : Ref sig .tc := ⟨.hbm, 231, rfl⟩
abbrev main_v171 : Ref sig .tc := ⟨.hbm, 232, rfl⟩
abbrev main_v172 : Ref sig .tc := ⟨.hbm, 233, rfl⟩
abbrev main_c_41 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_c_42 : Ref sig .tc := ⟨.hbm, 240, rfl⟩
abbrev main_v178 : Ref sig .tc := ⟨.hbm, 241, rfl⟩
abbrev main_v179 : Ref sig .tc := ⟨.hbm, 242, rfl⟩
abbrev main_c_43 : Ref sig .tc := ⟨.hbm, 243, rfl⟩
abbrev main_v180 : Ref sig .tc := ⟨.hbm, 244, rfl⟩
abbrev main_v181 : Ref sig .tc := ⟨.hbm, 245, rfl⟩
abbrev main_c_44 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_cst_45 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_cst_46 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_cst_47 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_cst_48 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_cst_49 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_cst_50 : Ref sig .tc := ⟨.hbm, 279, rfl⟩
abbrev main_v209 : Ref sig .tc := ⟨.hbm, 280, rfl⟩
abbrev main_cst_51 : Ref sig .tc := ⟨.hbm, 281, rfl⟩
abbrev main_v210 : Ref sig .tc := ⟨.hbm, 282, rfl⟩
abbrev main_cst_52 : Ref sig .tc := ⟨.hbm, 283, rfl⟩
abbrev main_v211 : Ref sig .tc := ⟨.hbm, 284, rfl⟩
abbrev main_cst_53 : Ref sig .tc := ⟨.hbm, 285, rfl⟩
abbrev main_v212 : Ref sig .tc := ⟨.hbm, 286, rfl⟩
abbrev main_v213 : Ref sig .tc := ⟨.hbm, 287, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x16_S500000_d1 : S500000x16.ReducesTo [1] S500000
  h_S_ : 0 < S_.numel
  reducesTo_S500000_S_d0 : S500000.ReducesTo [0] S_
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x16_S8192_d1 : S8192x16.ReducesTo [1] S8192
  bcast_S_S8192x16 : S_.BroadcastsInDim S8192x16 (![] : Fin 0 → Fin S8192x16.rank)
  transposes_S8192x16_S16x8192_1_0 : S8192x16.Transposes [1, 0] S16x8192
  bcast_S_S8192x8192 : S_.BroadcastsInDim S8192x8192 (![] : Fin 0 → Fin S8192x8192.rank)
  reducesTo_S8192x8192_S_d0_1 : S8192x8192.ReducesTo [0, 1] S_
  gather_S200000_S500000x1_S500000_n_0_n_n_0_1_1_wf : GatherDims.WF S200000 S500000x1 S500000 [] [0] [] [0] [] 1 ![1]
  gather_S100000x16_S500000x1_S500000x16_1_0_n_n_0_1_116_wf : GatherDims.WF S100000x16 S500000x1 S500000x16 [1] [0] [] [0] [] 1 ![1, 16]
  gather_S200000_S8192x1_S8192_n_0_n_n_0_1_1_wf : GatherDims.WF S200000 S8192x1 S8192 [] [0] [] [0] [] 1 ![1]
  gather_S100000x16_S8192x1_S8192x16_1_0_n_n_0_1_116_wf : GatherDims.WF S100000x16 S8192x1 S8192x16 [1] [0] [] [0] [] 1 ![1, 16]
  dot_S8192x16_S16x8192_S8192x8192_1_0_0_1_n_n_wf : DotDims.WF S8192x16 S16x8192 S8192x8192 [1] [0] [0] [1] [] []
  gather_S150000_S500000x1_S500000_n_0_n_n_0_1_1_wf : GatherDims.WF S150000 S500000x1 S500000 [] [0] [] [0] [] 1 ![1]
  gather_S50000x16_S500000x1_S500000x16_1_0_n_n_0_1_116_wf : GatherDims.WF S50000x16 S500000x1 S500000x16 [1] [0] [] [0] [] 1 ![1, 16]
  gather_S150000_S8192x1_S8192_n_0_n_n_0_1_1_wf : GatherDims.WF S150000 S8192x1 S8192 [] [0] [] [0] [] 1 ![1]
  gather_S50000x16_S8192x1_S8192x16_1_0_n_n_0_1_116_wf : GatherDims.WF S50000x16 S8192x1 S8192x16 [1] [0] [] [0] [] 1 ![1, 16]

variable [Facts₀]

def gather_S200000_S500000x1_S500000_n_0_n_n_0_1_1 : GatherDims S200000 S500000x1 S500000 where
  offsetDims := []
  collapsedSliceDims := [0]
  operandBatchingDims := []
  startIndicesBatchingDims := []
  startIndexMap := [0]
  indexVectorDim := 1
  sliceSizes := ![1]
  wf := gather_S200000_S500000x1_S500000_n_0_n_n_0_1_1_wf
def gather_S100000x16_S500000x1_S500000x16_1_0_n_n_0_1_116 : GatherDims S100000x16 S500000x1 S500000x16 where
  offsetDims := [1]
  collapsedSliceDims := [0]
  operandBatchingDims := []
  startIndicesBatchingDims := []
  startIndexMap := [0]
  indexVectorDim := 1
  sliceSizes := ![1, 16]
  wf := gather_S100000x16_S500000x1_S500000x16_1_0_n_n_0_1_116_wf
def gather_S200000_S8192x1_S8192_n_0_n_n_0_1_1 : GatherDims S200000 S8192x1 S8192 where
  offsetDims := []
  collapsedSliceDims := [0]
  operandBatchingDims := []
  startIndicesBatchingDims := []
  startIndexMap := [0]
  indexVectorDim := 1
  sliceSizes := ![1]
  wf := gather_S200000_S8192x1_S8192_n_0_n_n_0_1_1_wf
def gather_S100000x16_S8192x1_S8192x16_1_0_n_n_0_1_116 : GatherDims S100000x16 S8192x1 S8192x16 where
  offsetDims := [1]
  collapsedSliceDims := [0]
  operandBatchingDims := []
  startIndicesBatchingDims := []
  startIndexMap := [0]
  indexVectorDim := 1
  sliceSizes := ![1, 16]
  wf := gather_S100000x16_S8192x1_S8192x16_1_0_n_n_0_1_116_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def gather_S150000_S500000x1_S500000_n_0_n_n_0_1_1 : GatherDims S150000 S500000x1 S500000 where
  offsetDims := []
  collapsedSliceDims := [0]
  operandBatchingDims := []
  startIndicesBatchingDims := []
  startIndexMap := [0]
  indexVectorDim := 1
  sliceSizes := ![1]
  wf := gather_S150000_S500000x1_S500000_n_0_n_n_0_1_1_wf
def gather_S50000x16_S500000x1_S500000x16_1_0_n_n_0_1_116 : GatherDims S50000x16 S500000x1 S500000x16 where
  offsetDims := [1]
  collapsedSliceDims := [0]
  operandBatchingDims := []
  startIndicesBatchingDims := []
  startIndexMap := [0]
  indexVectorDim := 1
  sliceSizes := ![1, 16]
  wf := gather_S50000x16_S500000x1_S500000x16_1_0_n_n_0_1_116_wf
def gather_S150000_S8192x1_S8192_n_0_n_n_0_1_1 : GatherDims S150000 S8192x1 S8192 where
  offsetDims := []
  collapsedSliceDims := [0]
  operandBatchingDims := []
  startIndicesBatchingDims := []
  startIndexMap := [0]
  indexVectorDim := 1
  sliceSizes := ![1]
  wf := gather_S150000_S8192x1_S8192_n_0_n_n_0_1_1_wf
def gather_S50000x16_S8192x1_S8192x16_1_0_n_n_0_1_116 : GatherDims S50000x16 S8192x1 S8192x16 where
  offsetDims := [1]
  collapsedSliceDims := [0]
  operandBatchingDims := []
  startIndicesBatchingDims := []
  startIndexMap := [0]
  indexVectorDim := 1
  sliceSizes := ![1, 16]
  wf := gather_S50000x16_S8192x1_S8192x16_1_0_n_n_0_1_116_wf

class Facts : Prop extends Facts₀ where

variable [Facts]
-- ==== Proof.K.R0Runs.lean ====
/- Region 0 (the edge-reduce kernel, grid of 50 points): what the per-case runs of the kernel body are stated over —
   the two branch conditions decided over the grid, where the output window is idle, the staging and scratch
   memrefs, the region invariant with the scratch accumulator split out — and the runs themselves, one per case:
   A (first point: the accumulator is reset, then accumulated into), B (a middle point: accumulated into),
   C (last point: accumulated into, then copied to the output). -/
import proofs.«104416_j77807627534714_2_alg».proof.Proof.Gen.Kernel.Launch
import proofs.«104416_j77807627534714_2_alg».proof.Proof.Gen.Kernel.Skeleton
import proofs.«104416_j77807627534714_2_alg».proof.Proof.Gen.Kernel.Points
import Idealize.ShloMosaic.Lib.Pipeline.FrameBody
import Idealize.ShloMosaic.Lib.Ring
import Idealize.ShloMosaic.Lib.Tactic

-- membership in a rectangle of long extents is checked by structural recursion, once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the body's first conditional (the accumulator's reset): the scalar chain
    `(i == 0) extended to 32 bits ≠ 0`, read off the grid coordinate. -/
abbrev cond0_0 (i : grid0.Coords) : Prop := (Scalar.cmpi .ne (Scalar.extui (Scalar.cmpi .eq (BitVec.ofNat 32 (i 0).val) 0#32)) 0#32) = 1#1
/-- It holds at the first point only: decided over the 50 points. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the copy of the accumulator to the output). -/
abbrev cond0_1 (i : grid0.Coords) : Prop := k0_cond2 i = 1#1
/-- It holds at the last point only: decided over the 50 points. -/
theorem hcond0_1 : ∀ t : Fin cfg0.N, cond0_1 (grid0.coords t) ↔ t.val = 49 :=
  (by decide +kernel : ∀ t : Fin grid0.N, cond0_1 (grid0.coords t) ↔ t.val = 49)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the copy is not taken the output window is idle: the body stores nothing into it, -/
theorem idleAt0_2 : ∀ t : Fin cfg0.N, ¬cond0_1 (grid0.coords t) → cfg0.idle 2 (grid0.coords t) = true := by decide +kernel
/-- and its block is not written back there. -/
theorem noFlush0_2 : ∀ t : Fin cfg0.N, ¬cond0_1 (grid0.coords t) → (cfg0.win 2).flush t = false := by decide +kernel
/-- Where the copy is taken the output window is live. -/
theorem liveAt0_2 : ∀ t : Fin cfg0.N, cond0_1 (grid0.coords t) → cfg0.idle 2 (grid0.coords t) = false := by decide +kernel

/-! ## The memrefs the body is called with -/

/-- The output window's one staging buffer as a view: what the window holds is stated through it. -/
abbrev VO0_2 : View sig .tc .vmem S1x1 .f32 := (Memref.whole cc0_stg2_0 : Memref sig .tc .vmem S1x1 .f32).view
/-- Each window's current staging memref at point `t`, spelled as the pipeline passes it, and its wholeness. -/
abbrev ms0_0 (t : Fin cfg0.N) : Memref sig .tc .vmem S10000x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch accumulator: a whole scoped buffer of the kernel's own, passed beside the windows, -/
abbrev scM0_0 : Memref sig .tc .vmem S1x1 .f32 := Memref.whole cc0_scratch0
/-- and as a view: what it holds between points is stated through it. -/
abbrev VS0_0 : View sig .tc .vmem S1x1 .f32 := scM0_0.view

/-- The region invariant with the scratch accumulator split out as a memref owned at some contents; the other
    scoped buffers (the other regions' staging buffers and scratch) stay together, unopened. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The kernel body on any whole memrefs, case by case

Each run is a pair of piece lists (what the body's stores leave in the output's buffer and in the accumulator, last
store first) with the proof that from the inputs' buffers at their contents, the output's and the accumulator's as the
case finds them, the body runs to the continuation holding the inputs as they were and each stored buffer with its
pieces written. The pieces are found by running the body's memory operations in order. -/

set_option maxHeartbeats 1000000 in
/-- CASE A, the first point (reset, no copy): the accumulator is found at anything, stored whole with zeros, then loaded,
    added to and stored whole again; the output's buffer (`xi2`) is not touched. -/
noncomputable def kernelRun0_A (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S10000x16 .f32) (x1 : Vec F S10000x16 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__edge_reduce_kernel i arg1 harg1 arg2 harg2 arg3 harg3 arg4 harg4) K } := by
  refine ⟨[], ?_, fun xi2 E K => ?run⟩
  case run =>
    simp only [cc0__edge_reduce_kernel_eq_skeleton]; unfold cc0__edge_reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B, a middle point (no reset, no copy): the accumulator is found at `xs0`, loaded, added to and stored whole;
    the output's buffer (`xi2`) is not touched. -/
noncomputable def kernelRun0_B (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S10000x16 .f32) (x1 : Vec F S10000x16 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__edge_reduce_kernel i arg1 harg1 arg2 harg2 arg3 harg3 arg4 harg4) K } := by
  refine ⟨[], ?_, fun xi2 E K => ?run⟩
  case run =>
    simp only [cc0__edge_reduce_kernel_eq_skeleton]; unfold cc0__edge_reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C, the last point (no reset, copy): the accumulator is found at `xs0`, loaded, added to and stored whole; then it
    is loaded once more and stored whole into the output's buffer, which is found at anything. -/
noncomputable def kernelRun0_C (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__edge_reduce_kernel i arg1 harg1 arg2 harg2 arg3 harg3 arg4 harg4) K } := by
  refine ⟨?_, ?_, fun E K => ?run⟩
  case run =>
    simp only [cc0__edge_reduce_kernel_eq_skeleton]; unfold cc0__edge_reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R0.lean ====
/- Region 0 (the edge-reduce kernel, grid of 50 points) at the entry contents `V`: what the output's buffer and the scratch
   accumulator hold after each point (`outsAt0`, by recursion on the point over the per-case runs), the region invariant
   point by point, the pipeline's proof data `dat0`, its body obligation, and the invariant's two ends. -/
import proofs.«104416_j77807627534714_2_alg».proof.Proof.K.R0Runs

-- membership in a rectangle of long extents is checked by structural recursion, once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: a parameter of everything below
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place: the window is uncut and never idle, and where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's buffer and in the accumulator -/

/-- Case A (the first point) stores nothing into the output's buffer: no pieces, so this is a placeholder that nothing consults
    (at these points the window is neither written back nor read at the next point). -/
def out0_A_2 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S10000x16 .f32) (x1 : Vec F S10000x16 .f32) : Vec F S1x1 .f32 :=
  VO0_2.read (Elt F) (VO0_2.writes (Elt F) VO0_2.junk (kernelRun0_A c i arg1 harg1 arg2 harg2 arg3 harg3 arg4 harg4 hc0 hc1 x0 x1).1)

/-- Case A's stores into the accumulator are of the whole buffer, so its pieces cover it. -/
theorem scover0_A_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S10000x16 .f32) (x1 : Vec F S10000x16 .f32) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y

/-- What case A (the first point) leaves in the accumulator: its pieces read back. -/
def sout0_A_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S10000x16 .f32) (x1 : Vec F S10000x16 .f32) : Vec F S1x1 .f32 :=
  VS0_0.read (Elt F) (VS0_0.writes (Elt F) VS0_0.junk (kernelRun0_A c i arg1 harg1 arg2 harg2 arg3 harg3 arg4 harg4 hc0 hc1 x0 x1).2.1)

/-- Case B (a middle point) stores nothing into the output's buffer: no pieces, so this is a placeholder that nothing consults
    (at these points the window is neither written back nor read at the next point). -/
def out0_B_2 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S10000x16 .f32) (x1 : Vec F S10000x16 .f32) (xs0 : Vec F S1x1 .f32) : Vec F S1x1 .f32 :=
  VO0_2.read (Elt F) (VO0_2.writes (Elt F) VO0_2.junk (kernelRun0_B c i arg1 harg1 arg2 harg2 arg3 harg3 arg4 harg4 hc0 hc1 x0 x1 xs0).1)

/-- Case B's stores into the accumulator are of the whole buffer, so its pieces cover it. -/
theorem scover0_B_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S10000x16 .f32) (x1 : Vec F S10000x16 .f32) (xs0 : Vec F S1x1 .f32) (y : S1x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x1.size (by sl_kernel_rfl) y

/-- What case B (a middle point) leaves in the accumulator: its pieces read back. -/
def sout0_B_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S10000x16 .f32) (x1 : Vec F S10000x16 .f32) (xs0 : Vec F S1x1 .f32) : Vec F S1x1 .f32 :=
  VS0_0.read (Elt F) (VS0_0.writes (Elt F) VS0_0.junk (kernelRun0_B c i arg1 harg1 arg2 harg2 arg3 harg3 arg4 harg4 hc0 hc1 x0 x1 xs0).2.1)

/-- Case C's one store into the output's buffer is of the whole block, so its pieces cover the buffer. -/
theorem cover0_C_2 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y

/-- What case C (the last point) leaves in the output's buffer: its pieces read back. -/
def out0_C_2 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) : Vec F S1x1 .f32 :=
  VO0_2.read (Elt F) (VO0_2.writes (Elt F) VO0_2.junk (kernelRun0_C c i arg1 harg1 arg2 harg2 arg3 harg3 arg4 harg4 hc0 hc1 x0 x1 xs0).1)

/-- Case C's stores into the accumulator are of the whole buffer, so its pieces cover it. -/
theorem scover0_C_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y

/-- What case C (the last point) leaves in the accumulator: its pieces read back. -/
def sout0_C_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) : Vec F S1x1 .f32 :=
  VS0_0.read (Elt F) (VS0_0.writes (Elt F) VS0_0.junk (kernelRun0_C c i arg1 harg1 arg2 harg2 arg3 harg3 arg4 harg4 hc0 hc1 x0 x1 xs0).2.1)

/-! ## What the output's buffer and the accumulator hold after each point -/

/-- THE ACCUMULATION. What the output's staging buffer (first component) and the scratch accumulator (second component)
    hold after the body at position `n`: at the first point case A on the point's input blocks; afterwards case B, or at
    point 49 case C, on the point's input blocks and on what the point before left in the accumulator. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (by decide : ¬ (0 : ℕ) = 49)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (by decide : ¬ (0 : ℕ) = 49)) (iblk0 V c 0 ⟨0, hn⟩) (iblk0 V c 1 ⟨0, hn⟩))
  | n + 1, hn =>
    if h1 : n + 1 = 49 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at the first point: case A's contents. -/
theorem outsAt0_A (c : Dev nD) (t : Fin cfg0.N) (h0 : t.val = 0) (hc0 : cond0_0 (grid0.coords t)) (hc1 : ¬cond0_1 (grid0.coords t)) :
    outsAt0 V c t.val t.isLt = (out0_A_2 c (grid0.coords t) (ms0_0 t) (hs0_0 t) (ms0_1 t) (hs0_1 t) (ms0_2 t) (hs0_2 t) scM0_0 (Memref.isWhole_whole _) hc0 hc1 (iblk0 V c 0 t) (iblk0 V c 1 t), sout0_A_0 c (grid0.coords t) (ms0_0 t) (hs0_0 t) (ms0_1 t) (hs0_1 t) (ms0_2 t) (hs0_2 t) scM0_0 (Memref.isWhole_whole _) hc0 hc1 (iblk0 V c 0 t) (iblk0 V c 1 t)) := by
  obtain ⟨n, hn⟩ := t
  cases n with
  | zero => exact rfl
  | succ n => exact absurd h0 (Nat.succ_ne_zero n)

/-- `outsAt0` at a middle point: case B's contents, over what the point before left in the accumulator. -/
theorem outsAt0_B (c : Dev nD) (t : Fin cfg0.N) (h0 : t.val ≠ 0) (h1 : t.val ≠ 49) (hc0 : ¬cond0_0 (grid0.coords t)) (hc1 : ¬cond0_1 (grid0.coords t)) :
    outsAt0 V c t.val t.isLt = (out0_B_2 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: case C's contents, over what the point before left in the accumulator. -/
theorem outsAt0_C (c : Dev nD) (t : Fin cfg0.N) (h1 : t.val = 49) (hc0 : ¬cond0_0 (grid0.coords t)) (hc1 : cond0_1 (grid0.coords t)) :
    outsAt0 V c t.val t.isLt = (out0_C_2 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2) := by
  obtain ⟨n, hn⟩ := t
  cases n with
  | zero => exact absurd h1 (by decide : ¬ (0 : ℕ) = 49)
  | succ n => exact (dif_pos h1).trans rfl

/-! ## The region invariant, point by point -/

/-- The invariant before position `n`: before the first point the region's own (every scoped buffer that is no staging
    buffer at anything, the generator register at some state); afterwards the same with the accumulator at what the
    point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the point's position says which case it is in, so that
    case's run applies. The invariant hands the body the accumulator at what the point before left (at anything at the
    first point) and takes it back at this point's contents, since the case's stores cover it; the other scoped buffers,
    the generator register and what the core owes pass through. Where the copy is not taken the output's buffer is handed
    back as found; at the last point it is taken back at the copied contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 50 := lt_of_lt_of_eq t.isLt (show cfg0.N = 50 from N_0)
  by_cases h0 : t.val = 0
  · -- the first point: case A
    have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [outsAt0_A V c t h0 hc0 hc1]
    unfold sout0_A_0; (try dsimp only)
    rw [PhiS0_castSucc V c t, PhiS0_zero V c _ _ h0, PhiA0_eq]
    iintro ⟨⟨⟨HS0, HR⟩, Hg⟩, Ho, ⟨%d0, H0⟩, ⟨%d1, H1⟩, ⟨%d2, H2⟩⟩
    iapply ((kernelRun0_A c (grid0.coords t) _ _ _ _ _ _ _ _ hc0 hc1 (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _)
        iexact HR
      iexact Hg
    isplitl [Ho]; · iexact Ho
    isplitl [H0]; · iexact H0
    isplitl [H1]; · iexact H1
    iexists _; iexact H2
  · have hc0 : ¬cond0_0 (grid0.coords t) := fun h => h0 ((hcond0_0 t).mp h)
    by_cases h1 : t.val = 49
    · -- the last point: case C
      have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t h1 hc0 hc1]
      unfold out0_C_2 sout0_C_0; (try dsimp only)
      rw [PhiS0_castSucc V c t, PhiS0_pos V c _ _ h0]
      iintro ⟨⟨⟨HS0, HR⟩, Hg⟩, Ho, ⟨%d0, H0⟩, ⟨%d1, H1⟩, ⟨%d2, H2⟩⟩
      iapply ((kernelRun0_C c (grid0.coords t) _ _ _ _ _ _ _ _ hc0 hc1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · -- a middle point: case B
      have hc1 : ¬cond0_1 (grid0.coords t) := fun h => h1 ((hcond0_1 t).mp h)
      rw [Dat.leavesExact_idle (dat0 V c) 2 t (idleAt0_2 t hc1) (noFlush0_2 t hc1)]
      rw [outsAt0_B V c t h0 h1 hc0 hc1]
      unfold sout0_B_0; (try dsimp only)
      rw [PhiS0_castSucc V c t, PhiS0_pos V c _ _ h0]
      iintro ⟨⟨⟨HS0, HR⟩, Hg⟩, Ho, ⟨%d0, H0⟩, ⟨%d1, H1⟩, ⟨%d2, H2⟩⟩
      iapply ((kernelRun0_B c (grid0.coords t) _ _ _ _ _ _ _ _ hc0 hc1 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the region's own back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.K.R1Runs.lean ====
/- Region 1 (the edge-reduce kernel, grid of 50 points): what the per-case runs of the kernel body are stated over —
   the two branch conditions decided over the grid, where the output window is idle, the staging and scratch
   memrefs, the region invariant with the scratch accumulator split out — and the runs themselves, one per case:
   A (first point: the accumulator is reset, then accumulated into), B (a middle point: accumulated into),
   C (last point: accumulated into, then copied to the output). -/
import proofs.«104416_j77807627534714_2_alg».proof.Proof.Gen.Kernel.Launch
import proofs.«104416_j77807627534714_2_alg».proof.Proof.Gen.Kernel.Skeleton
import proofs.«104416_j77807627534714_2_alg».proof.Proof.Gen.Kernel.Points
import Idealize.ShloMosaic.Lib.Pipeline.FrameBody
import Idealize.ShloMosaic.Lib.Ring
import Idealize.ShloMosaic.Lib.Tactic

-- membership in a rectangle of long extents is checked by structural recursion, once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the body's first conditional (the accumulator's reset): the scalar chain
    `(i == 0) extended to 32 bits ≠ 0`, read off the grid coordinate. -/
abbrev cond1_0 (i : grid1.Coords) : Prop := (Scalar.cmpi .ne (Scalar.extui (Scalar.cmpi .eq (BitVec.ofNat 32 (i 0).val) 0#32)) 0#32) = 1#1
/-- It holds at the first point only: decided over the 50 points. -/
theorem hcond1_0 : ∀ t : Fin cfg1.N, cond1_0 (grid1.coords t) ↔ t.val = 0 :=
  (by decide +kernel : ∀ t : Fin grid1.N, cond1_0 (grid1.coords t) ↔ t.val = 0)

/-- The condition of the body's second conditional (the copy of the accumulator to the output). -/
abbrev cond1_1 (i : grid1.Coords) : Prop := k1_cond2 i = 1#1
/-- It holds at the last point only: decided over the 50 points. -/
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the copy is not taken the output window is idle: the body stores nothing into it, -/
theorem idleAt1_2 : ∀ t : Fin cfg1.N, ¬cond1_1 (grid1.coords t) → cfg1.idle 2 (grid1.coords t) = true := by decide +kernel
/-- and its block is not written back there. -/
theorem noFlush1_2 : ∀ t : Fin cfg1.N, ¬cond1_1 (grid1.coords t) → (cfg1.win 2).flush t = false := by decide +kernel
/-- Where the copy is taken the output window is live. -/
theorem liveAt1_2 : ∀ t : Fin cfg1.N, cond1_1 (grid1.coords t) → cfg1.idle 2 (grid1.coords t) = false := by decide +kernel

/-! ## The memrefs the body is called with -/

/-- The output window's one staging buffer as a view: what the window holds is stated through it. -/
abbrev VO1_2 : View sig .tc .vmem S1x1 .f32 := (Memref.whole cc1_stg2_0 : Memref sig .tc .vmem S1x1 .f32).view
/-- Each window's current staging memref at point `t`, spelled as the pipeline passes it, and its wholeness. -/
abbrev ms1_0 (t : Fin cfg1.N) : Memref sig .tc .vmem S10000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The scratch accumulator: a whole scoped buffer of the kernel's own, passed beside the windows, -/
abbrev scM1_0 : Memref sig .tc .vmem S1x1 .f32 := Memref.whole cc1_scratch0
/-- and as a view: what it holds between points is stated through it. -/
abbrev VS1_0 : View sig .tc .vmem S1x1 .f32 := scM1_0.view

/-- The region invariant with the scratch accumulator split out as a memref owned at some contents; the other
    scoped buffers (the other regions' staging buffers and scratch) stay together, unopened. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The kernel body on any whole memrefs, case by case

Each run is a pair of piece lists (what the body's stores leave in the output's buffer and in the accumulator, last
store first) with the proof that from the inputs' buffers at their contents, the output's and the accumulator's as the
case finds them, the body runs to the continuation holding the inputs as they were and each stored buffer with its
pieces written. The pieces are found by running the body's memory operations in order. -/

set_option maxHeartbeats 1000000 in
/-- CASE A, the first point (reset, no copy): the accumulator is found at anything, stored whole with zeros, then loaded,
    added to and stored whole again; the output's buffer (`xi2`) is not touched. -/
noncomputable def kernelRun1_A (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S10000x16 .f32) (x1 : Vec F S10000x16 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__edge_reduce_kernel i arg1 harg1 arg2 harg2 arg3 harg3 arg4 harg4) K } := by
  refine ⟨[], ?_, fun xi2 E K => ?run⟩
  case run =>
    simp only [cc1__edge_reduce_kernel_eq_skeleton]; unfold cc1__edge_reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B, a middle point (no reset, no copy): the accumulator is found at `xs0`, loaded, added to and stored whole;
    the output's buffer (`xi2`) is not touched. -/
noncomputable def kernelRun1_B (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S10000x16 .f32) (x1 : Vec F S10000x16 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__edge_reduce_kernel i arg1 harg1 arg2 harg2 arg3 harg3 arg4 harg4) K } := by
  refine ⟨[], ?_, fun xi2 E K => ?run⟩
  case run =>
    simp only [cc1__edge_reduce_kernel_eq_skeleton]; unfold cc1__edge_reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C, the last point (no reset, copy): the accumulator is found at `xs0`, loaded, added to and stored whole; then it
    is loaded once more and stored whole into the output's buffer, which is found at anything. -/
noncomputable def kernelRun1_C (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x16 .f32) (x1 : Vec F S10000x16 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__edge_reduce_kernel i arg1 harg1 arg2 harg2 arg3 harg3 arg4 harg4) K } := by
  refine ⟨?_, ?_, fun E K => ?run⟩
  case run =>
    simp only [cc1__edge_reduce_kernel_eq_skeleton]; unfold cc1__edge_reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R1.lean ====
/- Region 1 (the edge-reduce kernel, grid of 50 points) at the entry contents `V`: what the output's buffer and the scratch
   accumulator hold after each point (`outsAt1`, by recursion on the point over the per-case runs), the region invariant
   point by point, the pipeline's proof data `dat1`, its body obligation, and the invariant's two ends. -/
import proofs.«104416_j77807627534714_2_alg».proof.Proof.K.R1Runs

-- membership in a rectangle of long extents is checked by structural recursion, once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered: a parameter of everything below
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place: the window is uncut and never idle, and where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer and in the accumulator -/

/-- Case A (the first point) stores nothing into the output's buffer: no pieces, so this is a placeholder that nothing consults
    (at these points the window is neither written back nor read at the next point). -/
def out1_A_2 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S10000x16 .f32) (x1 : Vec F S10000x16 .f32) : Vec F S1x1 .f32 :=
  VO1_2.read (Elt F) (VO1_2.writes (Elt F) VO1_2.junk (kernelRun1_A c i arg1 harg1 arg2 harg2 arg3 harg3 arg4 harg4 hc0 hc1 x0 x1).1)

/-- Case A's stores into the accumulator are of the whole buffer, so its pieces cover it. -/
theorem scover1_A_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S10000x16 .f32) (x1 : Vec F S10000x16 .f32) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y

/-- What case A (the first point) leaves in the accumulator: its pieces read back. -/
def sout1_A_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S10000x16 .f32) (x1 : Vec F S10000x16 .f32) : Vec F S1x1 .f32 :=
  VS1_0.read (Elt F) (VS1_0.writes (Elt F) VS1_0.junk (kernelRun1_A c i arg1 harg1 arg2 harg2 arg3 harg3 arg4 harg4 hc0 hc1 x0 x1).2.1)

/-- Case B (a middle point) stores nothing into the output's buffer: no pieces, so this is a placeholder that nothing consults
    (at these points the window is neither written back nor read at the next point). -/
def out1_B_2 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S10000x16 .f32) (x1 : Vec F S10000x16 .f32) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 x1 xs0).1)

/-- Case B's stores into the accumulator are of the whole buffer, so its pieces cover it. -/
theorem scover1_B_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S10000x16 .f32) (x1 : Vec F S10000x16 .f32) (xs0 : Vec F S1x1 .f32) (y : S1x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S1x1.size (by sl_kernel_rfl) y

/-- What case B (a middle point) leaves in the accumulator: its pieces read back. -/
def sout1_B_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S10000x16 .f32) (x1 : Vec F S10000x16 .f32) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 x1 xs0).2.1)

/-- Case C's one store into the output's buffer is of the whole block, so its pieces cover the buffer. -/
theorem cover1_C_2 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x16 .f32) (x1 : Vec F S10000x16 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y

/-- What case C (the last point) leaves in the output's buffer: its pieces read back. -/
def out1_C_2 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x16 .f32) (x1 : Vec F S10000x16 .f32) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 x1 xs0).1)

/-- Case C's stores into the accumulator are of the whole buffer, so its pieces cover it. -/
theorem scover1_C_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x16 .f32) (x1 : Vec F S10000x16 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y

/-- What case C (the last point) leaves in the accumulator: its pieces read back. -/
def sout1_C_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x16 .f32) (x1 : Vec F S10000x16 .f32) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 x1 xs0).2.1)

/-! ## What the output's buffer and the accumulator hold after each point -/

/-- THE ACCUMULATION. What the output's staging buffer (first component) and the scratch accumulator (second component)
    hold after the body at position `n`: at the first point case A on the point's input blocks; afterwards case B, or at
    point 49 case C, on the point's input blocks and on what the point before left in the accumulator. -/
def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (fun h => absurd ((hcond1_1 ⟨0, hn⟩).mp h) (by decide : ¬ (0 : ℕ) = 49)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (fun h => absurd ((hcond1_1 ⟨0, hn⟩).mp h) (by decide : ¬ (0 : ℕ) = 49)) (iblk1 V c 0 ⟨0, hn⟩) (iblk1 V c 1 ⟨0, hn⟩))
  | n + 1, hn =>
    if h1 : n + 1 = 49 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at the first point: case A's contents. -/
theorem outsAt1_A (c : Dev nD) (t : Fin cfg1.N) (h0 : t.val = 0) (hc0 : cond1_0 (grid1.coords t)) (hc1 : ¬cond1_1 (grid1.coords t)) :
    outsAt1 V c t.val t.isLt = (out1_A_2 c (grid1.coords t) (ms1_0 t) (hs1_0 t) (ms1_1 t) (hs1_1 t) (ms1_2 t) (hs1_2 t) scM1_0 (Memref.isWhole_whole _) hc0 hc1 (iblk1 V c 0 t) (iblk1 V c 1 t), sout1_A_0 c (grid1.coords t) (ms1_0 t) (hs1_0 t) (ms1_1 t) (hs1_1 t) (ms1_2 t) (hs1_2 t) scM1_0 (Memref.isWhole_whole _) hc0 hc1 (iblk1 V c 0 t) (iblk1 V c 1 t)) := by
  obtain ⟨n, hn⟩ := t
  cases n with
  | zero => exact rfl
  | succ n => exact absurd h0 (Nat.succ_ne_zero n)

/-- `outsAt1` at a middle point: case B's contents, over what the point before left in the accumulator. -/
theorem outsAt1_B (c : Dev nD) (t : Fin cfg1.N) (h0 : t.val ≠ 0) (h1 : t.val ≠ 49) (hc0 : ¬cond1_0 (grid1.coords t)) (hc1 : ¬cond1_1 (grid1.coords t)) :
    outsAt1 V c t.val t.isLt = (out1_B_2 c (grid1.coords t) (ms1_0 t) (hs1_0 t) (ms1_1 t) (hs1_1 t) (ms1_2 t) (hs1_2 t) scM1_0 (Memref.isWhole_whole _) hc0 hc1 (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) hc0 hc1 (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- `outsAt1` at the last point: case C's contents, over what the point before left in the accumulator. -/
theorem outsAt1_C (c : Dev nD) (t : Fin cfg1.N) (h1 : t.val = 49) (hc0 : ¬cond1_0 (grid1.coords t)) (hc1 : cond1_1 (grid1.coords t)) :
    outsAt1 V c t.val t.isLt = (out1_C_2 c (grid1.coords t) (ms1_0 t) (hs1_0 t) (ms1_1 t) (hs1_1 t) (ms1_2 t) (hs1_2 t) scM1_0 (Memref.isWhole_whole _) hc0 hc1 (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) hc0 hc1 (iblk1 V c 0 t) (iblk1 V c 1 t) (outsAt1 V c (t.val - 1) (Nat.lt_of_le_of_lt (Nat.sub_le _ _) t.isLt)).2) := by
  obtain ⟨n, hn⟩ := t
  cases n with
  | zero => exact absurd h1 (by decide : ¬ (0 : ℕ) = 49)
  | succ n => exact (dif_pos h1).trans rfl

/-! ## The region invariant, point by point -/

/-- The invariant before position `n`: before the first point the region's own (every scoped buffer that is no staging
    buffer at anything, the generator register at some state); afterwards the same with the accumulator at what the
    point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's position says which case it is in, so that
    case's run applies. The invariant hands the body the accumulator at what the point before left (at anything at the
    first point) and takes it back at this point's contents, since the case's stores cover it; the other scoped buffers,
    the generator register and what the core owes pass through. Where the copy is not taken the output's buffer is handed
    back as found; at the last point it is taken back at the copied contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 50 := lt_of_lt_of_eq t.isLt (show cfg1.N = 50 from N_1)
  by_cases h0 : t.val = 0
  · -- the first point: case A
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [outsAt1_A V c t h0 hc0 hc1]
    unfold sout1_A_0; (try dsimp only)
    rw [PhiS1_castSucc V c t, PhiS1_zero V c _ _ h0, PhiA1_eq]
    iintro ⟨⟨⟨HS0, HR⟩, Hg⟩, Ho, ⟨%d0, H0⟩, ⟨%d1, H1⟩, ⟨%d2, H2⟩⟩
    iapply ((kernelRun1_A c (grid1.coords t) _ _ _ _ _ _ _ _ hc0 hc1 (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _)
        iexact HR
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    by_cases h1 : t.val = 49
    · -- the last point: case C
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [outsAt1_C V c t h1 hc0 hc1]
      unfold out1_C_2 sout1_C_0; (try dsimp only)
      rw [PhiS1_castSucc V c t, PhiS1_pos V c _ _ h0]
      iintro ⟨⟨⟨HS0, HR⟩, Hg⟩, Ho, ⟨%d0, H0⟩, ⟨%d1, H1⟩, ⟨%d2, H2⟩⟩
      iapply ((kernelRun1_C c (grid1.coords t) _ _ _ _ _ _ _ _ hc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · -- a middle point: case B
      have hc1 : ¬cond1_1 (grid1.coords t) := fun h => h1 ((hcond1_1 t).mp h)
      rw [Dat.leavesExact_idle (dat1 V c) 2 t (idleAt1_2 t hc1) (noFlush1_2 t hc1)]
      rw [outsAt1_B V c t h0 h1 hc0 hc1]
      unfold sout1_B_0; (try dsimp only)
      rw [PhiS1_castSucc V c t, PhiS1_pos V c _ _ h0]
      iintro ⟨⟨⟨HS0, HR⟩, Hg⟩, Ho, ⟨%d0, H0⟩, ⟨%d1, H1⟩, ⟨%d2, H2⟩⟩
      iapply ((kernelRun1_B c (grid1.coords t) _ _ _ _ _ _ _ _ hc0 hc1 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.Kernel.Hand

end
-- ==== Proof.K.R2Runs.lean ====
/- Region 2 (the masked pairwise kernel on its 8 x 8 grid): what the five runs of the body share — the three
   conditions of the body decided over the grid, where the output window is idle, the staging memrefs and the
   scratch accumulator as views, and the region invariant with the accumulator singled out. -/
import proofs.«104416_j77807627534714_2_alg».proof.Proof.Gen.Kernel.Launch
import proofs.«104416_j77807627534714_2_alg».proof.Proof.Gen.Kernel.Skeleton
import proofs.«104416_j77807627534714_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's three conditions, over the point t = 8 i + j -/

/-- "This is the first column" (j = 0): the accumulator is reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "The column block reaches the diagonal" (1024 j + 1023 > 1024 i, that is j ≥ i): the point contributes. -/
abbrev cond2_1 (i : grid2.Coords) : Prop := (Scalar.cmpi .ne (Scalar.extui (Scalar.cmpi .sgt (Scalar.subi (Scalar.addi (Scalar.muli (BitVec.ofNat 32 (i 1).val) 1024#32) 1024#32) 1#32) (Scalar.muli (BitVec.ofNat 32 (i 0).val) 1024#32))) 0#32) = 1#1
theorem hcond2_1 : ∀ t : Fin cfg2.N, cond2_1 (grid2.coords t) ↔ t.val / 8 ≤ t.val % 8 :=
  (by decide +kernel : ∀ t : Fin grid2.N, cond2_1 (grid2.coords t) ↔ t.val / 8 ≤ t.val % 8)

/-- "This is the last column" (j = 7): the accumulator is copied to the output block. -/
abbrev cond2_2 (i : grid2.Coords) : Prop := k2_cond3 i = 1#1
theorem hcond2_2 : ∀ t : Fin cfg2.N, cond2_2 (grid2.coords t) ↔ t.val % 8 = 7 :=
  (by decide +kernel : ∀ t : Fin grid2.N, cond2_2 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last column the output window is idle and is not written back. -/
theorem idleAt2_4 : ∀ t : Fin cfg2.N, ¬cond2_2 (grid2.coords t) → cfg2.idle 4 (grid2.coords t) = true := by decide +kernel
theorem noFlush2_4 : ∀ t : Fin cfg2.N, ¬cond2_2 (grid2.coords t) → (cfg2.win 4).flush t = false := by decide +kernel
/-- On the last column it is live. -/
theorem liveAt2_4 : ∀ t : Fin cfg2.N, cond2_2 (grid2.coords t) → cfg2.idle 4 (grid2.coords t) = false := by decide +kernel

/-! ## The staging memrefs and the accumulator -/

abbrev VO2_4 : View sig .tc .vmem S1024x1 .f32 := (Memref.whole cc2_stg4_0 : Memref sig .tc .vmem S1024x1 .f32).view
abbrev ms2_0 (t : Fin cfg2.N) : Memref sig .tc .vmem S1024x16 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
/-- The accumulator: a whole scoped buffer of the kernel's own, carried from point to point. -/
abbrev scM2_0 : Memref sig .tc .vmem S1024x1 .f32 := Memref.whole cc2_scratch0
abbrev VS2_0 : View sig .tc .vmem S1024x1 .f32 := scM2_0.view

/-! ## The region invariant with the accumulator singled out -/

/-- A whole scoped buffer of core `c` at some contents. -/
abbrev anyBuf2 (c : Dev nD) (b : Ref sig .tc) : sProp 𝕄 :=
  iprop(∃ f : Buf (Elt F) ((c : Thread nD τ).loc b), ((c : Thread nD τ).loc b) ↦{fullShare} f)

/-- The scoped buffers the region neither stages through nor accumulates in (those of the other three calls),
    each at some contents: they pass through the region untouched. -/
def rest2 (c : Dev nD) : sProp 𝕄 :=
  iprop(anyBuf2 (F := F) c cc0_stg0_0 ∗ anyBuf2 (F := F) c cc0_stg0_1 ∗ anyBuf2 (F := F) c cc0_stg1_0 ∗ anyBuf2 (F := F) c cc0_stg1_1 ∗ anyBuf2 (F := F) c cc0_stg2_0 ∗ anyBuf2 (F := F) c cc0_scratch0 ∗ anyBuf2 (F := F) c cc1_stg0_0 ∗ anyBuf2 (F := F) c cc1_stg0_1 ∗ anyBuf2 (F := F) c cc1_stg1_0 ∗ anyBuf2 (F := F) c cc1_stg1_1 ∗ anyBuf2 (F := F) c cc1_stg2_0 ∗ anyBuf2 (F := F) c cc1_scratch0 ∗ anyBuf2 (F := F) c cc3_stg0_0 ∗ anyBuf2 (F := F) c cc3_stg0_1 ∗ anyBuf2 (F := F) c cc3_stg1_0 ∗ anyBuf2 (F := F) c cc3_stg1_1 ∗ anyBuf2 (F := F) c cc3_stg2_0 ∗ anyBuf2 (F := F) c cc3_stg2_1 ∗ anyBuf2 (F := F) c cc3_stg3_0 ∗ anyBuf2 (F := F) c cc3_stg3_1 ∗ anyBuf2 (F := F) c cc3_stg4_0 ∗ anyBuf2 (F := F) c cc3_stg4_1 ∗ anyBuf2 (F := F) c cc3_scratch0)

/-- Separating conjunction: the first two of three conjuncts exchanged. -/
theorem sep_lcomm2 (P Q R : sProp 𝕄) : (iprop(P ∗ Q ∗ R) : sProp 𝕄) = iprop(Q ∗ P ∗ R) := by
  have h₁ : ∀ A B C : sProp 𝕄, iprop(A ∗ B ∗ C) ⊢ (iprop(B ∗ A ∗ C) : sProp 𝕄) := by
    intro A B C
    iintro ⟨HP, HQ, HR⟩
    isplitl [HQ]; · iexact HQ
    isplitl [HP]; · iexact HP
    iexact HR
  exact BI.equiv_iff.mp ⟨h₁ P Q R, h₁ Q P R⟩

/-- The thirteenth of a chain of separating conjuncts brought to the front. -/
theorem sep_pick13 (A1 A2 A3 A4 A5 A6 A7 A8 A9 A10 A11 A12 S T : sProp 𝕄) :
    (iprop(A1 ∗ A2 ∗ A3 ∗ A4 ∗ A5 ∗ A6 ∗ A7 ∗ A8 ∗ A9 ∗ A10 ∗ A11 ∗ A12 ∗ S ∗ T) : sProp 𝕄) = iprop(S ∗ A1 ∗ A2 ∗ A3 ∗ A4 ∗ A5 ∗ A6 ∗ A7 ∗ A8 ∗ A9 ∗ A10 ∗ A11 ∗ A12 ∗ T) := by
  rw [sep_lcomm2 A12 S, sep_lcomm2 A11 S, sep_lcomm2 A10 S, sep_lcomm2 A9 S, sep_lcomm2 A8 S, sep_lcomm2 A7 S, sep_lcomm2 A6 S, sep_lcomm2 A5 S, sep_lcomm2 A4 S, sep_lcomm2 A3 S, sep_lcomm2 A2 S, sep_lcomm2 A1 S]

/-- What the launch hands the region: the accumulator at some contents, the other scoped buffers, the generator register. -/
theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA; rw [scopedRest2_eq]; simp only [scM2_0, owns_whole]; unfold rest2
  congr 1
  exact sep_pick13 _ _ _ _ _ _ _ _ _ _ _ _ _ _

set_option maxHeartbeats 1000000 in
/-- CASE A (first column, contributing, not the last column — the grid's first point): the accumulator at ANY contents
    (it is stored whole before it is read); the output's buffer handed back untouched. -/
noncomputable def kernelRun2_A (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : cond2_1 i) (hc2 : ¬cond2_2 i)
    (x0 : Vec F S1024x16 .f32) (x1 : Vec F S1024x16 .f32) (x2 : Vec F S1024x1 .f32) (x3 : Vec F S1x1024 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pairwise_mask_kernel i arg2 harg2 arg3 harg3 arg4 harg4 arg5 harg5 arg6 harg6 arg7 harg7) K } := by
  refine ⟨?_, fun xi4 E K => ?run⟩
  case run =>
    simp only [cc2__pairwise_mask_kernel_eq_skeleton]; unfold cc2__pairwise_mask_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- CASE B (first column, below the diagonal): the accumulator, at ANY contents, is stored whole; nothing else is touched. -/
noncomputable def kernelRun2_B (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : ¬cond2_1 i) (hc2 : ¬cond2_2 i) :
    { LS0 : List (View.Piece (Elt F) S1024x1 .f32) //
      ∀ (x0 : Vec F S1024x16 .f32) (x1 : Vec F S1024x16 .f32) (x2 : Vec F S1024x1 .f32) (x3 : Vec F S1x1024 .f32) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pairwise_mask_kernel i arg2 harg2 arg3 harg3 arg4 harg4 arg5 harg5 arg6 harg6 arg7 harg7) K } := by
  refine ⟨?_, fun x0 x1 x2 x3 xi4 E K => ?run⟩
  case run =>
    simp only [cc2__pairwise_mask_kernel_eq_skeleton]; unfold cc2__pairwise_mask_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

-- (the run's proof term is large)
set_option maxHeartbeats 1000000 in
/-- CASE C (not the first column, contributing, not the last column): the inputs at their blocks, the output's buffer
    at contents handed back untouched, the accumulator at what the point before left; the body runs to the
    continuation with the accumulator at the pieces its store wrote. -/
noncomputable def kernelRun2_C (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : ¬cond2_2 i)
    (x0 : Vec F S1024x16 .f32) (x1 : Vec F S1024x16 .f32) (x2 : Vec F S1024x1 .f32) (x3 : Vec F S1x1024 .f32) (xs0 : Vec F S1024x1 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pairwise_mask_kernel i arg2 harg2 arg3 harg3 arg4 harg4 arg5 harg5 arg6 harg6 arg7 harg7) K } := by
  refine ⟨?_, fun xi4 E K => ?run⟩
  case run =>
    simp only [cc2__pairwise_mask_kernel_eq_skeleton]; unfold cc2__pairwise_mask_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- CASE D (not the first column, below the diagonal, not the last column): the body touches nothing — whatever is
    held before is held after. -/
theorem kernelRun2_D (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : ¬cond2_1 i) (hc2 : ¬cond2_2 i)
    (E : Set ℕ) (K : PUnit → sProp 𝕄) :
    K ⟨⟩ ⊢ wp frame (wpE (defs₀ (F := F)) Variants.none c none) E (cc2__pairwise_mask_kernel i arg2 harg2 arg3 harg3 arg4 harg4 arg5 harg5 arg6 harg6 arg7 harg7) K := by
  simp only [cc2__pairwise_mask_kernel_eq_skeleton]; unfold cc2__pairwise_mask_kernel_skel
  iintro Hk
  sl_exec (disch := first | exact hc0 | exact hc1 | exact hc2)
  sl_step
  iexact Hk

set_option maxHeartbeats 1000000 in
/-- CASE E (the last column — always contributing): the accumulator at what the point before left, added to and then
    copied to the output's buffer, which may hold anything before. -/
noncomputable def kernelRun2_E (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i)
    (x0 : Vec F S1024x16 .f32) (x1 : Vec F S1024x16 .f32) (x2 : Vec F S1024x1 .f32) (x3 : Vec F S1x1024 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__pairwise_mask_kernel i arg2 harg2 arg3 harg3 arg4 harg4 arg5 harg5 arg6 harg6 arg7 harg7) K } := by
  refine ⟨?_, ?_, fun E K => ?run⟩
  case run =>
    simp only [cc2__pairwise_mask_kernel_eq_skeleton]; unfold cc2__pairwise_mask_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R2.lean ====
/- Region 2 (the masked pairwise kernel on its 8 x 8 grid), at the buffer contents `V` the region is entered with:
   what the accumulator and the output's staging buffer hold after each point, the proof data of the pipeline, the
   body obligation at every point, and the invariant's two ends. -/
import proofs.«104416_j77807627534714_2_alg».proof.Proof.K.R2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (windows 0 and 2
    are fetched only when the row block changes: between fetches the block index does not move), for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator and in the output's buffer -/

/-- Case A's pieces for the accumulator tile it (one whole store after another), so they cover it. -/
theorem scover2_A (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : cond2_1 i) (hc2 : ¬cond2_2 i) (x0 : Vec F S1024x16 .f32) (x1 : Vec F S1024x16 .f32) (x2 : Vec F S1024x1 .f32) (x3 : Vec F S1x1024 .f32) (y : S1024x1.Idx) :
    ∃ pc ∈ (kernelRun2_A c i arg2 harg2 arg3 harg3 arg4 harg4 arg5 harg5 arg6 harg6 arg7 harg7 hc0 hc1 hc2 x0 x1 x2 x3).1, y ∈ pc.1.set :=
  View.cover_of_tiledL (kernelRun2_A c i arg2 harg2 arg3 harg3 arg4 harg4 arg5 harg5 arg6 harg6 arg7 harg7 hc0 hc1 hc2 x0 x1 x2 x3).1 S1024x1.size (by sl_kernel_rfl) y

/-- What case A leaves in the accumulator: its pieces read back. -/
def sout2_A (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : cond2_1 i) (hc2 : ¬cond2_2 i) (x0 : Vec F S1024x16 .f32) (x1 : Vec F S1024x16 .f32) (x2 : Vec F S1024x1 .f32) (x3 : Vec F S1x1024 .f32) : Vec F S1024x1 .f32 :=
  VS2_0.read (Elt F) (VS2_0.writes (Elt F) VS2_0.junk (kernelRun2_A c i arg2 harg2 arg3 harg3 arg4 harg4 arg5 harg5 arg6 harg6 arg7 harg7 hc0 hc1 hc2 x0 x1 x2 x3).1)

theorem scover2_B (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : ¬cond2_1 i) (hc2 : ¬cond2_2 i) (y : S1024x1.Idx) :
    ∃ pc ∈ (kernelRun2_B (F := F) c i arg2 harg2 arg3 harg3 arg4 harg4 arg5 harg5 arg6 harg6 arg7 harg7 hc0 hc1 hc2).1, y ∈ pc.1.set :=
  View.cover_of_tiledL (kernelRun2_B (F := F) c i arg2 harg2 arg3 harg3 arg4 harg4 arg5 harg5 arg6 harg6 arg7 harg7 hc0 hc1 hc2).1 S1024x1.size (by sl_kernel_rfl) y

/-- What case B leaves in the accumulator (the zero block): its pieces read back. -/
def sout2_B (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : ¬cond2_1 i) (hc2 : ¬cond2_2 i) : Vec F S1024x1 .f32 :=
  VS2_0.read (Elt F) (VS2_0.writes (Elt F) VS2_0.junk (kernelRun2_B (F := F) c i arg2 harg2 arg3 harg3 arg4 harg4 arg5 harg5 arg6 harg6 arg7 harg7 hc0 hc1 hc2).1)

theorem scover2_C (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : ¬cond2_2 i) (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun2_C c i arg2 harg2 arg3 harg3 arg4 harg4 arg5 harg5 arg6 harg6 arg7 harg7 hc0 hc1 hc2 x0 x1 x2 x3 xs0).1, y ∈ pc.1.set :=
  View.cover_of_tiledL (kernelRun2_C c i arg2 harg2 arg3 harg3 arg4 harg4 arg5 harg5 arg6 harg6 arg7 harg7 hc0 hc1 hc2 x0 x1 x2 x3 xs0).1 S1024x1.size (by sl_kernel_rfl) y

/-- What case C leaves in the accumulator: its pieces read back. -/
def sout2_C (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : ¬cond2_2 i) (x0 : Vec F S1024x16 .f32) (x1 : Vec F S1024x16 .f32) (x2 : Vec F S1024x1 .f32) (x3 : Vec F S1x1024 .f32) (xs0 : Vec F S1024x1 .f32) : Vec F S1024x1 .f32 :=
  VS2_0.read (Elt F) (VS2_0.writes (Elt F) VS2_0.junk (kernelRun2_C c i arg2 harg2 arg3 harg3 arg4 harg4 arg5 harg5 arg6 harg6 arg7 harg7 hc0 hc1 hc2 x0 x1 x2 x3 xs0).1)

theorem scover2_E (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i) (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun2_E c i arg2 harg2 arg3 harg3 arg4 harg4 arg5 harg5 arg6 harg6 arg7 harg7 hc0 hc1 hc2 x0 x1 x2 x3 xs0).2.1, y ∈ pc.1.set :=
  View.cover_of_tiledL (kernelRun2_E c i arg2 harg2 arg3 harg3 arg4 harg4 arg5 harg5 arg6 harg6 arg7 harg7 hc0 hc1 hc2 x0 x1 x2 x3 xs0).2.1 S1024x1.size (by sl_kernel_rfl) y

/-- What case E leaves in the accumulator: its pieces read back. -/
def sout2_E (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i) (x0 : Vec F S1024x16 .f32) (x1 : Vec F S1024x16 .f32) (x2 : Vec F S1024x1 .f32) (x3 : Vec F S1x1024 .f32) (xs0 : Vec F S1024x1 .f32) : Vec F S1024x1 .f32 :=
  VS2_0.read (Elt F) (VS2_0.writes (Elt F) VS2_0.junk (kernelRun2_E c i arg2 harg2 arg3 harg3 arg4 harg4 arg5 harg5 arg6 harg6 arg7 harg7 hc0 hc1 hc2 x0 x1 x2 x3 xs0).2.1)

/-- Case E's one store into the output's buffer covers it. -/
theorem cover2_E_4 (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i) (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun2_E c i arg2 harg2 arg3 harg3 arg4 harg4 arg5 harg5 arg6 harg6 arg7 harg7 hc0 hc1 hc2 x0 x1 x2 x3 xs0).1, y ∈ pc.1.set :=
  View.cover_of_tiledL (kernelRun2_E c i arg2 harg2 arg3 harg3 arg4 harg4 arg5 harg5 arg6 harg6 arg7 harg7 hc0 hc1 hc2 x0 x1 x2 x3 xs0).1 S1024x1.size (by sl_kernel_rfl) y

/-- What case E leaves in the output's buffer: its pieces read back. -/
def out2_E_4 (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i) (x0 : Vec F S1024x16 .f32) (x1 : Vec F S1024x16 .f32) (x2 : Vec F S1024x1 .f32) (x3 : Vec F S1x1024 .f32) (xs0 : Vec F S1024x1 .f32) : Vec F S1024x1 .f32 :=
  VO2_4.read (Elt F) (VO2_4.writes (Elt F) VO2_4.junk (kernelRun2_E c i arg2 harg2 arg3 harg3 arg4 harg4 arg5 harg5 arg6 harg6 arg7 harg7 hc0 hc1 hc2 x0 x1 x2 x3 xs0).1)

/-- Away from the last column nothing is stored into the output's buffer and the pipeline neither writes it back nor
    reads it at the next point: what is recorded for it there is a placeholder nothing consults. -/
def out2_idle_4 : Vec F S1024x1 .f32 := VO2_4.read (Elt F) VO2_4.junk

/-! ## The conditions at a point from their closed forms -/

theorem c0_of {t : Fin cfg2.N} (h : t.val % 8 = 0) : cond2_0 (grid2.coords t) := (hcond2_0 t).mpr h
theorem nc0_of {t : Fin cfg2.N} (h : ¬t.val % 8 = 0) : ¬cond2_0 (grid2.coords t) := fun hh => h ((hcond2_0 t).mp hh)
theorem c1_of {t : Fin cfg2.N} (h : t.val / 8 ≤ t.val % 8) : cond2_1 (grid2.coords t) := (hcond2_1 t).mpr h
theorem nc1_of {t : Fin cfg2.N} (h : ¬t.val / 8 ≤ t.val % 8) : ¬cond2_1 (grid2.coords t) := fun hh => h ((hcond2_1 t).mp hh)
theorem c2_of {t : Fin cfg2.N} (h : t.val % 8 = 7) : cond2_2 (grid2.coords t) := (hcond2_2 t).mpr h
theorem nc2_of {t : Fin cfg2.N} (h : ¬t.val % 8 = 7) : ¬cond2_2 (grid2.coords t) := fun hh => h ((hcond2_2 t).mp hh)
theorem lt64 (t : Fin cfg2.N) : t.val < 64 := lt_of_lt_of_eq t.isLt (show cfg2.N = 64 from N_2)

/-! ## The five cases at a point of the grid, on the point's staging memrefs and input blocks -/

/-- The accumulator after the grid's first point (first column, on the diagonal): zero plus the point's contribution. -/
def accA (c : Dev nD) (t : Fin cfg2.N) (hz : t.val = 0) : Vec F S1024x1 .f32 :=
  sout2_A c (grid2.coords t) (ms2_0 t) (hs2_0 t) (ms2_1 t) (hs2_1 t) (ms2_2 t) (hs2_2 t) (ms2_3 t) (hs2_3 t) (ms2_4 t) (hs2_4 t) scM2_0 (Memref.isWhole_whole _) (c0_of (by omega)) (c1_of (by omega)) (nc2_of (by omega)) (iblk2 V c 0 t) (iblk2 V c 1 t) (iblk2 V c 2 t) (iblk2 V c 3 t)

/-- The accumulator after the first point of a later row (below the diagonal): zero. -/
def accB (c : Dev nD) (t : Fin cfg2.N) (h0 : t.val % 8 = 0) (hz : t.val ≠ 0) : Vec F S1024x1 .f32 :=
  sout2_B (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (c0_of h0) (nc1_of (by omega)) (nc2_of (by omega))

/-- The accumulator after a contributing point inside a row, from what the point before left (`xs`). -/
def accC (c : Dev nD) (t : Fin cfg2.N) (h0 : ¬t.val % 8 = 0) (h1 : t.val / 8 ≤ t.val % 8) (h2 : ¬t.val % 8 = 7) (xs : Vec F S1024x1 .f32) : Vec F S1024x1 .f32 :=
  sout2_C c (grid2.coords t) (ms2_0 t) (hs2_0 t) (ms2_1 t) (hs2_1 t) (ms2_2 t) (hs2_2 t) (ms2_3 t) (hs2_3 t) (ms2_4 t) (hs2_4 t) scM2_0 (Memref.isWhole_whole _) (nc0_of h0) (c1_of h1) (nc2_of h2) (iblk2 V c 0 t) (iblk2 V c 1 t) (iblk2 V c 2 t) (iblk2 V c 3 t) xs

/-- The accumulator after a row's last point, from what the point before left. -/
def accE (c : Dev nD) (t : Fin cfg2.N) (h0 : ¬t.val % 8 = 0) (h1 : t.val / 8 ≤ t.val % 8) (h2 : t.val % 8 = 7) (xs : Vec F S1024x1 .f32) : Vec F S1024x1 .f32 :=
  sout2_E c (grid2.coords t) (ms2_0 t) (hs2_0 t) (ms2_1 t) (hs2_1 t) (ms2_2 t) (hs2_2 t) (ms2_3 t) (hs2_3 t) (ms2_4 t) (hs2_4 t) scM2_0 (Memref.isWhole_whole _) (nc0_of h0) (c1_of h1) (c2_of h2) (iblk2 V c 0 t) (iblk2 V c 1 t) (iblk2 V c 2 t) (iblk2 V c 3 t) xs

/-- The output's staging buffer after a row's last point: the accumulator's final contents copied. -/
def outE (c : Dev nD) (t : Fin cfg2.N) (h0 : ¬t.val % 8 = 0) (h1 : t.val / 8 ≤ t.val % 8) (h2 : t.val % 8 = 7) (xs : Vec F S1024x1 .f32) : Vec F S1024x1 .f32 :=
  out2_E_4 c (grid2.coords t) (ms2_0 t) (hs2_0 t) (ms2_1 t) (hs2_1 t) (ms2_2 t) (hs2_2 t) (ms2_3 t) (hs2_3 t) (ms2_4 t) (hs2_4 t) scM2_0 (Memref.isWhole_whole _) (nc0_of h0) (c1_of h1) (c2_of h2) (iblk2 V c 0 t) (iblk2 V c 1 t) (iblk2 V c 2 t) (iblk2 V c 3 t) xs

/-! ## What the output's buffer and the accumulator hold after each point -/

/-- THE ACCUMULATION: the pair (output's staging buffer, accumulator) after the body at position `n`. At a row's first
    point the accumulator is reset whatever it held; at a contributing point it is the point's case run over what the
    point before left; at a point below the diagonal it is what the point before left, unchanged. -/
def outsAt2 (c : Dev nD) : (n : ℕ) → n < cfg2.N → Vec F S1024x1 .f32 × Vec F S1024x1 .f32
  | 0, hn => (out2_idle_4, accA V c ⟨0, hn⟩ rfl)
  | n + 1, hn =>
    if h0 : (n + 1) % 8 = 0 then
      (out2_idle_4, accB c ⟨n + 1, hn⟩ h0 (Nat.succ_ne_zero n))
    else if h1 : (n + 1) / 8 ≤ (n + 1) % 8 then
      if h2 : (n + 1) % 8 = 7 then
        (outE V c ⟨n + 1, hn⟩ h0 h1 h2 (outsAt2 c n (Nat.lt_of_succ_lt hn)).2, accE V c ⟨n + 1, hn⟩ h0 h1 h2 (outsAt2 c n (Nat.lt_of_succ_lt hn)).2)
      else
        (out2_idle_4, accC V c ⟨n + 1, hn⟩ h0 h1 h2 (outsAt2 c n (Nat.lt_of_succ_lt hn)).2)
    else
      (out2_idle_4, (outsAt2 c n (Nat.lt_of_succ_lt hn)).2)

/-- The point before `t`. -/
abbrev prevLt (t : Fin cfg2.N) : t.val - 1 < cfg2.N := Nat.lt_of_le_of_lt (Nat.sub_le _ _) t.isLt

theorem outsAt2_A (c : Dev nD) (t : Fin cfg2.N) (hz : t.val = 0) :
    outsAt2 V c t.val t.isLt = (out2_idle_4, accA V c t hz) := by
  obtain ⟨n, hn⟩ := t
  cases n with
  | zero => exact rfl
  | succ n => exact absurd hz (Nat.succ_ne_zero n)

theorem outsAt2_B (c : Dev nD) (t : Fin cfg2.N) (h0 : t.val % 8 = 0) (hz : t.val ≠ 0) :
    outsAt2 V c t.val t.isLt = (out2_idle_4, accB c t h0 hz) := by
  obtain ⟨n, hn⟩ := t
  cases n with
  | zero => exact absurd rfl hz
  | succ n => exact (dif_pos h0).trans rfl

theorem outsAt2_C (c : Dev nD) (t : Fin cfg2.N) (h0 : ¬t.val % 8 = 0) (h1 : t.val / 8 ≤ t.val % 8) (h2 : ¬t.val % 8 = 7) :
    outsAt2 V c t.val t.isLt = (out2_idle_4, accC V c t h0 h1 h2 (outsAt2 V c (t.val - 1) (prevLt t)).2) := by
  obtain ⟨n, hn⟩ := t
  cases n with
  | zero => exact absurd (Nat.zero_mod _) h0
  | succ n => exact (dif_neg h0).trans ((dif_pos h1).trans ((dif_neg h2).trans rfl))

theorem outsAt2_D (c : Dev nD) (t : Fin cfg2.N) (h0 : ¬t.val % 8 = 0) (h1 : ¬t.val / 8 ≤ t.val % 8) :
    outsAt2 V c t.val t.isLt = (out2_idle_4, (outsAt2 V c (t.val - 1) (prevLt t)).2) := by
  obtain ⟨n, hn⟩ := t
  cases n with
  | zero => exact absurd (Nat.zero_mod _) h0
  | succ n => exact (dif_neg h0).trans ((dif_neg h1).trans rfl)

theorem outsAt2_E (c : Dev nD) (t : Fin cfg2.N) (h0 : ¬t.val % 8 = 0) (h1 : t.val / 8 ≤ t.val % 8) (h2 : t.val % 8 = 7) :
    outsAt2 V c t.val t.isLt = (outE V c t h0 h1 h2 (outsAt2 V c (t.val - 1) (prevLt t)).2, accE V c t h0 h1 h2 (outsAt2 V c (t.val - 1) (prevLt t)).2) := by
  obtain ⟨n, hn⟩ := t
  cases n with
  | zero => exact absurd (Nat.zero_mod _) h0
  | succ n => exact (dif_neg h0).trans ((dif_pos h1).trans ((dif_pos h2).trans rfl))

/-! ## The region invariant, point by point -/

/-- Before the first point: what the launch hands over. Afterwards: the accumulator at what the point before left in
    it, the other scoped buffers at some contents, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The pipeline's proof data -/

/-- The arrays as the region finds them; after the body at a point each input's buffer at its block and the output's
    at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the closed forms of the three conditions say which
    of the five cases the point is in; the invariant hands the body the accumulator — at anything before the grid's
    first point, at what the point before left afterwards (a row's first point accepts it at anything and resets it; a
    point below the diagonal hands it back as it was) — and takes it back at this point's contents; away from a row's
    last point the output's buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt64 t
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases hz : t.val = 0
  · -- the grid's first point
    have hc2 : ¬cond2_2 (grid2.coords t) := nc2_of (by omega)
    rw [Dat.leavesExact_idle (dat2 V c) 4 t (idleAt2_4 t hc2) (noFlush2_4 t hc2)]
    rw [outsAt2_A V c t hz]
    unfold accA sout2_A; (try dsimp only)
    rw [PhiS2_castSucc V c t, PhiS2_zero V c _ _ hz, PhiA2_eq]
    iintro ⟨⟨⟨HS0, HR⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ (c0_of (by omega)) (c1_of (by omega)) hc2 (iblk2 V c 0 t) (iblk2 V c 1 t) (iblk2 V c 2 t) (iblk2 V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    iexists _; iexact H4
  rw [PhiS2_castSucc V c t, PhiS2_pos V c _ _ hz]
  by_cases h0 : t.val % 8 = 0
  · -- a later row's first point: the accumulator is reset whatever it held
    have hc2 : ¬cond2_2 (grid2.coords t) := nc2_of (by omega)
    rw [Dat.leavesExact_idle (dat2 V c) 4 t (idleAt2_4 t hc2) (noFlush2_4 t hc2)]
    rw [outsAt2_B V c t h0 hz]
    unfold accB sout2_B; (try dsimp only)
    iintro ⟨⟨⟨HS0, HR⟩, Hg⟩, Ho, ⟨%d0, H0⟩, ⟨%d1, H1⟩, ⟨%d2, H2⟩, ⟨%d3, H3⟩, ⟨%d4, H4⟩⟩
    iapply ((kernelRun2_B (F := F) c (grid2.coords t) _ _ _ _ _ _ _ _ _ _ _ _ (c0_of h0) (nc1_of (by omega)) hc2).2 _ _ _ _ _ Set.univ _)
    isplitl [H0]; · iexact H0
    isplitl [H1]; · iexact H1
    isplitl [H2]; · iexact H2
    isplitl [H3]; · iexact H3
    isplitl [H4]; · iexact H4
    isplitl [HS0]; · iexists _; iexact HS0
    iintro ⟨H0, H1, H2, H3, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_B c _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    iexists _; iexact H4
  by_cases h1 : t.val / 8 ≤ t.val % 8
  · by_cases h2 : t.val % 8 = 7
    · -- a row's last point: the accumulator added to and copied to the output's buffer
      rw [show (dat2 V c).leavesExact 4 t = owns (c : Thread nD τ) (ms2_4 t) fullShare ((dat2 V c).after 4 t) from by
        unfold Dat.leavesExact; rw [liveAt2_4 t (c2_of h2)], after2_4]
      rw [outsAt2_E V c t h0 h1 h2]
      unfold outE accE out2_E_4 sout2_E; (try dsimp only)
      iintro ⟨⟨⟨HS0, HR⟩, Hg⟩, Ho, ⟨%d0, H0⟩, ⟨%d1, H1⟩, ⟨%d2, H2⟩, ⟨%d3, H3⟩, ⟨%d4, H4⟩⟩
      iapply ((kernelRun2_E c (grid2.coords t) _ _ _ _ _ _ _ _ _ _ _ _ (nc0_of h0) (c1_of h1) (c2_of h2) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_E c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_E_4 c _ _ _ _ _ _ _ _ _ _ _ _ _ _ _ _ _ _ _ _ _)
    · -- a contributing point inside a row
      have hc2 : ¬cond2_2 (grid2.coords t) := nc2_of h2
      rw [Dat.leavesExact_idle (dat2 V c) 4 t (idleAt2_4 t hc2) (noFlush2_4 t hc2)]
      rw [outsAt2_C V c t h0 h1 h2]
      unfold accC sout2_C; (try dsimp only)
      iintro ⟨⟨⟨HS0, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (nc0_of h0) (c1_of h1) hc2 (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · -- a point below the diagonal: nothing is touched
    have hc2 : ¬cond2_2 (grid2.coords t) := nc2_of (by omega)
    rw [Dat.leavesExact_idle (dat2 V c) 4 t (idleAt2_4 t hc2) (noFlush2_4 t hc2)]
    rw [outsAt2_D V c t h0 h1]
    iintro ⟨⟨⟨HS0, HR⟩, Hg⟩, Ho, ⟨%d0, H0⟩, ⟨%d1, H1⟩, ⟨%d2, H2⟩, ⟨%d3, H3⟩, ⟨%d4, H4⟩⟩
    iapply (kernelRun2_D c (grid2.coords t) _ _ _ _ _ _ _ _ _ _ _ _ (nc0_of h0) (nc1_of h1) hc2 Set.univ _)
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's form back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.K.R3Runs.lean ====
import proofs.«104416_j77807627534714_2_alg».proof.Proof.Gen.Kernel.Launch
import proofs.«104416_j77807627534714_2_alg».proof.Proof.Gen.Kernel.Skeleton
import proofs.«104416_j77807627534714_2_alg».proof.Proof.Gen.Kernel.Points
import Idealize.ShloMosaic.Lib.Pipeline.FrameBody
import Idealize.ShloMosaic.Lib.Ring
import Idealize.ShloMosaic.Lib.Tactic

set_option maxRecDepth 16384

/-! # Region 3 (the pairwise kernel without a mask, grid 8 × 8): what its body does at one grid point

The grid point `t = 8 * i + j` handles row block `i` against column block `j`. The body keeps a per-row accumulator in a
scratch buffer that persists from point to point: it is set to zero when `j = 0`, a row sum over column block `j` is added
at every point, and when `j = 7` the accumulated column is copied to the output block of row block `i`. This module states
the two branch conditions in closed form over the grid, where the output window is idle, the memrefs the body is
called with, how the region invariant splits off the accumulator, and the body's run in each of the three cases. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s (`hA`) and whose body leaves the block in place (`hafter`): where the window is not fetched its
    block index has not moved, so the block the buffer still holds is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s (`hA`) and whose body leaves the block in place (`hafter`): where the window is not fetched its
    block index has not moved, so the block the buffer still holds is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s (`hA`) and whose body leaves the block in place (`hafter`): where the window is not fetched its
    block index has not moved, so the block the buffer still holds is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s (`hA`) and whose body leaves the block in place (`hafter`): where the window is not fetched its
    block index has not moved, so the block the buffer still holds is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the first branch (reset the accumulator): the column coordinate is 0. -/
abbrev cond3_0 (i : grid3.Coords) : Prop := (Scalar.cmpi .ne (Scalar.extui (Scalar.cmpi .eq (BitVec.ofNat 32 (i 1).val) 0#32)) 0#32) = 1#1
/-- It holds exactly at the points ≡ 0 (mod 8) — decided over the 64 points. -/
theorem hcond3_0 : ∀ t : Fin cfg3.N, cond3_0 (grid3.coords t) ↔ t.val % 8 = 0 :=
  (by decide +kernel : ∀ t : Fin grid3.N, cond3_0 (grid3.coords t) ↔ t.val % 8 = 0)

/-- The condition of the second branch (copy the accumulator to the output): the column coordinate is 7. -/
abbrev cond3_1 (i : grid3.Coords) : Prop := k3_cond2 i = 1#1
/-- It holds exactly at the points ≡ 7 (mod 8) — decided over the 64 points. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The four input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Where the column coordinate is not 7 the output window is idle (nothing is stored into it) and its block is not
    written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- Where the column coordinate is 7 the output window is live. -/
theorem liveAt3_4 : ∀ t : Fin cfg3.N, cond3_1 (grid3.coords t) → cfg3.idle 4 (grid3.coords t) = false := by decide +kernel

/-! ## The memrefs the body is called with -/

/-- One staging buffer of the output window, through which its contents are stated (the choice does not matter:
    what a covering list of writes leaves reads the same through any view). -/
abbrev VO3_4 : View sig .tc .vmem S1024x1 .f32 := (Memref.whole cc3_stg4_0 : Memref sig .tc .vmem S1024x1 .f32).view
/-- Each window's current staging memref at point `t`, spelled as the pipeline passes it, and its wholeness. -/
abbrev ms3_0 (t : Fin cfg3.N) : Memref sig .tc .vmem S1024x16 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x16 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x1 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3_0 : Memref sig .tc .vmem S1024x1 .f32 := Memref.whole cc3_scratch0
/-- The accumulator as a view: what it holds is stated through it. -/
abbrev VS3_0 : View sig .tc .vmem S1024x1 .f32 := scM3_0.view

/-! ## The region invariant, split at the accumulator -/

/-- The core's scoped buffers that are no staging buffer of this region, split at the accumulator: its points-to
    at some contents, then every other such buffer (the other regions' staging buffers and accumulators) unopened. -/
theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop(iprop((∃ f : Buf Val ((c : Thread nD τ).loc cc3_scratch0), ((c : Thread nD τ).loc cc3_scratch0) ↦{fullShare} f))
          ∗ Pipeline.scopedRestBut (Ix := Ix) (Name := Name) (U := U) (Lvl := Lvl) (Val := Val) spec3 c [cc3_scratch0]) :=
  Pipeline.scopedRest_split_of_list spec3 c [cc3_scratch0] (by decide) (by decide)

/-- Every scoped buffer of the core that is neither a staging buffer of this region nor its accumulator, at some
    contents each: carried along unopened. -/
abbrev rest3 (c : Dev nD) : sProp 𝕄 :=
  Pipeline.scopedRestBut (Ix := Unit) (Name := ℕ) (U := UR sig nD τ) (Lvl := ℕ) (Val := Elt F) spec3 c [cc3_scratch0]

/-- What the launch hands the region: the accumulator owned at some contents, the other scoped buffers, and the
    generator register at some state. -/
theorem PhiA3_eq (c : Dev nD) :
    (Pipeline.ΦA spec3 c : sProp 𝕄)
      = iprop(iprop((∃ d, owns (c : Thread nD τ) scM3_0 fullShare d) ∗ rest3 (F := F) c) ∗ (∃ r, prngReg c r)) := by
  unfold Pipeline.ΦA; rw [scopedRest3_split]; simp only [scM3_0, owns_whole]; try rfl

/-! ## The body's run, case by case -/

set_option maxHeartbeats 1000000 in
/-- The body at a point where the column coordinate is 0 (the accumulator is reset) and not 7: the four input
    buffers at their contents, the output buffer at contents handed back untouched (the branch that stores into it is
    not taken), the accumulator at ANY contents (it is overwritten with zeros before it is read). The body runs to the
    continuation with the inputs as they were, the output buffer untouched and the accumulator with the pieces `LS0`
    written; the pieces are found by running the body's skeleton of memory operations, its arithmetic kept as
    opaque payload terms. -/
noncomputable def kernelRun3_A (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond3_0 i) (hc1 : ¬cond3_1 i)
    (x0 : Vec F S1024x16 .f32) (x1 : Vec F S1024x16 .f32) (x2 : Vec F S1024x1 .f32) (x3 : Vec F S1x1024 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_nomask_kernel i arg2 harg2 arg3 harg3 arg4 harg4 arg5 harg5 arg6 harg6 arg7 harg7) K } := by
  refine ⟨[], ?_, fun xi4 E K => ?run⟩
  case run =>
    simp only [cc3__pairwise_nomask_kernel_eq_skeleton]; unfold cc3__pairwise_nomask_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The body at a point where the column coordinate is neither 0 nor 7: the four input buffers at their contents,
    the output buffer at contents handed back untouched, the accumulator at what the point before left (`xs0`). The
    body runs to the continuation with the inputs as they were, the output buffer untouched and the accumulator with
    the pieces `LS0` written. -/
noncomputable def kernelRun3_B (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : ¬cond3_1 i)
    (x0 : Vec F S1024x16 .f32) (x1 : Vec F S1024x16 .f32) (x2 : Vec F S1024x1 .f32) (x3 : Vec F S1x1024 .f32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_nomask_kernel i arg2 harg2 arg3 harg3 arg4 harg4 arg5 harg5 arg6 harg6 arg7 harg7) K } := by
  refine ⟨[], ?_, fun xi4 E K => ?run⟩
  case run =>
    simp only [cc3__pairwise_nomask_kernel_eq_skeleton]; unfold cc3__pairwise_nomask_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The body at a point where the column coordinate is 7 (and not 0): the four input buffers at their contents,
    the output buffer at anything, the accumulator at what the point before left (`xs0`). The body runs to the
    continuation with the inputs as they were, the output buffer with the pieces `L4` written (the accumulator's final
    contents copied) and the accumulator with the pieces `LS0` written. -/
noncomputable def kernelRun3_C (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_nomask_kernel i arg2 harg2 arg3 harg3 arg4 harg4 arg5 harg5 arg6 harg6 arg7 harg7) K } := by
  refine ⟨?_, ?_, fun E K => ?run⟩
  case run =>
    simp only [cc3__pairwise_nomask_kernel_eq_skeleton]; unfold cc3__pairwise_nomask_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R3.lean ====
import proofs.«104416_j77807627534714_2_alg».proof.Proof.K.R3Runs

set_option maxRecDepth 16384

/-! # Region 3 (the pairwise kernel without a mask, grid 8 × 8): the proof data of its pipeline and the body obligation

What the output's staging buffer and the accumulator hold after the body at each grid point, by recursion on the point
(`outsAt3`): at a point ≡ 0 (mod 8) the accumulator restarts from zero, at any other point it continues from what the
point before left, and at a point ≡ 7 (mod 8) the output block receives the accumulator. From this the proof data
(`dat3`), the region invariant point by point (`PhiS3`), and the body obligation at a generic point. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## What each case leaves, as functions of the blocks and the accumulator before -/

/-- Case A stores nothing into the output (the window is idle at its points and not written back there): no
    pieces — a placeholder (junk read back) that nothing consults. -/
def out3_A_4 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond3_0 i) (hc1 : ¬cond3_1 i)
    (x0 : Vec F S1024x16 .f32) (x1 : Vec F S1024x16 .f32) (x2 : Vec F S1024x1 .f32) (x3 : Vec F S1x1024 .f32) : Vec F S1024x1 .f32 :=
  VO3_4.read (Elt F) (VO3_4.writes (Elt F) VO3_4.junk (kernelRun3_A c i arg2 harg2 arg3 harg3 arg4 harg4 arg5 harg5 arg6 harg6 arg7 harg7 hc0 hc1 x0 x1 x2 x3).1)

/-- Case A's pieces for the accumulator cover it: whole-buffer stores. -/
theorem scover3_A_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond3_0 i) (hc1 : ¬cond3_1 i)
    (x0 : Vec F S1024x16 .f32) (x1 : Vec F S1024x16 .f32) (x2 : Vec F S1024x1 .f32) (x3 : Vec F S1x1024 .f32) (y : S1024x1.Idx) :
    ∃ pc ∈ (kernelRun3_A c i arg2 harg2 arg3 harg3 arg4 harg4 arg5 harg5 arg6 harg6 arg7 harg7 hc0 hc1 x0 x1 x2 x3).2.1, y ∈ pc.1.set :=
  View.cover_of_tiledL (kernelRun3_A c i arg2 harg2 arg3 harg3 arg4 harg4 arg5 harg5 arg6 harg6 arg7 harg7 hc0 hc1 x0 x1 x2 x3).2.1 S1024x1.size (by sl_kernel_rfl) y

/-- What case A leaves in the accumulator: its pieces read back over junk. -/
def sout3_A_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond3_0 i) (hc1 : ¬cond3_1 i)
    (x0 : Vec F S1024x16 .f32) (x1 : Vec F S1024x16 .f32) (x2 : Vec F S1024x1 .f32) (x3 : Vec F S1x1024 .f32) : Vec F S1024x1 .f32 :=
  VS3_0.read (Elt F) (VS3_0.writes (Elt F) VS3_0.junk (kernelRun3_A c i arg2 harg2 arg3 harg3 arg4 harg4 arg5 harg5 arg6 harg6 arg7 harg7 hc0 hc1 x0 x1 x2 x3).2.1)

/-- Case B stores nothing into the output (the window is idle at its points and not written back there): no
    pieces — a placeholder (junk read back) that nothing consults. -/
def out3_B_4 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : ¬cond3_1 i)
    (x0 : Vec F S1024x16 .f32) (x1 : Vec F S1024x16 .f32) (x2 : Vec F S1024x1 .f32) (x3 : Vec F S1x1024 .f32) (xs0 : Vec F S1024x1 .f32) : Vec F S1024x1 .f32 :=
  VO3_4.read (Elt F) (VO3_4.writes (Elt F) VO3_4.junk (kernelRun3_B c i arg2 harg2 arg3 harg3 arg4 harg4 arg5 harg5 arg6 harg6 arg7 harg7 hc0 hc1 x0 x1 x2 x3 xs0).1)

/-- Case B's pieces for the accumulator cover it: whole-buffer stores. -/
theorem scover3_B_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : ¬cond3_1 i)
    (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun3_B c i arg2 harg2 arg3 harg3 arg4 harg4 arg5 harg5 arg6 harg6 arg7 harg7 hc0 hc1 x0 x1 x2 x3 xs0).2.1, y ∈ pc.1.set :=
  View.cover_of_tiledL (kernelRun3_B c i arg2 harg2 arg3 harg3 arg4 harg4 arg5 harg5 arg6 harg6 arg7 harg7 hc0 hc1 x0 x1 x2 x3 xs0).2.1 S1024x1.size (by sl_kernel_rfl) y

/-- What case B leaves in the accumulator: its pieces read back over junk. -/
def sout3_B_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : ¬cond3_1 i)
    (x0 : Vec F S1024x16 .f32) (x1 : Vec F S1024x16 .f32) (x2 : Vec F S1024x1 .f32) (x3 : Vec F S1x1024 .f32) (xs0 : Vec F S1024x1 .f32) : Vec F S1024x1 .f32 :=
  VS3_0.read (Elt F) (VS3_0.writes (Elt F) VS3_0.junk (kernelRun3_B c i arg2 harg2 arg3 harg3 arg4 harg4 arg5 harg5 arg6 harg6 arg7 harg7 hc0 hc1 x0 x1 x2 x3 xs0).2.1)

/-- Case C's pieces for the output tile its block (one store of the whole block), so they cover it. -/
theorem cover3_C_4 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun3_C c i arg2 harg2 arg3 harg3 arg4 harg4 arg5 harg5 arg6 harg6 arg7 harg7 hc0 hc1 x0 x1 x2 x3 xs0).1, y ∈ pc.1.set :=
  View.cover_of_tiledL (kernelRun3_C c i arg2 harg2 arg3 harg3 arg4 harg4 arg5 harg5 arg6 harg6 arg7 harg7 hc0 hc1 x0 x1 x2 x3 xs0).1 S1024x1.size (by sl_kernel_rfl) y

/-- What case C leaves in the output's staging buffer: its pieces read back over junk. -/
def out3_C_4 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) : Vec F S1024x1 .f32 :=
  VO3_4.read (Elt F) (VO3_4.writes (Elt F) VO3_4.junk (kernelRun3_C c i arg2 harg2 arg3 harg3 arg4 harg4 arg5 harg5 arg6 harg6 arg7 harg7 hc0 hc1 x0 x1 x2 x3 xs0).1)

/-- Case C's pieces for the accumulator cover it: whole-buffer stores. -/
theorem scover3_C_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun3_C c i arg2 harg2 arg3 harg3 arg4 harg4 arg5 harg5 arg6 harg6 arg7 harg7 hc0 hc1 x0 x1 x2 x3 xs0).2.1, y ∈ pc.1.set :=
  View.cover_of_tiledL (kernelRun3_C c i arg2 harg2 arg3 harg3 arg4 harg4 arg5 harg5 arg6 harg6 arg7 harg7 hc0 hc1 x0 x1 x2 x3 xs0).2.1 S1024x1.size (by sl_kernel_rfl) y

/-- What case C leaves in the accumulator: its pieces read back over junk. -/
def sout3_C_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) : Vec F S1024x1 .f32 :=
  VS3_0.read (Elt F) (VS3_0.writes (Elt F) VS3_0.junk (kernelRun3_C c i arg2 harg2 arg3 harg3 arg4 harg4 arg5 harg5 arg6 harg6 arg7 harg7 hc0 hc1 x0 x1 x2 x3 xs0).2.1)

/-! ## What the output buffer and the accumulator hold after each point -/

/-- THE ACCUMULATION. What the output's staging buffer and the accumulator hold after the body at position `n` (a pair:
    the output, then the accumulator): the case the closed forms select at `n`, run at the point's memrefs and input
    blocks, the accumulator before it at what this leaves at `n - 1` (no previous contents enter where the accumulator
    is reset). -/
def outsAt3 (c : Dev nD) : (n : ℕ) → n < cfg3.N → Vec F S1024x1 .f32 × Vec F S1024x1 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h7 => by (try dsimp only at h7); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h7 => by (try dsimp only at h7); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 8 = 0 then
      (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => (fun h7 => by (try dsimp only at h7); omega) ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => (fun h7 => by (try dsimp only at h7); omega) ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 8 = 7 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
      else
        (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

/-- `outsAt3` at a point ≡ 0 (mod 8): the accumulator restarts. -/
theorem outsAt3_A (c : Dev nD) (t : Fin cfg3.N) (h0 : t.val % 8 = 0) (h1 : ¬t.val % 8 = 7) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans rfl

/-- `outsAt3` at a point ≡ 1, …, 6 (mod 8): the case's contents over what the point before left. -/
theorem outsAt3_B (c : Dev nD) (t : Fin cfg3.N) (h0 : ¬t.val % 8 = 0) (h1 : ¬t.val % 8 = 7) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point ≡ 7 (mod 8): the case's contents over what the point before left. -/
theorem outsAt3_C (c : Dev nD) (t : Fin cfg3.N) (h0 : ¬t.val % 8 = 0) (h1 : t.val % 8 = 7) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point what the launch hands over (the accumulator at
    anything); afterwards the accumulator at what the point before left in it, the other scoped buffers unopened, and
    the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(owns (c : Thread nD τ) scM3_0 fullShare ((outsAt3 V c n hn).2) ∗ rest3 (F := F) c) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 (F := F) c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt3`'s first component; the invariant
    `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the region-entry contents (the definition projected, so that `V` is never unfolded). -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the point's residue mod 8 says which case it is in;
    the invariant hands the body the accumulator at what the point before left (at anything at the first point, and the
    reset case accepts anything), and takes it back at this point's contents, the case's pieces covering it; where the
    column coordinate is not 7 the output buffer is handed back untouched, where it is 7 the case's pieces cover it;
    the other scoped buffers, the generator register and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  by_cases h0 : t.val % 8 = 0
  · by_cases h1 : t.val % 8 = 7
    · exfalso; omega
    · rw [show (dat3 V c).leavesExact 0 t = owns (c : Thread nD τ) (ms3_0 t) fullShare ((dat3 V c).after 0 t) from by
            unfold Dat.leavesExact; rw [liveAt3_0 t], after3_0]
      rw [show (dat3 V c).leavesExact 1 t = owns (c : Thread nD τ) (ms3_1 t) fullShare ((dat3 V c).after 1 t) from by
            unfold Dat.leavesExact; rw [liveAt3_1 t], after3_1]
      rw [show (dat3 V c).leavesExact 2 t = owns (c : Thread nD τ) (ms3_2 t) fullShare ((dat3 V c).after 2 t) from by
            unfold Dat.leavesExact; rw [liveAt3_2 t], after3_2]
      rw [show (dat3 V c).leavesExact 3 t = owns (c : Thread nD τ) (ms3_3 t) fullShare ((dat3 V c).after 3 t) from by
            unfold Dat.leavesExact; rw [liveAt3_3 t], after3_3]
      rw [Dat.leavesExact_idle (dat3 V c) 4 t (idleAt3_4 t (fun h => h1 ((hcond3_1 t).mp h))) (noFlush3_4 t (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat3 V c).leavesExact 0 t = owns (c : Thread nD τ) (ms3_0 t) fullShare ((dat3 V c).after 0 t) from by
            unfold Dat.leavesExact; rw [liveAt3_0 t], after3_0]
      rw [show (dat3 V c).leavesExact 1 t = owns (c : Thread nD τ) (ms3_1 t) fullShare ((dat3 V c).after 1 t) from by
            unfold Dat.leavesExact; rw [liveAt3_1 t], after3_1]
      rw [show (dat3 V c).leavesExact 2 t = owns (c : Thread nD τ) (ms3_2 t) fullShare ((dat3 V c).after 2 t) from by
            unfold Dat.leavesExact; rw [liveAt3_2 t], after3_2]
      rw [show (dat3 V c).leavesExact 3 t = owns (c : Thread nD τ) (ms3_3 t) fullShare ((dat3 V c).after 3 t) from by
            unfold Dat.leavesExact; rw [liveAt3_3 t], after3_3]
      rw [show (dat3 V c).leavesExact 4 t = owns (c : Thread nD τ) (ms3_4 t) fullShare ((dat3 V c).after 4 t) from by
            unfold Dat.leavesExact; rw [liveAt3_4 t ((hcond3_1 t).mpr h1)], after3_4]
      rw [outsAt3_C V c t h0 h1]
      unfold out3_C_4 sout3_C_0; (try dsimp only)
      have hz : t.val ≠ 0 := fun hz => h0 (by omega)
      rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) (iblk3 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C_4 c _ _ _ _ _ _ _ _ _ _ _ _ _ _ _ _ _ _ _ _)
    · rw [show (dat3 V c).leavesExact 0 t = owns (c : Thread nD τ) (ms3_0 t) fullShare ((dat3 V c).after 0 t) from by
            unfold Dat.leavesExact; rw [liveAt3_0 t], after3_0]
      rw [show (dat3 V c).leavesExact 1 t = owns (c : Thread nD τ) (ms3_1 t) fullShare ((dat3 V c).after 1 t) from by
            unfold Dat.leavesExact; rw [liveAt3_1 t], after3_1]
      rw [show (dat3 V c).leavesExact 2 t = owns (c : Thread nD τ) (ms3_2 t) fullShare ((dat3 V c).after 2 t) from by
            unfold Dat.leavesExact; rw [liveAt3_2 t], after3_2]
      rw [show (dat3 V c).leavesExact 3 t = owns (c : Thread nD τ) (ms3_3 t) fullShare ((dat3 V c).after 3 t) from by
            unfold Dat.leavesExact; rw [liveAt3_3 t], after3_3]
      rw [Dat.leavesExact_idle (dat3 V c) 4 t (idleAt3_4 t (fun h => h1 ((hcond3_1 t).mp h))) (noFlush3_4 t (fun h => h1 ((hcond3_1 t).mp h)))]
      rw [outsAt3_B V c t h0 h1]
      unfold sout3_B_0; (try dsimp only)
      have hz : t.val ≠ 0 := fun hz => h0 (by omega)
      rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives back what the launch handed over: the accumulator's named
    contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.Kernel.Hand

end
-- ==== Proof.K.Main.lean ====
import proofs.«104416_j77807627534714_2_alg».proof.Proof.Gen.Kernel.Launch
import proofs.«104416_j77807627534714_2_alg».proof.Proof.Gen.Kernel.Skeleton
import proofs.«104416_j77807627534714_2_alg».proof.Proof.Gen.Kernel.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic
import proofs.«104416_j77807627534714_2_alg».proof.Proof.K.R0
import proofs.«104416_j77807627534714_2_alg».proof.Proof.K.R1
import proofs.«104416_j77807627534714_2_alg».proof.Proof.K.R2
import proofs.«104416_j77807627534714_2_alg».proof.Proof.K.R3
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: nine segments from the launch to the return

@main is five stretches of host operations with the four kernel regions between them.  The buffers' contents at each of
the ten boundaries are a fold through @main: a host stretch applies its operations, a region replaces its arrays by
what its pipeline leaves in them and touches nothing else. -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, the output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (an input as entered, the output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves (an input as entered, the output's write-backs folded), every
    other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at the contents before it, left with the region's
    arrays at what the pipeline leaves there and every other buffer untouched.  Its arrays are split out of the unscoped
    buffers and put back at the exit contents; the generator register goes into the body's invariant and comes back; the
    core owes nothing; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 0).pre c (fun _ => fullShare) (adm 0).1 ∗ Pipeline.scopedRest (Ix := Unit) (Name := ℕ) (U := UR sig nD τ) (Lvl := ℕ) (Val := Elt F) spec0 c)
        ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄)
        ⊢ iprop(iprop(∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the region's
    arrays at what the pipeline leaves there and every other buffer untouched.  Its arrays are split out of the unscoped
    buffers and put back at the exit contents; the generator register goes into the body's invariant and comes back; the
    core owes nothing; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 1).pre c (fun _ => fullShare) (adm 1).1 ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄)
        ⊢ iprop(iprop(∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the region's
    arrays at what the pipeline leaves there and every other buffer untouched.  Its arrays are split out of the unscoped
    buffers and put back at the exit contents; the generator register goes into the body's invariant and comes back; the
    core owes nothing; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 2).pre c (fun _ => fullShare) (adm 2).1 ∗ Pipeline.scopedRest (Ix := Unit) (Name := ℕ) (U := UR sig nD τ) (Lvl := ℕ) (Val := Elt F) spec2 c)
        ⊢ (Pipeline.ΦA spec2 c : sProp 𝕄) := by
      unfold Pipeline.ΦA
      iintro ⟨Hp, -, Hr⟩
      isplitl [Hr]; · iexact Hr
      iexact Hp
    exact h.trans (hin2 (V5 m ρ) c)
  hout c := by
    rw [Pipeline.ownSems0_none]
    have h : (Pipeline.ΦA spec2 c : sProp 𝕄)
        ⊢ iprop(iprop(∃ r, prngReg c r) ∗ BI.emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (V5 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with the region's
    arrays at what the pipeline leaves there and every other buffer untouched.  Its arrays are split out of the unscoped
    buffers and put back at the exit contents; the generator register goes into the body's invariant and comes back; the
    core owes nothing; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 3).pre c (fun _ => fullShare) (adm 3).1 ∗ Pipeline.scopedRest (Ix := Unit) (Name := ℕ) (U := UR sig nD τ) (Lvl := ℕ) (Val := Elt F) spec3 c)
        ⊢ (Pipeline.ΦA spec3 c : sProp 𝕄) := by
      unfold Pipeline.ΦA
      iintro ⟨Hp, -, Hr⟩
      isplitl [Hr]; · iexact Hr
      iexact Hp
    exact h.trans (hin3 (V7 m ρ) c)
  hout c := by
    rw [Pipeline.ownSems0_none]
    have h : (Pipeline.ΦA spec3 c : sProp 𝕄)
        ⊢ iprop(iprop(∃ r, prngReg c r) ∗ BI.emp ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (hout3 (V7 m ρ) c).trans h
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer holds the fold's last contents `W9`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Hand

end
-- ==== Proof.K.Writes.lean ====
import proofs.«104416_j77807627534714_2_alg».proof.Proof.Gen.Kernel.Launch
import Idealize.ShloMosaic.Lib.Pipeline.RegionsLoop
import Idealize.ShloMosaic.Lib.StableHlo.Run

set_option maxRecDepth 16384

noncomputable section

namespace Cert.Kernel.Hand

open Idealize.ShloMosaic Idealize.ShloMosaic.TcCoe Idealize.SL.Sem
open Cert.Kernel Cert.Kernel.Gen

variable {F : FTy → Type} [FloatOps F]

/-! # What the host stretches write

Each host operation writes exactly one buffer, its result.  Listing a stretch's results once lets every "this stretch
leaves that buffer alone" fact be a membership check in the list. -/

/-- The buffers the operations of stretch 0 write: their results, in program order. -/
abbrev hostOps0_W : List (Ref sig .tc) := [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_c_3, main_v20, main_v21, main_c_4, main_v22, main_v23, main_v24, main_v25, main_v26, main_v27, main_v28, main_c_5, main_v29, main_v30, main_c_6, main_v31, main_v32, main_c_7, main_v33, main_v34, main_v35, main_v36, main_v37, main_v38, main_v39, main_c_8, main_v40, main_v41, main_c_9, main_v42, main_v43, main_v44, main_v45, main_v46, main_v47, main_v48, main_c_10, main_v49, main_v50, main_c_11, main_v51, main_v52, main_c_12, main_v53, main_v54, main_v55, main_v56, main_v57, main_v58, main_v59, main_c_13, main_v60, main_v61, main_c_14, main_v62, main_v63, main_v64, main_v65, main_v66, main_v67, main_v68, main_c_15, main_v69, main_v70, main_c_16, main_v71, main_v72, main_v73, main_v74, main_v75, main_c_17, main_v76, main_v77, main_c_18, main_v78, main_v79, main_v80, main_v81, main_v82, main_c_19, main_v83, main_v84, main_c_20, main_v85, main_v86, main_v87, main_v88, main_v89, main_c_21, main_v90, main_v91, main_c_22, main_v92, main_v93, main_c_23, main_v94, main_v95, main_v96, main_v97, main_v98, main_c_24, main_v99, main_v100, main_c_25, main_v101, main_v102, main_v103, main_v104, main_v105, main_c_26, main_v106, main_v107, main_c_27, main_v108, main_v109, main_c_28, main_v110, main_v111, main_v112, main_v113, main_v114, main_c_29, main_v115, main_v116, main_c_30, main_v117, main_v118, main_v119, main_v120, main_v121, main_c_31, main_v122, main_v123, main_c_32, main_v124, main_v125, main_v126, main_v127, main_v128]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer that is no result of stretch 0 holds after it what it held before. -/
theorem hostOps0_keeps (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h

/-- The buffers the operations of stretch 1 write: their results, in program order. -/
abbrev hostOps1_W : List (Ref sig .tc) := [main_v130]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer that is no result of stretch 1 holds after it what it held before. -/
theorem hostOps1_keeps (W : Valuation τ sig (Elt F)) (r : Ref sig .tc) (h : r ∉ hostOps1_W) :
    StableHlo.after hostOps1 W (Proc.devRef .tc r) = W (Proc.devRef .tc r) :=
  StableHlo.after_of_writes_sub hostOps1 _ hostOps1_writes h

/-- The buffers the operations of stretch 2 write: their results, in program order. -/
abbrev hostOps2_W : List (Ref sig .tc) := [main_v132, main_cst, main_v133, main_cst_33, main_v134, main_v135, main_v136, main_cst_34, main_v137, main_cst_35, main_v138, main_v139, main_v140, main_v141, main_v142]
set_option maxHeartbeats 4000000 in
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer that is no result of stretch 2 holds after it what it held before. -/
theorem hostOps2_keeps (W : Valuation τ sig (Elt F)) (r : Ref sig .tc) (h : r ∉ hostOps2_W) :
    StableHlo.after hostOps2 W (Proc.devRef .tc r) = W (Proc.devRef .tc r) :=
  StableHlo.after_of_writes_sub hostOps2 _ hostOps2_writes h

/-- The buffers the operations of stretch 3 write: their results, in program order. -/
abbrev hostOps3_W : List (Ref sig .tc) := [main_cst_36, main_v144, main_v145, main_v146]
set_option maxHeartbeats 4000000 in
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer that is no result of stretch 3 holds after it what it held before. -/
theorem hostOps3_keeps (W : Valuation τ sig (Elt F)) (r : Ref sig .tc) (h : r ∉ hostOps3_W) :
    StableHlo.after hostOps3 W (Proc.devRef .tc r) = W (Proc.devRef .tc r) :=
  StableHlo.after_of_writes_sub hostOps3 _ hostOps3_writes h

/-- The buffers the operations of stretch 4 write: their results, in program order. -/
abbrev hostOps4_W : List (Ref sig .tc) := [main_cst_37, main_v148, main_v149, main_v150, main_v151, main_v152, main_cst_38, main_v153, main_cst_39, main_v154, main_cst_40, main_v155, main_cst_41, main_v156, main_v157]
set_option maxHeartbeats 4000000 in
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer that is no result of stretch 4 holds after it what it held before. -/
theorem hostOps4_keeps (W : Valuation τ sig (Elt F)) (r : Ref sig .tc) (h : r ∉ hostOps4_W) :
    StableHlo.after hostOps4 W (Proc.devRef .tc r) = W (Proc.devRef .tc r) :=
  StableHlo.after_of_writes_sub hostOps4 _ hostOps4_writes h

end Cert.Kernel.Hand

end
-- ==== Proof.K.Args.lean ====
import proofs.«104416_j77807627534714_2_alg».proof.Proof.K.Main
import proofs.«104416_j77807627534714_2_alg».proof.Proof.K.Writes

set_option maxRecDepth 16384

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ) (ρ : Dev nD → PrngReg)

/-! # The arguments end as launched

No host operation writes an argument and no region has one among its arrays, so the fold of the buffers' contents through
@main, read at an argument, walks back to the launch memory. -/

/-- A buffer that no stretch writes and that is no region's array holds at the end what it held at launch. -/
theorem W9_keep (c : Dev nD) (r : Ref sig .tc)
    (h0 : r ∉ hostOps0_W) (h1 : r ∉ hostOps1_W) (h2 : r ∉ hostOps2_W) (h3 : r ∉ hostOps3_W) (h4 : r ∉ hostOps4_W)
    (g0 : ∀ w, Pipeline.arrRef spec0 w ≠ r) (g1 : ∀ w, Pipeline.arrRef spec1 w ≠ r) (g2 : ∀ w, Pipeline.arrRef spec2 w ≠ r) (g3 : ∀ w, Pipeline.arrRef spec3 w ≠ r) :
    W9 m ρ c (Proc.devRef .tc r) = W0 m ρ c (Proc.devRef .tc r) :=
  (hostOps4_keeps _ r h4).trans <| (W8_of_ne m ρ c r g3).trans <| (hostOps3_keeps _ r h3).trans <| (W6_of_ne m ρ c r g2).trans <|
    (hostOps2_keeps _ r h2).trans <| (W4_of_ne m ρ c r g1).trans <| (hostOps1_keeps _ r h1).trans <| (W2_of_ne m ρ c r g0).trans <|
    hostOps0_keeps _ r h0

theorem W9_main_arg0 (c : Dev nD) : W9 m ρ c (Proc.devRef .tc main_arg0) = m ((c : Thread nD τ).loc main_arg0) :=
  (W9_keep m ρ c main_arg0 (by decide) (by decide) (by decide) (by decide) (by decide) (by decide) (by decide) (by decide) (by decide)).trans rfl
theorem W9_main_arg1 (c : Dev nD) : W9 m ρ c (Proc.devRef .tc main_arg1) = m ((c : Thread nD τ).loc main_arg1) :=
  (W9_keep m ρ c main_arg1 (by decide) (by decide) (by decide) (by decide) (by decide) (by decide) (by decide) (by decide) (by decide)).trans rfl
theorem W9_main_arg2 (c : Dev nD) : W9 m ρ c (Proc.devRef .tc main_arg2) = m ((c : Thread nD τ).loc main_arg2) :=
  (W9_keep m ρ c main_arg2 (by decide) (by decide) (by decide) (by decide) (by decide) (by decide) (by decide) (by decide) (by decide)).trans rfl
theorem W9_main_arg3 (c : Dev nD) : W9 m ρ c (Proc.devRef .tc main_arg3) = m ((c : Thread nD τ).loc main_arg3) :=
  (W9_keep m ρ c main_arg3 (by decide) (by decide) (by decide) (by decide) (by decide) (by decide) (by decide) (by decide) (by decide)).trans rfl
theorem W9_main_arg4 (c : Dev nD) : W9 m ρ c (Proc.devRef .tc main_arg4) = m ((c : Thread nD τ).loc main_arg4) :=
  (W9_keep m ρ c main_arg4 (by decide) (by decide) (by decide) (by decide) (by decide) (by decide) (by decide) (by decide) (by decide)).trans rfl
theorem W9_main_arg5 (c : Dev nD) : W9 m ρ c (Proc.devRef .tc main_arg5) = m ((c : Thread nD τ).loc main_arg5) :=
  (W9_keep m ρ c main_arg5 (by decide) (by decide) (by decide) (by decide) (by decide) (by decide) (by decide) (by decide) (by decide)).trans rfl
theorem W9_main_arg6 (c : Dev nD) : W9 m ρ c (Proc.devRef .tc main_arg6) = m ((c : Thread nD τ).loc main_arg6) :=
  (W9_keep m ρ c main_arg6 (by decide) (by decide) (by decide) (by decide) (by decide) (by decide) (by decide) (by decide) (by decide)).trans rfl
theorem W9_main_arg7 (c : Dev nD) : W9 m ρ c (Proc.devRef .tc main_arg7) = m ((c : Thread nD τ).loc main_arg7) :=
  (W9_keep m ρ c main_arg7 (by decide) (by decide) (by decide) (by decide) (by decide) (by decide) (by decide) (by decide) (by decide)).trans rfl
theorem W9_main_arg8 (c : Dev nD) : W9 m ρ c (Proc.devRef .tc main_arg8) = m ((c : Thread nD τ).loc main_arg8) :=
  (W9_keep m ρ c main_arg8 (by decide) (by decide) (by decide) (by decide) (by decide) (by decide) (by decide) (by decide) (by decide)).trans rfl
theorem W9_main_arg9 (c : Dev nD) : W9 m ρ c (Proc.devRef .tc main_arg9) = m ((c : Thread nD τ).loc main_arg9) :=
  (W9_keep m ρ c main_arg9 (by decide) (by decide) (by decide) (by decide) (by decide) (by decide) (by decide) (by decide) (by decide)).trans rfl

/-- THE FRAME's post from the run's: each argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c)⟩) (run_main m ρ)

end Cert.Kernel.Hand

end
-- ==== Proof.KI.R0Runs.lean ====
/- Region 0 (the edge-reduce kernel, grid of 50 points): what the per-case runs of the kernel body are stated over —
   the two branch conditions decided over the grid, where the output window is idle, the staging and scratch
   memrefs, the region invariant with the scratch accumulator split out — and the runs themselves, one per case:
   A (first point: the accumulator is reset, then accumulated into), B (a middle point: accumulated into),
   C (last point: accumulated into, then copied to the output). -/
import proofs.«104416_j77807627534714_2_alg».proof.Proof.Gen.KernelIdeal.Launch
import proofs.«104416_j77807627534714_2_alg».proof.Proof.Gen.KernelIdeal.Skeleton
import proofs.«104416_j77807627534714_2_alg».proof.Proof.Gen.KernelIdeal.Points
import Idealize.ShloMosaic.Lib.Pipeline.FrameBody
import Idealize.ShloMosaic.Lib.Ring
import Idealize.ShloMosaic.Lib.Tactic

-- membership in a rectangle of long extents is checked by structural recursion, once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's first conditional (the accumulator's reset): the scalar chain
    `(i == 0) extended to 32 bits ≠ 0`, read off the grid coordinate. -/
abbrev cond0_0 (i : grid0.Coords) : Prop := (Scalar.cmpi .ne (Scalar.extui (Scalar.cmpi .eq (BitVec.ofNat 32 (i 0).val) 0#32)) 0#32) = 1#1
/-- It holds at the first point only: decided over the 50 points. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the copy of the accumulator to the output). -/
abbrev cond0_1 (i : grid0.Coords) : Prop := k0_cond2 i = 1#1
/-- It holds at the last point only: decided over the 50 points. -/
theorem hcond0_1 : ∀ t : Fin cfg0.N, cond0_1 (grid0.coords t) ↔ t.val = 49 :=
  (by decide +kernel : ∀ t : Fin grid0.N, cond0_1 (grid0.coords t) ↔ t.val = 49)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the copy is not taken the output window is idle: the body stores nothing into it, -/
theorem idleAt0_2 : ∀ t : Fin cfg0.N, ¬cond0_1 (grid0.coords t) → cfg0.idle 2 (grid0.coords t) = true := by decide +kernel
/-- and its block is not written back there. -/
theorem noFlush0_2 : ∀ t : Fin cfg0.N, ¬cond0_1 (grid0.coords t) → (cfg0.win 2).flush t = false := by decide +kernel
/-- Where the copy is taken the output window is live. -/
theorem liveAt0_2 : ∀ t : Fin cfg0.N, cond0_1 (grid0.coords t) → cfg0.idle 2 (grid0.coords t) = false := by decide +kernel

/-! ## The memrefs the body is called with -/

/-- The output window's one staging buffer as a view: what the window holds is stated through it. -/
abbrev VO0_2 : View sig .tc .vmem S1x1 .f32 := (Memref.whole cc0_stg2_0 : Memref sig .tc .vmem S1x1 .f32).view
/-- Each window's current staging memref at point `t`, spelled as the pipeline passes it, and its wholeness. -/
abbrev ms0_0 (t : Fin cfg0.N) : Memref sig .tc .vmem S10000x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch accumulator: a whole scoped buffer of the kernel's own, passed beside the windows, -/
abbrev scM0_0 : Memref sig .tc .vmem S1x1 .f32 := Memref.whole cc0_scratch0
/-- and as a view: what it holds between points is stated through it. -/
abbrev VS0_0 : View sig .tc .vmem S1x1 .f32 := scM0_0.view

/-- The region invariant with the scratch accumulator split out as a memref owned at some contents; the other
    scoped buffers (the other regions' staging buffers and scratch) stay together, unopened. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The kernel body on any whole memrefs, case by case

Each run is a pair of piece lists (what the body's stores leave in the output's buffer and in the accumulator, last
store first) with the proof that from the inputs' buffers at their contents, the output's and the accumulator's as the
case finds them, the body runs to the continuation holding the inputs as they were and each stored buffer with its
pieces written. The pieces are found by running the body's memory operations in order. -/

set_option maxHeartbeats 1000000 in
/-- CASE A, the first point (reset, no copy): the accumulator is found at anything, stored whole with zeros, then loaded,
    added to and stored whole again; the output's buffer (`xi2`) is not touched. -/
noncomputable def kernelRun0_A (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S10000x16 .f32) (x1 : Vec F S10000x16 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__edge_reduce_kernel i arg1 harg1 arg2 harg2 arg3 harg3 arg4 harg4) K } := by
  refine ⟨[], ?_, fun xi2 E K => ?run⟩
  case run =>
    simp only [cc0__edge_reduce_kernel_eq_skeleton]; unfold cc0__edge_reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B, a middle point (no reset, no copy): the accumulator is found at `xs0`, loaded, added to and stored whole;
    the output's buffer (`xi2`) is not touched. -/
noncomputable def kernelRun0_B (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S10000x16 .f32) (x1 : Vec F S10000x16 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__edge_reduce_kernel i arg1 harg1 arg2 harg2 arg3 harg3 arg4 harg4) K } := by
  refine ⟨[], ?_, fun xi2 E K => ?run⟩
  case run =>
    simp only [cc0__edge_reduce_kernel_eq_skeleton]; unfold cc0__edge_reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C, the last point (no reset, copy): the accumulator is found at `xs0`, loaded, added to and stored whole; then it
    is loaded once more and stored whole into the output's buffer, which is found at anything. -/
noncomputable def kernelRun0_C (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__edge_reduce_kernel i arg1 harg1 arg2 harg2 arg3 harg3 arg4 harg4) K } := by
  refine ⟨?_, ?_, fun E K => ?run⟩
  case run =>
    simp only [cc0__edge_reduce_kernel_eq_skeleton]; unfold cc0__edge_reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R0.lean ====
/- Region 0 (the edge-reduce kernel, grid of 50 points) at the entry contents `V`: what the output's buffer and the scratch
   accumulator hold after each point (`outsAt0`, by recursion on the point over the per-case runs), the region invariant
   point by point, the pipeline's proof data `dat0`, its body obligation, and the invariant's two ends. -/
import proofs.«104416_j77807627534714_2_alg».proof.Proof.KI.R0Runs

-- membership in a rectangle of long extents is checked by structural recursion, once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: a parameter of everything below
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place: the window is uncut and never idle, and where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output's buffer and in the accumulator -/

/-- Case A (the first point) stores nothing into the output's buffer: no pieces, so this is a placeholder that nothing consults
    (at these points the window is neither written back nor read at the next point). -/
def out0_A_2 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S10000x16 .f32) (x1 : Vec F S10000x16 .f32) : Vec F S1x1 .f32 :=
  VO0_2.read (Elt F) (VO0_2.writes (Elt F) VO0_2.junk (kernelRun0_A c i arg1 harg1 arg2 harg2 arg3 harg3 arg4 harg4 hc0 hc1 x0 x1).1)

/-- Case A's stores into the accumulator are of the whole buffer, so its pieces cover it. -/
theorem scover0_A_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S10000x16 .f32) (x1 : Vec F S10000x16 .f32) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y

/-- What case A (the first point) leaves in the accumulator: its pieces read back. -/
def sout0_A_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S10000x16 .f32) (x1 : Vec F S10000x16 .f32) : Vec F S1x1 .f32 :=
  VS0_0.read (Elt F) (VS0_0.writes (Elt F) VS0_0.junk (kernelRun0_A c i arg1 harg1 arg2 harg2 arg3 harg3 arg4 harg4 hc0 hc1 x0 x1).2.1)

/-- Case B (a middle point) stores nothing into the output's buffer: no pieces, so this is a placeholder that nothing consults
    (at these points the window is neither written back nor read at the next point). -/
def out0_B_2 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S10000x16 .f32) (x1 : Vec F S10000x16 .f32) (xs0 : Vec F S1x1 .f32) : Vec F S1x1 .f32 :=
  VO0_2.read (Elt F) (VO0_2.writes (Elt F) VO0_2.junk (kernelRun0_B c i arg1 harg1 arg2 harg2 arg3 harg3 arg4 harg4 hc0 hc1 x0 x1 xs0).1)

/-- Case B's stores into the accumulator are of the whole buffer, so its pieces cover it. -/
theorem scover0_B_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S10000x16 .f32) (x1 : Vec F S10000x16 .f32) (xs0 : Vec F S1x1 .f32) (y : S1x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x1.size (by sl_kernel_rfl) y

/-- What case B (a middle point) leaves in the accumulator: its pieces read back. -/
def sout0_B_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S10000x16 .f32) (x1 : Vec F S10000x16 .f32) (xs0 : Vec F S1x1 .f32) : Vec F S1x1 .f32 :=
  VS0_0.read (Elt F) (VS0_0.writes (Elt F) VS0_0.junk (kernelRun0_B c i arg1 harg1 arg2 harg2 arg3 harg3 arg4 harg4 hc0 hc1 x0 x1 xs0).2.1)

/-- Case C's one store into the output's buffer is of the whole block, so its pieces cover the buffer. -/
theorem cover0_C_2 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y

/-- What case C (the last point) leaves in the output's buffer: its pieces read back. -/
def out0_C_2 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) : Vec F S1x1 .f32 :=
  VO0_2.read (Elt F) (VO0_2.writes (Elt F) VO0_2.junk (kernelRun0_C c i arg1 harg1 arg2 harg2 arg3 harg3 arg4 harg4 hc0 hc1 x0 x1 xs0).1)

/-- Case C's stores into the accumulator are of the whole buffer, so its pieces cover it. -/
theorem scover0_C_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y

/-- What case C (the last point) leaves in the accumulator: its pieces read back. -/
def sout0_C_0 (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) : Vec F S1x1 .f32 :=
  VS0_0.read (Elt F) (VS0_0.writes (Elt F) VS0_0.junk (kernelRun0_C c i arg1 harg1 arg2 harg2 arg3 harg3 arg4 harg4 hc0 hc1 x0 x1 xs0).2.1)

/-! ## What the output's buffer and the accumulator hold after each point -/

/-- THE ACCUMULATION. What the output's staging buffer (first component) and the scratch accumulator (second component)
    hold after the body at position `n`: at the first point case A on the point's input blocks; afterwards case B, or at
    point 49 case C, on the point's input blocks and on what the point before left in the accumulator. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (by decide : ¬ (0 : ℕ) = 49)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (by decide : ¬ (0 : ℕ) = 49)) (iblk0 V c 0 ⟨0, hn⟩) (iblk0 V c 1 ⟨0, hn⟩))
  | n + 1, hn =>
    if h1 : n + 1 = 49 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at the first point: case A's contents. -/
theorem outsAt0_A (c : Dev nD) (t : Fin cfg0.N) (h0 : t.val = 0) (hc0 : cond0_0 (grid0.coords t)) (hc1 : ¬cond0_1 (grid0.coords t)) :
    outsAt0 V c t.val t.isLt = (out0_A_2 c (grid0.coords t) (ms0_0 t) (hs0_0 t) (ms0_1 t) (hs0_1 t) (ms0_2 t) (hs0_2 t) scM0_0 (Memref.isWhole_whole _) hc0 hc1 (iblk0 V c 0 t) (iblk0 V c 1 t), sout0_A_0 c (grid0.coords t) (ms0_0 t) (hs0_0 t) (ms0_1 t) (hs0_1 t) (ms0_2 t) (hs0_2 t) scM0_0 (Memref.isWhole_whole _) hc0 hc1 (iblk0 V c 0 t) (iblk0 V c 1 t)) := by
  obtain ⟨n, hn⟩ := t
  cases n with
  | zero => exact rfl
  | succ n => exact absurd h0 (Nat.succ_ne_zero n)

/-- `outsAt0` at a middle point: case B's contents, over what the point before left in the accumulator. -/
theorem outsAt0_B (c : Dev nD) (t : Fin cfg0.N) (h0 : t.val ≠ 0) (h1 : t.val ≠ 49) (hc0 : ¬cond0_0 (grid0.coords t)) (hc1 : ¬cond0_1 (grid0.coords t)) :
    outsAt0 V c t.val t.isLt = (out0_B_2 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: case C's contents, over what the point before left in the accumulator. -/
theorem outsAt0_C (c : Dev nD) (t : Fin cfg0.N) (h1 : t.val = 49) (hc0 : ¬cond0_0 (grid0.coords t)) (hc1 : cond0_1 (grid0.coords t)) :
    outsAt0 V c t.val t.isLt = (out0_C_2 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) hc0 hc1 (iblk0 V c 0 t) (iblk0 V c 1 t) (outsAt0 V c (t.val - 1) (Nat.lt_of_le_of_lt (Nat.sub_le _ _) t.isLt)).2) := by
  obtain ⟨n, hn⟩ := t
  cases n with
  | zero => exact absurd h1 (by decide : ¬ (0 : ℕ) = 49)
  | succ n => exact (dif_pos h1).trans rfl

/-! ## The region invariant, point by point -/

/-- The invariant before position `n`: before the first point the region's own (every scoped buffer that is no staging
    buffer at anything, the generator register at some state); afterwards the same with the accumulator at what the
    point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the point's position says which case it is in, so that
    case's run applies. The invariant hands the body the accumulator at what the point before left (at anything at the
    first point) and takes it back at this point's contents, since the case's stores cover it; the other scoped buffers,
    the generator register and what the core owes pass through. Where the copy is not taken the output's buffer is handed
    back as found; at the last point it is taken back at the copied contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 50 := lt_of_lt_of_eq t.isLt (show cfg0.N = 50 from N_0)
  by_cases h0 : t.val = 0
  · -- the first point: case A
    have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [outsAt0_A V c t h0 hc0 hc1]
    unfold sout0_A_0; (try dsimp only)
    rw [PhiS0_castSucc V c t, PhiS0_zero V c _ _ h0, PhiA0_eq]
    iintro ⟨⟨⟨HS0, HR⟩, Hg⟩, Ho, ⟨%d0, H0⟩, ⟨%d1, H1⟩, ⟨%d2, H2⟩⟩
    iapply ((kernelRun0_A c (grid0.coords t) _ _ _ _ _ _ _ _ hc0 hc1 (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _)
        iexact HR
      iexact Hg
    isplitl [Ho]; · iexact Ho
    isplitl [H0]; · iexact H0
    isplitl [H1]; · iexact H1
    iexists _; iexact H2
  · have hc0 : ¬cond0_0 (grid0.coords t) := fun h => h0 ((hcond0_0 t).mp h)
    by_cases h1 : t.val = 49
    · -- the last point: case C
      have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t h1 hc0 hc1]
      unfold out0_C_2 sout0_C_0; (try dsimp only)
      rw [PhiS0_castSucc V c t, PhiS0_pos V c _ _ h0]
      iintro ⟨⟨⟨HS0, HR⟩, Hg⟩, Ho, ⟨%d0, H0⟩, ⟨%d1, H1⟩, ⟨%d2, H2⟩⟩
      iapply ((kernelRun0_C c (grid0.coords t) _ _ _ _ _ _ _ _ hc0 hc1 (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · -- a middle point: case B
      have hc1 : ¬cond0_1 (grid0.coords t) := fun h => h1 ((hcond0_1 t).mp h)
      rw [Dat.leavesExact_idle (dat0 V c) 2 t (idleAt0_2 t hc1) (noFlush0_2 t hc1)]
      rw [outsAt0_B V c t h0 h1 hc0 hc1]
      unfold sout0_B_0; (try dsimp only)
      rw [PhiS0_castSucc V c t, PhiS0_pos V c _ _ h0]
      iintro ⟨⟨⟨HS0, HR⟩, Hg⟩, Ho, ⟨%d0, H0⟩, ⟨%d1, H1⟩, ⟨%d2, H2⟩⟩
      iapply ((kernelRun0_B c (grid0.coords t) _ _ _ _ _ _ _ _ hc0 hc1 (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the region's own back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.KI.R1Runs.lean ====
/- Region 1 (the edge-reduce kernel, grid of 50 points): what the per-case runs of the kernel body are stated over —
   the two branch conditions decided over the grid, where the output window is idle, the staging and scratch
   memrefs, the region invariant with the scratch accumulator split out — and the runs themselves, one per case:
   A (first point: the accumulator is reset, then accumulated into), B (a middle point: accumulated into),
   C (last point: accumulated into, then copied to the output). -/
import proofs.«104416_j77807627534714_2_alg».proof.Proof.Gen.KernelIdeal.Launch
import proofs.«104416_j77807627534714_2_alg».proof.Proof.Gen.KernelIdeal.Skeleton
import proofs.«104416_j77807627534714_2_alg».proof.Proof.Gen.KernelIdeal.Points
import Idealize.ShloMosaic.Lib.Pipeline.FrameBody
import Idealize.ShloMosaic.Lib.Ring
import Idealize.ShloMosaic.Lib.Tactic

-- membership in a rectangle of long extents is checked by structural recursion, once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's first conditional (the accumulator's reset): the scalar chain
    `(i == 0) extended to 32 bits ≠ 0`, read off the grid coordinate. -/
abbrev cond1_0 (i : grid1.Coords) : Prop := (Scalar.cmpi .ne (Scalar.extui (Scalar.cmpi .eq (BitVec.ofNat 32 (i 0).val) 0#32)) 0#32) = 1#1
/-- It holds at the first point only: decided over the 50 points. -/
theorem hcond1_0 : ∀ t : Fin cfg1.N, cond1_0 (grid1.coords t) ↔ t.val = 0 :=
  (by decide +kernel : ∀ t : Fin grid1.N, cond1_0 (grid1.coords t) ↔ t.val = 0)

/-- The condition of the body's second conditional (the copy of the accumulator to the output). -/
abbrev cond1_1 (i : grid1.Coords) : Prop := k1_cond2 i = 1#1
/-- It holds at the last point only: decided over the 50 points. -/
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the copy is not taken the output window is idle: the body stores nothing into it, -/
theorem idleAt1_2 : ∀ t : Fin cfg1.N, ¬cond1_1 (grid1.coords t) → cfg1.idle 2 (grid1.coords t) = true := by decide +kernel
/-- and its block is not written back there. -/
theorem noFlush1_2 : ∀ t : Fin cfg1.N, ¬cond1_1 (grid1.coords t) → (cfg1.win 2).flush t = false := by decide +kernel
/-- Where the copy is taken the output window is live. -/
theorem liveAt1_2 : ∀ t : Fin cfg1.N, cond1_1 (grid1.coords t) → cfg1.idle 2 (grid1.coords t) = false := by decide +kernel

/-! ## The memrefs the body is called with -/

/-- The output window's one staging buffer as a view: what the window holds is stated through it. -/
abbrev VO1_2 : View sig .tc .vmem S1x1 .f32 := (Memref.whole cc1_stg2_0 : Memref sig .tc .vmem S1x1 .f32).view
/-- Each window's current staging memref at point `t`, spelled as the pipeline passes it, and its wholeness. -/
abbrev ms1_0 (t : Fin cfg1.N) : Memref sig .tc .vmem S10000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The scratch accumulator: a whole scoped buffer of the kernel's own, passed beside the windows, -/
abbrev scM1_0 : Memref sig .tc .vmem S1x1 .f32 := Memref.whole cc1_scratch0
/-- and as a view: what it holds between points is stated through it. -/
abbrev VS1_0 : View sig .tc .vmem S1x1 .f32 := scM1_0.view

/-- The region invariant with the scratch accumulator split out as a memref owned at some contents; the other
    scoped buffers (the other regions' staging buffers and scratch) stay together, unopened. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The kernel body on any whole memrefs, case by case

Each run is a pair of piece lists (what the body's stores leave in the output's buffer and in the accumulator, last
store first) with the proof that from the inputs' buffers at their contents, the output's and the accumulator's as the
case finds them, the body runs to the continuation holding the inputs as they were and each stored buffer with its
pieces written. The pieces are found by running the body's memory operations in order. -/

set_option maxHeartbeats 1000000 in
/-- CASE A, the first point (reset, no copy): the accumulator is found at anything, stored whole with zeros, then loaded,
    added to and stored whole again; the output's buffer (`xi2`) is not touched. -/
noncomputable def kernelRun1_A (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S10000x16 .f32) (x1 : Vec F S10000x16 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__edge_reduce_kernel i arg1 harg1 arg2 harg2 arg3 harg3 arg4 harg4) K } := by
  refine ⟨[], ?_, fun xi2 E K => ?run⟩
  case run =>
    simp only [cc1__edge_reduce_kernel_eq_skeleton]; unfold cc1__edge_reduce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE B, a middle point (no reset, no copy): the accumulator is found at `xs0`, loaded, added to and stored whole;
    the output's buffer (`xi2`) is not touched. -/
noncomputable def kernelRun1_B (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S10000x16 .f32) (x1 : Vec F S10000x16 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__edge_reduce_kernel i arg1 harg1 arg2 harg2 arg3 harg3 arg4 harg4) K } := by
  refine ⟨[], ?_, fun xi2 E K => ?run⟩
  case run =>
    simp only [cc1__edge_reduce_kernel_eq_skeleton]; unfold cc1__edge_reduce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- CASE C, the last point (no reset, copy): the accumulator is found at `xs0`, loaded, added to and stored whole; then it
    is loaded once more and stored whole into the output's buffer, which is found at anything. -/
noncomputable def kernelRun1_C (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x16 .f32) (x1 : Vec F S10000x16 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__edge_reduce_kernel i arg1 harg1 arg2 harg2 arg3 harg3 arg4 harg4) K } := by
  refine ⟨?_, ?_, fun E K => ?run⟩
  case run =>
    simp only [cc1__edge_reduce_kernel_eq_skeleton]; unfold cc1__edge_reduce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R1.lean ====
/- Region 1 (the edge-reduce kernel, grid of 50 points) at the entry contents `V`: what the output's buffer and the scratch
   accumulator hold after each point (`outsAt1`, by recursion on the point over the per-case runs), the region invariant
   point by point, the pipeline's proof data `dat1`, its body obligation, and the invariant's two ends. -/
import proofs.«104416_j77807627534714_2_alg».proof.Proof.KI.R1Runs

-- membership in a rectangle of long extents is checked by structural recursion, once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered: a parameter of everything below
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place: the window is uncut and never idle, and where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer and in the accumulator -/

/-- Case A (the first point) stores nothing into the output's buffer: no pieces, so this is a placeholder that nothing consults
    (at these points the window is neither written back nor read at the next point). -/
def out1_A_2 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S10000x16 .f32) (x1 : Vec F S10000x16 .f32) : Vec F S1x1 .f32 :=
  VO1_2.read (Elt F) (VO1_2.writes (Elt F) VO1_2.junk (kernelRun1_A c i arg1 harg1 arg2 harg2 arg3 harg3 arg4 harg4 hc0 hc1 x0 x1).1)

/-- Case A's stores into the accumulator are of the whole buffer, so its pieces cover it. -/
theorem scover1_A_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S10000x16 .f32) (x1 : Vec F S10000x16 .f32) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y

/-- What case A (the first point) leaves in the accumulator: its pieces read back. -/
def sout1_A_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S10000x16 .f32) (x1 : Vec F S10000x16 .f32) : Vec F S1x1 .f32 :=
  VS1_0.read (Elt F) (VS1_0.writes (Elt F) VS1_0.junk (kernelRun1_A c i arg1 harg1 arg2 harg2 arg3 harg3 arg4 harg4 hc0 hc1 x0 x1).2.1)

/-- Case B (a middle point) stores nothing into the output's buffer: no pieces, so this is a placeholder that nothing consults
    (at these points the window is neither written back nor read at the next point). -/
def out1_B_2 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S10000x16 .f32) (x1 : Vec F S10000x16 .f32) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 x1 xs0).1)

/-- Case B's stores into the accumulator are of the whole buffer, so its pieces cover it. -/
theorem scover1_B_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S10000x16 .f32) (x1 : Vec F S10000x16 .f32) (xs0 : Vec F S1x1 .f32) (y : S1x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S1x1.size (by sl_kernel_rfl) y

/-- What case B (a middle point) leaves in the accumulator: its pieces read back. -/
def sout1_B_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S10000x16 .f32) (x1 : Vec F S10000x16 .f32) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 x1 xs0).2.1)

/-- Case C's one store into the output's buffer is of the whole block, so its pieces cover the buffer. -/
theorem cover1_C_2 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x16 .f32) (x1 : Vec F S10000x16 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y

/-- What case C (the last point) leaves in the output's buffer: its pieces read back. -/
def out1_C_2 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x16 .f32) (x1 : Vec F S10000x16 .f32) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 x1 xs0).1)

/-- Case C's stores into the accumulator are of the whole buffer, so its pieces cover it. -/
theorem scover1_C_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x16 .f32) (x1 : Vec F S10000x16 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y

/-- What case C (the last point) leaves in the accumulator: its pieces read back. -/
def sout1_C_0 (c : Dev nD) (i : grid1.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S10000x16 .f32) (x1 : Vec F S10000x16 .f32) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 x1 xs0).2.1)

/-! ## What the output's buffer and the accumulator hold after each point -/

/-- THE ACCUMULATION. What the output's staging buffer (first component) and the scratch accumulator (second component)
    hold after the body at position `n`: at the first point case A on the point's input blocks; afterwards case B, or at
    point 49 case C, on the point's input blocks and on what the point before left in the accumulator. -/
def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (fun h => absurd ((hcond1_1 ⟨0, hn⟩).mp h) (by decide : ¬ (0 : ℕ) = 49)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr rfl) (fun h => absurd ((hcond1_1 ⟨0, hn⟩).mp h) (by decide : ¬ (0 : ℕ) = 49)) (iblk1 V c 0 ⟨0, hn⟩) (iblk1 V c 1 ⟨0, hn⟩))
  | n + 1, hn =>
    if h1 : n + 1 = 49 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at the first point: case A's contents. -/
theorem outsAt1_A (c : Dev nD) (t : Fin cfg1.N) (h0 : t.val = 0) (hc0 : cond1_0 (grid1.coords t)) (hc1 : ¬cond1_1 (grid1.coords t)) :
    outsAt1 V c t.val t.isLt = (out1_A_2 c (grid1.coords t) (ms1_0 t) (hs1_0 t) (ms1_1 t) (hs1_1 t) (ms1_2 t) (hs1_2 t) scM1_0 (Memref.isWhole_whole _) hc0 hc1 (iblk1 V c 0 t) (iblk1 V c 1 t), sout1_A_0 c (grid1.coords t) (ms1_0 t) (hs1_0 t) (ms1_1 t) (hs1_1 t) (ms1_2 t) (hs1_2 t) scM1_0 (Memref.isWhole_whole _) hc0 hc1 (iblk1 V c 0 t) (iblk1 V c 1 t)) := by
  obtain ⟨n, hn⟩ := t
  cases n with
  | zero => exact rfl
  | succ n => exact absurd h0 (Nat.succ_ne_zero n)

/-- `outsAt1` at a middle point: case B's contents, over what the point before left in the accumulator. -/
theorem outsAt1_B (c : Dev nD) (t : Fin cfg1.N) (h0 : t.val ≠ 0) (h1 : t.val ≠ 49) (hc0 : ¬cond1_0 (grid1.coords t)) (hc1 : ¬cond1_1 (grid1.coords t)) :
    outsAt1 V c t.val t.isLt = (out1_B_2 c (grid1.coords t) (ms1_0 t) (hs1_0 t) (ms1_1 t) (hs1_1 t) (ms1_2 t) (hs1_2 t) scM1_0 (Memref.isWhole_whole _) hc0 hc1 (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) hc0 hc1 (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- `outsAt1` at the last point: case C's contents, over what the point before left in the accumulator. -/
theorem outsAt1_C (c : Dev nD) (t : Fin cfg1.N) (h1 : t.val = 49) (hc0 : ¬cond1_0 (grid1.coords t)) (hc1 : cond1_1 (grid1.coords t)) :
    outsAt1 V c t.val t.isLt = (out1_C_2 c (grid1.coords t) (ms1_0 t) (hs1_0 t) (ms1_1 t) (hs1_1 t) (ms1_2 t) (hs1_2 t) scM1_0 (Memref.isWhole_whole _) hc0 hc1 (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) hc0 hc1 (iblk1 V c 0 t) (iblk1 V c 1 t) (outsAt1 V c (t.val - 1) (Nat.lt_of_le_of_lt (Nat.sub_le _ _) t.isLt)).2) := by
  obtain ⟨n, hn⟩ := t
  cases n with
  | zero => exact absurd h1 (by decide : ¬ (0 : ℕ) = 49)
  | succ n => exact (dif_pos h1).trans rfl

/-! ## The region invariant, point by point -/

/-- The invariant before position `n`: before the first point the region's own (every scoped buffer that is no staging
    buffer at anything, the generator register at some state); afterwards the same with the accumulator at what the
    point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's position says which case it is in, so that
    case's run applies. The invariant hands the body the accumulator at what the point before left (at anything at the
    first point) and takes it back at this point's contents, since the case's stores cover it; the other scoped buffers,
    the generator register and what the core owes pass through. Where the copy is not taken the output's buffer is handed
    back as found; at the last point it is taken back at the copied contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 50 := lt_of_lt_of_eq t.isLt (show cfg1.N = 50 from N_1)
  by_cases h0 : t.val = 0
  · -- the first point: case A
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [outsAt1_A V c t h0 hc0 hc1]
    unfold sout1_A_0; (try dsimp only)
    rw [PhiS1_castSucc V c t, PhiS1_zero V c _ _ h0, PhiA1_eq]
    iintro ⟨⟨⟨HS0, HR⟩, Hg⟩, Ho, ⟨%d0, H0⟩, ⟨%d1, H1⟩, ⟨%d2, H2⟩⟩
    iapply ((kernelRun1_A c (grid1.coords t) _ _ _ _ _ _ _ _ hc0 hc1 (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_A_0 c _ _ _ _ _ _ _ _ _ _ _ _ _)
        iexact HR
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    by_cases h1 : t.val = 49
    · -- the last point: case C
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [outsAt1_C V c t h1 hc0 hc1]
      unfold out1_C_2 sout1_C_0; (try dsimp only)
      rw [PhiS1_castSucc V c t, PhiS1_pos V c _ _ h0]
      iintro ⟨⟨⟨HS0, HR⟩, Hg⟩, Ho, ⟨%d0, H0⟩, ⟨%d1, H1⟩, ⟨%d2, H2⟩⟩
      iapply ((kernelRun1_C c (grid1.coords t) _ _ _ _ _ _ _ _ hc0 hc1 (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · -- a middle point: case B
      have hc1 : ¬cond1_1 (grid1.coords t) := fun h => h1 ((hcond1_1 t).mp h)
      rw [Dat.leavesExact_idle (dat1 V c) 2 t (idleAt1_2 t hc1) (noFlush1_2 t hc1)]
      rw [outsAt1_B V c t h0 h1 hc0 hc1]
      unfold sout1_B_0; (try dsimp only)
      rw [PhiS1_castSucc V c t, PhiS1_pos V c _ _ h0]
      iintro ⟨⟨⟨HS0, HR⟩, Hg⟩, Ho, ⟨%d0, H0⟩, ⟨%d1, H1⟩, ⟨%d2, H2⟩⟩
      iapply ((kernelRun1_B c (grid1.coords t) _ _ _ _ _ _ _ _ hc0 hc1 (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Hand

end
-- ==== Proof.KI.R2Runs.lean ====
/- Region 2 (the masked pairwise kernel on its 8 x 8 grid): what the five runs of the body share — the three
   conditions of the body decided over the grid, where the output window is idle, the staging memrefs and the
   scratch accumulator as views, and the region invariant with the accumulator singled out. -/
import proofs.«104416_j77807627534714_2_alg».proof.Proof.Gen.KernelIdeal.Launch
import proofs.«104416_j77807627534714_2_alg».proof.Proof.Gen.KernelIdeal.Skeleton
import proofs.«104416_j77807627534714_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's three conditions, over the point t = 8 i + j -/

/-- "This is the first column" (j = 0): the accumulator is reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "The column block reaches the diagonal" (1024 j + 1023 > 1024 i, that is j ≥ i): the point contributes. -/
abbrev cond2_1 (i : grid2.Coords) : Prop := (Scalar.cmpi .ne (Scalar.extui (Scalar.cmpi .sgt (Scalar.subi (Scalar.addi (Scalar.muli (BitVec.ofNat 32 (i 1).val) 1024#32) 1024#32) 1#32) (Scalar.muli (BitVec.ofNat 32 (i 0).val) 1024#32))) 0#32) = 1#1
theorem hcond2_1 : ∀ t : Fin cfg2.N, cond2_1 (grid2.coords t) ↔ t.val / 8 ≤ t.val % 8 :=
  (by decide +kernel : ∀ t : Fin grid2.N, cond2_1 (grid2.coords t) ↔ t.val / 8 ≤ t.val % 8)

/-- "This is the last column" (j = 7): the accumulator is copied to the output block. -/
abbrev cond2_2 (i : grid2.Coords) : Prop := k2_cond3 i = 1#1
theorem hcond2_2 : ∀ t : Fin cfg2.N, cond2_2 (grid2.coords t) ↔ t.val % 8 = 7 :=
  (by decide +kernel : ∀ t : Fin grid2.N, cond2_2 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last column the output window is idle and is not written back. -/
theorem idleAt2_4 : ∀ t : Fin cfg2.N, ¬cond2_2 (grid2.coords t) → cfg2.idle 4 (grid2.coords t) = true := by decide +kernel
theorem noFlush2_4 : ∀ t : Fin cfg2.N, ¬cond2_2 (grid2.coords t) → (cfg2.win 4).flush t = false := by decide +kernel
/-- On the last column it is live. -/
theorem liveAt2_4 : ∀ t : Fin cfg2.N, cond2_2 (grid2.coords t) → cfg2.idle 4 (grid2.coords t) = false := by decide +kernel

/-! ## The staging memrefs and the accumulator -/

abbrev VO2_4 : View sig .tc .vmem S1024x1 .f32 := (Memref.whole cc2_stg4_0 : Memref sig .tc .vmem S1024x1 .f32).view
abbrev ms2_0 (t : Fin cfg2.N) : Memref sig .tc .vmem S1024x16 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1 .f32 := win2_4.stage (cfg2.slots t 4)
abbrev hs2_4 (t : Fin cfg2.N) : (ms2_4 t).IsWhole := hstage2_4 ((cfg2.slots t 4).cast nbuf2_4)
/-- The accumulator: a whole scoped buffer of the kernel's own, carried from point to point. -/
abbrev scM2_0 : Memref sig .tc .vmem S1024x1 .f32 := Memref.whole cc2_scratch0
abbrev VS2_0 : View sig .tc .vmem S1024x1 .f32 := scM2_0.view

/-! ## The region invariant with the accumulator singled out -/

/-- A whole scoped buffer of core `c` at some contents. -/
abbrev anyBuf2 (c : Dev nD) (b : Ref sig .tc) : sProp 𝕄 :=
  iprop(∃ f : Buf (Elt F) ((c : Thread nD τ).loc b), ((c : Thread nD τ).loc b) ↦{fullShare} f)

/-- The scoped buffers the region neither stages through nor accumulates in (those of the other three calls),
    each at some contents: they pass through the region untouched. -/
def rest2 (c : Dev nD) : sProp 𝕄 :=
  iprop(anyBuf2 (F := F) c cc0_stg0_0 ∗ anyBuf2 (F := F) c cc0_stg0_1 ∗ anyBuf2 (F := F) c cc0_stg1_0 ∗ anyBuf2 (F := F) c cc0_stg1_1 ∗ anyBuf2 (F := F) c cc0_stg2_0 ∗ anyBuf2 (F := F) c cc0_scratch0 ∗ anyBuf2 (F := F) c cc1_stg0_0 ∗ anyBuf2 (F := F) c cc1_stg0_1 ∗ anyBuf2 (F := F) c cc1_stg1_0 ∗ anyBuf2 (F := F) c cc1_stg1_1 ∗ anyBuf2 (F := F) c cc1_stg2_0 ∗ anyBuf2 (F := F) c cc1_scratch0 ∗ anyBuf2 (F := F) c cc3_stg0_0 ∗ anyBuf2 (F := F) c cc3_stg0_1 ∗ anyBuf2 (F := F) c cc3_stg1_0 ∗ anyBuf2 (F := F) c cc3_stg1_1 ∗ anyBuf2 (F := F) c cc3_stg2_0 ∗ anyBuf2 (F := F) c cc3_stg2_1 ∗ anyBuf2 (F := F) c cc3_stg3_0 ∗ anyBuf2 (F := F) c cc3_stg3_1 ∗ anyBuf2 (F := F) c cc3_stg4_0 ∗ anyBuf2 (F := F) c cc3_stg4_1 ∗ anyBuf2 (F := F) c cc3_scratch0)

/-- Separating conjunction: the first two of three conjuncts exchanged. -/
theorem sep_lcomm2 (P Q R : sProp 𝕄) : (iprop(P ∗ Q ∗ R) : sProp 𝕄) = iprop(Q ∗ P ∗ R) := by
  have h₁ : ∀ A B C : sProp 𝕄, iprop(A ∗ B ∗ C) ⊢ (iprop(B ∗ A ∗ C) : sProp 𝕄) := by
    intro A B C
    iintro ⟨HP, HQ, HR⟩
    isplitl [HQ]; · iexact HQ
    isplitl [HP]; · iexact HP
    iexact HR
  exact BI.equiv_iff.mp ⟨h₁ P Q R, h₁ Q P R⟩

/-- The thirteenth of a chain of separating conjuncts brought to the front. -/
theorem sep_pick13 (A1 A2 A3 A4 A5 A6 A7 A8 A9 A10 A11 A12 S T : sProp 𝕄) :
    (iprop(A1 ∗ A2 ∗ A3 ∗ A4 ∗ A5 ∗ A6 ∗ A7 ∗ A8 ∗ A9 ∗ A10 ∗ A11 ∗ A12 ∗ S ∗ T) : sProp 𝕄) = iprop(S ∗ A1 ∗ A2 ∗ A3 ∗ A4 ∗ A5 ∗ A6 ∗ A7 ∗ A8 ∗ A9 ∗ A10 ∗ A11 ∗ A12 ∗ T) := by
  rw [sep_lcomm2 A12 S, sep_lcomm2 A11 S, sep_lcomm2 A10 S, sep_lcomm2 A9 S, sep_lcomm2 A8 S, sep_lcomm2 A7 S, sep_lcomm2 A6 S, sep_lcomm2 A5 S, sep_lcomm2 A4 S, sep_lcomm2 A3 S, sep_lcomm2 A2 S, sep_lcomm2 A1 S]

/-- What the launch hands the region: the accumulator at some contents, the other scoped buffers, the generator register. -/
theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA; rw [scopedRest2_eq]; simp only [scM2_0, owns_whole]; unfold rest2
  congr 1
  exact sep_pick13 _ _ _ _ _ _ _ _ _ _ _ _ _ _

set_option maxHeartbeats 1000000 in
/-- CASE A (first column, contributing, not the last column — the grid's first point): the accumulator at ANY contents
    (it is stored whole before it is read); the output's buffer handed back untouched. -/
noncomputable def kernelRun2_A (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : cond2_1 i) (hc2 : ¬cond2_2 i)
    (x0 : Vec F S1024x16 .f32) (x1 : Vec F S1024x16 .f32) (x2 : Vec F S1024x1 .f32) (x3 : Vec F S1x1024 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pairwise_mask_kernel i arg2 harg2 arg3 harg3 arg4 harg4 arg5 harg5 arg6 harg6 arg7 harg7) K } := by
  refine ⟨?_, fun xi4 E K => ?run⟩
  case run =>
    simp only [cc2__pairwise_mask_kernel_eq_skeleton]; unfold cc2__pairwise_mask_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- CASE B (first column, below the diagonal): the accumulator, at ANY contents, is stored whole; nothing else is touched. -/
noncomputable def kernelRun2_B (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : ¬cond2_1 i) (hc2 : ¬cond2_2 i) :
    { LS0 : List (View.Piece (Elt F) S1024x1 .f32) //
      ∀ (x0 : Vec F S1024x16 .f32) (x1 : Vec F S1024x16 .f32) (x2 : Vec F S1024x1 .f32) (x3 : Vec F S1x1024 .f32) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pairwise_mask_kernel i arg2 harg2 arg3 harg3 arg4 harg4 arg5 harg5 arg6 harg6 arg7 harg7) K } := by
  refine ⟨?_, fun x0 x1 x2 x3 xi4 E K => ?run⟩
  case run =>
    simp only [cc2__pairwise_mask_kernel_eq_skeleton]; unfold cc2__pairwise_mask_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

-- (the run's proof term is large)
set_option maxHeartbeats 1000000 in
/-- CASE C (not the first column, contributing, not the last column): the inputs at their blocks, the output's buffer
    at contents handed back untouched, the accumulator at what the point before left; the body runs to the
    continuation with the accumulator at the pieces its store wrote. -/
noncomputable def kernelRun2_C (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : ¬cond2_2 i)
    (x0 : Vec F S1024x16 .f32) (x1 : Vec F S1024x16 .f32) (x2 : Vec F S1024x1 .f32) (x3 : Vec F S1x1024 .f32) (xs0 : Vec F S1024x1 .f32) :
    { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__pairwise_mask_kernel i arg2 harg2 arg3 harg3 arg4 harg4 arg5 harg5 arg6 harg6 arg7 harg7) K } := by
  refine ⟨?_, fun xi4 E K => ?run⟩
  case run =>
    simp only [cc2__pairwise_mask_kernel_eq_skeleton]; unfold cc2__pairwise_mask_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- CASE D (not the first column, below the diagonal, not the last column): the body touches nothing — whatever is
    held before is held after. -/
theorem kernelRun2_D (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : ¬cond2_1 i) (hc2 : ¬cond2_2 i)
    (E : Set ℕ) (K : PUnit → sProp 𝕄) :
    K ⟨⟩ ⊢ wp frame (wpE (defs₀ (F := F)) Variants.none c none) E (cc2__pairwise_mask_kernel i arg2 harg2 arg3 harg3 arg4 harg4 arg5 harg5 arg6 harg6 arg7 harg7) K := by
  simp only [cc2__pairwise_mask_kernel_eq_skeleton]; unfold cc2__pairwise_mask_kernel_skel
  iintro Hk
  sl_exec (disch := first | exact hc0 | exact hc1 | exact hc2)
  sl_step
  iexact Hk

set_option maxHeartbeats 1000000 in
/-- CASE E (the last column — always contributing): the accumulator at what the point before left, added to and then
    copied to the output's buffer, which may hold anything before. -/
noncomputable def kernelRun2_E (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i)
    (x0 : Vec F S1024x16 .f32) (x1 : Vec F S1024x16 .f32) (x2 : Vec F S1024x1 .f32) (x3 : Vec F S1x1024 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__pairwise_mask_kernel i arg2 harg2 arg3 harg3 arg4 harg4 arg5 harg5 arg6 harg6 arg7 harg7) K } := by
  refine ⟨?_, ?_, fun E K => ?run⟩
  case run =>
    simp only [cc2__pairwise_mask_kernel_eq_skeleton]; unfold cc2__pairwise_mask_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R2.lean ====
/- Region 2 (the masked pairwise kernel on its 8 x 8 grid), at the buffer contents `V` the region is entered with:
   what the accumulator and the output's staging buffer hold after each point, the proof data of the pipeline, the
   body obligation at every point, and the invariant's two ends. -/
import proofs.«104416_j77807627534714_2_alg».proof.Proof.KI.R2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (windows 0 and 2
    are fetched only when the row block changes: between fetches the block index does not move), for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator and in the output's buffer -/

/-- Case A's pieces for the accumulator tile it (one whole store after another), so they cover it. -/
theorem scover2_A (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : cond2_1 i) (hc2 : ¬cond2_2 i) (x0 : Vec F S1024x16 .f32) (x1 : Vec F S1024x16 .f32) (x2 : Vec F S1024x1 .f32) (x3 : Vec F S1x1024 .f32) (y : S1024x1.Idx) :
    ∃ pc ∈ (kernelRun2_A c i arg2 harg2 arg3 harg3 arg4 harg4 arg5 harg5 arg6 harg6 arg7 harg7 hc0 hc1 hc2 x0 x1 x2 x3).1, y ∈ pc.1.set :=
  View.cover_of_tiledL (kernelRun2_A c i arg2 harg2 arg3 harg3 arg4 harg4 arg5 harg5 arg6 harg6 arg7 harg7 hc0 hc1 hc2 x0 x1 x2 x3).1 S1024x1.size (by sl_kernel_rfl) y

/-- What case A leaves in the accumulator: its pieces read back. -/
def sout2_A (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : cond2_1 i) (hc2 : ¬cond2_2 i) (x0 : Vec F S1024x16 .f32) (x1 : Vec F S1024x16 .f32) (x2 : Vec F S1024x1 .f32) (x3 : Vec F S1x1024 .f32) : Vec F S1024x1 .f32 :=
  VS2_0.read (Elt F) (VS2_0.writes (Elt F) VS2_0.junk (kernelRun2_A c i arg2 harg2 arg3 harg3 arg4 harg4 arg5 harg5 arg6 harg6 arg7 harg7 hc0 hc1 hc2 x0 x1 x2 x3).1)

theorem scover2_B (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : ¬cond2_1 i) (hc2 : ¬cond2_2 i) (y : S1024x1.Idx) :
    ∃ pc ∈ (kernelRun2_B (F := F) c i arg2 harg2 arg3 harg3 arg4 harg4 arg5 harg5 arg6 harg6 arg7 harg7 hc0 hc1 hc2).1, y ∈ pc.1.set :=
  View.cover_of_tiledL (kernelRun2_B (F := F) c i arg2 harg2 arg3 harg3 arg4 harg4 arg5 harg5 arg6 harg6 arg7 harg7 hc0 hc1 hc2).1 S1024x1.size (by sl_kernel_rfl) y

/-- What case B leaves in the accumulator (the zero block): its pieces read back. -/
def sout2_B (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : ¬cond2_1 i) (hc2 : ¬cond2_2 i) : Vec F S1024x1 .f32 :=
  VS2_0.read (Elt F) (VS2_0.writes (Elt F) VS2_0.junk (kernelRun2_B (F := F) c i arg2 harg2 arg3 harg3 arg4 harg4 arg5 harg5 arg6 harg6 arg7 harg7 hc0 hc1 hc2).1)

theorem scover2_C (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : ¬cond2_2 i) (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun2_C c i arg2 harg2 arg3 harg3 arg4 harg4 arg5 harg5 arg6 harg6 arg7 harg7 hc0 hc1 hc2 x0 x1 x2 x3 xs0).1, y ∈ pc.1.set :=
  View.cover_of_tiledL (kernelRun2_C c i arg2 harg2 arg3 harg3 arg4 harg4 arg5 harg5 arg6 harg6 arg7 harg7 hc0 hc1 hc2 x0 x1 x2 x3 xs0).1 S1024x1.size (by sl_kernel_rfl) y

/-- What case C leaves in the accumulator: its pieces read back. -/
def sout2_C (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : ¬cond2_2 i) (x0 : Vec F S1024x16 .f32) (x1 : Vec F S1024x16 .f32) (x2 : Vec F S1024x1 .f32) (x3 : Vec F S1x1024 .f32) (xs0 : Vec F S1024x1 .f32) : Vec F S1024x1 .f32 :=
  VS2_0.read (Elt F) (VS2_0.writes (Elt F) VS2_0.junk (kernelRun2_C c i arg2 harg2 arg3 harg3 arg4 harg4 arg5 harg5 arg6 harg6 arg7 harg7 hc0 hc1 hc2 x0 x1 x2 x3 xs0).1)

theorem scover2_E (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i) (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun2_E c i arg2 harg2 arg3 harg3 arg4 harg4 arg5 harg5 arg6 harg6 arg7 harg7 hc0 hc1 hc2 x0 x1 x2 x3 xs0).2.1, y ∈ pc.1.set :=
  View.cover_of_tiledL (kernelRun2_E c i arg2 harg2 arg3 harg3 arg4 harg4 arg5 harg5 arg6 harg6 arg7 harg7 hc0 hc1 hc2 x0 x1 x2 x3 xs0).2.1 S1024x1.size (by sl_kernel_rfl) y

/-- What case E leaves in the accumulator: its pieces read back. -/
def sout2_E (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i) (x0 : Vec F S1024x16 .f32) (x1 : Vec F S1024x16 .f32) (x2 : Vec F S1024x1 .f32) (x3 : Vec F S1x1024 .f32) (xs0 : Vec F S1024x1 .f32) : Vec F S1024x1 .f32 :=
  VS2_0.read (Elt F) (VS2_0.writes (Elt F) VS2_0.junk (kernelRun2_E c i arg2 harg2 arg3 harg3 arg4 harg4 arg5 harg5 arg6 harg6 arg7 harg7 hc0 hc1 hc2 x0 x1 x2 x3 xs0).2.1)

/-- Case E's one store into the output's buffer covers it. -/
theorem cover2_E_4 (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i) (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun2_E c i arg2 harg2 arg3 harg3 arg4 harg4 arg5 harg5 arg6 harg6 arg7 harg7 hc0 hc1 hc2 x0 x1 x2 x3 xs0).1, y ∈ pc.1.set :=
  View.cover_of_tiledL (kernelRun2_E c i arg2 harg2 arg3 harg3 arg4 harg4 arg5 harg5 arg6 harg6 arg7 harg7 hc0 hc1 hc2 x0 x1 x2 x3 xs0).1 S1024x1.size (by sl_kernel_rfl) y

/-- What case E leaves in the output's buffer: its pieces read back. -/
def out2_E_4 (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i) (x0 : Vec F S1024x16 .f32) (x1 : Vec F S1024x16 .f32) (x2 : Vec F S1024x1 .f32) (x3 : Vec F S1x1024 .f32) (xs0 : Vec F S1024x1 .f32) : Vec F S1024x1 .f32 :=
  VO2_4.read (Elt F) (VO2_4.writes (Elt F) VO2_4.junk (kernelRun2_E c i arg2 harg2 arg3 harg3 arg4 harg4 arg5 harg5 arg6 harg6 arg7 harg7 hc0 hc1 hc2 x0 x1 x2 x3 xs0).1)

/-- Away from the last column nothing is stored into the output's buffer and the pipeline neither writes it back nor
    reads it at the next point: what is recorded for it there is a placeholder nothing consults. -/
def out2_idle_4 : Vec F S1024x1 .f32 := VO2_4.read (Elt F) VO2_4.junk

/-! ## The conditions at a point from their closed forms -/

theorem c0_of {t : Fin cfg2.N} (h : t.val % 8 = 0) : cond2_0 (grid2.coords t) := (hcond2_0 t).mpr h
theorem nc0_of {t : Fin cfg2.N} (h : ¬t.val % 8 = 0) : ¬cond2_0 (grid2.coords t) := fun hh => h ((hcond2_0 t).mp hh)
theorem c1_of {t : Fin cfg2.N} (h : t.val / 8 ≤ t.val % 8) : cond2_1 (grid2.coords t) := (hcond2_1 t).mpr h
theorem nc1_of {t : Fin cfg2.N} (h : ¬t.val / 8 ≤ t.val % 8) : ¬cond2_1 (grid2.coords t) := fun hh => h ((hcond2_1 t).mp hh)
theorem c2_of {t : Fin cfg2.N} (h : t.val % 8 = 7) : cond2_2 (grid2.coords t) := (hcond2_2 t).mpr h
theorem nc2_of {t : Fin cfg2.N} (h : ¬t.val % 8 = 7) : ¬cond2_2 (grid2.coords t) := fun hh => h ((hcond2_2 t).mp hh)
theorem lt64 (t : Fin cfg2.N) : t.val < 64 := lt_of_lt_of_eq t.isLt (show cfg2.N = 64 from N_2)

/-! ## The five cases at a point of the grid, on the point's staging memrefs and input blocks -/

/-- The accumulator after the grid's first point (first column, on the diagonal): zero plus the point's contribution. -/
def accA (c : Dev nD) (t : Fin cfg2.N) (hz : t.val = 0) : Vec F S1024x1 .f32 :=
  sout2_A c (grid2.coords t) (ms2_0 t) (hs2_0 t) (ms2_1 t) (hs2_1 t) (ms2_2 t) (hs2_2 t) (ms2_3 t) (hs2_3 t) (ms2_4 t) (hs2_4 t) scM2_0 (Memref.isWhole_whole _) (c0_of (by omega)) (c1_of (by omega)) (nc2_of (by omega)) (iblk2 V c 0 t) (iblk2 V c 1 t) (iblk2 V c 2 t) (iblk2 V c 3 t)

/-- The accumulator after the first point of a later row (below the diagonal): zero. -/
def accB (c : Dev nD) (t : Fin cfg2.N) (h0 : t.val % 8 = 0) (hz : t.val ≠ 0) : Vec F S1024x1 .f32 :=
  sout2_B (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (c0_of h0) (nc1_of (by omega)) (nc2_of (by omega))

/-- The accumulator after a contributing point inside a row, from what the point before left (`xs`). -/
def accC (c : Dev nD) (t : Fin cfg2.N) (h0 : ¬t.val % 8 = 0) (h1 : t.val / 8 ≤ t.val % 8) (h2 : ¬t.val % 8 = 7) (xs : Vec F S1024x1 .f32) : Vec F S1024x1 .f32 :=
  sout2_C c (grid2.coords t) (ms2_0 t) (hs2_0 t) (ms2_1 t) (hs2_1 t) (ms2_2 t) (hs2_2 t) (ms2_3 t) (hs2_3 t) (ms2_4 t) (hs2_4 t) scM2_0 (Memref.isWhole_whole _) (nc0_of h0) (c1_of h1) (nc2_of h2) (iblk2 V c 0 t) (iblk2 V c 1 t) (iblk2 V c 2 t) (iblk2 V c 3 t) xs

/-- The accumulator after a row's last point, from what the point before left. -/
def accE (c : Dev nD) (t : Fin cfg2.N) (h0 : ¬t.val % 8 = 0) (h1 : t.val / 8 ≤ t.val % 8) (h2 : t.val % 8 = 7) (xs : Vec F S1024x1 .f32) : Vec F S1024x1 .f32 :=
  sout2_E c (grid2.coords t) (ms2_0 t) (hs2_0 t) (ms2_1 t) (hs2_1 t) (ms2_2 t) (hs2_2 t) (ms2_3 t) (hs2_3 t) (ms2_4 t) (hs2_4 t) scM2_0 (Memref.isWhole_whole _) (nc0_of h0) (c1_of h1) (c2_of h2) (iblk2 V c 0 t) (iblk2 V c 1 t) (iblk2 V c 2 t) (iblk2 V c 3 t) xs

/-- The output's staging buffer after a row's last point: the accumulator's final contents copied. -/
def outE (c : Dev nD) (t : Fin cfg2.N) (h0 : ¬t.val % 8 = 0) (h1 : t.val / 8 ≤ t.val % 8) (h2 : t.val % 8 = 7) (xs : Vec F S1024x1 .f32) : Vec F S1024x1 .f32 :=
  out2_E_4 c (grid2.coords t) (ms2_0 t) (hs2_0 t) (ms2_1 t) (hs2_1 t) (ms2_2 t) (hs2_2 t) (ms2_3 t) (hs2_3 t) (ms2_4 t) (hs2_4 t) scM2_0 (Memref.isWhole_whole _) (nc0_of h0) (c1_of h1) (c2_of h2) (iblk2 V c 0 t) (iblk2 V c 1 t) (iblk2 V c 2 t) (iblk2 V c 3 t) xs

/-! ## What the output's buffer and the accumulator hold after each point -/

/-- THE ACCUMULATION: the pair (output's staging buffer, accumulator) after the body at position `n`. At a row's first
    point the accumulator is reset whatever it held; at a contributing point it is the point's case run over what the
    point before left; at a point below the diagonal it is what the point before left, unchanged. -/
def outsAt2 (c : Dev nD) : (n : ℕ) → n < cfg2.N → Vec F S1024x1 .f32 × Vec F S1024x1 .f32
  | 0, hn => (out2_idle_4, accA V c ⟨0, hn⟩ rfl)
  | n + 1, hn =>
    if h0 : (n + 1) % 8 = 0 then
      (out2_idle_4, accB c ⟨n + 1, hn⟩ h0 (Nat.succ_ne_zero n))
    else if h1 : (n + 1) / 8 ≤ (n + 1) % 8 then
      if h2 : (n + 1) % 8 = 7 then
        (outE V c ⟨n + 1, hn⟩ h0 h1 h2 (outsAt2 c n (Nat.lt_of_succ_lt hn)).2, accE V c ⟨n + 1, hn⟩ h0 h1 h2 (outsAt2 c n (Nat.lt_of_succ_lt hn)).2)
      else
        (out2_idle_4, accC V c ⟨n + 1, hn⟩ h0 h1 h2 (outsAt2 c n (Nat.lt_of_succ_lt hn)).2)
    else
      (out2_idle_4, (outsAt2 c n (Nat.lt_of_succ_lt hn)).2)

/-- The point before `t`. -/
abbrev prevLt (t : Fin cfg2.N) : t.val - 1 < cfg2.N := Nat.lt_of_le_of_lt (Nat.sub_le _ _) t.isLt

theorem outsAt2_A (c : Dev nD) (t : Fin cfg2.N) (hz : t.val = 0) :
    outsAt2 V c t.val t.isLt = (out2_idle_4, accA V c t hz) := by
  obtain ⟨n, hn⟩ := t
  cases n with
  | zero => exact rfl
  | succ n => exact absurd hz (Nat.succ_ne_zero n)

theorem outsAt2_B (c : Dev nD) (t : Fin cfg2.N) (h0 : t.val % 8 = 0) (hz : t.val ≠ 0) :
    outsAt2 V c t.val t.isLt = (out2_idle_4, accB c t h0 hz) := by
  obtain ⟨n, hn⟩ := t
  cases n with
  | zero => exact absurd rfl hz
  | succ n => exact (dif_pos h0).trans rfl

theorem outsAt2_C (c : Dev nD) (t : Fin cfg2.N) (h0 : ¬t.val % 8 = 0) (h1 : t.val / 8 ≤ t.val % 8) (h2 : ¬t.val % 8 = 7) :
    outsAt2 V c t.val t.isLt = (out2_idle_4, accC V c t h0 h1 h2 (outsAt2 V c (t.val - 1) (prevLt t)).2) := by
  obtain ⟨n, hn⟩ := t
  cases n with
  | zero => exact absurd (Nat.zero_mod _) h0
  | succ n => exact (dif_neg h0).trans ((dif_pos h1).trans ((dif_neg h2).trans rfl))

theorem outsAt2_D (c : Dev nD) (t : Fin cfg2.N) (h0 : ¬t.val % 8 = 0) (h1 : ¬t.val / 8 ≤ t.val % 8) :
    outsAt2 V c t.val t.isLt = (out2_idle_4, (outsAt2 V c (t.val - 1) (prevLt t)).2) := by
  obtain ⟨n, hn⟩ := t
  cases n with
  | zero => exact absurd (Nat.zero_mod _) h0
  | succ n => exact (dif_neg h0).trans ((dif_neg h1).trans rfl)

theorem outsAt2_E (c : Dev nD) (t : Fin cfg2.N) (h0 : ¬t.val % 8 = 0) (h1 : t.val / 8 ≤ t.val % 8) (h2 : t.val % 8 = 7) :
    outsAt2 V c t.val t.isLt = (outE V c t h0 h1 h2 (outsAt2 V c (t.val - 1) (prevLt t)).2, accE V c t h0 h1 h2 (outsAt2 V c (t.val - 1) (prevLt t)).2) := by
  obtain ⟨n, hn⟩ := t
  cases n with
  | zero => exact absurd (Nat.zero_mod _) h0
  | succ n => exact (dif_neg h0).trans ((dif_pos h1).trans ((dif_pos h2).trans rfl))

/-! ## The region invariant, point by point -/

/-- Before the first point: what the launch hands over. Afterwards: the accumulator at what the point before left in
    it, the other scoped buffers at some contents, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The pipeline's proof data -/

/-- The arrays as the region finds them; after the body at a point each input's buffer at its block and the output's
    at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the closed forms of the three conditions say which
    of the five cases the point is in; the invariant hands the body the accumulator — at anything before the grid's
    first point, at what the point before left afterwards (a row's first point accepts it at anything and resets it; a
    point below the diagonal hands it back as it was) — and takes it back at this point's contents; away from a row's
    last point the output's buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt64 t
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases hz : t.val = 0
  · -- the grid's first point
    have hc2 : ¬cond2_2 (grid2.coords t) := nc2_of (by omega)
    rw [Dat.leavesExact_idle (dat2 V c) 4 t (idleAt2_4 t hc2) (noFlush2_4 t hc2)]
    rw [outsAt2_A V c t hz]
    unfold accA sout2_A; (try dsimp only)
    rw [PhiS2_castSucc V c t, PhiS2_zero V c _ _ hz, PhiA2_eq]
    iintro ⟨⟨⟨HS0, HR⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ (c0_of (by omega)) (c1_of (by omega)) hc2 (iblk2 V c 0 t) (iblk2 V c 1 t) (iblk2 V c 2 t) (iblk2 V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    iexists _; iexact H4
  rw [PhiS2_castSucc V c t, PhiS2_pos V c _ _ hz]
  by_cases h0 : t.val % 8 = 0
  · -- a later row's first point: the accumulator is reset whatever it held
    have hc2 : ¬cond2_2 (grid2.coords t) := nc2_of (by omega)
    rw [Dat.leavesExact_idle (dat2 V c) 4 t (idleAt2_4 t hc2) (noFlush2_4 t hc2)]
    rw [outsAt2_B V c t h0 hz]
    unfold accB sout2_B; (try dsimp only)
    iintro ⟨⟨⟨HS0, HR⟩, Hg⟩, Ho, ⟨%d0, H0⟩, ⟨%d1, H1⟩, ⟨%d2, H2⟩, ⟨%d3, H3⟩, ⟨%d4, H4⟩⟩
    iapply ((kernelRun2_B (F := F) c (grid2.coords t) _ _ _ _ _ _ _ _ _ _ _ _ (c0_of h0) (nc1_of (by omega)) hc2).2 _ _ _ _ _ Set.univ _)
    isplitl [H0]; · iexact H0
    isplitl [H1]; · iexact H1
    isplitl [H2]; · iexact H2
    isplitl [H3]; · iexact H3
    isplitl [H4]; · iexact H4
    isplitl [HS0]; · iexists _; iexact HS0
    iintro ⟨H0, H1, H2, H3, H4, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_B c _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    iexists _; iexact H4
  by_cases h1 : t.val / 8 ≤ t.val % 8
  · by_cases h2 : t.val % 8 = 7
    · -- a row's last point: the accumulator added to and copied to the output's buffer
      rw [show (dat2 V c).leavesExact 4 t = owns (c : Thread nD τ) (ms2_4 t) fullShare ((dat2 V c).after 4 t) from by
        unfold Dat.leavesExact; rw [liveAt2_4 t (c2_of h2)], after2_4]
      rw [outsAt2_E V c t h0 h1 h2]
      unfold outE accE out2_E_4 sout2_E; (try dsimp only)
      iintro ⟨⟨⟨HS0, HR⟩, Hg⟩, Ho, ⟨%d0, H0⟩, ⟨%d1, H1⟩, ⟨%d2, H2⟩, ⟨%d3, H3⟩, ⟨%d4, H4⟩⟩
      iapply ((kernelRun2_E c (grid2.coords t) _ _ _ _ _ _ _ _ _ _ _ _ (nc0_of h0) (c1_of h1) (c2_of h2) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_E c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_E_4 c _ _ _ _ _ _ _ _ _ _ _ _ _ _ _ _ _ _ _ _ _)
    · -- a contributing point inside a row
      have hc2 : ¬cond2_2 (grid2.coords t) := nc2_of h2
      rw [Dat.leavesExact_idle (dat2 V c) 4 t (idleAt2_4 t hc2) (noFlush2_4 t hc2)]
      rw [outsAt2_C V c t h0 h1 h2]
      unfold accC sout2_C; (try dsimp only)
      iintro ⟨⟨⟨HS0, HR⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (nc0_of h0) (c1_of h1) hc2 (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · -- a point below the diagonal: nothing is touched
    have hc2 : ¬cond2_2 (grid2.coords t) := nc2_of (by omega)
    rw [Dat.leavesExact_idle (dat2 V c) 4 t (idleAt2_4 t hc2) (noFlush2_4 t hc2)]
    rw [outsAt2_D V c t h0 h1]
    iintro ⟨⟨⟨HS0, HR⟩, Hg⟩, Ho, ⟨%d0, H0⟩, ⟨%d1, H1⟩, ⟨%d2, H2⟩, ⟨%d3, H3⟩, ⟨%d4, H4⟩⟩
    iapply (kernelRun2_D c (grid2.coords t) _ _ _ _ _ _ _ _ _ _ _ _ (nc0_of h0) (nc1_of h1) hc2 Set.univ _)
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the launch's form back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.KI.R3Runs.lean ====
import proofs.«104416_j77807627534714_2_alg».proof.Proof.Gen.KernelIdeal.Launch
import proofs.«104416_j77807627534714_2_alg».proof.Proof.Gen.KernelIdeal.Skeleton
import proofs.«104416_j77807627534714_2_alg».proof.Proof.Gen.KernelIdeal.Points
import Idealize.ShloMosaic.Lib.Pipeline.FrameBody
import Idealize.ShloMosaic.Lib.Ring
import Idealize.ShloMosaic.Lib.Tactic

set_option maxRecDepth 16384

/-! # Region 3 (the pairwise kernel without a mask, grid 8 × 8): what its body does at one grid point

The grid point `t = 8 * i + j` handles row block `i` against column block `j`. The body keeps a per-row accumulator in a
scratch buffer that persists from point to point: it is set to zero when `j = 0`, a row sum over column block `j` is added
at every point, and when `j = 7` the accumulated column is copied to the output block of row block `i`. This module states
the two branch conditions in closed form over the grid, where the output window is idle, the memrefs the body is
called with, how the region invariant splits off the accumulator, and the body's run in each of the three cases. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s (`hA`) and whose body leaves the block in place (`hafter`): where the window is not fetched its
    block index has not moved, so the block the buffer still holds is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s (`hA`) and whose body leaves the block in place (`hafter`): where the window is not fetched its
    block index has not moved, so the block the buffer still holds is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s (`hA`) and whose body leaves the block in place (`hafter`): where the window is not fetched its
    block index has not moved, so the block the buffer still holds is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s (`hA`) and whose body leaves the block in place (`hafter`): where the window is not fetched its
    block index has not moved, so the block the buffer still holds is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the first branch (reset the accumulator): the column coordinate is 0. -/
abbrev cond3_0 (i : grid3.Coords) : Prop := (Scalar.cmpi .ne (Scalar.extui (Scalar.cmpi .eq (BitVec.ofNat 32 (i 1).val) 0#32)) 0#32) = 1#1
/-- It holds exactly at the points ≡ 0 (mod 8) — decided over the 64 points. -/
theorem hcond3_0 : ∀ t : Fin cfg3.N, cond3_0 (grid3.coords t) ↔ t.val % 8 = 0 :=
  (by decide +kernel : ∀ t : Fin grid3.N, cond3_0 (grid3.coords t) ↔ t.val % 8 = 0)

/-- The condition of the second branch (copy the accumulator to the output): the column coordinate is 7. -/
abbrev cond3_1 (i : grid3.Coords) : Prop := k3_cond2 i = 1#1
/-- It holds exactly at the points ≡ 7 (mod 8) — decided over the 64 points. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The four input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Where the column coordinate is not 7 the output window is idle (nothing is stored into it) and its block is not
    written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- Where the column coordinate is 7 the output window is live. -/
theorem liveAt3_4 : ∀ t : Fin cfg3.N, cond3_1 (grid3.coords t) → cfg3.idle 4 (grid3.coords t) = false := by decide +kernel

/-! ## The memrefs the body is called with -/

/-- One staging buffer of the output window, through which its contents are stated (the choice does not matter:
    what a covering list of writes leaves reads the same through any view). -/
abbrev VO3_4 : View sig .tc .vmem S1024x1 .f32 := (Memref.whole cc3_stg4_0 : Memref sig .tc .vmem S1024x1 .f32).view
/-- Each window's current staging memref at point `t`, spelled as the pipeline passes it, and its wholeness. -/
abbrev ms3_0 (t : Fin cfg3.N) : Memref sig .tc .vmem S1024x16 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x16 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x1 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3_0 : Memref sig .tc .vmem S1024x1 .f32 := Memref.whole cc3_scratch0
/-- The accumulator as a view: what it holds is stated through it. -/
abbrev VS3_0 : View sig .tc .vmem S1024x1 .f32 := scM3_0.view

/-! ## The region invariant, split at the accumulator -/

/-- The core's scoped buffers that are no staging buffer of this region, split at the accumulator: its points-to
    at some contents, then every other such buffer (the other regions' staging buffers and accumulators) unopened. -/
theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop(iprop((∃ f : Buf Val ((c : Thread nD τ).loc cc3_scratch0), ((c : Thread nD τ).loc cc3_scratch0) ↦{fullShare} f))
          ∗ Pipeline.scopedRestBut (Ix := Ix) (Name := Name) (U := U) (Lvl := Lvl) (Val := Val) spec3 c [cc3_scratch0]) :=
  Pipeline.scopedRest_split_of_list spec3 c [cc3_scratch0] (by decide) (by decide)

/-- Every scoped buffer of the core that is neither a staging buffer of this region nor its accumulator, at some
    contents each: carried along unopened. -/
abbrev rest3 (c : Dev nD) : sProp 𝕄 :=
  Pipeline.scopedRestBut (Ix := Unit) (Name := ℕ) (U := UR sig nD τ) (Lvl := ℕ) (Val := Elt F) spec3 c [cc3_scratch0]

/-- What the launch hands the region: the accumulator owned at some contents, the other scoped buffers, and the
    generator register at some state. -/
theorem PhiA3_eq (c : Dev nD) :
    (Pipeline.ΦA spec3 c : sProp 𝕄)
      = iprop(iprop((∃ d, owns (c : Thread nD τ) scM3_0 fullShare d) ∗ rest3 (F := F) c) ∗ (∃ r, prngReg c r)) := by
  unfold Pipeline.ΦA; rw [scopedRest3_split]; simp only [scM3_0, owns_whole]; try rfl

/-! ## The body's run, case by case -/

set_option maxHeartbeats 1000000 in
/-- The body at a point where the column coordinate is 0 (the accumulator is reset) and not 7: the four input
    buffers at their contents, the output buffer at contents handed back untouched (the branch that stores into it is
    not taken), the accumulator at ANY contents (it is overwritten with zeros before it is read). The body runs to the
    continuation with the inputs as they were, the output buffer untouched and the accumulator with the pieces `LS0`
    written; the pieces are found by running the body's skeleton of memory operations, its arithmetic kept as
    opaque payload terms. -/
noncomputable def kernelRun3_A (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond3_0 i) (hc1 : ¬cond3_1 i)
    (x0 : Vec F S1024x16 .f32) (x1 : Vec F S1024x16 .f32) (x2 : Vec F S1024x1 .f32) (x3 : Vec F S1x1024 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_nomask_kernel i arg2 harg2 arg3 harg3 arg4 harg4 arg5 harg5 arg6 harg6 arg7 harg7) K } := by
  refine ⟨[], ?_, fun xi4 E K => ?run⟩
  case run =>
    simp only [cc3__pairwise_nomask_kernel_eq_skeleton]; unfold cc3__pairwise_nomask_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The body at a point where the column coordinate is neither 0 nor 7: the four input buffers at their contents,
    the output buffer at contents handed back untouched, the accumulator at what the point before left (`xs0`). The
    body runs to the continuation with the inputs as they were, the output buffer untouched and the accumulator with
    the pieces `LS0` written. -/
noncomputable def kernelRun3_B (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : ¬cond3_1 i)
    (x0 : Vec F S1024x16 .f32) (x1 : Vec F S1024x16 .f32) (x2 : Vec F S1024x1 .f32) (x3 : Vec F S1x1024 .f32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_nomask_kernel i arg2 harg2 arg3 harg3 arg4 harg4 arg5 harg5 arg6 harg6 arg7 harg7) K } := by
  refine ⟨[], ?_, fun xi4 E K => ?run⟩
  case run =>
    simp only [cc3__pairwise_nomask_kernel_eq_skeleton]; unfold cc3__pairwise_nomask_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- The body at a point where the column coordinate is 7 (and not 0): the four input buffers at their contents,
    the output buffer at anything, the accumulator at what the point before left (`xs0`). The body runs to the
    continuation with the inputs as they were, the output buffer with the pieces `L4` written (the accumulator's final
    contents copied) and the accumulator with the pieces `LS0` written. -/
noncomputable def kernelRun3_C (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3__pairwise_nomask_kernel i arg2 harg2 arg3 harg3 arg4 harg4 arg5 harg5 arg6 harg6 arg7 harg7) K } := by
  refine ⟨?_, ?_, fun E K => ?run⟩
  case run =>
    simp only [cc3__pairwise_nomask_kernel_eq_skeleton]; unfold cc3__pairwise_nomask_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R3.lean ====
import proofs.«104416_j77807627534714_2_alg».proof.Proof.KI.R3Runs

set_option maxRecDepth 16384

/-! # Region 3 (the pairwise kernel without a mask, grid 8 × 8): the proof data of its pipeline and the body obligation

What the output's staging buffer and the accumulator hold after the body at each grid point, by recursion on the point
(`outsAt3`): at a point ≡ 0 (mod 8) the accumulator restarts from zero, at any other point it continues from what the
point before left, and at a point ≡ 7 (mod 8) the output block receives the accumulator. From this the proof data
(`dat3`), the region invariant point by point (`PhiS3`), and the body obligation at a generic point. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## What each case leaves, as functions of the blocks and the accumulator before -/

/-- Case A stores nothing into the output (the window is idle at its points and not written back there): no
    pieces — a placeholder (junk read back) that nothing consults. -/
def out3_A_4 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond3_0 i) (hc1 : ¬cond3_1 i)
    (x0 : Vec F S1024x16 .f32) (x1 : Vec F S1024x16 .f32) (x2 : Vec F S1024x1 .f32) (x3 : Vec F S1x1024 .f32) : Vec F S1024x1 .f32 :=
  VO3_4.read (Elt F) (VO3_4.writes (Elt F) VO3_4.junk (kernelRun3_A c i arg2 harg2 arg3 harg3 arg4 harg4 arg5 harg5 arg6 harg6 arg7 harg7 hc0 hc1 x0 x1 x2 x3).1)

/-- Case A's pieces for the accumulator cover it: whole-buffer stores. -/
theorem scover3_A_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond3_0 i) (hc1 : ¬cond3_1 i)
    (x0 : Vec F S1024x16 .f32) (x1 : Vec F S1024x16 .f32) (x2 : Vec F S1024x1 .f32) (x3 : Vec F S1x1024 .f32) (y : S1024x1.Idx) :
    ∃ pc ∈ (kernelRun3_A c i arg2 harg2 arg3 harg3 arg4 harg4 arg5 harg5 arg6 harg6 arg7 harg7 hc0 hc1 x0 x1 x2 x3).2.1, y ∈ pc.1.set :=
  View.cover_of_tiledL (kernelRun3_A c i arg2 harg2 arg3 harg3 arg4 harg4 arg5 harg5 arg6 harg6 arg7 harg7 hc0 hc1 x0 x1 x2 x3).2.1 S1024x1.size (by sl_kernel_rfl) y

/-- What case A leaves in the accumulator: its pieces read back over junk. -/
def sout3_A_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond3_0 i) (hc1 : ¬cond3_1 i)
    (x0 : Vec F S1024x16 .f32) (x1 : Vec F S1024x16 .f32) (x2 : Vec F S1024x1 .f32) (x3 : Vec F S1x1024 .f32) : Vec F S1024x1 .f32 :=
  VS3_0.read (Elt F) (VS3_0.writes (Elt F) VS3_0.junk (kernelRun3_A c i arg2 harg2 arg3 harg3 arg4 harg4 arg5 harg5 arg6 harg6 arg7 harg7 hc0 hc1 x0 x1 x2 x3).2.1)

/-- Case B stores nothing into the output (the window is idle at its points and not written back there): no
    pieces — a placeholder (junk read back) that nothing consults. -/
def out3_B_4 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : ¬cond3_1 i)
    (x0 : Vec F S1024x16 .f32) (x1 : Vec F S1024x16 .f32) (x2 : Vec F S1024x1 .f32) (x3 : Vec F S1x1024 .f32) (xs0 : Vec F S1024x1 .f32) : Vec F S1024x1 .f32 :=
  VO3_4.read (Elt F) (VO3_4.writes (Elt F) VO3_4.junk (kernelRun3_B c i arg2 harg2 arg3 harg3 arg4 harg4 arg5 harg5 arg6 harg6 arg7 harg7 hc0 hc1 x0 x1 x2 x3 xs0).1)

/-- Case B's pieces for the accumulator cover it: whole-buffer stores. -/
theorem scover3_B_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : ¬cond3_1 i)
    (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun3_B c i arg2 harg2 arg3 harg3 arg4 harg4 arg5 harg5 arg6 harg6 arg7 harg7 hc0 hc1 x0 x1 x2 x3 xs0).2.1, y ∈ pc.1.set :=
  View.cover_of_tiledL (kernelRun3_B c i arg2 harg2 arg3 harg3 arg4 harg4 arg5 harg5 arg6 harg6 arg7 harg7 hc0 hc1 x0 x1 x2 x3 xs0).2.1 S1024x1.size (by sl_kernel_rfl) y

/-- What case B leaves in the accumulator: its pieces read back over junk. -/
def sout3_B_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : ¬cond3_1 i)
    (x0 : Vec F S1024x16 .f32) (x1 : Vec F S1024x16 .f32) (x2 : Vec F S1024x1 .f32) (x3 : Vec F S1x1024 .f32) (xs0 : Vec F S1024x1 .f32) : Vec F S1024x1 .f32 :=
  VS3_0.read (Elt F) (VS3_0.writes (Elt F) VS3_0.junk (kernelRun3_B c i arg2 harg2 arg3 harg3 arg4 harg4 arg5 harg5 arg6 harg6 arg7 harg7 hc0 hc1 x0 x1 x2 x3 xs0).2.1)

/-- Case C's pieces for the output tile its block (one store of the whole block), so they cover it. -/
theorem cover3_C_4 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun3_C c i arg2 harg2 arg3 harg3 arg4 harg4 arg5 harg5 arg6 harg6 arg7 harg7 hc0 hc1 x0 x1 x2 x3 xs0).1, y ∈ pc.1.set :=
  View.cover_of_tiledL (kernelRun3_C c i arg2 harg2 arg3 harg3 arg4 harg4 arg5 harg5 arg6 harg6 arg7 harg7 hc0 hc1 x0 x1 x2 x3 xs0).1 S1024x1.size (by sl_kernel_rfl) y

/-- What case C leaves in the output's staging buffer: its pieces read back over junk. -/
def out3_C_4 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) : Vec F S1024x1 .f32 :=
  VO3_4.read (Elt F) (VO3_4.writes (Elt F) VO3_4.junk (kernelRun3_C c i arg2 harg2 arg3 harg3 arg4 harg4 arg5 harg5 arg6 harg6 arg7 harg7 hc0 hc1 x0 x1 x2 x3 xs0).1)

/-- Case C's pieces for the accumulator cover it: whole-buffer stores. -/
theorem scover3_C_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) (y : S1024x1.Idx) :
    ∃ pc ∈ (kernelRun3_C c i arg2 harg2 arg3 harg3 arg4 harg4 arg5 harg5 arg6 harg6 arg7 harg7 hc0 hc1 x0 x1 x2 x3 xs0).2.1, y ∈ pc.1.set :=
  View.cover_of_tiledL (kernelRun3_C c i arg2 harg2 arg3 harg3 arg4 harg4 arg5 harg5 arg6 harg6 arg7 harg7 hc0 hc1 x0 x1 x2 x3 xs0).2.1 S1024x1.size (by sl_kernel_rfl) y

/-- What case C leaves in the accumulator: its pieces read back over junk. -/
def sout3_C_0 (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) : Vec F S1024x1 .f32 :=
  VS3_0.read (Elt F) (VS3_0.writes (Elt F) VS3_0.junk (kernelRun3_C c i arg2 harg2 arg3 harg3 arg4 harg4 arg5 harg5 arg6 harg6 arg7 harg7 hc0 hc1 x0 x1 x2 x3 xs0).2.1)

/-! ## What the output buffer and the accumulator hold after each point -/

/-- THE ACCUMULATION. What the output's staging buffer and the accumulator hold after the body at position `n` (a pair:
    the output, then the accumulator): the case the closed forms select at `n`, run at the point's memrefs and input
    blocks, the accumulator before it at what this leaves at `n - 1` (no previous contents enter where the accumulator
    is reset). -/
def outsAt3 (c : Dev nD) : (n : ℕ) → n < cfg3.N → Vec F S1024x1 .f32 × Vec F S1024x1 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h7 => by (try dsimp only at h7); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h7 => by (try dsimp only at h7); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 8 = 0 then
      (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => (fun h7 => by (try dsimp only at h7); omega) ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => (fun h7 => by (try dsimp only at h7); omega) ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 8 = 7 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
      else
        (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

/-- `outsAt3` at a point ≡ 0 (mod 8): the accumulator restarts. -/
theorem outsAt3_A (c : Dev nD) (t : Fin cfg3.N) (h0 : t.val % 8 = 0) (h1 : ¬t.val % 8 = 7) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans rfl

/-- `outsAt3` at a point ≡ 1, …, 6 (mod 8): the case's contents over what the point before left. -/
theorem outsAt3_B (c : Dev nD) (t : Fin cfg3.N) (h0 : ¬t.val % 8 = 0) (h1 : ¬t.val % 8 = 7) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point ≡ 7 (mod 8): the case's contents over what the point before left. -/
theorem outsAt3_C (c : Dev nD) (t : Fin cfg3.N) (h0 : ¬t.val % 8 = 0) (h1 : t.val % 8 = 7) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point what the launch hands over (the accumulator at
    anything); afterwards the accumulator at what the point before left in it, the other scoped buffers unopened, and
    the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulator at that point's contents. -/
theorem PhiS3_succ (c : Dev nD) (n : ℕ) (hn : n < cfg3.N) :
    PhiS3 V c (n + 1) hn = iprop(iprop(owns (c : Thread nD τ) scM3_0 fullShare ((outsAt3 V c n hn).2) ∗ rest3 (F := F) c) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 (F := F) c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt3`'s first component; the invariant
    `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the region-entry contents (the definition projected, so that `V` is never unfolded). -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the point's residue mod 8 says which case it is in;
    the invariant hands the body the accumulator at what the point before left (at anything at the first point, and the
    reset case accepts anything), and takes it back at this point's contents, the case's pieces covering it; where the
    column coordinate is not 7 the output buffer is handed back untouched, where it is 7 the case's pieces cover it;
    the other scoped buffers, the generator register and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  by_cases h0 : t.val % 8 = 0
  · by_cases h1 : t.val % 8 = 7
    · exfalso; omega
    · rw [show (dat3 V c).leavesExact 0 t = owns (c : Thread nD τ) (ms3_0 t) fullShare ((dat3 V c).after 0 t) from by
            unfold Dat.leavesExact; rw [liveAt3_0 t], after3_0]
      rw [show (dat3 V c).leavesExact 1 t = owns (c : Thread nD τ) (ms3_1 t) fullShare ((dat3 V c).after 1 t) from by
            unfold Dat.leavesExact; rw [liveAt3_1 t], after3_1]
      rw [show (dat3 V c).leavesExact 2 t = owns (c : Thread nD τ) (ms3_2 t) fullShare ((dat3 V c).after 2 t) from by
            unfold Dat.leavesExact; rw [liveAt3_2 t], after3_2]
      rw [show (dat3 V c).leavesExact 3 t = owns (c : Thread nD τ) (ms3_3 t) fullShare ((dat3 V c).after 3 t) from by
            unfold Dat.leavesExact; rw [liveAt3_3 t], after3_3]
      rw [Dat.leavesExact_idle (dat3 V c) 4 t (idleAt3_4 t (fun h => h1 ((hcond3_1 t).mp h))) (noFlush3_4 t (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat3 V c).leavesExact 0 t = owns (c : Thread nD τ) (ms3_0 t) fullShare ((dat3 V c).after 0 t) from by
            unfold Dat.leavesExact; rw [liveAt3_0 t], after3_0]
      rw [show (dat3 V c).leavesExact 1 t = owns (c : Thread nD τ) (ms3_1 t) fullShare ((dat3 V c).after 1 t) from by
            unfold Dat.leavesExact; rw [liveAt3_1 t], after3_1]
      rw [show (dat3 V c).leavesExact 2 t = owns (c : Thread nD τ) (ms3_2 t) fullShare ((dat3 V c).after 2 t) from by
            unfold Dat.leavesExact; rw [liveAt3_2 t], after3_2]
      rw [show (dat3 V c).leavesExact 3 t = owns (c : Thread nD τ) (ms3_3 t) fullShare ((dat3 V c).after 3 t) from by
            unfold Dat.leavesExact; rw [liveAt3_3 t], after3_3]
      rw [show (dat3 V c).leavesExact 4 t = owns (c : Thread nD τ) (ms3_4 t) fullShare ((dat3 V c).after 4 t) from by
            unfold Dat.leavesExact; rw [liveAt3_4 t ((hcond3_1 t).mpr h1)], after3_4]
      rw [outsAt3_C V c t h0 h1]
      unfold out3_C_4 sout3_C_0; (try dsimp only)
      have hz : t.val ≠ 0 := fun hz => h0 (by omega)
      rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) (iblk3 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover3_C_4 c _ _ _ _ _ _ _ _ _ _ _ _ _ _ _ _ _ _ _ _)
    · rw [show (dat3 V c).leavesExact 0 t = owns (c : Thread nD τ) (ms3_0 t) fullShare ((dat3 V c).after 0 t) from by
            unfold Dat.leavesExact; rw [liveAt3_0 t], after3_0]
      rw [show (dat3 V c).leavesExact 1 t = owns (c : Thread nD τ) (ms3_1 t) fullShare ((dat3 V c).after 1 t) from by
            unfold Dat.leavesExact; rw [liveAt3_1 t], after3_1]
      rw [show (dat3 V c).leavesExact 2 t = owns (c : Thread nD τ) (ms3_2 t) fullShare ((dat3 V c).after 2 t) from by
            unfold Dat.leavesExact; rw [liveAt3_2 t], after3_2]
      rw [show (dat3 V c).leavesExact 3 t = owns (c : Thread nD τ) (ms3_3 t) fullShare ((dat3 V c).after 3 t) from by
            unfold Dat.leavesExact; rw [liveAt3_3 t], after3_3]
      rw [Dat.leavesExact_idle (dat3 V c) 4 t (idleAt3_4 t (fun h => h1 ((hcond3_1 t).mp h))) (noFlush3_4 t (fun h => h1 ((hcond3_1 t).mp h)))]
      rw [outsAt3_B V c t h0 h1]
      unfold sout3_B_0; (try dsimp only)
      have hz : t.val ≠ 0 := fun hz => h0 (by omega)
      rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives back what the launch handed over: the accumulator's named
    contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.KernelIdeal.Hand

end
-- ==== Proof.KI.Main.lean ====
import proofs.«104416_j77807627534714_2_alg».proof.Proof.Gen.KernelIdeal.Launch
import proofs.«104416_j77807627534714_2_alg».proof.Proof.Gen.KernelIdeal.Skeleton
import proofs.«104416_j77807627534714_2_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic
import proofs.«104416_j77807627534714_2_alg».proof.Proof.KI.R0
import proofs.«104416_j77807627534714_2_alg».proof.Proof.KI.R1
import proofs.«104416_j77807627534714_2_alg».proof.Proof.KI.R2
import proofs.«104416_j77807627534714_2_alg».proof.Proof.KI.R3
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: nine segments from the launch to the return

@main is five stretches of host operations with the four kernel regions between them.  The buffers' contents at each of
the ten boundaries are a fold through @main: a host stretch applies its operations, a region replaces its arrays by
what its pipeline leaves in them and touches nothing else. -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, the output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (an input as entered, the output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves (an input as entered, the output's write-backs folded), every
    other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at the contents before it, left with the region's
    arrays at what the pipeline leaves there and every other buffer untouched.  Its arrays are split out of the unscoped
    buffers and put back at the exit contents; the generator register goes into the body's invariant and comes back; the
    core owes nothing; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 0).pre c (fun _ => fullShare) (adm 0).1 ∗ Pipeline.scopedRest (Ix := Unit) (Name := ℕ) (U := UR sig nD τ) (Lvl := ℕ) (Val := Elt F) spec0 c)
        ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄)
        ⊢ iprop(iprop(∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the region's
    arrays at what the pipeline leaves there and every other buffer untouched.  Its arrays are split out of the unscoped
    buffers and put back at the exit contents; the generator register goes into the body's invariant and comes back; the
    core owes nothing; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 1).pre c (fun _ => fullShare) (adm 1).1 ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄)
        ⊢ iprop(iprop(∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the region's
    arrays at what the pipeline leaves there and every other buffer untouched.  Its arrays are split out of the unscoped
    buffers and put back at the exit contents; the generator register goes into the body's invariant and comes back; the
    core owes nothing; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 2).pre c (fun _ => fullShare) (adm 2).1 ∗ Pipeline.scopedRest (Ix := Unit) (Name := ℕ) (U := UR sig nD τ) (Lvl := ℕ) (Val := Elt F) spec2 c)
        ⊢ (Pipeline.ΦA spec2 c : sProp 𝕄) := by
      unfold Pipeline.ΦA
      iintro ⟨Hp, -, Hr⟩
      isplitl [Hr]; · iexact Hr
      iexact Hp
    exact h.trans (hin2 (V5 m ρ) c)
  hout c := by
    rw [Pipeline.ownSems0_none]
    have h : (Pipeline.ΦA spec2 c : sProp 𝕄)
        ⊢ iprop(iprop(∃ r, prngReg c r) ∗ BI.emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (V5 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents before it, left with the region's
    arrays at what the pipeline leaves there and every other buffer untouched.  Its arrays are split out of the unscoped
    buffers and put back at the exit contents; the generator register goes into the body's invariant and comes back; the
    core owes nothing; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(iprop(∃ r, prngReg c r) ∗ Pipeline.prefHeld (pcfgs (F := F) 3).pre c (fun _ => fullShare) (adm 3).1 ∗ Pipeline.scopedRest (Ix := Unit) (Name := ℕ) (U := UR sig nD τ) (Lvl := ℕ) (Val := Elt F) spec3 c)
        ⊢ (Pipeline.ΦA spec3 c : sProp 𝕄) := by
      unfold Pipeline.ΦA
      iintro ⟨Hp, -, Hr⟩
      isplitl [Hr]; · iexact Hr
      iexact Hp
    exact h.trans (hin3 (V7 m ρ) c)
  hout c := by
    rw [Pipeline.ownSems0_none]
    have h : (Pipeline.ΦA spec3 c : sProp 𝕄)
        ⊢ iprop(iprop(∃ r, prngReg c r) ∗ BI.emp ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (hout3 (V7 m ρ) c).trans h
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state each unscoped buffer holds the fold's last contents `W9`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Hand

end
-- ==== Proof.KI.Writes.lean ====
import proofs.«104416_j77807627534714_2_alg».proof.Proof.Gen.KernelIdeal.Launch
import Idealize.ShloMosaic.Lib.Pipeline.RegionsLoop
import Idealize.ShloMosaic.Lib.StableHlo.Run

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-! # What the host stretches write

Each host operation writes exactly one buffer, its result.  Listing a stretch's results once lets every "this stretch
leaves that buffer alone" fact be a membership check in the list. -/

/-- The buffers the operations of stretch 0 write: their results, in program order. -/
abbrev hostOps0_W : List (Ref sig .tc) := [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_c_3, main_v20, main_v21, main_c_4, main_v22, main_v23, main_v24, main_v25, main_v26, main_v27, main_v28, main_c_5, main_v29, main_v30, main_c_6, main_v31, main_v32, main_c_7, main_v33, main_v34, main_v35, main_v36, main_v37, main_v38, main_v39, main_c_8, main_v40, main_v41, main_c_9, main_v42, main_v43, main_v44, main_v45, main_v46, main_v47, main_v48, main_c_10, main_v49, main_v50, main_c_11, main_v51, main_v52, main_c_12, main_v53, main_v54, main_v55, main_v56, main_v57, main_v58, main_v59, main_c_13, main_v60, main_v61, main_c_14, main_v62, main_v63, main_v64, main_v65, main_v66, main_v67, main_v68, main_c_15, main_v69, main_v70, main_c_16, main_v71, main_v72, main_v73, main_v74, main_v75, main_c_17, main_v76, main_v77, main_c_18, main_v78, main_v79, main_v80, main_v81, main_v82, main_c_19, main_v83, main_v84, main_c_20, main_v85, main_v86, main_v87, main_v88, main_v89, main_c_21, main_v90, main_v91, main_c_22, main_v92, main_v93, main_c_23, main_v94, main_v95, main_v96, main_v97, main_v98, main_c_24, main_v99, main_v100, main_c_25, main_v101, main_v102, main_v103, main_v104, main_v105, main_c_26, main_v106, main_v107, main_c_27, main_v108, main_v109, main_c_28, main_v110, main_v111, main_v112, main_v113, main_v114, main_c_29, main_v115, main_v116, main_c_30, main_v117, main_v118, main_v119, main_v120, main_v121, main_c_31, main_v122, main_v123, main_c_32, main_v124, main_v125, main_v126, main_v127, main_v128]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer that is no result of stretch 0 holds after it what it held before. -/
theorem hostOps0_keeps (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h

/-- The buffers the operations of stretch 1 write: their results, in program order. -/
abbrev hostOps1_W : List (Ref sig .tc) := [main_v130]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer that is no result of stretch 1 holds after it what it held before. -/
theorem hostOps1_keeps (W : Valuation τ sig (Elt F)) (r : Ref sig .tc) (h : r ∉ hostOps1_W) :
    StableHlo.after hostOps1 W (Proc.devRef .tc r) = W (Proc.devRef .tc r) :=
  StableHlo.after_of_writes_sub hostOps1 _ hostOps1_writes h

/-- The buffers the operations of stretch 2 write: their results, in program order. -/
abbrev hostOps2_W : List (Ref sig .tc) := [main_v132, main_cst, main_v133, main_cst_33, main_v134, main_v135, main_v136, main_cst_34, main_v137, main_cst_35, main_v138, main_v139, main_v140, main_v141, main_v142]
set_option maxHeartbeats 4000000 in
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer that is no result of stretch 2 holds after it what it held before. -/
theorem hostOps2_keeps (W : Valuation τ sig (Elt F)) (r : Ref sig .tc) (h : r ∉ hostOps2_W) :
    StableHlo.after hostOps2 W (Proc.devRef .tc r) = W (Proc.devRef .tc r) :=
  StableHlo.after_of_writes_sub hostOps2 _ hostOps2_writes h

/-- The buffers the operations of stretch 3 write: their results, in program order. -/
abbrev hostOps3_W : List (Ref sig .tc) := [main_cst_36, main_v144, main_v145, main_v146]
set_option maxHeartbeats 4000000 in
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer that is no result of stretch 3 holds after it what it held before. -/
theorem hostOps3_keeps (W : Valuation τ sig (Elt F)) (r : Ref sig .tc) (h : r ∉ hostOps3_W) :
    StableHlo.after hostOps3 W (Proc.devRef .tc r) = W (Proc.devRef .tc r) :=
  StableHlo.after_of_writes_sub hostOps3 _ hostOps3_writes h

/-- The buffers the operations of stretch 4 write: their results, in program order. -/
abbrev hostOps4_W : List (Ref sig .tc) := [main_cst_37, main_v148, main_v149, main_v150, main_v151, main_v152, main_cst_38, main_v153, main_cst_39, main_v154, main_cst_40, main_v155, main_cst_41, main_v156, main_v157]
set_option maxHeartbeats 4000000 in
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer that is no result of stretch 4 holds after it what it held before. -/
theorem hostOps4_keeps (W : Valuation τ sig (Elt F)) (r : Ref sig .tc) (h : r ∉ hostOps4_W) :
    StableHlo.after hostOps4 W (Proc.devRef .tc r) = W (Proc.devRef .tc r) :=
  StableHlo.after_of_writes_sub hostOps4 _ hostOps4_writes h

end Cert.KernelIdeal.Hand

end
-- ==== Proof.KI.Args.lean ====
import proofs.«104416_j77807627534714_2_alg».proof.Proof.KI.Main
import proofs.«104416_j77807627534714_2_alg».proof.Proof.KI.Writes

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! # The arguments end as launched

No host operation writes an argument and no region has one among its arrays, so the fold of the buffers' contents through
@main, read at an argument, walks back to the launch memory. -/

/-- A buffer that no stretch writes and that is no region's array holds at the end what it held at launch. -/
theorem W9_keep (c : Dev nD) (r : Ref sig .tc)
    (h0 : r ∉ hostOps0_W) (h1 : r ∉ hostOps1_W) (h2 : r ∉ hostOps2_W) (h3 : r ∉ hostOps3_W) (h4 : r ∉ hostOps4_W)
    (g0 : ∀ w, Pipeline.arrRef spec0 w ≠ r) (g1 : ∀ w, Pipeline.arrRef spec1 w ≠ r) (g2 : ∀ w, Pipeline.arrRef spec2 w ≠ r) (g3 : ∀ w, Pipeline.arrRef spec3 w ≠ r) :
    W9 m ρ c (Proc.devRef .tc r) = W0 m ρ c (Proc.devRef .tc r) :=
  (hostOps4_keeps _ r h4).trans <| (W8_of_ne m ρ c r g3).trans <| (hostOps3_keeps _ r h3).trans <| (W6_of_ne m ρ c r g2).trans <|
    (hostOps2_keeps _ r h2).trans <| (W4_of_ne m ρ c r g1).trans <| (hostOps1_keeps _ r h1).trans <| (W2_of_ne m ρ c r g0).trans <|
    hostOps0_keeps _ r h0

theorem W9_main_arg0 (c : Dev nD) : W9 m ρ c (Proc.devRef .tc main_arg0) = m ((c : Thread nD τ).loc main_arg0) :=
  (W9_keep m ρ c main_arg0 (by decide) (by decide) (by decide) (by decide) (by decide) (by decide) (by decide) (by decide) (by decide)).trans rfl
theorem W9_main_arg1 (c : Dev nD) : W9 m ρ c (Proc.devRef .tc main_arg1) = m ((c : Thread nD τ).loc main_arg1) :=
  (W9_keep m ρ c main_arg1 (by decide) (by decide) (by decide) (by decide) (by decide) (by decide) (by decide) (by decide) (by decide)).trans rfl
theorem W9_main_arg2 (c : Dev nD) : W9 m ρ c (Proc.devRef .tc main_arg2) = m ((c : Thread nD τ).loc main_arg2) :=
  (W9_keep m ρ c main_arg2 (by decide) (by decide) (by decide) (by decide) (by decide) (by decide) (by decide) (by decide) (by decide)).trans rfl
theorem W9_main_arg3 (c : Dev nD) : W9 m ρ c (Proc.devRef .tc main_arg3) = m ((c : Thread nD τ).loc main_arg3) :=
  (W9_keep m ρ c main_arg3 (by decide) (by decide) (by decide) (by decide) (by decide) (by decide) (by decide) (by decide) (by decide)).trans rfl
theorem W9_main_arg4 (c : Dev nD) : W9 m ρ c (Proc.devRef .tc main_arg4) = m ((c : Thread nD τ).loc main_arg4) :=
  (W9_keep m ρ c main_arg4 (by decide) (by decide) (by decide) (by decide) (by decide) (by decide) (by decide) (by decide) (by decide)).trans rfl
theorem W9_main_arg5 (c : Dev nD) : W9 m ρ c (Proc.devRef .tc main_arg5) = m ((c : Thread nD τ).loc main_arg5) :=
  (W9_keep m ρ c main_arg5 (by decide) (by decide) (by decide) (by decide) (by decide) (by decide) (by decide) (by decide) (by decide)).trans rfl
theorem W9_main_arg6 (c : Dev nD) : W9 m ρ c (Proc.devRef .tc main_arg6) = m ((c : Thread nD τ).loc main_arg6) :=
  (W9_keep m ρ c main_arg6 (by decide) (by decide) (by decide) (by decide) (by decide) (by decide) (by decide) (by decide) (by decide)).trans rfl
theorem W9_main_arg7 (c : Dev nD) : W9 m ρ c (Proc.devRef .tc main_arg7) = m ((c : Thread nD τ).loc main_arg7) :=
  (W9_keep m ρ c main_arg7 (by decide) (by decide) (by decide) (by decide) (by decide) (by decide) (by decide) (by decide) (by decide)).trans rfl
theorem W9_main_arg8 (c : Dev nD) : W9 m ρ c (Proc.devRef .tc main_arg8) = m ((c : Thread nD τ).loc main_arg8) :=
  (W9_keep m ρ c main_arg8 (by decide) (by decide) (by decide) (by decide) (by decide) (by decide) (by decide) (by decide) (by decide)).trans rfl
theorem W9_main_arg9 (c : Dev nD) : W9 m ρ c (Proc.devRef .tc main_arg9) = m ((c : Thread nD τ).loc main_arg9) :=
  (W9_keep m ρ c main_arg9 (by decide) (by decide) (by decide) (by decide) (by decide) (by decide) (by decide) (by decide) (by decide)).trans rfl

/-- THE FRAME's post from the run's: each argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c)⟩) (run_main m ρ)

end Cert.KernelIdeal.Hand

end
-- ==== Proof.RefFrame.lean ====
/-
  The reference's frame claim. The reference has no kernel, so there is nothing to frame around: every weakly fair run of its
  operation list terminates with the arguments unchanged — its generated run with the statement about the result dropped.
-/
import proofs.«104416_j77807627534714_2_alg».proof.Defs
import proofs.«104416_j77807627534714_2_alg».proof.Proof.Gen.ReferenceIdeal.Run
import proofs.«104416_j77807627534714_2_alg».proof.Proof.Gen.Pre_finite_inputs

noncomputable section

namespace Cert.ReferenceIdeal.HandRef

open Idealize.ShloMosaic Idealize.SL.Sem

/-- The arguments are as they were when the reference's run ends. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.HandRef

end
-- ==== Proof.KI.Keeps.lean ====
import proofs.«104416_j77807627534714_2_alg».proof.Proof.KI.Main
import proofs.«104416_j77807627534714_2_alg».proof.Proof.KI.Writes

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! # What each boundary's contents keep of the first stretch's results

A buffer written by the first host stretch (a gathered array) is read later — by a region as an input, or by a later host
stretch.  Between its writing and its reading nothing touches it: the later stretches write other buffers, and a region
changes only its result array.  These lemmas walk a boundary's contents back to the contents after the first stretch. -/

theorem W2_keep (c : Dev nD) (r : Ref sig .tc) (g0 : ∀ w, Pipeline.arrRef spec0 w ≠ r) :
    W2 m ρ c (Proc.devRef .tc r) = W1 m ρ c (Proc.devRef .tc r) := W2_of_ne m ρ c r g0
theorem W3_keep (c : Dev nD) (r : Ref sig .tc) (h1 : r ∉ hostOps1_W) (g0 : ∀ w, Pipeline.arrRef spec0 w ≠ r) :
    W3 m ρ c (Proc.devRef .tc r) = W1 m ρ c (Proc.devRef .tc r) := (hostOps1_keeps _ r h1).trans (W2_keep m ρ c r g0)
theorem W4_keep (c : Dev nD) (r : Ref sig .tc) (h1 : r ∉ hostOps1_W) (g0 : ∀ w, Pipeline.arrRef spec0 w ≠ r) (g1 : ∀ w, Pipeline.arrRef spec1 w ≠ r) :
    W4 m ρ c (Proc.devRef .tc r) = W1 m ρ c (Proc.devRef .tc r) := (W4_of_ne m ρ c r g1).trans (W3_keep m ρ c r h1 g0)
theorem W5_keep (c : Dev nD) (r : Ref sig .tc) (h1 : r ∉ hostOps1_W) (h2 : r ∉ hostOps2_W) (g0 : ∀ w, Pipeline.arrRef spec0 w ≠ r) (g1 : ∀ w, Pipeline.arrRef spec1 w ≠ r) :
    W5 m ρ c (Proc.devRef .tc r) = W1 m ρ c (Proc.devRef .tc r) := (hostOps2_keeps _ r h2).trans (W4_keep m ρ c r h1 g0 g1)
theorem W6_keep (c : Dev nD) (r : Ref sig .tc) (h1 : r ∉ hostOps1_W) (h2 : r ∉ hostOps2_W) (g0 : ∀ w, Pipeline.arrRef spec0 w ≠ r) (g1 : ∀ w, Pipeline.arrRef spec1 w ≠ r) (g2 : ∀ w, Pipeline.arrRef spec2 w ≠ r) :
    W6 m ρ c (Proc.devRef .tc r) = W1 m ρ c (Proc.devRef .tc r) := (W6_of_ne m ρ c r g2).trans (W5_keep m ρ c r h1 h2 g0 g1)
theorem W7_keep (c : Dev nD) (r : Ref sig .tc) (h1 : r ∉ hostOps1_W) (h2 : r ∉ hostOps2_W) (h3 : r ∉ hostOps3_W) (g0 : ∀ w, Pipeline.arrRef spec0 w ≠ r) (g1 : ∀ w, Pipeline.arrRef spec1 w ≠ r) (g2 : ∀ w, Pipeline.arrRef spec2 w ≠ r) :
    W7 m ρ c (Proc.devRef .tc r) = W1 m ρ c (Proc.devRef .tc r) := (hostOps3_keeps _ r h3).trans (W6_keep m ρ c r h1 h2 g0 g1 g2)

/-- An INPUT array of a region leaves the region as it entered it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

end Cert.KernelIdeal.Hand

end
-- ==== Proof.SpecViews.lean ====
/-
  How the two programs' arrays are read in the specification's terms: a rank-1 array of 500000 or 8192 entries as a function of
  the entry's number, a rank-2 array of 16-coordinate rows as a function of the row's number and the coordinate; and the sum over
  a rank-1 index set as the sum over its one coordinate (the rank-2 form is the library's `sum_idx2`). No program in sight.
-/
import Idealize.ShloMosaic.Lib.ValueIdx

noncomputable section

open scoped BigOperators

namespace Cert.Spec

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An edge vector read by its edge number. -/
def vec500k (v : (⟨1, ![500000]⟩ : Shape).Idx → EReal) : Fin 500000 → EReal := fun e => v (ix1 e)
/-- An edge-by-coordinate matrix read by edge number and coordinate. -/
def rows500k (v : (⟨2, ![500000, 16]⟩ : Shape).Idx → EReal) : Fin 500000 → Fin 16 → EReal := fun e d => v (ix2 e d)
/-- A sampled-node vector read by the node's position in the sample. -/
def vec8k (v : (⟨1, ![8192]⟩ : Shape).Idx → EReal) : Fin 8192 → EReal := fun r => v (ix1 r)
/-- A sampled-node-by-coordinate matrix read by position and coordinate. -/
def rows8k (v : (⟨2, ![8192, 16]⟩ : Shape).Idx → EReal) : Fin 8192 → Fin 16 → EReal := fun r k => v (ix2 r k)

/-- The last scalar operations, from the two modalities' link and non-link terms: each modality's loss is −(link − non-link),
    times the f32 word of 0.5, divided by the f32 word of 8192.0; the two are added. The words stay words (the same on both
    sides: never evaluated); the quotient is the extended reals' `Ideal.div`. -/
def tailRef (l1 n1 l2 n2 : EReal) : EReal :=
  Ideal.div (Ideal.ofBits .f32 0x3F000000#32 * -(l1 - n1)) (Ideal.ofBits .f32 0x46000000#32)
    + Ideal.div (Ideal.ofBits .f32 0x3F000000#32 * -(l2 - n2)) (Ideal.ofBits .f32 0x46000000#32)

end Cert.Spec

end
-- ==== Proof.KI.Host14.lean ====
/-
  The kernel program's four short stretches of host operations between and after its four regions, read in the
  specification's terms, for ANY contents `W` of the buffers when the stretch starts:
    * stretch 1 turns region 0's [1,1] result into a scalar;
    * stretch 2 does the same for region 1's result, sums the four gathered bias vectors over the 500000 edges (from the
      zero word: 0 + Σ = Σ) and forms the two link terms (Σ g0 + Σ g1) − (the region's sum of distances); it also
      re-lays the two paper–paper bias vectors as a column [8192,1] and a row [1,8192] for region 2;
    * stretch 3 sums region 2's per-row partial sums [8192,1] over both axes, and re-lays the two author–paper bias vectors;
    * stretch 4 sums region 3's per-row partial sums and applies the last scalar operations (`tailRef`).
  A re-laid array holds the same entries: the row-major position of (r, 0) in [8192,1], of (0, c) in [1,8192] and of r, c in
  [8192] agree.
-/
import proofs.«104416_j77807627534714_2_alg».proof.Proof.Gen.KernelIdeal.Launch
import proofs.«104416_j77807627534714_2_alg».proof.Proof.SpecViews
import Idealize.ShloMosaic.Lib.StableHlo.Run
import Idealize.ShloMosaic.Lib.Pipeline.Value
import Idealize.ShloMosaic.PureOps.Ideal.Laws

noncomputable section

open scoped BigOperators

namespace Cert.KernelIdeal.HandHost

open Cert.KernelIdeal Cert.KernelIdeal.Gen Cert.Spec Idealize.ShloMosaic Idealize.ShloMosaic.TcCoe Idealize.ShloMosaic.StableHlo
open Idealize.ShloMosaic.ValueIdx

/-! ## The three kinds of operation, at an index -/

/-- The host's float sum of an edge vector into a scalar, from the zero word: the sum of its entries. -/
theorem reduce500k (x : S500000.Idx → EReal) (i : S_.Idx) :
    Host.reduceAdd (F := Ideal) x (constant S_ .f32 0x00000000#32) reducesTo_S500000_S_d0 h_S_ i = ∑ e : Fin 500000, vec500k x e := by
  simp only [Host.reduceAdd, Ideal.hostReduceAdd_def]
  rw [Ideal.hostReduceAdd_total reducesTo_S500000_S_d0 (fun b => b.elim0) x _ i, constant_apply, Ideal.ofBits_zero_f32, zero_add,
    sum_idx1]
  rfl

/-- The host's float sum of a column [8192,1] over both axes, from the zero word: the sum of its 8192 entries. -/
theorem reduce8kx1 (x : S8192x1.Idx → EReal) (i : S_.Idx) :
    Host.reduceAdd (F := Ideal) x (constant S_ .f32 0x00000000#32) reducesTo_S8192x1_S_d0_1 h_S_ i
      = ∑ r : Fin 8192, x (ix2 r (0 : Fin 1)) := by
  simp only [Host.reduceAdd, Ideal.hostReduceAdd_def]
  rw [Ideal.hostReduceAdd_total reducesTo_S8192x1_S_d0_1 (fun b => b.elim0) x _ i, constant_apply, Ideal.ofBits_zero_f32, zero_add,
    sum_idx2]
  exact Finset.sum_congr rfl fun r _ => Fin.sum_univ_one _

/-- A [1,1] array re-laid as a scalar holds its one entry. -/
theorem reshape_1x1 (x : S1x1.Idx → EReal) (i : S_.Idx) :
    shapeCast S_ x shapeCasts_S1x1_S_ i = x (ix2 (0 : Fin 1) (0 : Fin 1)) := by
  refine shapeCast_apply x shapeCasts_S1x1_S_ i (ix2 (0 : Fin 1) (0 : Fin 1)) ?_
  have h0 : ((S_ : Shape).rowMajor i).val = 0 := Shape.rowMajorPi_zero _ _
  rw [Shape.rowMajor_val_two, h0]
  rfl

/-- A vector [8192] re-laid as a column [8192,1]: entry (r, 0) is entry r. -/
theorem reshape_col (x : S8192.Idx → EReal) (r : Fin 8192) :
    shapeCast S8192x1 x shapeCasts_S8192_S8192x1 (ix2 r (0 : Fin 1)) = vec8k x r := by
  refine shapeCast_apply x shapeCasts_S8192_S8192x1 (ix2 r (0 : Fin 1)) (ix1 r) ?_
  rw [Shape.rowMajor_val_one, Shape.rowMajor_val_two]
  show r.val = r.val * 1 + 0
  omega

/-- A vector [8192] re-laid as a row [1,8192]: entry (0, c) is entry c. -/
theorem reshape_row (x : S8192.Idx → EReal) (c : Fin 8192) :
    shapeCast S1x8192 x shapeCasts_S8192_S1x8192 (ix2 (0 : Fin 1) c) = vec8k x c := by
  refine shapeCast_apply x shapeCasts_S8192_S1x8192 (ix2 (0 : Fin 1) c) (ix1 c) ?_
  rw [Shape.rowMajor_val_one, Shape.rowMajor_val_two]
  show c.val = 0 * 8192 + c.val
  omega

/-- The host's quotient of two scalars, at the one index. -/
theorem hostDivf_apply (a b : FVec Ideal S_ .f32) (i : S_.Idx) : Host.divf a b i = Ideal.div (a i) (b i) := rfl
/-- The host's negation of a scalar, at the one index. -/
theorem hostNegf_apply (a : FVec Ideal S_ .f32) (i : S_.Idx) : Host.negf a i = -(a i) := rfl

/-! ## The four stretches -/

variable (W : Valuation τ sig (Elt Ideal))

/-- Stretch 1: region 0's [1,1] result as a scalar. -/
theorem H1 :
    (StableHlo.after (hostOps1 (F := Ideal)) W (Proc.devRef .tc main_v130) : S_.Idx → EReal)
      = fun _ => (W (Proc.devRef .tc main_v129) : S1x1.Idx → EReal) (ix2 (0 : Fin 1) (0 : Fin 1)) := by
  dsimp only [hostOps1]
  after_results
  funext i
  exact reshape_1x1 _ i

/-- Stretch 2, the paper–paper link term: (Σ g0 + Σ g1) − region 0's sum of distances. -/
theorem H2a :
    (StableHlo.after (hostOps2 (F := Ideal)) W (Proc.devRef .tc main_v136) : S_.Idx → EReal)
      = fun _ => ((∑ e : Fin 500000, vec500k (W (Proc.devRef .tc main_v26) : S500000.Idx → EReal) e) + (∑ e : Fin 500000, vec500k (W (Proc.devRef .tc main_v37) : S500000.Idx → EReal) e))
          - (W (Proc.devRef .tc main_v130) : S_.Idx → EReal) ix0 := by
  dsimp only [hostOps2]
  after_results
  funext i
  obtain rfl : i = ix0 := eq_ix0 i
  rw [subf_apply, addf_apply, reduce500k, reduce500k]

/-- Stretch 2, the author–paper link term: (Σ b0 + Σ b1) − region 1's sum of distances (its [1,1] result, made a scalar inside
    the stretch). -/
theorem H2b :
    (StableHlo.after (hostOps2 (F := Ideal)) W (Proc.devRef .tc main_v140) : S_.Idx → EReal)
      = fun _ => ((∑ e : Fin 500000, vec500k (W (Proc.devRef .tc main_v66) : S500000.Idx → EReal) e) + (∑ e : Fin 500000, vec500k (W (Proc.devRef .tc main_v75) : S500000.Idx → EReal) e))
          - (W (Proc.devRef .tc main_v131) : S1x1.Idx → EReal) (ix2 (0 : Fin 1) (0 : Fin 1)) := by
  dsimp only [hostOps2]
  after_results
  funext i
  obtain rfl : i = ix0 := eq_ix0 i
  rw [subf_apply, addf_apply, reduce500k, reduce500k]
  congr 1
  exact reshape_1x1 _ ix0

/-- Stretch 2, the paper–paper row bias as a column: entry (r, 0) is the gathered bias at r. -/
theorem H2c_col (r : Fin 8192) :
    (StableHlo.after (hostOps2 (F := Ideal)) W (Proc.devRef .tc main_v141) : S8192x1.Idx → EReal) (ix2 r (0 : Fin 1))
      = vec8k (W (Proc.devRef .tc main_v105) : S8192.Idx → EReal) r := by
  dsimp only [hostOps2]
  after_results
  exact reshape_col _ r

/-- Stretch 2, the paper–paper column bias as a row: entry (0, c) is the gathered bias at c. -/
theorem H2c_row (c : Fin 8192) :
    (StableHlo.after (hostOps2 (F := Ideal)) W (Proc.devRef .tc main_v142) : S1x8192.Idx → EReal) (ix2 (0 : Fin 1) c)
      = vec8k (W (Proc.devRef .tc main_v114) : S8192.Idx → EReal) c := by
  dsimp only [hostOps2]
  after_results
  exact reshape_row _ c

/-- Stretch 3: the paper–paper non-link term is the sum of region 2's per-row partial sums. -/
theorem H3a :
    (StableHlo.after (hostOps3 (F := Ideal)) W (Proc.devRef .tc main_v144) : S_.Idx → EReal)
      = fun _ => (∑ r : Fin 8192, (W (Proc.devRef .tc main_v143) : S8192x1.Idx → EReal) (ix2 r (0 : Fin 1)) : EReal) := by
  dsimp only [hostOps3]
  after_results
  funext i
  exact reduce8kx1 _ i

/-- Stretch 3, the author–paper row bias as a column. -/
theorem H3b_col (r : Fin 8192) :
    (StableHlo.after (hostOps3 (F := Ideal)) W (Proc.devRef .tc main_v145) : S8192x1.Idx → EReal) (ix2 r (0 : Fin 1))
      = vec8k (W (Proc.devRef .tc main_v121) : S8192.Idx → EReal) r := by
  dsimp only [hostOps3]
  after_results
  exact reshape_col _ r

/-- Stretch 3, the author–paper column bias as a row. -/
theorem H3b_row (c : Fin 8192) :
    (StableHlo.after (hostOps3 (F := Ideal)) W (Proc.devRef .tc main_v146) : S1x8192.Idx → EReal) (ix2 (0 : Fin 1) c)
      = vec8k (W (Proc.devRef .tc main_v128) : S8192.Idx → EReal) c := by
  dsimp only [hostOps3]
  after_results
  exact reshape_row _ c

/-- Stretch 4: the result is the last scalar operations of the two link terms, the paper–paper non-link term, and the sum of
    region 3's per-row partial sums. -/
theorem H4 :
    (StableHlo.after (hostOps4 (F := Ideal)) W (Proc.devRef .tc main_v157) : S_.Idx → EReal)
      = fun _ => tailRef ((W (Proc.devRef .tc main_v136) : S_.Idx → EReal) ix0) ((W (Proc.devRef .tc main_v144) : S_.Idx → EReal) ix0) ((W (Proc.devRef .tc main_v140) : S_.Idx → EReal) ix0)
          (∑ r : Fin 8192, (W (Proc.devRef .tc main_v147) : S8192x1.Idx → EReal) (ix2 r (0 : Fin 1))) := by
  dsimp only [hostOps4]
  after_results
  funext i
  obtain rfl : i = ix0 := eq_ix0 i
  unfold tailRef
  simp only [addf_apply, hostDivf_apply, mulf_apply, hostNegf_apply, subf_apply, constant_apply, reduce8kx1]

end Cert.KernelIdeal.HandHost

end
-- ==== Proof.Spec.lean ====
/-
  The mathematics of the certificate, stated with no program in sight: both programs compute, on the extended reals,

      loss = tail (link_pp, nonlink_pp, link_ap, nonlink_ap)

  from fifteen gathered arrays (rows of the embedding tables picked by the edge lists and by the sampled node lists, and the
  per-node biases picked the same way).  A link term is the sum over the 500000 edges of  g0 e + g1 e − dist e  with
  dist e = √(Σ_d (x e d − y e d)² + ε); a non-link term is the sum over the 8192 × 8192 pairs (strictly above the diagonal
  for the paper–paper modality) of  exp ((gx r + gy c) − √(max (|x r|² + |y c|² − 2⟨x r, y c⟩, ε))).
  The two programs differ only in how these sums are arranged:
    * the reference sums  g0 e + g1 e − dist e  edge by edge, the kernel forms  (Σ g0 + Σ g1) − Σ dist;
    * the reference doubles the left rows before the inner product, Σ_k (2 · x r k) · y c k, the kernel doubles the product,
      2 · Σ_k x r k · y c k;
    * the reference sums the pair matrix at once, the kernel row by row (and tile by tile inside a row).
  The first two need every entry to be a real number (on the extended reals  −(a + b) = −a − b  and  2·(a + b) = 2·a + 2·b
  fail at opposite infinities); the third is a reordering of a finite sum in a commutative monoid and needs nothing.
-/
import Idealize.ShloMosaic.PureOps.Ideal
import Idealize.ShloMosaic.PureOps.Ideal.Laws

noncomputable section

namespace Cert.Spec

open Idealize.ShloMosaic

/-- The floor ε under the square roots: the f32 word both programs print for 1e-12 (the same word on both sides: never evaluated). -/
def eps : EReal := Ideal.ofBits .f32 0x2B8CBCCC#32
/-- The factor 2 of the quadratic expansion: the f32 word of 2.0. -/
def two : EReal := Ideal.ofBits .f32 0x40000000#32

/-- The distance of edge `e`: √(Σ_d (x e d − y e d)² + ε). -/
def edgeDist (X Y : Fin 500000 → Fin 16 → EReal) (e : Fin 500000) : EReal :=
  Ideal.sqrt ((∑ d : Fin 16, (X e d - Y e d) * (X e d - Y e d)) + eps)

/-- The link term as the reference sums it: edge by edge. -/
def linkRef (G0 G1 : Fin 500000 → EReal) (X Y : Fin 500000 → Fin 16 → EReal) : EReal :=
  ∑ e : Fin 500000, ((G0 e + G1 e) - edgeDist X Y e)
/-- The link term as the kernel forms it: the two bias sums, less the sum of the distances. -/
def linkKer (G0 G1 : Fin 500000 → EReal) (X Y : Fin 500000 → Fin 16 → EReal) : EReal :=
  ((∑ e : Fin 500000, G0 e) + (∑ e : Fin 500000, G1 e)) - ∑ e : Fin 500000, edgeDist X Y e

/-- The squared norm of row `r`. -/
def sqn (X : Fin 8192 → Fin 16 → EReal) (r : Fin 8192) : EReal := ∑ k : Fin 16, X r k * X r k

/-- The pair distance as the reference computes it: the left rows doubled before the inner product. -/
def cdistRef (X Y : Fin 8192 → Fin 16 → EReal) (r c : Fin 8192) : EReal :=
  Ideal.sqrt (max ((sqn X r + sqn Y c) - ∑ k : Fin 16, (two * X r k) * Y c k) eps)
/-- The pair distance as the kernel computes it: the inner product doubled. -/
def cdistKer (X Y : Fin 8192 → Fin 16 → EReal) (r c : Fin 8192) : EReal :=
  Ideal.sqrt (max ((sqn X r + sqn Y c) - two * ∑ k : Fin 16, X r k * Y c k) eps)

/-- One pair's term exp (bias − distance), for either distance. -/
def pairVal (dist : Fin 8192 → Fin 8192 → EReal) (gx gy : Fin 8192 → EReal) (r c : Fin 8192) : EReal :=
  Ideal.exp ((gx r + gy c) - dist r c)

/-- The non-link term over ALL pairs (author–paper modality), a double sum (rows outside). -/
def nonlinkAll (dist : Fin 8192 → Fin 8192 → EReal) (gx gy : Fin 8192 → EReal) : EReal :=
  ∑ r : Fin 8192, ∑ c : Fin 8192, pairVal dist gx gy r c
/-- The non-link term over the pairs strictly above the diagonal (paper–paper modality). -/
def nonlinkUpper (dist : Fin 8192 → Fin 8192 → EReal) (gx gy : Fin 8192 → EReal) : EReal :=
  ∑ r : Fin 8192, ∑ c : Fin 8192, if r.val < c.val then pairVal dist gx gy r c else 0

/-- Every entry of a vector / a matrix is a real number. -/
def Fin1 {n : ℕ} (G : Fin n → EReal) : Prop := ∀ e, ∃ x : ℝ, G e = (x : EReal)
def Fin2 {n k : ℕ} (X : Fin n → Fin k → EReal) : Prop := ∀ e d, ∃ x : ℝ, X e d = (x : EReal)

end Cert.Spec

end
-- ==== Proof.SpecLaws.lean ====
/-
  The algebra of the certificate: the two arrangements of each sum of the specification agree.

    * Link term: for real entries, Σ_e ((g0 e + g1 e) − dist e) = (Σ g0 + Σ g1) − Σ dist.  Every distance is a real
      number, because its radicand Σ_d (x e d − y e d)² + ε is a sum of squares plus a nonnegative real, hence ≥ 0, and the
      square root of a nonnegative real is real.  With every term real the identity is the one of ℝ, carried through the
      embedding ℝ → EReal, which is additive (so commutes with finite sums) and commutes with subtraction.
    * Pair distance: for real entries and a real factor 2, Σ_k (2 · x k) · y k = 2 · Σ_k x k · y k, again the identity of
      ℝ (associativity and distributivity) carried through the embedding, which is also multiplicative.
    * Tilings: a sum over Fin (m·n) is the iterated sum over (t, r) ↦ t·n + r; this is a bijection Fin m × Fin n ≃ Fin (m·n)
      and needs only commutativity of addition, no finiteness of the terms.
    * In the strictly-upper-triangular sum, a column tile strictly to the left of the row block contributes nothing:
      j < i gives j·1024 + q < (j+1)·1024 ≤ i·1024 ≤ i·1024 + p.
-/
import proofs.«104416_j77807627534714_2_alg».proof.Proof.Spec
import Mathlib.Logic.Equiv.Fin.Basic
import Mathlib.Algebra.BigOperators.Fin
import Mathlib.Data.EReal.Operations
import Mathlib.Analysis.SpecialFunctions.Pow.Real

noncomputable section

namespace Cert.Spec

open Idealize.ShloMosaic

/-! ### The embedding ℝ → EReal and finite sums -/

/-- The embedding of the reals commutes with finite sums (it is an additive monoid homomorphism). -/
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- A finite sum of real numbers is a real number. -/
theorem sum_real {n : ℕ} (a : Fin n → EReal) (ha : Fin1 a) : ∃ x : ℝ, ∑ e, a e = (x : EReal) := by
  choose x hx using ha
  exact ⟨∑ e, x e, by simp only [hx, ← coe_sum]⟩

/-- For real terms, Σ ((a + b) − c) = (Σ a + Σ b) − Σ c. -/
theorem sum_add_sub_real {n : ℕ} (a b c : Fin n → EReal) (ha : Fin1 a) (hb : Fin1 b) (hc : Fin1 c) :
    ∑ e, ((a e + b e) - c e) = ((∑ e, a e) + ∑ e, b e) - ∑ e, c e := by
  choose x hx using ha
  choose y hy using hb
  choose z hz using hc
  simp only [hx, hy, hz, ← EReal.coe_add, ← EReal.coe_sub, ← coe_sum]
  rw [Finset.sum_sub_distrib, Finset.sum_add_distrib]

/-! ### The two constants are real numbers -/

/-- The word of ε denotes the nonnegative real number 9223372 · 2⁻⁶³ (sign 0, exponent field 87, significand field 834764). -/
theorem eps_eq : eps = ((9223372 * (2 : ℝ) ^ (-63 : ℤ) : ℝ) : EReal) := by
  simp [eps, Ideal.ofBits, Ideal.ieee]

/-- ε is a nonnegative real number. -/
theorem eps_real : ∃ x : ℝ, 0 ≤ x ∧ eps = (x : EReal) :=
  ⟨_, by positivity, eps_eq⟩

/-- The word of the factor 2 denotes the real number 2 (sign 0, exponent field 128, significand field 0: 2²³ · 2⁻²²). -/
theorem two_eq : two = ((2 : ℝ) : EReal) := by
  simp [two, Ideal.ofBits, Ideal.ieee]
  rw [← EReal.coe_mul, EReal.coe_eq_coe_iff]
  norm_num

/-- The factor 2 is a real number. -/
theorem two_real : ∃ t : ℝ, two = (t : EReal) := ⟨2, two_eq⟩

/-! ### The link term -/

/-- The distance of an edge between real rows is a real number: the radicand is a sum of squares plus ε ≥ 0. -/
theorem edgeDist_real (X Y : Fin 500000 → Fin 16 → EReal) (hX : Fin2 X) (hY : Fin2 Y) : Fin1 (edgeDist X Y) := by
  intro e
  obtain ⟨ε, hε, hε'⟩ := eps_real
  choose x hx using hX
  choose y hy using hY
  have hnn : ¬ ((∑ d : Fin 16, (x e d - y e d) * (x e d - y e d)) + ε < 0) :=
    not_lt.mpr (add_nonneg (Finset.sum_nonneg fun d _ => mul_self_nonneg _) hε)
  refine ⟨Real.sqrt ((∑ d : Fin 16, (x e d - y e d) * (x e d - y e d)) + ε), ?_⟩
  unfold edgeDist
  simp only [hε', hx, hy, ← EReal.coe_sub, ← EReal.coe_mul, ← coe_sum, ← EReal.coe_add]
  rw [Ideal.sqrt_coe, if_neg hnn]

/-- The link term: summing g0 e + g1 e − dist e edge by edge, or forming (Σ g0 + Σ g1) − Σ dist, is the same for real inputs. -/
theorem linkRef_eq_linkKer (G0 G1 : Fin 500000 → EReal) (X Y : Fin 500000 → Fin 16 → EReal)
    (h0 : Fin1 G0) (h1 : Fin1 G1) (hX : Fin2 X) (hY : Fin2 Y) : linkRef G0 G1 X Y = linkKer G0 G1 X Y :=
  sum_add_sub_real G0 G1 (edgeDist X Y) h0 h1 (edgeDist_real X Y hX hY)

/-! ### The pair distance -/

/-- For real entries, doubling the left factors or doubling the inner product is the same. -/
theorem sum_two_mul {k : ℕ} (a b : Fin k → EReal) (ha : Fin1 a) (hb : Fin1 b) :
    ∑ i, (two * a i) * b i = two * ∑ i, a i * b i := by
  obtain ⟨t, ht⟩ := two_real
  choose x hx using ha
  choose y hy using hb
  simp only [ht, hx, hy, ← EReal.coe_mul, ← coe_sum]
  rw [Finset.mul_sum]
  exact congrArg _ (Finset.sum_congr rfl fun i _ => mul_assoc _ _ _)

theorem cdistRef_eq_cdistKer (X Y : Fin 8192 → Fin 16 → EReal) (hX : Fin2 X) (hY : Fin2 Y) (r c : Fin 8192) :
    cdistRef X Y r c = cdistKer X Y r c := by
  unfold cdistRef cdistKer
  rw [sum_two_mul (X r) (Y c) (hX r) (hY c)]

theorem cdistRef_eq_cdistKer_fun (X Y : Fin 8192 → Fin 16 → EReal) (hX : Fin2 X) (hY : Fin2 Y) :
    cdistRef X Y = cdistKer X Y :=
  funext fun r => funext fun c => cdistRef_eq_cdistKer X Y hX hY r c

theorem nonlinkAll_cdistRef_eq (X Y : Fin 8192 → Fin 16 → EReal) (hX : Fin2 X) (hY : Fin2 Y) (gx gy : Fin 8192 → EReal) :
    nonlinkAll (cdistRef X Y) gx gy = nonlinkAll (cdistKer X Y) gx gy := by
  rw [cdistRef_eq_cdistKer_fun X Y hX hY]

theorem nonlinkUpper_cdistRef_eq (X Y : Fin 8192 → Fin 16 → EReal) (hX : Fin2 X) (hY : Fin2 Y) (gx gy : Fin 8192 → EReal) :
    nonlinkUpper (cdistRef X Y) gx gy = nonlinkUpper (cdistKer X Y) gx gy := by
  rw [cdistRef_eq_cdistKer_fun X Y hX hY]

/-! ### Tilings of the sums (no finiteness needed) -/

/-- t·n + r < m·n for t < m and r < n. -/
theorem tile_lt {m n : ℕ} (t : Fin m) (r : Fin n) : t.val * n + r.val < m * n :=
  calc t.val * n + r.val < t.val * n + n := Nat.add_lt_add_left r.isLt _
    _ = (t.val + 1) * n := (Nat.succ_mul _ _).symm
    _ ≤ m * n := Nat.mul_le_mul_right n t.isLt

/-- A sum over Fin (m·n) is the iterated sum over the tiles: (t, r) ↦ t·n + r is a bijection Fin m × Fin n ≃ Fin (m·n). -/
theorem sum_tiled {M : Type*} [AddCommMonoid M] (m n : ℕ) (f : Fin (m * n) → M) :
    ∑ e, f e = ∑ t : Fin m, ∑ r : Fin n, f ⟨t.val * n + r.val, tile_lt t r⟩ := by
  rw [← (finProdFinEquiv (m := m) (n := n)).sum_comp f, Fintype.sum_prod_type]
  refine Finset.sum_congr rfl fun t _ => Finset.sum_congr rfl fun r _ => congrArg f (Fin.ext ?_)
  show r.val + n * t.val = t.val * n + r.val
  rw [Nat.mul_comm, Nat.add_comm]

theorem sum_edges_tiled (f : Fin 500000 → EReal) :
    ∑ e, f e = ∑ t : Fin 50, ∑ r : Fin 10000, f ⟨t.val * 10000 + r.val, by omega⟩ :=
  sum_tiled 50 10000 f

theorem sum_cols_tiled (f : Fin 8192 → EReal) :
    ∑ c, f c = ∑ j : Fin 8, ∑ q : Fin 1024, f ⟨j.val * 1024 + q.val, by omega⟩ :=
  sum_tiled 8 1024 f

/-- A row of block i lies at or below every column of a tile j < i: such a pair is not strictly above the diagonal. -/
theorem tile_not_lt (i j : Fin 8) (p q : Fin 1024) (h : j.val < i.val) :
    ¬ ((⟨i.val * 1024 + p.val, by omega⟩ : Fin 8192).val < (⟨j.val * 1024 + q.val, by omega⟩ : Fin 8192).val) := by
  show ¬ (i.val * 1024 + p.val < j.val * 1024 + q.val)
  omega

/-- Hence a column tile strictly to the left of the row block contributes 0 to the strictly-upper sum of that row. -/
theorem upper_tile_zero (v : Fin 8192 → Fin 8192 → EReal) (i j : Fin 8) (p : Fin 1024) (h : j.val < i.val) :
    (∑ q : Fin 1024,
        if (⟨i.val * 1024 + p.val, by omega⟩ : Fin 8192).val < (⟨j.val * 1024 + q.val, by omega⟩ : Fin 8192).val
        then v ⟨i.val * 1024 + p.val, by omega⟩ ⟨j.val * 1024 + q.val, by omega⟩ else 0) = 0 :=
  Finset.sum_eq_zero fun q _ => if_neg (tile_not_lt i j p q h)

/-- The strictly-upper sum of one row, tile by tile. -/
theorem upper_row_tiled (v : Fin 8192 → Fin 8192 → EReal) (r : Fin 8192) :
    (∑ c : Fin 8192, if r.val < c.val then v r c else 0)
      = ∑ j : Fin 8, ∑ q : Fin 1024,
          if r.val < (⟨j.val * 1024 + q.val, by omega⟩ : Fin 8192).val then v r ⟨j.val * 1024 + q.val, by omega⟩ else 0 :=
  sum_cols_tiled fun c => if r.val < c.val then v r c else 0

end Cert.Spec

end
-- ==== Proof.KI.Val0.lean ====
/- Region 0 (the edge-reduce kernel, grid of 50 points), its VALUE at the ideal instance: the [1, 1] output array ends holding
   the sum over the 500000 edges e of  dist e = √(Σ_d (x e d − y e d)² + ε),  x and y the two [500000, 16] input arrays.
   The body's one store into the scratch accumulator writes  acc + Σ_{r < 10000} dist (10000·t + r)  at point t (two lane
   and row sums, a square root and an added constant, read index by index); at the first point acc is the zero the reset
   stored, and 0 + x = x on the extended reals; so after point n the accumulator holds the sum of the first n + 1 block
   sums (induction on the point), at the last point it is copied to the output's buffer, the one write-back writes it to
   the array, and the 50 block sums are the sum over all edges re-indexed (t, r) ↦ 10000·t + r. No finiteness is needed:
   a finite sum on the extended reals may be taken in any order. -/
import proofs.«104416_j77807627534714_2_alg».proof.Proof.KI.R0
import proofs.«104416_j77807627534714_2_alg».proof.Proof.Spec
import proofs.«104416_j77807627534714_2_alg».proof.Proof.SpecLaws
import Idealize.ShloMosaic.Lib.Pipeline.Value
import Idealize.ShloMosaic.Lib.ValueIdx
import Idealize.ShloMosaic.Lib.Tactic

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)

variable {F : FTy → Type} [FloatOps F]

/-- The offsets of every load and store of the body are zero on both axes. -/
theorem hz0 : (![0, 0] : Fin 2 → Nat) = fun _ => 0 := funext fun a => by fin_cases a <;> rfl

/-! ## What each case leaves, as the body's payloads

`k0_pay1` is the zero block the reset stores; `k0_pay2 x0 x1 acc` is `acc` plus the sum over the block's 10000 rows of
the rows' distances. Every load and store of the body is of a whole buffer, so a load reads the buffer's contents and a
store leaves its payload. -/

/-- CASE B leaves in the accumulator the payload of its one store, on the input blocks and on what it found there. -/
theorem sout0_B_eq (c : Dev nD) (i : grid0.Coords) (a1 : Memref sig .tc .vmem S10000x16 .f32) (h1 : a1.IsWhole) (a2 : Memref sig .tc .vmem S10000x16 .f32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i) (x0 x1 : Vec F S10000x16 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz0]
  simp only [View.readAt_eq_ld, h1.read_unread, h2.read_unread, h4.read_unread, View.ld_unit_zero (S := S10000x16) hz0, View.ld_unit_zero (S := S1x1) hz0]

/-- CASE A stores the zero block, reads it back, and leaves the payload over it. -/
theorem sout0_A_eq (c : Dev nD) (i : grid0.Coords) (a1 : Memref sig .tc .vmem S10000x16 .f32) (h1 : a1.IsWhole) (a2 : Memref sig .tc .vmem S10000x16 .f32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i) (x0 x1 : Vec F S10000x16 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz0, View.readCov_unit_zero (S := S1x1) _ hz0]
  simp only [View.readAt_eq_ld, h1.read_unread, h2.read_unread, View.ld_unit_zero (S := S10000x16) hz0, View.ld_unit_zero (S := S1x1) hz0]

/-- CASE C leaves in the accumulator the payload of its store, -/
theorem sout0_C_eq (c : Dev nD) (i : grid0.Coords) (a1 : Memref sig .tc .vmem S10000x16 .f32) (h1 : a1.IsWhole) (a2 : Memref sig .tc .vmem S10000x16 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i) (x0 x1 : Vec F S10000x16 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz0]
  simp only [View.readAt_eq_ld, h1.read_unread, h2.read_unread, h4.read_unread, View.ld_unit_zero (S := S10000x16) hz0, View.ld_unit_zero (S := S1x1) hz0]

/-- and copies it to the output's buffer: the accumulator read back after that store. -/
theorem out0_C_eq (c : Dev nD) (i : grid0.Coords) (a1 : Memref sig .tc .vmem S10000x16 .f32) (h1 : a1.IsWhole) (a2 : Memref sig .tc .vmem S10000x16 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i) (x0 x1 : Vec F S10000x16 .f32) (xs0 : Vec F S1x1 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz0, View.readCov_unit_zero (S := S1x1) _ hz0]
  simp only [View.readAt_eq_ld, h1.read_unread, h2.read_unread, h4.read_unread, View.ld_unit_zero (S := S10000x16) hz0, View.ld_unit_zero (S := S1x1) hz0]

/-! ## The payload at the ideal instance, read at an index -/

section AtIdeal
open Idealize.ShloMosaic.ValueIdx

/-- The distance of row `r` of a pair of blocks: √(Σ_d (x0 r d − x1 r d)² + ε). -/
def rowDist0 (x0 x1 : FVec Ideal S10000x16 .f32) (r : Fin 10000) : EReal :=
  Ideal.sqrt ((∑ d : Fin 16, (x0 (ix2 r d) - x1 (ix2 r d)) * (x0 (ix2 r d) - x1 (ix2 r d))) + Cert.Spec.eps)

/-- The sum over the 16 lanes of a [10000, 16] vector, read at row `r`. -/
theorem red_lanes0 (src : FVec Ideal S10000x16 .f32) (r : Fin 10000) :
    multiReduction (F := Ideal) .add [1] S10000 src 0x00000000#32 Gen.reduces_S10000x16_S10000 (.inl rfl) rfl (ix1 r) = ∑ d : Fin 16, src (ix2 r d) :=
  (Ideal.multiReduction_add_single src 0x00000000#32 Gen.reduces_S10000x16_S10000 (.inl rfl) rfl (ix1 r)).trans
    (Finset.sum_congr rfl fun d _ => congrArg src (funext fun a => Fin.ext (by match a with | ⟨0, _⟩ => rfl | ⟨1, _⟩ => rfl)))

/-- The sum over the 10000 rows of a [10000, 1] vector, read at its one index. -/
theorem red_rows0 (src : FVec Ideal S10000x1 .f32) (q : Fin 1) :
    multiReduction (F := Ideal) .add [0] S1 src 0x00000000#32 Gen.reduces_S10000x1_S1 (.inl rfl) rfl (ix1 q) = ∑ r : Fin 10000, src (ix2 r q) :=
  (Ideal.multiReduction_add_single src 0x00000000#32 Gen.reduces_S10000x1_S1 (.inl rfl) rfl (ix1 q)).trans
    (Finset.sum_congr rfl fun r _ => congrArg src (funext fun a => Fin.ext (by match a with | ⟨0, _⟩ => rfl | ⟨1, _⟩ => rfl)))

/-- A [10000] vector viewed as a [10000, 1] column reads row `r` at (r, 0): the same row-major position. -/
theorem col_apply0 (v : FVec Ideal S10000 .f32) (r : Fin 10000) (q : Fin 1) :
    shapeCast S10000x1 v Gen.shapeCasts_S10000_S10000x1 (ix2 r q) = v (ix1 r) :=
  shapeCast_apply v Gen.shapeCasts_S10000_S10000x1 (ix2 r q) (ix1 r) (by
    rw [Shape.rowMajor_val_one, Shape.rowMajor_val_two]
    show r.val = r.val * 1 + q.val
    have := q.isLt; omega)

/-- A [1] vector viewed as [1, 1] reads its one element. -/
theorem one_apply0 (v : FVec Ideal S1 .f32) (p q : Fin 1) :
    shapeCast S1x1 v Gen.shapeCasts_S1_S1x1 (ix2 p q) = v (ix1 q) :=
  shapeCast_apply v Gen.shapeCasts_S1_S1x1 (ix2 p q) (ix1 q) (by
    rw [Shape.rowMajor_val_one, Shape.rowMajor_val_two]
    show q.val = p.val * 1 + q.val
    have := p.isLt; omega)

/-- THE PAYLOAD: what the body's store puts in the accumulator is what it held plus the sum of the block's row distances. -/
theorem pay2_apply0 (x0 x1 : FVec Ideal S10000x16 .f32) (acc : FVec Ideal S1x1 .f32) (p q : Fin 1) :
    k0_pay2 (F := Ideal) x0 x1 acc (ix2 p q) = acc (ix2 p q) + ∑ r : Fin 10000, rowDist0 x0 x1 r := by
  unfold k0_pay2
  simp only [shapeCast_self]
  show acc (ix2 p q) + shapeCast S1x1 _ Gen.shapeCasts_S1_S1x1 (ix2 p q) = _
  refine congrArg (acc (ix2 p q) + ·) ?_
  refine (one_apply0 _ p q).trans ?_
  refine (red_rows0 _ q).trans ?_
  refine Finset.sum_congr rfl fun r _ => ?_
  show Ideal.sqrt (shapeCast S10000x1 _ Gen.shapeCasts_S10000_S10000x1 (ix2 r q) + Cert.Spec.eps) = _
  unfold rowDist0
  refine congrArg (fun z => Ideal.sqrt (z + Cert.Spec.eps)) ?_
  refine (col_apply0 _ r q).trans ?_
  exact red_lanes0 _ r

/-- The zero block the reset stores reads 0 everywhere. -/
theorem pay1_apply0 (j : S1x1.Idx) : k0_pay1 (F := Ideal) j = 0 := by
  unfold k0_pay1
  simp only [shapeCast_self]
  exact Ideal.ofBits_zero_f32

/-- A row distance read through the blocks is the edge's distance, when the blocks' row is the edge's row of the two arrays. -/
theorem rowDist0_eq (x0 x1 : FVec Ideal S10000x16 .f32) (X Y : Fin 500000 → Fin 16 → EReal) (e : Fin 500000) (r : Fin 10000)
    (h0 : ∀ d, x0 (ix2 r d) = X e d) (h1 : ∀ d, x1 (ix2 r d) = Y e d) : rowDist0 x0 x1 r = Cert.Spec.edgeDist X Y e := by
  unfold rowDist0 Cert.Spec.edgeDist
  simp only [h0, h1]

/-! ## The blocks of the two inputs: rows 10000·t … 10000·t + 9999 of the arrays -/

variable (V : (c : Dev nD) → (b : Ref sig .tc) → Buf (Elt Ideal) ((c : Thread nD τ).loc b))

/-- Both inputs' block index at point `t` is (t, 0): decided over the 50 points. -/
theorem idx_facts0 : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

theorem iblk0_0_apply (c : Dev nD) (t : Fin cfg0.N) (r : Fin 10000) (d : Fin 16) (he : t.val * 10000 + r.val < 500000) :
    (iblk0 V c 0 t : Vec Ideal S10000x16 .f32) (ix2 r d) = V c (Pipeline.arrRef spec0 0) (ix2 ⟨t.val * 10000 + r.val, he⟩ d) := by
  have hi := idx_facts0 t
  unfold iblk0
  rw [View.read_apply]
  show V c (Pipeline.arrRef spec0 0) _ = V c (Pipeline.arrRef spec0 0) _
  congr 1
  funext a
  apply Fin.ext
  match a with
  | ⟨0, _⟩ => show win0_0.index t 0 * 10000 + 1 * r.val = t.val * 10000 + r.val; rw [hi.1]; omega
  | ⟨1, _⟩ => show win0_0.index t 1 * 16 + 1 * d.val = d.val; rw [hi.2.1]; omega

theorem iblk0_1_apply (c : Dev nD) (t : Fin cfg0.N) (r : Fin 10000) (d : Fin 16) (he : t.val * 10000 + r.val < 500000) :
    (iblk0 V c 1 t : Vec Ideal S10000x16 .f32) (ix2 r d) = V c (Pipeline.arrRef spec0 1) (ix2 ⟨t.val * 10000 + r.val, he⟩ d) := by
  have hi := idx_facts0 t
  unfold iblk0
  rw [View.read_apply]
  show V c (Pipeline.arrRef spec0 1) _ = V c (Pipeline.arrRef spec0 1) _
  congr 1
  funext a
  apply Fin.ext
  match a with
  | ⟨0, _⟩ => show win0_1.index t 0 * 10000 + 1 * r.val = t.val * 10000 + r.val; rw [hi.2.2.1]; omega
  | ⟨1, _⟩ => show win0_1.index t 1 * 16 + 1 * d.val = d.val; rw [hi.2.2.2]; omega

end AtIdeal

/-! ## The accumulation over the 50 points, and the result array -/

section Chain
open Idealize.ShloMosaic.ValueIdx

variable (V : (c : Dev nD) → (b : Ref sig .tc) → Buf (Elt Ideal) ((c : Thread nD τ).loc b))

/-- The two input arrays as 500000 rows of 16. -/
abbrev rowsA0 (c : Dev nD) : Fin 500000 → Fin 16 → EReal := fun e d => V c (Pipeline.arrRef spec0 0) (ix2 e d)
abbrev rowsB0 (c : Dev nD) : Fin 500000 → Fin 16 → EReal := fun e d => V c (Pipeline.arrRef spec0 1) (ix2 e d)

/-- The sum of the row distances of the blocks of point `n`. -/
def blockSum0 (c : Dev nD) (n : ℕ) (h : n < cfg0.N) : EReal :=
  ∑ r : Fin 10000, rowDist0 (iblk0 V c 0 ⟨n, h⟩) (iblk0 V c 1 ⟨n, h⟩) r

/-- It is the sum of the distances of the edges 10000·n … 10000·n + 9999. -/
theorem blockSum0_eq (c : Dev nD) (t : Fin 50) (h : t.val < cfg0.N) :
    blockSum0 V c t.val h = ∑ r : Fin 10000, Cert.Spec.edgeDist (rowsA0 V c) (rowsB0 V c) ⟨t.val * 10000 + r.val, by omega⟩ :=
  Finset.sum_congr rfl fun r _ => rowDist0_eq (iblk0 V c 0 ⟨t.val, h⟩) (iblk0 V c 1 ⟨t.val, h⟩) (rowsA0 V c) (rowsB0 V c) ⟨t.val * 10000 + r.val, by omega⟩ r
    (fun d => iblk0_0_apply V c ⟨t.val, h⟩ r d (by show t.val * 10000 + r.val < 500000; omega)) (fun d => iblk0_1_apply V c ⟨t.val, h⟩ r d (by show t.val * 10000 + r.val < 500000; omega))

/-- THE ACCUMULATOR after point `n` holds the sum of the block sums of the points 0 … n: at the first point the reset's zero
    plus the first block sum (0 + x = x on the extended reals), afterwards what the point before left plus the point's block
    sum — by induction on the point. -/
theorem acc_eq0 (c : Dev nD) : ∀ (n : ℕ) (h : n < cfg0.N),
    (outsAt0 V c n h).2 = fun _ => ∑ t : Fin (n + 1), blockSum0 V c t.val (Nat.lt_of_le_of_lt (Nat.le_of_lt_succ t.isLt) h)
  | 0, h => by
    have hc0 : cond0_0 (grid0.coords ⟨0, h⟩) := (hcond0_0 ⟨0, h⟩).mpr rfl
    have hc1 : ¬cond0_1 (grid0.coords ⟨0, h⟩) := fun hh => absurd ((hcond0_1 ⟨0, h⟩).mp hh) (by decide : ¬ (0 : ℕ) = 49)
    have key : (outsAt0 V c 0 h).2 = k0_pay2 (F := Ideal) (iblk0 V c 0 ⟨0, h⟩) (iblk0 V c 1 ⟨0, h⟩) (k0_pay1 (F := Ideal)) :=
      (congrArg Prod.snd (outsAt0_A V c ⟨0, h⟩ rfl hc0 hc1)).trans
        (sout0_A_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) hc0 hc1 (iblk0 V c 0 ⟨0, h⟩) (iblk0 V c 1 ⟨0, h⟩))
    rw [key]
    funext j
    obtain ⟨p, q, rfl⟩ : ∃ (p q : Fin 1), j = ix2 p q := ⟨j 0, j 1, eq_ix2 j⟩
    refine (pay2_apply0 (iblk0 V c 0 ⟨0, h⟩) (iblk0 V c 1 ⟨0, h⟩) (k0_pay1 (F := Ideal)) p q).trans ?_
    rw [pay1_apply0, zero_add]
    exact (Fin.sum_univ_one fun t : Fin 1 => blockSum0 V c t.val (Nat.lt_of_le_of_lt (Nat.le_of_lt_succ t.isLt) h)).symm
  | n + 1, h => by
    have ih := acc_eq0 c n (Nat.lt_of_succ_lt h)
    have hc0 : ¬cond0_0 (grid0.coords ⟨n + 1, h⟩) := fun hh => Nat.succ_ne_zero n ((hcond0_0 ⟨n + 1, h⟩).mp hh)
    have key : (outsAt0 V c (n + 1) h).2 = k0_pay2 (F := Ideal) (iblk0 V c 0 ⟨n + 1, h⟩) (iblk0 V c 1 ⟨n + 1, h⟩) (outsAt0 V c n (Nat.lt_of_succ_lt h)).2 := by
      by_cases h1 : n + 1 = 49
      · have hc1 : cond0_1 (grid0.coords ⟨n + 1, h⟩) := (hcond0_1 ⟨n + 1, h⟩).mpr h1
        exact (congrArg Prod.snd (outsAt0_C V c ⟨n + 1, h⟩ h1 hc0 hc1)).trans
          (sout0_C_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) hc0 hc1 (iblk0 V c 0 ⟨n + 1, h⟩) (iblk0 V c 1 ⟨n + 1, h⟩) (outsAt0 V c n (Nat.lt_of_succ_lt h)).2)
      · have hc1 : ¬cond0_1 (grid0.coords ⟨n + 1, h⟩) := fun hh => h1 ((hcond0_1 ⟨n + 1, h⟩).mp hh)
        exact (congrArg Prod.snd (outsAt0_B V c ⟨n + 1, h⟩ (Nat.succ_ne_zero n) h1 hc0 hc1)).trans
          (sout0_B_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) hc0 hc1 (iblk0 V c 0 ⟨n + 1, h⟩) (iblk0 V c 1 ⟨n + 1, h⟩) (outsAt0 V c n (Nat.lt_of_succ_lt h)).2)
    rw [key, ih]
    funext j
    obtain ⟨p, q, rfl⟩ : ∃ (p q : Fin 1), j = ix2 p q := ⟨j 0, j 1, eq_ix2 j⟩
    refine (pay2_apply0 (iblk0 V c 0 ⟨n + 1, h⟩) (iblk0 V c 1 ⟨n + 1, h⟩) _ p q).trans ?_
    exact (Fin.sum_univ_castSucc fun t : Fin (n + 1 + 1) => blockSum0 V c t.val (Nat.lt_of_le_of_lt (Nat.le_of_lt_succ t.isLt) h)).symm

/-- At the last point the output's buffer receives a copy of the accumulator. -/
theorem out_last0 (c : Dev nD) (h : 49 < cfg0.N) : (outsAt0 V c 49 h).1 = (outsAt0 V c 49 h).2 := by
  have hc0 : ¬cond0_0 (grid0.coords ⟨49, h⟩) := fun hh => absurd ((hcond0_0 ⟨49, h⟩).mp hh) (by decide : ¬ (49 : ℕ) = 0)
  have hc1 : cond0_1 (grid0.coords ⟨49, h⟩) := (hcond0_1 ⟨49, h⟩).mpr rfl
  exact ((congrArg Prod.fst (outsAt0_C V c ⟨49, h⟩ rfl hc0 hc1)).trans
      (out0_C_eq (F := Ideal) c (grid0.coords ⟨49, h⟩) (ms0_0 ⟨49, h⟩) (hs0_0 ⟨49, h⟩) (ms0_1 ⟨49, h⟩) (hs0_1 ⟨49, h⟩) (ms0_2 ⟨49, h⟩) (hs0_2 ⟨49, h⟩) scM0_0 (Memref.isWhole_whole _) hc0 hc1 (iblk0 V c 0 ⟨49, h⟩) (iblk0 V c 1 ⟨49, h⟩) (outsAt0 V c 48 (Nat.lt_of_succ_lt h)).2)).trans
    ((congrArg Prod.snd (outsAt0_C V c ⟨49, h⟩ rfl hc0 hc1)).trans
      (sout0_C_eq (F := Ideal) c (grid0.coords ⟨49, h⟩) (ms0_0 ⟨49, h⟩) (hs0_0 ⟨49, h⟩) (ms0_1 ⟨49, h⟩) (hs0_1 ⟨49, h⟩) (ms0_2 ⟨49, h⟩) (hs0_2 ⟨49, h⟩) scM0_0 (Memref.isWhole_whole _) hc0 hc1 (iblk0 V c 0 ⟨49, h⟩) (iblk0 V c 1 ⟨49, h⟩) (outsAt0 V c 48 (Nat.lt_of_succ_lt h)).2)).symm

/-- The sum over the 500000 edges of the edges' distances: an extended real. -/
def total0 (c : Dev nD) : EReal := ∑ e : Fin 500000, Cert.Spec.edgeDist (rowsA0 V c) (rowsB0 V c) e

/-- The 50 block sums are the sum over all 500000 edges: the edges tiled in 50 blocks of 10000 (a re-indexing of a finite sum). -/
theorem total0_eq (c : Dev nD) (h : 49 < cfg0.N) :
    (∑ t : Fin (49 + 1), blockSum0 V c t.val (Nat.lt_of_le_of_lt (Nat.le_of_lt_succ t.isLt) h))
      = total0 V c := by
  unfold total0
  rw [Cert.Spec.sum_edges_tiled]
  exact Finset.sum_congr rfl fun t _ => blockSum0_eq V c t _

/-- The last point. -/
abbrev tLast0 : Fin cfg0.N := ⟨49, by decide⟩

/-- The one write-back, at point 49, writes the total: every element of the written block is the total. -/
theorem flushed0_eq (c : Dev nD) (t : Fin cfg0.N) (hf : (cfg0.win 2).flush t = true) :
    (dat0 V c).flushed 2 t = ((cfg0.win 2).blk t).view.read (Elt Ideal) (fun _ => total0 V c) := by
  have hN : cfg0.N = 50 := N_0
  have h49 : t.val = 49 := by have := (flush0_2 t).mp hf; have := t.isLt; omega
  obtain rfl : t = tLast0 := Fin.ext h49
  show (cfg0.win 2).cut (grid0.coords tLast0) ((dat0 V c).after 2 tLast0) = _
  rw [after0_2]
  show (cfg0.win 2).cut (grid0.coords tLast0) (outsAt0 V c 49 tLast0.isLt).1 = _
  rw [out_last0 V c tLast0.isLt, acc_eq0 V c 49 tLast0.isLt, total0_eq V c tLast0.isLt]
  generalize total0 V c = T
  rfl

/-- THE RESULT of the region: its [1, 1] output array ends holding the sum over the 500000 edges of the edges' distances. -/
theorem arrAt_out0 (c : Dev nD) :
    (dat0 (F := Ideal) V c).arrAt 2 cfg0.N = fun _ => (∑ e : Fin 500000, Cert.Spec.edgeDist
      (fun e d => V c (Pipeline.arrRef spec0 0) (ValueIdx.ix2 e d)) (fun e d => V c (Pipeline.arrRef spec0 1) (ValueIdx.ix2 e d)) e : EReal) :=
  (dat0 V c).arrAt_eq_of_cover 2 (fun _ => total0 V c) (flushed0_eq V c) fun i =>
    ⟨tLast0, (flush0_2 tLast0).mpr rfl, by
      show i ∈ ((View.whole main_v129).slice (win0_2.rect tLast0)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast0 0 * win0_2.size 0 ≤ (i 0 : Nat) ∧ (i 0 : Nat) < win0_2.index tLast0 0 * win0_2.size 0 + win0_2.xsize (grid0.coords tLast0) 0
                  rw [show win0_2.index tLast0 0 * win0_2.size 0 = 0 from by decide +kernel, show win0_2.xsize (grid0.coords tLast0) 0 = 1 from by decide +kernel]; omega
      | ⟨1, _⟩ => show win0_2.index tLast0 1 * win0_2.size 1 ≤ (i 1 : Nat) ∧ (i 1 : Nat) < win0_2.index tLast0 1 * win0_2.size 1 + win0_2.xsize (grid0.coords tLast0) 1
                  rw [show win0_2.index tLast0 1 * win0_2.size 1 = 0 from by decide +kernel, show win0_2.xsize (grid0.coords tLast0) 1 = 1 from by decide +kernel]; omega⟩

end Chain

end Cert.KernelIdeal.HandVal

end
-- ==== Proof.KI.Val1.lean ====
/- Region 1 (the edge-reduce kernel, grid of 50 points), its VALUE at the ideal instance: the [1, 1] output array ends holding
   the sum over the 500000 edges e of  dist e = √(Σ_d (x e d − y e d)² + ε),  x and y the two [500000, 16] input arrays.
   The body's one store into the scratch accumulator writes  acc + Σ_{r < 10000} dist (10000·t + r)  at point t (two lane
   and row sums, a square root and an added constant, read index by index); at the first point acc is the zero the reset
   stored, and 0 + x = x on the extended reals; so after point n the accumulator holds the sum of the first n + 1 block
   sums (induction on the point), at the last point it is copied to the output's buffer, the one write-back writes it to
   the array, and the 50 block sums are the sum over all edges re-indexed (t, r) ↦ 10000·t + r. No finiteness is needed:
   a finite sum on the extended reals may be taken in any order. -/
import proofs.«104416_j77807627534714_2_alg».proof.Proof.KI.R1
import proofs.«104416_j77807627534714_2_alg».proof.Proof.Spec
import proofs.«104416_j77807627534714_2_alg».proof.Proof.SpecLaws
import Idealize.ShloMosaic.Lib.Pipeline.Value
import Idealize.ShloMosaic.Lib.ValueIdx
import Idealize.ShloMosaic.Lib.Tactic

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)

variable {F : FTy → Type} [FloatOps F]

/-- The offsets of every load and store of the body are zero on both axes. -/
theorem hz1 : (![0, 0] : Fin 2 → Nat) = fun _ => 0 := funext fun a => by fin_cases a <;> rfl

/-! ## What each case leaves, as the body's payloads

`k1_pay1` is the zero block the reset stores; `k1_pay2 x0 x1 acc` is `acc` plus the sum over the block's 10000 rows of
the rows' distances. Every load and store of the body is of a whole buffer, so a load reads the buffer's contents and a
store leaves its payload. -/

/-- CASE B leaves in the accumulator the payload of its one store, on the input blocks and on what it found there. -/
theorem sout1_B_eq (c : Dev nD) (i : grid1.Coords) (a1 : Memref sig .tc .vmem S10000x16 .f32) (h1 : a1.IsWhole) (a2 : Memref sig .tc .vmem S10000x16 .f32) (h2 : a2.IsWhole) (a3 : Memref sig .tc .vmem S1x1 .f32) (h3 : a3.IsWhole) (a4 : Memref sig .tc .vmem S1x1 .f32) (h4 : a4.IsWhole) (hc0 : ¬cond1_0 i) (hc1 : ¬cond1_1 i) (x0 x1 : Vec F S10000x16 .f32) (xs0 : Vec F S1x1 .f32) :
    sout1_B_0 c i a1 h1 a2 h2 a3 h3 a4 h4 hc0 hc1 x0 x1 xs0 = k1_pay2 x0 x1 xs0 := by
  unfold sout1_B_0
  rw [View.read_writes_eq_canon _ _ _ (scover1_B_0 c i a1 h1 a2 h2 a3 h3 a4 h4 hc0 hc1 x0 x1 xs0)]
  unfold kernelRun1_B
  dsimp only
  rw [View.canon_unit_zero hz1]
  simp only [View.readAt_eq_ld, h1.read_unread, h2.read_unread, h4.read_unread, View.ld_unit_zero (S := S10000x16) hz1, View.ld_unit_zero (S := S1x1) hz1]

/-- CASE A stores the zero block, reads it back, and leaves the payload over it. -/
theorem sout1_A_eq (c : Dev nD) (i : grid1.Coords) (a1 : Memref sig .tc .vmem S10000x16 .f32) (h1 : a1.IsWhole) (a2 : Memref sig .tc .vmem S10000x16 .f32) (h2 : a2.IsWhole) (a3 : Memref sig .tc .vmem S1x1 .f32) (h3 : a3.IsWhole) (a4 : Memref sig .tc .vmem S1x1 .f32) (h4 : a4.IsWhole) (hc0 : cond1_0 i) (hc1 : ¬cond1_1 i) (x0 x1 : Vec F S10000x16 .f32) :
    sout1_A_0 c i a1 h1 a2 h2 a3 h3 a4 h4 hc0 hc1 x0 x1 = k1_pay2 x0 x1 (k1_pay1 (F := F)) := by
  unfold sout1_A_0
  rw [View.read_writes_eq_canon _ _ _ (scover1_A_0 c i a1 h1 a2 h2 a3 h3 a4 h4 hc0 hc1 x0 x1)]
  unfold kernelRun1_A
  dsimp only
  sl_unfold_words
  rw [View.canon_cons_unit_zero (S := S1x1) hz1, View.readCov_unit_zero (S := S1x1) _ hz1]
  simp only [View.readAt_eq_ld, h1.read_unread, h2.read_unread, View.ld_unit_zero (S := S10000x16) hz1, View.ld_unit_zero (S := S1x1) hz1]

/-- CASE C leaves in the accumulator the payload of its store, -/
theorem sout1_C_eq (c : Dev nD) (i : grid1.Coords) (a1 : Memref sig .tc .vmem S10000x16 .f32) (h1 : a1.IsWhole) (a2 : Memref sig .tc .vmem S10000x16 .f32) (h2 : a2.IsWhole) (a3 : Memref sig .tc .vmem S1x1 .f32) (h3 : a3.IsWhole) (a4 : Memref sig .tc .vmem S1x1 .f32) (h4 : a4.IsWhole) (hc0 : ¬cond1_0 i) (hc1 : cond1_1 i) (x0 x1 : Vec F S10000x16 .f32) (xs0 : Vec F S1x1 .f32) :
    sout1_C_0 c i a1 h1 a2 h2 a3 h3 a4 h4 hc0 hc1 x0 x1 xs0 = k1_pay2 x0 x1 xs0 := by
  unfold sout1_C_0
  rw [View.read_writes_eq_canon _ _ _ (scover1_C_0 c i a1 h1 a2 h2 a3 h3 a4 h4 hc0 hc1 x0 x1 xs0)]
  unfold kernelRun1_C
  dsimp only
  sl_unfold_words
  rw [View.canon_unit_zero hz1]
  simp only [View.readAt_eq_ld, h1.read_unread, h2.read_unread, h4.read_unread, View.ld_unit_zero (S := S10000x16) hz1, View.ld_unit_zero (S := S1x1) hz1]

/-- and copies it to the output's buffer: the accumulator read back after that store. -/
theorem out1_C_eq (c : Dev nD) (i : grid1.Coords) (a1 : Memref sig .tc .vmem S10000x16 .f32) (h1 : a1.IsWhole) (a2 : Memref sig .tc .vmem S10000x16 .f32) (h2 : a2.IsWhole) (a3 : Memref sig .tc .vmem S1x1 .f32) (h3 : a3.IsWhole) (a4 : Memref sig .tc .vmem S1x1 .f32) (h4 : a4.IsWhole) (hc0 : ¬cond1_0 i) (hc1 : cond1_1 i) (x0 x1 : Vec F S10000x16 .f32) (xs0 : Vec F S1x1 .f32) :
    out1_C_2 c i a1 h1 a2 h2 a3 h3 a4 h4 hc0 hc1 x0 x1 xs0 = k1_pay2 x0 x1 xs0 := by
  unfold out1_C_2
  rw [View.read_writes_eq_canon _ _ _ (cover1_C_2 c i a1 h1 a2 h2 a3 h3 a4 h4 hc0 hc1 x0 x1 xs0)]
  unfold kernelRun1_C
  dsimp only
  sl_unfold_words
  rw [View.canon_unit_zero hz1, View.readCov_unit_zero (S := S1x1) _ hz1]
  simp only [View.readAt_eq_ld, h1.read_unread, h2.read_unread, h4.read_unread, View.ld_unit_zero (S := S10000x16) hz1, View.ld_unit_zero (S := S1x1) hz1]

/-! ## The payload at the ideal instance, read at an index -/

section AtIdeal
open Idealize.ShloMosaic.ValueIdx

/-- The distance of row `r` of a pair of blocks: √(Σ_d (x0 r d − x1 r d)² + ε). -/
def rowDist1 (x0 x1 : FVec Ideal S10000x16 .f32) (r : Fin 10000) : EReal :=
  Ideal.sqrt ((∑ d : Fin 16, (x0 (ix2 r d) - x1 (ix2 r d)) * (x0 (ix2 r d) - x1 (ix2 r d))) + Cert.Spec.eps)

/-- The sum over the 16 lanes of a [10000, 16] vector, read at row `r`. -/
theorem red_lanes1 (src : FVec Ideal S10000x16 .f32) (r : Fin 10000) :
    multiReduction (F := Ideal) .add [1] S10000 src 0x00000000#32 Gen.reduces_S10000x16_S10000 (.inl rfl) rfl (ix1 r) = ∑ d : Fin 16, src (ix2 r d) :=
  (Ideal.multiReduction_add_single src 0x00000000#32 Gen.reduces_S10000x16_S10000 (.inl rfl) rfl (ix1 r)).trans
    (Finset.sum_congr rfl fun d _ => congrArg src (funext fun a => Fin.ext (by match a with | ⟨0, _⟩ => rfl | ⟨1, _⟩ => rfl)))

/-- The sum over the 10000 rows of a [10000, 1] vector, read at its one index. -/
theorem red_rows1 (src : FVec Ideal S10000x1 .f32) (q : Fin 1) :
    multiReduction (F := Ideal) .add [0] S1 src 0x00000000#32 Gen.reduces_S10000x1_S1 (.inl rfl) rfl (ix1 q) = ∑ r : Fin 10000, src (ix2 r q) :=
  (Ideal.multiReduction_add_single src 0x00000000#32 Gen.reduces_S10000x1_S1 (.inl rfl) rfl (ix1 q)).trans
    (Finset.sum_congr rfl fun r _ => congrArg src (funext fun a => Fin.ext (by match a with | ⟨0, _⟩ => rfl | ⟨1, _⟩ => rfl)))

/-- A [10000] vector viewed as a [10000, 1] column reads row `r` at (r, 0): the same row-major position. -/
theorem col_apply1 (v : FVec Ideal S10000 .f32) (r : Fin 10000) (q : Fin 1) :
    shapeCast S10000x1 v Gen.shapeCasts_S10000_S10000x1 (ix2 r q) = v (ix1 r) :=
  shapeCast_apply v Gen.shapeCasts_S10000_S10000x1 (ix2 r q) (ix1 r) (by
    rw [Shape.rowMajor_val_one, Shape.rowMajor_val_two]
    show r.val = r.val * 1 + q.val
    have := q.isLt; omega)

/-- A [1] vector viewed as [1, 1] reads its one element. -/
theorem one_apply1 (v : FVec Ideal S1 .f32) (p q : Fin 1) :
    shapeCast S1x1 v Gen.shapeCasts_S1_S1x1 (ix2 p q) = v (ix1 q) :=
  shapeCast_apply v Gen.shapeCasts_S1_S1x1 (ix2 p q) (ix1 q) (by
    rw [Shape.rowMajor_val_one, Shape.rowMajor_val_two]
    show q.val = p.val * 1 + q.val
    have := p.isLt; omega)

/-- THE PAYLOAD: what the body's store puts in the accumulator is what it held plus the sum of the block's row distances. -/
theorem pay2_apply1 (x0 x1 : FVec Ideal S10000x16 .f32) (acc : FVec Ideal S1x1 .f32) (p q : Fin 1) :
    k1_pay2 (F := Ideal) x0 x1 acc (ix2 p q) = acc (ix2 p q) + ∑ r : Fin 10000, rowDist1 x0 x1 r := by
  unfold k1_pay2
  simp only [shapeCast_self]
  show acc (ix2 p q) + shapeCast S1x1 _ Gen.shapeCasts_S1_S1x1 (ix2 p q) = _
  refine congrArg (acc (ix2 p q) + ·) ?_
  refine (one_apply1 _ p q).trans ?_
  refine (red_rows1 _ q).trans ?_
  refine Finset.sum_congr rfl fun r _ => ?_
  show Ideal.sqrt (shapeCast S10000x1 _ Gen.shapeCasts_S10000_S10000x1 (ix2 r q) + Cert.Spec.eps) = _
  unfold rowDist1
  refine congrArg (fun z => Ideal.sqrt (z + Cert.Spec.eps)) ?_
  refine (col_apply1 _ r q).trans ?_
  exact red_lanes1 _ r

/-- The zero block the reset stores reads 0 everywhere. -/
theorem pay1_apply1 (j : S1x1.Idx) : k1_pay1 (F := Ideal) j = 0 := by
  unfold k1_pay1
  simp only [shapeCast_self]
  exact Ideal.ofBits_zero_f32

/-- A row distance read through the blocks is the edge's distance, when the blocks' row is the edge's row of the two arrays. -/
theorem rowDist1_eq (x0 x1 : FVec Ideal S10000x16 .f32) (X Y : Fin 500000 → Fin 16 → EReal) (e : Fin 500000) (r : Fin 10000)
    (h0 : ∀ d, x0 (ix2 r d) = X e d) (h1 : ∀ d, x1 (ix2 r d) = Y e d) : rowDist1 x0 x1 r = Cert.Spec.edgeDist X Y e := by
  unfold rowDist1 Cert.Spec.edgeDist
  simp only [h0, h1]

/-! ## The blocks of the two inputs: rows 10000·t … 10000·t + 9999 of the arrays -/

variable (V : (c : Dev nD) → (b : Ref sig .tc) → Buf (Elt Ideal) ((c : Thread nD τ).loc b))

/-- Both inputs' block index at point `t` is (t, 0): decided over the 50 points. -/
theorem idx_facts1 : ∀ t : Fin cfg1.N, win1_0.index t 0 = t.val ∧ win1_0.index t 1 = 0 ∧ win1_1.index t 0 = t.val ∧ win1_1.index t 1 = 0 :=
  (by decide +kernel : ∀ t : Fin grid1.N, win1_0.index t 0 = t.val ∧ win1_0.index t 1 = 0 ∧ win1_1.index t 0 = t.val ∧ win1_1.index t 1 = 0)

theorem iblk1_0_apply (c : Dev nD) (t : Fin cfg1.N) (r : Fin 10000) (d : Fin 16) (he : t.val * 10000 + r.val < 500000) :
    (iblk1 V c 0 t : Vec Ideal S10000x16 .f32) (ix2 r d) = V c (Pipeline.arrRef spec1 0) (ix2 ⟨t.val * 10000 + r.val, he⟩ d) := by
  have hi := idx_facts1 t
  unfold iblk1
  rw [View.read_apply]
  show V c (Pipeline.arrRef spec1 0) _ = V c (Pipeline.arrRef spec1 0) _
  congr 1
  funext a
  apply Fin.ext
  match a with
  | ⟨0, _⟩ => show win1_0.index t 0 * 10000 + 1 * r.val = t.val * 10000 + r.val; rw [hi.1]; omega
  | ⟨1, _⟩ => show win1_0.index t 1 * 16 + 1 * d.val = d.val; rw [hi.2.1]; omega

theorem iblk1_1_apply (c : Dev nD) (t : Fin cfg1.N) (r : Fin 10000) (d : Fin 16) (he : t.val * 10000 + r.val < 500000) :
    (iblk1 V c 1 t : Vec Ideal S10000x16 .f32) (ix2 r d) = V c (Pipeline.arrRef spec1 1) (ix2 ⟨t.val * 10000 + r.val, he⟩ d) := by
  have hi := idx_facts1 t
  unfold iblk1
  rw [View.read_apply]
  show V c (Pipeline.arrRef spec1 1) _ = V c (Pipeline.arrRef spec1 1) _
  congr 1
  funext a
  apply Fin.ext
  match a with
  | ⟨0, _⟩ => show win1_1.index t 0 * 10000 + 1 * r.val = t.val * 10000 + r.val; rw [hi.2.2.1]; omega
  | ⟨1, _⟩ => show win1_1.index t 1 * 16 + 1 * d.val = d.val; rw [hi.2.2.2]; omega

end AtIdeal

/-! ## The accumulation over the 50 points, and the result array -/

section Chain
open Idealize.ShloMosaic.ValueIdx

variable (V : (c : Dev nD) → (b : Ref sig .tc) → Buf (Elt Ideal) ((c : Thread nD τ).loc b))

/-- The two input arrays as 500000 rows of 16. -/
abbrev rowsA1 (c : Dev nD) : Fin 500000 → Fin 16 → EReal := fun e d => V c (Pipeline.arrRef spec1 0) (ix2 e d)
abbrev rowsB1 (c : Dev nD) : Fin 500000 → Fin 16 → EReal := fun e d => V c (Pipeline.arrRef spec1 1) (ix2 e d)

/-- The sum of the row distances of the blocks of point `n`. -/
def blockSum1 (c : Dev nD) (n : ℕ) (h : n < cfg1.N) : EReal :=
  ∑ r : Fin 10000, rowDist1 (iblk1 V c 0 ⟨n, h⟩) (iblk1 V c 1 ⟨n, h⟩) r

/-- It is the sum of the distances of the edges 10000·n … 10000·n + 9999. -/
theorem blockSum1_eq (c : Dev nD) (t : Fin 50) (h : t.val < cfg1.N) :
    blockSum1 V c t.val h = ∑ r : Fin 10000, Cert.Spec.edgeDist (rowsA1 V c) (rowsB1 V c) ⟨t.val * 10000 + r.val, by omega⟩ :=
  Finset.sum_congr rfl fun r _ => rowDist1_eq (iblk1 V c 0 ⟨t.val, h⟩) (iblk1 V c 1 ⟨t.val, h⟩) (rowsA1 V c) (rowsB1 V c) ⟨t.val * 10000 + r.val, by omega⟩ r
    (fun d => iblk1_0_apply V c ⟨t.val, h⟩ r d (by show t.val * 10000 + r.val < 500000; omega)) (fun d => iblk1_1_apply V c ⟨t.val, h⟩ r d (by show t.val * 10000 + r.val < 500000; omega))

/-- THE ACCUMULATOR after point `n` holds the sum of the block sums of the points 0 … n: at the first point the reset's zero
    plus the first block sum (0 + x = x on the extended reals), afterwards what the point before left plus the point's block
    sum — by induction on the point. -/
theorem acc_eq1 (c : Dev nD) : ∀ (n : ℕ) (h : n < cfg1.N),
    (outsAt1 V c n h).2 = fun _ => ∑ t : Fin (n + 1), blockSum1 V c t.val (Nat.lt_of_le_of_lt (Nat.le_of_lt_succ t.isLt) h)
  | 0, h => by
    have hc0 : cond1_0 (grid1.coords ⟨0, h⟩) := (hcond1_0 ⟨0, h⟩).mpr rfl
    have hc1 : ¬cond1_1 (grid1.coords ⟨0, h⟩) := fun hh => absurd ((hcond1_1 ⟨0, h⟩).mp hh) (by decide : ¬ (0 : ℕ) = 49)
    have key : (outsAt1 V c 0 h).2 = k1_pay2 (F := Ideal) (iblk1 V c 0 ⟨0, h⟩) (iblk1 V c 1 ⟨0, h⟩) (k1_pay1 (F := Ideal)) :=
      (congrArg Prod.snd (outsAt1_A V c ⟨0, h⟩ rfl hc0 hc1)).trans
        (sout1_A_eq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) scM1_0 (Memref.isWhole_whole _) hc0 hc1 (iblk1 V c 0 ⟨0, h⟩) (iblk1 V c 1 ⟨0, h⟩))
    rw [key]
    funext j
    obtain ⟨p, q, rfl⟩ : ∃ (p q : Fin 1), j = ix2 p q := ⟨j 0, j 1, eq_ix2 j⟩
    refine (pay2_apply1 (iblk1 V c 0 ⟨0, h⟩) (iblk1 V c 1 ⟨0, h⟩) (k1_pay1 (F := Ideal)) p q).trans ?_
    rw [pay1_apply1, zero_add]
    exact (Fin.sum_univ_one fun t : Fin 1 => blockSum1 V c t.val (Nat.lt_of_le_of_lt (Nat.le_of_lt_succ t.isLt) h)).symm
  | n + 1, h => by
    have ih := acc_eq1 c n (Nat.lt_of_succ_lt h)
    have hc0 : ¬cond1_0 (grid1.coords ⟨n + 1, h⟩) := fun hh => Nat.succ_ne_zero n ((hcond1_0 ⟨n + 1, h⟩).mp hh)
    have key : (outsAt1 V c (n + 1) h).2 = k1_pay2 (F := Ideal) (iblk1 V c 0 ⟨n + 1, h⟩) (iblk1 V c 1 ⟨n + 1, h⟩) (outsAt1 V c n (Nat.lt_of_succ_lt h)).2 := by
      by_cases h1 : n + 1 = 49
      · have hc1 : cond1_1 (grid1.coords ⟨n + 1, h⟩) := (hcond1_1 ⟨n + 1, h⟩).mpr h1
        exact (congrArg Prod.snd (outsAt1_C V c ⟨n + 1, h⟩ h1 hc0 hc1)).trans
          (sout1_C_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1_0 (Memref.isWhole_whole _) hc0 hc1 (iblk1 V c 0 ⟨n + 1, h⟩) (iblk1 V c 1 ⟨n + 1, h⟩) (outsAt1 V c n (Nat.lt_of_succ_lt h)).2)
      · have hc1 : ¬cond1_1 (grid1.coords ⟨n + 1, h⟩) := fun hh => h1 ((hcond1_1 ⟨n + 1, h⟩).mp hh)
        exact (congrArg Prod.snd (outsAt1_B V c ⟨n + 1, h⟩ (Nat.succ_ne_zero n) h1 hc0 hc1)).trans
          (sout1_B_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1_0 (Memref.isWhole_whole _) hc0 hc1 (iblk1 V c 0 ⟨n + 1, h⟩) (iblk1 V c 1 ⟨n + 1, h⟩) (outsAt1 V c n (Nat.lt_of_succ_lt h)).2)
    rw [key, ih]
    funext j
    obtain ⟨p, q, rfl⟩ : ∃ (p q : Fin 1), j = ix2 p q := ⟨j 0, j 1, eq_ix2 j⟩
    refine (pay2_apply1 (iblk1 V c 0 ⟨n + 1, h⟩) (iblk1 V c 1 ⟨n + 1, h⟩) _ p q).trans ?_
    exact (Fin.sum_univ_castSucc fun t : Fin (n + 1 + 1) => blockSum1 V c t.val (Nat.lt_of_le_of_lt (Nat.le_of_lt_succ t.isLt) h)).symm

/-- At the last point the output's buffer receives a copy of the accumulator. -/
theorem out_last1 (c : Dev nD) (h : 49 < cfg1.N) : (outsAt1 V c 49 h).1 = (outsAt1 V c 49 h).2 := by
  have hc0 : ¬cond1_0 (grid1.coords ⟨49, h⟩) := fun hh => absurd ((hcond1_0 ⟨49, h⟩).mp hh) (by decide : ¬ (49 : ℕ) = 0)
  have hc1 : cond1_1 (grid1.coords ⟨49, h⟩) := (hcond1_1 ⟨49, h⟩).mpr rfl
  exact ((congrArg Prod.fst (outsAt1_C V c ⟨49, h⟩ rfl hc0 hc1)).trans
      (out1_C_eq (F := Ideal) c (grid1.coords ⟨49, h⟩) (ms1_0 ⟨49, h⟩) (hs1_0 ⟨49, h⟩) (ms1_1 ⟨49, h⟩) (hs1_1 ⟨49, h⟩) (ms1_2 ⟨49, h⟩) (hs1_2 ⟨49, h⟩) scM1_0 (Memref.isWhole_whole _) hc0 hc1 (iblk1 V c 0 ⟨49, h⟩) (iblk1 V c 1 ⟨49, h⟩) (outsAt1 V c 48 (Nat.lt_of_succ_lt h)).2)).trans
    ((congrArg Prod.snd (outsAt1_C V c ⟨49, h⟩ rfl hc0 hc1)).trans
      (sout1_C_eq (F := Ideal) c (grid1.coords ⟨49, h⟩) (ms1_0 ⟨49, h⟩) (hs1_0 ⟨49, h⟩) (ms1_1 ⟨49, h⟩) (hs1_1 ⟨49, h⟩) (ms1_2 ⟨49, h⟩) (hs1_2 ⟨49, h⟩) scM1_0 (Memref.isWhole_whole _) hc0 hc1 (iblk1 V c 0 ⟨49, h⟩) (iblk1 V c 1 ⟨49, h⟩) (outsAt1 V c 48 (Nat.lt_of_succ_lt h)).2)).symm

/-- The sum over the 500000 edges of the edges' distances: an extended real. -/
def total1 (c : Dev nD) : EReal := ∑ e : Fin 500000, Cert.Spec.edgeDist (rowsA1 V c) (rowsB1 V c) e

/-- The 50 block sums are the sum over all 500000 edges: the edges tiled in 50 blocks of 10000 (a re-indexing of a finite sum). -/
theorem total1_eq (c : Dev nD) (h : 49 < cfg1.N) :
    (∑ t : Fin (49 + 1), blockSum1 V c t.val (Nat.lt_of_le_of_lt (Nat.le_of_lt_succ t.isLt) h))
      = total1 V c := by
  unfold total1
  rw [Cert.Spec.sum_edges_tiled]
  exact Finset.sum_congr rfl fun t _ => blockSum1_eq V c t _

/-- The last point. -/
abbrev tLast1 : Fin cfg1.N := ⟨49, by decide⟩

/-- The one write-back, at point 49, writes the total: every element of the written block is the total. -/
theorem flushed1_eq (c : Dev nD) (t : Fin cfg1.N) (hf : (cfg1.win 2).flush t = true) :
    (dat1 V c).flushed 2 t = ((cfg1.win 2).blk t).view.read (Elt Ideal) (fun _ => total1 V c) := by
  have hN : cfg1.N = 50 := N_1
  have h49 : t.val = 49 := by have := (flush1_2 t).mp hf; have := t.isLt; omega
  obtain rfl : t = tLast1 := Fin.ext h49
  show (cfg1.win 2).cut (grid1.coords tLast1) ((dat1 V c).after 2 tLast1) = _
  rw [after1_2]
  show (cfg1.win 2).cut (grid1.coords tLast1) (outsAt1 V c 49 tLast1.isLt).1 = _
  rw [out_last1 V c tLast1.isLt, acc_eq1 V c 49 tLast1.isLt, total1_eq V c tLast1.isLt]
  generalize total1 V c = T
  rfl

/-- THE RESULT of the region: its [1, 1] output array ends holding the sum over the 500000 edges of the edges' distances. -/
theorem arrAt_out1 (c : Dev nD) :
    (dat1 (F := Ideal) V c).arrAt 2 cfg1.N = fun _ => (∑ e : Fin 500000, Cert.Spec.edgeDist
      (fun e d => V c (Pipeline.arrRef spec1 0) (ValueIdx.ix2 e d)) (fun e d => V c (Pipeline.arrRef spec1 1) (ValueIdx.ix2 e d)) e : EReal) :=
  (dat1 V c).arrAt_eq_of_cover 2 (fun _ => total1 V c) (flushed1_eq V c) fun i =>
    ⟨tLast1, (flush1_2 tLast1).mpr rfl, by
      show i ∈ ((View.whole main_v131).slice (win1_2.rect tLast1)).set
      rw [View.set_slice_whole, Rect.mem_set_unit]
      intro a
      have h0 : (i 0 : Nat) < 1 := (i 0).isLt
      have h1 : (i 1 : Nat) < 1 := (i 1).isLt
      match a with
      | ⟨0, _⟩ => show win1_2.index tLast1 0 * win1_2.size 0 ≤ (i 0 : Nat) ∧ (i 0 : Nat) < win1_2.index tLast1 0 * win1_2.size 0 + win1_2.xsize (grid1.coords tLast1) 0
                  rw [show win1_2.index tLast1 0 * win1_2.size 0 = 0 from by decide +kernel, show win1_2.xsize (grid1.coords tLast1) 0 = 1 from by decide +kernel]; omega
      | ⟨1, _⟩ => show win1_2.index tLast1 1 * win1_2.size 1 ≤ (i 1 : Nat) ∧ (i 1 : Nat) < win1_2.index tLast1 1 * win1_2.size 1 + win1_2.xsize (grid1.coords tLast1) 1
                  rw [show win1_2.index tLast1 1 * win1_2.size 1 = 0 from by decide +kernel, show win1_2.xsize (grid1.coords tLast1) 1 = 1 from by decide +kernel]; omega⟩

end Chain

end Cert.KernelIdeal.HandVal

end
-- ==== Proof.KI.Val3Pay.lean ====
import proofs.«104416_j77807627534714_2_alg».proof.Proof.Gen.KernelIdeal.Skeleton
import proofs.«104416_j77807627534714_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

/-! # Region 3: one step of the accumulation, read at a row, on the extended reals

The body's arithmetic at one grid point adds to the accumulator, at row `p` of the row block, the sum over the 1024 columns
`q` of the column block of exp ((gx p + gy q) − √(max (|x p|² + |y q|² − 2⟨x p, y q⟩, ε))). This module reads the payload at
an index: the row sums, the column casts and broadcasts, and the matrix product with the transposed block each become a
plain finite sum or a plain index. -/

noncomputable section

namespace Cert.KernelIdeal.HandVal

open Idealize.ShloMosaic Idealize.ShloMosaic.ValueIdx
open Cert.KernelIdeal Cert.KernelIdeal.Gen

/-! ## Layout operations of the payload, read at an index -/

section Layout
variable {α : Type}

/-- A vector `[a]` cast to a column `[a, 1]` reads, at `(i, u)`, the operand at `i`. -/
theorem colCast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem colBroadcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along axis 1 of an `[a, b]` array, read at row `p`: the sum of that row's entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) :=
  (Ideal.multiReduction_add_single v _ h hφ hacc (ix1 p)).trans
    (Finset.sum_congr rfl fun k _ => congrArg v (funext fun c => Fin.ext (by fin_cases c <;> rfl)))

/-! ## The inner products: the matrix product with the transposed right operand -/

theorem lhsIdx_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhsIdx_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhsIdx_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhsIdx_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The product of an `[1024, 16]` block with the transpose of another, accumulated into zero, read at `(p, q)`: the inner
    product of row `p` of the first with row `q` of the second. -/
theorem matmulT_apply (prec : Option ContractPrecision) (x y : FVec Ideal S1024x16 .f32)
    (h : S1024x16.Transposes [1, 0] S16x1024) (p q : Fin 1024) :
    matmul dot_S1024x16_S16x1024_S1024x1024_1_0_0_1_n_n prec x (transpose S16x1024 [1, 0] y h) (constant (F := Ideal) S1024x1024 .f32 0x00000000#32) (ix2 p q)
      = ∑ k : Fin 16, x (ix2 p k) * y (ix2 q k) := by
  simp only [matmul]
  rw [Ideal.matmul_constant_zero_apply, ← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p q) ((ValueIdx.contrEquiv1 dot_S1024x16_S16x1024_S1024x1024_1_0_0_1_n_n 16 rfl rfl).symm k) = ix2 p k := funext fun a => Fin.ext (by
    match a with
    | ⟨0, _⟩ => exact lhsIdx_0 _ _
    | ⟨1, _⟩ => exact (lhsIdx_1 _ _).trans hk)
  have er : dot_S1024x16_S16x1024_S1024x1024_1_0_0_1_n_n.rhsIdx (ix2 p q) ((ValueIdx.contrEquiv1 dot_S1024x16_S16x1024_S1024x1024_1_0_0_1_n_n 16 rfl rfl).symm k) = ix2 k q := funext fun a => Fin.ext (by
    match a with
    | ⟨0, _⟩ => exact (rhsIdx_0 _ _).trans hk
    | ⟨1, _⟩ => exact rhsIdx_1 _ _)
  rw [el, er]
  exact congrArg (x (ix2 p k) * ·) (transpose_ix2_apply y h k q)

/-! ## One step of the accumulation, read at a row -/

/-- The pair term of row `p` of the row block against row `q` of the column block: exp (bias − distance), the distance from
    the two squared norms and the doubled inner product, floored by ε under the square root. -/
def tileTerm (x0 x1 : FVec Ideal S1024x16 .f32) (x2 : FVec Ideal S1024x1 .f32) (x3 : FVec Ideal S1x1024 .f32) (p q : Fin 1024) : EReal :=
  Ideal.exp ((x2 (ix2 p (0 : Fin 1)) + x3 (ix2 (0 : Fin 1) q))
    - Ideal.sqrt (max (((∑ k : Fin 16, x0 (ix2 p k) * x0 (ix2 p k)) + ∑ k : Fin 16, x1 (ix2 q k) * x1 (ix2 q k))
        - Cert.Spec.two * ∑ k : Fin 16, x0 (ix2 p k) * x1 (ix2 q k)) Cert.Spec.eps))

/-- One step of the accumulation at row `p`: the accumulator there plus the sum over the tile's 1024 columns of the pair terms. -/
theorem step_apply (x0 x1 : FVec Ideal S1024x16 .f32) (x2 : FVec Ideal S1024x1 .f32) (x3 : FVec Ideal S1x1024 .f32) (xs : FVec Ideal S1024x1 .f32) (p : Fin 1024) :
    k3_pay1 (k3_pay3 x0 x1 x2 x3 xs) (ix2 p (0 : Fin 1)) = xs (ix2 p (0 : Fin 1)) + ∑ q : Fin 1024, tileTerm x0 x1 x2 x3 p q := by
  unfold k3_pay1 k3_pay3
  simp only [shapeCast_self]
  rw [addf_apply]
  refine congrArg (xs (ix2 p (0 : Fin 1)) + ·) ?_
  refine (colCast_apply _ _ p 0).trans ((rowSum_apply _ _ _ _ p).trans (Finset.sum_congr rfl fun q _ => ?_))
  unfold tileTerm
  refine congrArg Ideal.exp (congrArg₂ (· - ·) (congrArg₂ (· + ·) (colBroadcast_apply x2 _ p q) (broadcastTo_1b_ab_apply x3 _ p q))
    (congrArg Ideal.sqrt (congrArg₂ max (congrArg₂ (· - ·) (congrArg₂ (· + ·) ?sx ?sy) (congrArg (Cert.Spec.two * ·) (matmulT_apply _ x0 x1 _ p q))) rfl)))
  case sx => exact (colBroadcast_apply _ _ p q).trans ((colCast_apply _ _ p 0).trans (rowSum_apply _ _ _ _ p))
  case sy => exact (broadcastTo_1b_ab_apply _ _ p q).trans ((shapeCast_a_1a_apply _ _ 0 q).trans (rowSum_apply _ _ _ _ q))

/-- The zero block is zero at every row. -/
theorem zero_apply (j : S1024x1.Idx) : (k3_pay2 (F := Ideal)) j = 0 := by
  unfold k3_pay2
  simp only [shapeCast_self]
  exact Ideal.ofBits_zero_f32

end Cert.KernelIdeal.HandVal

end
-- ==== Proof.KI.Val2Pay.lean ====
import proofs.«104416_j77807627534714_2_alg».proof.Proof.KI.Val3Pay
import Mathlib.Tactic

set_option maxRecDepth 16384

/-! # Region 2: one step of the masked accumulation, read at a row, on the extended reals

At one grid point the body adds to the accumulator, at row `p` of the row block, the sum over the 1024 columns `q` of the
column block of the pair term where the column's number 1024 j + q exceeds the row's number 1024 i + p, and zero elsewhere.
The pair term is the unmasked kernel's; the mask compares two 32-bit words, which for numbers below 8192 is the comparison
of the numbers. -/

noncomputable section

namespace Cert.KernelIdeal.HandVal

open Idealize.ShloMosaic Idealize.ShloMosaic.ValueIdx
open Cert.KernelIdeal Cert.KernelIdeal.Gen

/-! ## The mask: a signed comparison of small words is the comparison of the numbers -/

theorem slt_small (a b : ℕ) (ha : a < 8192) (hb : b < 8192) :
    (BitVec.ofNat 32 a).slt (BitVec.ofNat 32 b) = decide (a < b) := by
  have ea : (BitVec.ofNat 32 a).toInt = (a : ℤ) := by
    rw [BitVec.toInt_eq_toNat_of_lt (by rw [BitVec.toNat_ofNat]; omega), BitVec.toNat_ofNat]; congr 1; omega
  have eb : (BitVec.ofNat 32 b).toInt = (b : ℤ) := by
    rw [BitVec.toInt_eq_toNat_of_lt (by rw [BitVec.toNat_ofNat]; omega), BitVec.toNat_ofNat]; congr 1; omega
  unfold BitVec.slt
  rw [ea, eb]
  simp

/-- The offset word 1024 i plus the coordinate word is the word of 1024 i + p. -/
theorem off_word (i p : ℕ) : IntOp.addi (Scalar.muli (BitVec.ofNat 32 i) 1024#32) (BitVec.ofNat 32 p) = BitVec.ofNat 32 (i * 1024 + p) := by
  unfold IntOp.addi Scalar.muli IntOp.muli
  rw [BitVec.ofNat_add, BitVec.ofNat_mul]

/-- The mask bit at (p, q) of tile (i, j): set exactly when the row's number is below the column's. -/
theorem mask_eq (i j : ℕ) (hi : i < 8) (hj : j < 8) (p q : Fin 1024) :
    IntOp.cmpi .sgt (IntOp.addi (Scalar.muli (BitVec.ofNat 32 j) 1024#32) (BitVec.ofNat 32 q.val)) (IntOp.addi (Scalar.muli (BitVec.ofNat 32 i) 1024#32) (BitVec.ofNat 32 p.val))
      = if i * 1024 + p.val < j * 1024 + q.val then 1#1 else 0#1 := by
  rw [off_word, off_word]
  unfold IntOp.cmpi
  dsimp only
  rw [slt_small _ _ (by omega) (by omega)]
  split <;> simp [*]

/-! ## One step of the masked accumulation, read at a row -/

/-- The accumulator at row `p` plus the sum over the tile's columns of the pair terms the mask keeps (`v3`, `v4`: the row
    block's and the column block's offset words). -/
theorem step2_apply (v3 v4 : BitVec 32) (x0 x1 : FVec Ideal S1024x16 .f32) (x2 : FVec Ideal S1024x1 .f32) (x3 : FVec Ideal S1x1024 .f32) (xs : FVec Ideal S1024x1 .f32) (p : Fin 1024) :
    k2_pay3 v3 v4 x0 x1 x2 x3 xs (ix2 p (0 : Fin 1))
      = xs (ix2 p (0 : Fin 1)) + ∑ q : Fin 1024, Scalar.select (IntOp.cmpi .sgt (IntOp.addi v4 (BitVec.ofNat 32 q.val)) (IntOp.addi v3 (BitVec.ofNat 32 p.val))) (tileTerm x0 x1 x2 x3 p q) 0 := by
  unfold k2_pay3
  simp only [shapeCast_self]
  rw [addf_apply]
  refine congrArg (xs (ix2 p (0 : Fin 1)) + ·) ?_
  refine (colCast_apply _ _ p 0).trans ((rowSum_apply _ _ _ _ p).trans (Finset.sum_congr rfl fun q _ => ?_))
  rw [select_apply]
  refine congr (congr (congrArg Scalar.select ?mask) ?val) Ideal.ofBits_zero_f32
  case mask =>
    show IntOp.cmpi .sgt (IntOp.addi v4 (iota .tc S1024x1024 32 [1] iota_S1024x1024_d1_w32 (ix2 p q))) (IntOp.addi v3 (iota .tc S1024x1024 32 [0] iota_S1024x1024_d0_w32 (ix2 p q))) = _
    rw [iota_single_apply, iota_single_apply]
  case val =>
    unfold tileTerm
    refine congrArg Ideal.exp (congrArg₂ (· - ·) (congrArg₂ (· + ·) (colBroadcast_apply x2 _ p q) (broadcastTo_1b_ab_apply x3 _ p q))
      (congrArg Ideal.sqrt (congrArg₂ max (congrArg₂ (· - ·) (congrArg₂ (· + ·) ?sx ?sy) (congrArg (Cert.Spec.two * ·) (matmulT_apply _ x0 x1 _ p q))) rfl)))
    case sx => exact (colBroadcast_apply _ _ p q).trans ((colCast_apply _ _ p 0).trans (rowSum_apply _ _ _ _ p))
    case sy => exact (broadcastTo_1b_ab_apply _ _ p q).trans ((shapeCast_a_1a_apply _ _ 0 q).trans (rowSum_apply _ _ _ _ q))

/-- The zero block is zero at every row. -/
theorem zero2_apply (j : S1024x1.Idx) : (k2_pay1 (F := Ideal)) j = 0 := by
  unfold k2_pay1
  simp only [shapeCast_self]
  exact Ideal.ofBits_zero_f32

end Cert.KernelIdeal.HandVal

end
-- ==== Proof.KI.Val2.lean ====
/- Region 2's value at the exact arithmetic: what the accumulator and the output block hold after each point of the
   8 x 8 grid, as sums of the masked pair terms, and the result array after the region. -/
import proofs.«104416_j77807627534714_2_alg».proof.Proof.KI.R2
import proofs.«104416_j77807627534714_2_alg».proof.Proof.KI.Val2Pay
import proofs.«104416_j77807627534714_2_alg».proof.Proof.SpecLaws
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.HandVal2

open Cert.KernelIdeal.HandVal
open Idealize.ShloMosaic Idealize.ShloMosaic.TcCoe Idealize.ShloMosaic.Tactic Idealize.SL.Sem
open Idealize.ShloMosaic.Pipeline (Dat Cfg Window)
open Idealize.ShloMosaic.ValueIdx
open Cert.KernelIdeal Cert.KernelIdeal.Gen Cert.KernelIdeal.Hand
section Pieces
variable {F : FTy → Type} [FloatOps F]

theorem hz2 : (![0, 0] : Fin 2 → Nat) = fun _ => 0 := funext fun a => by fin_cases a <;> rfl

/-- The row offset 1024 i and the column offset 1024 j of the point's tile, as the body computes them. -/
abbrev rowOff2 (i : grid2.Coords) : BitVec 32 := Scalar.muli (BitVec.ofNat 32 (i 0).val) 1024#32
abbrev colOff2 (i : grid2.Coords) : BitVec 32 := Scalar.muli (BitVec.ofNat 32 (i 1).val) 1024#32

/-- The reset leaves the zero block. -/
theorem sout2_B_eq (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : ¬cond2_1 i) (hc2 : ¬cond2_2 i) :
    sout2_B (F := F) c i arg2 harg2 arg3 harg3 arg4 harg4 arg5 harg5 arg6 harg6 arg7 harg7 hc0 hc1 hc2 = k2_pay1 := by
  unfold sout2_B
  rw [View.read_writes_eq_canon _ _ _ (scover2_B c i arg2 harg2 arg3 harg3 arg4 harg4 arg5 harg5 arg6 harg6 arg7 harg7 hc0 hc1 hc2)]
  unfold kernelRun2_B
  dsimp only
  rw [View.canon_unit_zero hz2]

/-- A contributing point leaves the accumulator it found plus the tile's row sums. -/
theorem sout2_C_eq (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : ¬cond2_2 i) (x0 : Vec F S1024x16 .f32) (x1 : Vec F S1024x16 .f32) (x2 : Vec F S1024x1 .f32) (x3 : Vec F S1x1024 .f32) (xs0 : Vec F S1024x1 .f32) :
    sout2_C c i arg2 harg2 arg3 harg3 arg4 harg4 arg5 harg5 arg6 harg6 arg7 harg7 hc0 hc1 hc2 x0 x1 x2 x3 xs0 = k2_pay3 (rowOff2 i) (colOff2 i) x0 x1 x2 x3 xs0 := by
  unfold sout2_C
  rw [View.read_writes_eq_canon _ _ _ (scover2_C c i arg2 harg2 arg3 harg3 arg4 harg4 arg5 harg5 arg6 harg6 arg7 harg7 hc0 hc1 hc2 x0 x1 x2 x3 xs0)]
  unfold kernelRun2_C
  dsimp only
  sl_unfold_words
  rw [View.canon_unit_zero hz2]
  unfold k2_pay2
  simp only [View.readAt_eq_ld, harg2.read_unread, harg3.read_unread, harg4.read_unread, harg5.read_unread, harg6.read_unread, harg7.read_unread, View.ld_unit_zero (S := S1024x16) hz2, View.ld_unit_zero (S := S1024x1) hz2, View.ld_unit_zero (S := S1x1024) hz2, shapeCast_self]

/-- So does a row's last point, -/
theorem sout2_E_eq (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i) (x0 : Vec F S1024x16 .f32) (x1 : Vec F S1024x16 .f32) (x2 : Vec F S1024x1 .f32) (x3 : Vec F S1x1024 .f32) (xs0 : Vec F S1024x1 .f32) :
    sout2_E c i arg2 harg2 arg3 harg3 arg4 harg4 arg5 harg5 arg6 harg6 arg7 harg7 hc0 hc1 hc2 x0 x1 x2 x3 xs0 = k2_pay3 (rowOff2 i) (colOff2 i) x0 x1 x2 x3 xs0 := by
  unfold sout2_E
  rw [View.read_writes_eq_canon _ _ _ (scover2_E c i arg2 harg2 arg3 harg3 arg4 harg4 arg5 harg5 arg6 harg6 arg7 harg7 hc0 hc1 hc2 x0 x1 x2 x3 xs0)]
  unfold kernelRun2_E
  dsimp only
  sl_unfold_words
  rw [View.canon_unit_zero hz2]
  unfold k2_pay2
  simp only [View.readAt_eq_ld, harg2.read_unread, harg3.read_unread, harg4.read_unread, harg5.read_unread, harg6.read_unread, harg7.read_unread, View.ld_unit_zero (S := S1024x16) hz2, View.ld_unit_zero (S := S1024x1) hz2, View.ld_unit_zero (S := S1x1024) hz2, shapeCast_self]

/-- and it copies that to the output block. -/
theorem out2_E_eq (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond2_0 i) (hc1 : cond2_1 i) (hc2 : cond2_2 i) (x0 : Vec F S1024x16 .f32) (x1 : Vec F S1024x16 .f32) (x2 : Vec F S1024x1 .f32) (x3 : Vec F S1x1024 .f32) (xs0 : Vec F S1024x1 .f32) :
    out2_E_4 c i arg2 harg2 arg3 harg3 arg4 harg4 arg5 harg5 arg6 harg6 arg7 harg7 hc0 hc1 hc2 x0 x1 x2 x3 xs0 = k2_pay3 (rowOff2 i) (colOff2 i) x0 x1 x2 x3 xs0 := by
  unfold out2_E_4
  rw [View.read_writes_eq_canon _ _ _ (cover2_E_4 c i arg2 harg2 arg3 harg3 arg4 harg4 arg5 harg5 arg6 harg6 arg7 harg7 hc0 hc1 hc2 x0 x1 x2 x3 xs0)]
  unfold kernelRun2_E
  dsimp only
  sl_unfold_words
  rw [View.canon_unit_zero hz2, View.readCov_unit_zero (S := S1024x1) _ hz2]
  unfold k2_pay2
  simp only [View.readAt_eq_ld, harg2.read_unread, harg3.read_unread, harg4.read_unread, harg5.read_unread, harg6.read_unread, harg7.read_unread, View.ld_unit_zero (S := S1024x16) hz2, View.ld_unit_zero (S := S1024x1) hz2, View.ld_unit_zero (S := S1x1024) hz2, shapeCast_self]

/-- The grid's first point resets and then contributes: the zero block plus the tile's row sums. -/
theorem sout2_A_eq (c : Dev nD) (i : grid2.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond2_0 i) (hc1 : cond2_1 i) (hc2 : ¬cond2_2 i) (x0 : Vec F S1024x16 .f32) (x1 : Vec F S1024x16 .f32) (x2 : Vec F S1024x1 .f32) (x3 : Vec F S1x1024 .f32) :
    sout2_A c i arg2 harg2 arg3 harg3 arg4 harg4 arg5 harg5 arg6 harg6 arg7 harg7 hc0 hc1 hc2 x0 x1 x2 x3 = k2_pay3 (rowOff2 i) (colOff2 i) x0 x1 x2 x3 k2_pay1 := by
  unfold sout2_A
  rw [View.read_writes_eq_canon _ _ _ (scover2_A c i arg2 harg2 arg3 harg3 arg4 harg4 arg5 harg5 arg6 harg6 arg7 harg7 hc0 hc1 hc2 x0 x1 x2 x3)]
  unfold kernelRun2_A
  dsimp only
  sl_unfold_words
  rw [View.canon_cons_unit_zero (S := S1024x1) hz2, View.readCov_unit_zero (S := S1024x1) _ hz2]
  unfold k2_pay2
  simp only [View.readAt_eq_ld, harg2.read_unread, harg3.read_unread, harg4.read_unread, harg5.read_unread, harg6.read_unread, harg7.read_unread, View.ld_unit_zero (S := S1024x16) hz2, View.ld_unit_zero (S := S1024x1) hz2, View.ld_unit_zero (S := S1x1024) hz2, shapeCast_self]

end Pieces

/-! ## The region's arrays, the blocks read off them, and the masked pair term -/

section Value
variable (V : (c : Dev nD) → (b : Ref sig .tc) → Buf (Elt Ideal) ((c : Thread nD τ).loc b)) (c : Dev nD)

/-- The left rows, the right rows and the two bias vectors, as the region finds them. -/
abbrev X2 : Fin 8192 → Fin 16 → EReal := fun r k => V c (Pipeline.arrRef spec2 0) (ix2 r k)
abbrev Y2 : Fin 8192 → Fin 16 → EReal := fun r k => V c (Pipeline.arrRef spec2 1) (ix2 r k)
abbrev gx2 : Fin 8192 → EReal := fun r => V c (Pipeline.arrRef spec2 2) (ix2 r (0 : Fin 1))
abbrev gy2 : Fin 8192 → EReal := fun q => V c (Pipeline.arrRef spec2 3) (ix2 (0 : Fin 1) q)

/-- The pair term of row number `R` and column number `C` where the column's number is the larger, zero elsewhere
    (and outside the array). -/
def mterm (R C : ℕ) : EReal :=
  if h : R < 8192 ∧ C < 8192 then
    (if R < C then Cert.Spec.pairVal (Cert.Spec.cdistKer (X2 V c) (Y2 V c)) (gx2 V c) (gy2 V c) ⟨R, h.1⟩ ⟨C, h.2⟩ else 0)
  else 0

theorem mterm_of_not_lt (R C : ℕ) (h : ¬R < C) : mterm V c R C = 0 := by
  unfold mterm
  split <;> first | rfl | simp [h]

/-- Row `p` of row block `i` against column tile `j`: the sum of the kept pair terms. -/
def rowTile (i j : ℕ) (p : Fin 1024) : EReal := ∑ q : Fin 1024, mterm V c (i * 1024 + p.val) (j * 1024 + q.val)

/-- A tile strictly to the left of the row block contributes nothing. -/
theorem rowTile_zero (i j : ℕ) (p : Fin 1024) (h : j < i) : rowTile V c i j p = 0 :=
  Finset.sum_eq_zero fun q _ => mterm_of_not_lt V c _ _ (by have := q.isLt; omega)

/-- The index maps of the five windows and the point's coordinates, decided over the grid: the row block is t / 8, the
    column block t % 8. -/
theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = t.val / 8 ∧ win2_4.index t (1 : Fin 2) = 0
    ∧ ((grid2.coords t) 0).val = t.val / 8 ∧ ((grid2.coords t) 1).val = t.val % 8 :=
  (by decide +kernel : ∀ t : Fin grid2.N, _)

theorem blk0_apply (t : Fin cfg2.N) (p : Fin 1024) (k : Fin 16) :
    (iblk2 V c 0 t : Vec Ideal S1024x16 .f32) (ix2 p k) = X2 V c ⟨t.val / 8 * 1024 + p.val, by have := lt64 t; omega⟩ k := by
  obtain ⟨e0, e1, -⟩ := idx_facts2 t
  unfold iblk2
  rw [View.read_apply]
  show V c (Pipeline.arrRef spec2 0) (((cfg2.win 0).blk t).view.emb (ix2 p k)) = V c (Pipeline.arrRef spec2 0) (ix2 _ k)
  refine congrArg (V c (Pipeline.arrRef spec2 0)) (funext fun a => Fin.ext ?_)
  match a with
  | ⟨0, _⟩ => show win2_0.index t (0 : Fin 2) * 1024 + 1 * p.val = t.val / 8 * 1024 + p.val; rw [e0]; omega
  | ⟨1, _⟩ => show win2_0.index t (1 : Fin 2) * 16 + 1 * k.val = k.val; rw [e1]; omega

theorem blk1_apply (t : Fin cfg2.N) (q : Fin 1024) (k : Fin 16) :
    (iblk2 V c 1 t : Vec Ideal S1024x16 .f32) (ix2 q k) = Y2 V c ⟨t.val % 8 * 1024 + q.val, by omega⟩ k := by
  obtain ⟨-, -, e0, e1, -⟩ := idx_facts2 t
  unfold iblk2
  rw [View.read_apply]
  show V c (Pipeline.arrRef spec2 1) (((cfg2.win 1).blk t).view.emb (ix2 q k)) = V c (Pipeline.arrRef spec2 1) (ix2 _ k)
  refine congrArg (V c (Pipeline.arrRef spec2 1)) (funext fun a => Fin.ext ?_)
  match a with
  | ⟨0, _⟩ => show win2_1.index t (0 : Fin 2) * 1024 + 1 * q.val = t.val % 8 * 1024 + q.val; rw [e0]; omega
  | ⟨1, _⟩ => show win2_1.index t (1 : Fin 2) * 16 + 1 * k.val = k.val; rw [e1]; omega

theorem blk2_apply (t : Fin cfg2.N) (p : Fin 1024) :
    (iblk2 V c 2 t : Vec Ideal S1024x1 .f32) (ix2 p (0 : Fin 1)) = gx2 V c ⟨t.val / 8 * 1024 + p.val, by have := lt64 t; omega⟩ := by
  obtain ⟨-, -, -, -, e0, e1, -⟩ := idx_facts2 t
  unfold iblk2
  rw [View.read_apply]
  show V c (Pipeline.arrRef spec2 2) (((cfg2.win 2).blk t).view.emb (ix2 p (0 : Fin 1))) = V c (Pipeline.arrRef spec2 2) (ix2 _ (0 : Fin 1))
  refine congrArg (V c (Pipeline.arrRef spec2 2)) (funext fun a => Fin.ext ?_)
  match a with
  | ⟨0, _⟩ => show win2_2.index t (0 : Fin 2) * 1024 + 1 * p.val = t.val / 8 * 1024 + p.val; rw [e0]; omega
  | ⟨1, _⟩ => show win2_2.index t (1 : Fin 2) * 1 + 1 * 0 = 0; rw [e1]

theorem blk3_apply (t : Fin cfg2.N) (q : Fin 1024) :
    (iblk2 V c 3 t : Vec Ideal S1x1024 .f32) (ix2 (0 : Fin 1) q) = gy2 V c ⟨t.val % 8 * 1024 + q.val, by omega⟩ := by
  obtain ⟨-, -, -, -, -, -, e0, e1, -⟩ := idx_facts2 t
  unfold iblk2
  rw [View.read_apply]
  show V c (Pipeline.arrRef spec2 3) (((cfg2.win 3).blk t).view.emb (ix2 (0 : Fin 1) q)) = V c (Pipeline.arrRef spec2 3) (ix2 (0 : Fin 1) _)
  refine congrArg (V c (Pipeline.arrRef spec2 3)) (funext fun a => Fin.ext ?_)
  match a with
  | ⟨0, _⟩ => show win2_3.index t (0 : Fin 2) * 1 + 1 * 0 = 0; rw [e0]
  | ⟨1, _⟩ => show win2_3.index t (1 : Fin 2) * 1024 + 1 * q.val = t.val % 8 * 1024 + q.val; rw [e1]; omega

/-- The kept pair term of the point's tile at (p, q) is the array's at (1024 (t / 8) + p, 1024 (t % 8) + q). -/
theorem tile_link (t : Fin cfg2.N) (p q : Fin 1024) :
    Scalar.select (IntOp.cmpi .sgt (IntOp.addi (colOff2 (grid2.coords t)) (BitVec.ofNat 32 q.val)) (IntOp.addi (rowOff2 (grid2.coords t)) (BitVec.ofNat 32 p.val)))
        (tileTerm (iblk2 V c 0 t) (iblk2 V c 1 t) (iblk2 V c 2 t) (iblk2 V c 3 t) p q) 0
      = mterm V c (t.val / 8 * 1024 + p.val) (t.val % 8 * 1024 + q.val) := by
  obtain ⟨-, -, -, -, -, -, -, -, -, -, ec0, ec1⟩ := idx_facts2 t
  have hN := lt64 t
  dsimp only [rowOff2, colOff2]
  rw [ec0, ec1, mask_eq (t.val / 8) (t.val % 8) (by omega) (by omega) p q]
  unfold mterm
  rw [dif_pos ⟨by omega, by omega⟩]
  by_cases h : t.val / 8 * 1024 + p.val < t.val % 8 * 1024 + q.val
  · rw [if_pos h, if_pos h, select_one]
    unfold tileTerm Cert.Spec.pairVal Cert.Spec.cdistKer Cert.Spec.sqn
    simp only [blk0_apply, blk1_apply, blk2_apply, blk3_apply]
  · rw [if_neg h, if_neg h, select_zero]

/-- One contributing step at row `p`: the accumulator found plus the row's sum over the point's tile. -/
theorem accStep (t : Fin cfg2.N) (xs : Vec Ideal S1024x1 .f32) (p : Fin 1024) :
    k2_pay3 (rowOff2 (grid2.coords t)) (colOff2 (grid2.coords t)) (iblk2 V c 0 t) (iblk2 V c 1 t) (iblk2 V c 2 t) (iblk2 V c 3 t) xs (ix2 p (0 : Fin 1))
      = xs (ix2 p (0 : Fin 1)) + rowTile V c (t.val / 8) (t.val % 8) p :=
  (step2_apply (rowOff2 (grid2.coords t)) (colOff2 (grid2.coords t)) (iblk2 V c 0 t) (iblk2 V c 1 t) (iblk2 V c 2 t) (iblk2 V c 3 t) xs p).trans
    (congrArg (xs (ix2 p (0 : Fin 1)) + ·) (Finset.sum_congr rfl fun q _ => tile_link V c t p q))

/-! ## The cases at a point, as values -/

theorem accA_eq (t : Fin cfg2.N) (hz : t.val = 0) :
    accA V c t hz = k2_pay3 (rowOff2 (grid2.coords t)) (colOff2 (grid2.coords t)) (iblk2 V c 0 t) (iblk2 V c 1 t) (iblk2 V c 2 t) (iblk2 V c 3 t) (k2_pay1 (F := Ideal)) := by
  unfold accA
  exact sout2_A_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) _ _ _ (iblk2 V c 0 t) (iblk2 V c 1 t) (iblk2 V c 2 t) (iblk2 V c 3 t)

theorem accB_eq (t : Fin cfg2.N) (h0 : t.val % 8 = 0) (hz : t.val ≠ 0) :
    accB (F := Ideal) c t h0 hz = k2_pay1 (F := Ideal) := by
  unfold accB
  exact sout2_B_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) _ _ _

theorem accC_eq (t : Fin cfg2.N) (h0 : ¬t.val % 8 = 0) (h1 : t.val / 8 ≤ t.val % 8) (h2 : ¬t.val % 8 = 7) (xs : Vec Ideal S1024x1 .f32) :
    accC V c t h0 h1 h2 xs = k2_pay3 (rowOff2 (grid2.coords t)) (colOff2 (grid2.coords t)) (iblk2 V c 0 t) (iblk2 V c 1 t) (iblk2 V c 2 t) (iblk2 V c 3 t) xs := by
  unfold accC
  exact sout2_C_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) _ _ _ (iblk2 V c 0 t) (iblk2 V c 1 t) (iblk2 V c 2 t) (iblk2 V c 3 t) xs

theorem accE_eq (t : Fin cfg2.N) (h0 : ¬t.val % 8 = 0) (h1 : t.val / 8 ≤ t.val % 8) (h2 : t.val % 8 = 7) (xs : Vec Ideal S1024x1 .f32) :
    accE V c t h0 h1 h2 xs = k2_pay3 (rowOff2 (grid2.coords t)) (colOff2 (grid2.coords t)) (iblk2 V c 0 t) (iblk2 V c 1 t) (iblk2 V c 2 t) (iblk2 V c 3 t) xs := by
  unfold accE
  exact sout2_E_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) _ _ _ (iblk2 V c 0 t) (iblk2 V c 1 t) (iblk2 V c 2 t) (iblk2 V c 3 t) xs

theorem outE_eq (t : Fin cfg2.N) (h0 : ¬t.val % 8 = 0) (h1 : t.val / 8 ≤ t.val % 8) (h2 : t.val % 8 = 7) (xs : Vec Ideal S1024x1 .f32) :
    outE V c t h0 h1 h2 xs = k2_pay3 (rowOff2 (grid2.coords t)) (colOff2 (grid2.coords t)) (iblk2 V c 0 t) (iblk2 V c 1 t) (iblk2 V c 2 t) (iblk2 V c 3 t) xs := by
  unfold outE
  exact out2_E_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) _ _ _ (iblk2 V c 0 t) (iblk2 V c 1 t) (iblk2 V c 2 t) (iblk2 V c 3 t) xs

/-! ## The accumulator after each point -/

set_option maxHeartbeats 4000000 in
/-- After point n = 8 i + j the accumulator holds, at row `p`, the row's kept pair terms over the column tiles 0 … j:
    by induction on the point — a row's first point resets (its tile lies left of the diagonal unless i = 0), a
    contributing point adds its tile, a point below the diagonal adds a tile that contributes nothing. -/
theorem acc_eq : ∀ (n : ℕ) (h : n < cfg2.N) (p : Fin 1024),
    (outsAt2 V c n h).2 (ix2 p (0 : Fin 1)) = ∑ j ∈ Finset.range (n % 8 + 1), rowTile V c (n / 8) j p
  | 0, h, p => by
    rw [outsAt2_A V c ⟨0, h⟩ rfl]
    show accA V c ⟨0, h⟩ rfl (ix2 p (0 : Fin 1)) = _
    rw [accA_eq, accStep, zero2_apply, zero_add]
    simp only [Nat.zero_mod, Nat.zero_div, Nat.zero_add, Finset.sum_range_one]
  | n + 1, h, p => by
    have IH := acc_eq n (Nat.lt_of_succ_lt h) p
    have hN : n + 1 < 64 := lt64 ⟨n + 1, h⟩
    by_cases h0 : (n + 1) % 8 = 0
    · rw [outsAt2_B V c ⟨n + 1, h⟩ h0 (Nat.succ_ne_zero n)]
      show accB (F := Ideal) c ⟨n + 1, h⟩ h0 (Nat.succ_ne_zero n) (ix2 p (0 : Fin 1)) = _
      rw [accB_eq, zero2_apply, h0]
      simp only [Nat.zero_add, Finset.sum_range_one]
      exact (rowTile_zero V c _ _ p (by omega)).symm
    · have e8 : (n + 1) / 8 = n / 8 := by omega
      have em : (n + 1) % 8 = n % 8 + 1 := by omega
      by_cases h1 : (n + 1) / 8 ≤ (n + 1) % 8
      · have key : ∀ xs : Vec Ideal S1024x1 .f32, xs = (outsAt2 V c n (Nat.lt_of_succ_lt h)).2 →
            k2_pay3 (rowOff2 (grid2.coords ⟨n + 1, h⟩)) (colOff2 (grid2.coords ⟨n + 1, h⟩)) (iblk2 V c 0 ⟨n + 1, h⟩) (iblk2 V c 1 ⟨n + 1, h⟩) (iblk2 V c 2 ⟨n + 1, h⟩) (iblk2 V c 3 ⟨n + 1, h⟩) xs (ix2 p (0 : Fin 1))
              = ∑ j ∈ Finset.range ((n + 1) % 8 + 1), rowTile V c ((n + 1) / 8) j p := by
          intro xs hxs
          rw [accStep, hxs, IH]
          show _ + rowTile V c ((n + 1) / 8) ((n + 1) % 8) p = _
          rw [e8, em, Finset.sum_range_succ _ (n % 8 + 1)]
        by_cases h2 : (n + 1) % 8 = 7
        · rw [outsAt2_E V c ⟨n + 1, h⟩ h0 h1 h2]
          show accE V c ⟨n + 1, h⟩ h0 h1 h2 _ (ix2 p (0 : Fin 1)) = _
          rw [accE_eq]
          exact key _ rfl
        · rw [outsAt2_C V c ⟨n + 1, h⟩ h0 h1 h2]
          show accC V c ⟨n + 1, h⟩ h0 h1 h2 _ (ix2 p (0 : Fin 1)) = _
          rw [accC_eq]
          exact key _ rfl
      · rw [outsAt2_D V c ⟨n + 1, h⟩ h0 h1]
        show (outsAt2 V c n _).2 (ix2 p (0 : Fin 1)) = _
        rw [IH, e8, em, Finset.sum_range_succ _ (n % 8 + 1), rowTile_zero V c _ _ p (by omega), add_zero]

set_option maxHeartbeats 4000000 in
/-- After a row's last point the output's buffer holds what the accumulator holds. -/
theorem out_eq_acc (t : Fin cfg2.N) (h2 : t.val % 8 = 7) :
    (outsAt2 V c t.val t.isLt).1 = (outsAt2 V c t.val t.isLt).2 := by
  have hN := lt64 t
  have h0 : ¬t.val % 8 = 0 := by omega
  have h1 : t.val / 8 ≤ t.val % 8 := by omega
  rw [outsAt2_E V c t h0 h1 h2]
  show outE V c t h0 h1 h2 _ = accE V c t h0 h1 h2 _
  rw [outE_eq, accE_eq]

/-! ## The result array -/

/-- Row `r` of the result: the sum over the columns strictly to the right of the diagonal of the pair terms. -/
def G2 : S8192x1.Idx → EReal := fun i =>
  ∑ q : Fin 8192, if (i 0).val < q.val then Cert.Spec.pairVal (Cert.Spec.cdistKer (X2 V c) (Y2 V c)) (gx2 V c) (gy2 V c) ⟨(i 0).val, (i 0).isLt⟩ q else 0

/-- A row's eight tiles together are the row's sum. -/
theorem row_total (i : ℕ) (hi : i < 8) (p : Fin 1024) :
    ∑ j ∈ Finset.range 8, rowTile V c i j p
      = ∑ q : Fin 8192, if i * 1024 + p.val < q.val then Cert.Spec.pairVal (Cert.Spec.cdistKer (X2 V c) (Y2 V c)) (gx2 V c) (gy2 V c) ⟨i * 1024 + p.val, by omega⟩ q else 0 := by
  rw [Finset.sum_range, Cert.Spec.upper_row_tiled (Cert.Spec.pairVal (Cert.Spec.cdistKer (X2 V c) (Y2 V c)) (gx2 V c) (gy2 V c)) ⟨i * 1024 + p.val, by omega⟩]
  refine Finset.sum_congr rfl fun j _ => Finset.sum_congr rfl fun q _ => ?_
  unfold mterm
  rw [dif_pos ⟨by omega, by omega⟩]

/-- What a row's last point writes back is its block of the result: rows 1024 (t / 8) … 1024 (t / 8) + 1023. -/
theorem flushed2_eq (t : Fin cfg2.N) (hf : (cfg2.win 4).flush t = true) :
    (dat2 V c).flushed 4 t = ((cfg2.win 4).blk t).view.read (Elt Ideal) (G2 V c) := by
  have h2 : t.val % 8 = 7 := (flush2_4 t).mp hf
  have hN := lt64 t
  obtain ⟨-, -, -, -, -, -, -, -, e0, e1, -⟩ := idx_facts2 t
  show (cfg2.win 4).cut (grid2.coords t) ((dat2 V c).after 4 t) = _
  rw [after2_4, out_eq_acc V c t h2]
  funext y
  obtain ⟨p, u, rfl⟩ : ∃ (p : Fin 1024) (u : Fin 1), y = ix2 p u := ⟨y 0, y 1, eq_ix2 y⟩
  obtain rfl : u = 0 := Subsingleton.elim _ _
  rw [View.read_apply]
  show (outsAt2 V c t.val t.isLt).2 (ix2 p (0 : Fin 1)) = G2 V c (((cfg2.win 4).blk t).view.emb (ix2 p (0 : Fin 1)))
  have hI : ((((cfg2.win 4).blk t).view.emb (ix2 p (0 : Fin 1))) 0).val = t.val / 8 * 1024 + p.val := by
    show win2_4.index t (0 : Fin 2) * 1024 + 1 * p.val = _
    rw [e0]; omega
  rw [acc_eq V c t.val t.isLt p, h2, row_total V c (t.val / 8) (by omega) p]
  unfold G2
  refine Finset.sum_congr rfl fun q _ => ?_
  have hr : (⟨((((cfg2.win 4).blk t).view.emb (ix2 p (0 : Fin 1))) 0).val, ((((cfg2.win 4).blk t).view.emb (ix2 p (0 : Fin 1))) 0).isLt⟩ : Fin 8192) = ⟨t.val / 8 * 1024 + p.val, by omega⟩ := Fin.ext hI
  rw [hr, hI]

/-- An index of the result is in point `t`'s block iff each coordinate is in the block's range on its axis. -/
theorem mem_blk2_4 (t : Fin cfg2.N) (i : S8192x1.Idx) :
    i ∈ ((cfg2.win 4).blk t).view.set ↔ ∀ a : Fin 2, win2_4.index t a * S1024x1.size a ≤ (i a).val ∧ (i a).val < win2_4.index t a * S1024x1.size a + S1024x1.size a := by
  show i ∈ ((View.whole main_v143).slice (win2_4.rect t)).set ↔ _
  rw [View.set_slice_whole, Rect.mem_set_unit]
  exact Iff.rfl

/-- THE RESULT of region 2: row `r` of the [8192, 1] array ends holding the sum, over the columns `q` with r < q, of the
    pair terms exp ((gx r + gy q) − distance r q) — the eight write-backs (one per row block, at its last point) tile it. -/
theorem arrAt_out2 :
    (dat2 (F := Ideal) V c).arrAt 4 cfg2.N = fun i => ∑ q : Fin 8192, if (i 0).val < q.val then Cert.Spec.pairVal (Cert.Spec.cdistKer (X2 V c) (Y2 V c)) (gx2 V c) (gy2 V c) ⟨(i 0).val, (i 0).isLt⟩ q else 0 :=
  (dat2 V c).arrAt_eq_of_cover 4 (G2 V c) (flushed2_eq V c) fun i => by
    have hi0 : (i 0).val < 8192 := (i 0).isLt
    have hi1 : (i 1).val < 1 := (i 1).isLt
    have hN : cfg2.N = 64 := N_2
    let t : Fin cfg2.N := ⟨(i 0).val / 1024 * 8 + 7, by omega⟩
    have ht : t.val = (i 0).val / 1024 * 8 + 7 := rfl
    obtain ⟨-, -, -, -, -, -, -, -, e0, e1, -⟩ := idx_facts2 t
    refine ⟨t, (flush2_4 t).mpr (by omega), ?_⟩
    rw [mem_blk2_4]
    intro a
    match a with
    | ⟨0, _⟩ => show win2_4.index t (0 : Fin 2) * 1024 ≤ (i 0).val ∧ (i 0).val < win2_4.index t (0 : Fin 2) * 1024 + 1024; rw [e0]; omega
    | ⟨1, _⟩ => show win2_4.index t (1 : Fin 2) * 1 ≤ (i 1).val ∧ (i 1).val < win2_4.index t (1 : Fin 2) * 1 + 1; rw [e1]; omega

end Value

end Cert.KernelIdeal.HandVal2
end
-- ==== Proof.KI.Val3Pieces.lean ====
import proofs.«104416_j77807627534714_2_alg».proof.Proof.KI.R3
import Idealize.ShloMosaic.Lib.Pipeline.Value
import Idealize.ShloMosaic.Lib.Tactic

set_option maxRecDepth 16384

/-! # Region 3: what each case of the body leaves, as the body's arithmetic applied to the blocks

At any float semantics: the accumulator after a point is the step function `acc ↦ acc + (row sums of the pair terms of
this tile)` applied to the accumulator before it — to the zero block where the accumulator is reset —, and at a point
with column coordinate 7 the output block receives exactly that accumulator. Each statement reads back the one
whole-buffer store that decides the buffer's final contents. -/

noncomputable section

namespace Cert.KernelIdeal.HandVal

open Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-block access. -/
theorem hz : (![0, 0] : Fin 2 → Nat) = fun _ => 0 := funext fun a => by fin_cases a <;> rfl

/-- One step of the accumulation: the accumulator `xs` plus the row sums of this tile's pair terms, computed from the
    row block `x0`, the column block `x1` and the two bias blocks `x2`, `x3`. -/
abbrev step3 (x0 : Vec F S1024x16 .f32) (x1 : Vec F S1024x16 .f32) (x2 : Vec F S1024x1 .f32) (x3 : Vec F S1x1024 .f32) (xs : Vec F S1024x1 .f32) : Vec F S1024x1 .f32 :=
  k3_pay1 (k3_pay3 x0 x1 x2 x3 xs)

/-- The zero block the reset stores. -/
abbrev zero3 : Vec F S1024x1 .f32 := k3_pay2 (F := F)

/-- Where the accumulator is reset: it ends at one step from the zero block (the zero block is stored, read back, and
    the step's result stored over it). -/
theorem sout_A (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond3_0 i) (hc1 : ¬cond3_1 i)
    (x0 : Vec F S1024x16 .f32) (x1 : Vec F S1024x16 .f32) (x2 : Vec F S1024x1 .f32) (x3 : Vec F S1x1024 .f32) :
    sout3_A_0 c i arg2 harg2 arg3 harg3 arg4 harg4 arg5 harg5 arg6 harg6 arg7 harg7 hc0 hc1 x0 x1 x2 x3 = step3 x0 x1 x2 x3 (zero3 (F := F)) := by
  unfold sout3_A_0
  rw [View.read_writes_eq_canon _ _ _ (scover3_A_0 c i arg2 harg2 arg3 harg3 arg4 harg4 arg5 harg5 arg6 harg6 arg7 harg7 hc0 hc1 x0 x1 x2 x3)]
  unfold kernelRun3_A
  dsimp only
  sl_unfold_words
  rw [View.canon_cons_unit_zero (S := S1024x1) hz]
  simp only [View.readAt_eq_ld, harg2.read_unread, harg3.read_unread, harg4.read_unread, harg5.read_unread,
    View.ld_unit_zero (S := S1024x16) hz, View.ld_unit_zero (S := S1024x1) hz, View.ld_unit_zero (S := S1x1024) hz, View.readCov_unit_zero (S := S1024x1) _ hz]

/-- At an interior point: the accumulator ends at one step from what the point before left. -/
theorem sout_B (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : ¬cond3_1 i)
    (x0 : Vec F S1024x16 .f32) (x1 : Vec F S1024x16 .f32) (x2 : Vec F S1024x1 .f32) (x3 : Vec F S1x1024 .f32) (xs0 : Vec F S1024x1 .f32) :
    sout3_B_0 c i arg2 harg2 arg3 harg3 arg4 harg4 arg5 harg5 arg6 harg6 arg7 harg7 hc0 hc1 x0 x1 x2 x3 xs0 = step3 x0 x1 x2 x3 xs0 := by
  unfold sout3_B_0
  rw [View.read_writes_eq_canon _ _ _ (scover3_B_0 c i arg2 harg2 arg3 harg3 arg4 harg4 arg5 harg5 arg6 harg6 arg7 harg7 hc0 hc1 x0 x1 x2 x3 xs0)]
  unfold kernelRun3_B
  dsimp only
  sl_unfold_words
  rw [View.canon_unit_zero hz]
  simp only [View.readAt_eq_ld, harg2.read_unread, harg3.read_unread, harg4.read_unread, harg5.read_unread, harg7.read_unread,
    View.ld_unit_zero (S := S1024x16) hz, View.ld_unit_zero (S := S1024x1) hz, View.ld_unit_zero (S := S1x1024) hz]

/-- At a point with column coordinate 7: the accumulator likewise, -/
theorem sout_C (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) :
    sout3_C_0 c i arg2 harg2 arg3 harg3 arg4 harg4 arg5 harg5 arg6 harg6 arg7 harg7 hc0 hc1 x0 x1 x2 x3 xs0 = step3 x0 x1 x2 x3 xs0 := by
  unfold sout3_C_0
  rw [View.read_writes_eq_canon _ _ _ (scover3_C_0 c i arg2 harg2 arg3 harg3 arg4 harg4 arg5 harg5 arg6 harg6 arg7 harg7 hc0 hc1 x0 x1 x2 x3 xs0)]
  unfold kernelRun3_C
  dsimp only
  sl_unfold_words
  rw [View.canon_unit_zero hz]
  simp only [View.readAt_eq_ld, harg2.read_unread, harg3.read_unread, harg4.read_unread, harg5.read_unread, harg7.read_unread,
    View.ld_unit_zero (S := S1024x16) hz, View.ld_unit_zero (S := S1024x1) hz, View.ld_unit_zero (S := S1x1024) hz]

/-- and the output block receives that same accumulator (read back after its store). -/
theorem out_C (c : Dev nD) (i : grid3.Coords) (arg2 : Memref sig .tc .vmem S1024x16 .f32) (harg2 : arg2.IsWhole) (arg3 : Memref sig .tc .vmem S1024x16 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond3_0 i) (hc1 : cond3_1 i)
    (x0 : Vec F S1024x16 .f32) (x1 : Vec F S1024x16 .f32) (x2 : Vec F S1024x1 .f32) (x3 : Vec F S1x1024 .f32) (xs0 : Vec F S1024x1 .f32) :
    out3_C_4 c i arg2 harg2 arg3 harg3 arg4 harg4 arg5 harg5 arg6 harg6 arg7 harg7 hc0 hc1 x0 x1 x2 x3 xs0 = step3 x0 x1 x2 x3 xs0 := by
  unfold out3_C_4
  rw [View.read_writes_eq_canon _ _ _ (cover3_C_4 c i arg2 harg2 arg3 harg3 arg4 harg4 arg5 harg5 arg6 harg6 arg7 harg7 hc0 hc1 x0 x1 x2 x3 xs0)]
  unfold kernelRun3_C
  dsimp only
  sl_unfold_words
  rw [View.canon_unit_zero hz]
  simp only [View.readAt_eq_ld, harg2.read_unread, harg3.read_unread, harg4.read_unread, harg5.read_unread, harg7.read_unread,
    View.ld_unit_zero (S := S1024x16) hz, View.ld_unit_zero (S := S1024x1) hz, View.ld_unit_zero (S := S1x1024) hz, View.readCov_unit_zero (S := S1024x1) _ hz]

end Cert.KernelIdeal.HandVal

end
-- ==== Proof.KI.Val3.lean ====
import proofs.«104416_j77807627534714_2_alg».proof.Proof.KI.R3
import proofs.«104416_j77807627534714_2_alg».proof.Proof.KI.Val3Pieces
import proofs.«104416_j77807627534714_2_alg».proof.Proof.KI.Val3Pay
import proofs.«104416_j77807627534714_2_alg».proof.Proof.SpecLaws
import Idealize.ShloMosaic.Lib.Pipeline.Value
import Idealize.ShloMosaic.Lib.Tactic

set_option maxRecDepth 16384

/-! # Region 3: the result array is the row sums of the pair terms, on the extended reals

Row block `i` is handled by the points `8 i … 8 i + 7`. The accumulator restarts at point `8 i` and after point `8 i + j`
holds, at row `p`, the sum over the column tiles `0 … j` of the sums over the tile's 1024 columns of the pair term of row
`1024 i + p` (a fold that resets at the multiples of 8 and adds one tile's row sums per point). At point `8 i + 7` the output
block receives it: the sum over all 8192 columns, tile by tile. The eight written blocks are the rows `1024 i … 1024 i + 1023`
and cover the result. On the extended reals `0 + x = x` and a finite sum may be split into tiles: nothing is asked of the
entries. -/

noncomputable section

namespace Cert.KernelIdeal.HandVal

open Cert.KernelIdeal.Hand Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-! ## The four input arrays as the region finds them -/

/-- The row table: window 0's array `[8192, 16]`. -/
def X3 (c : Dev nD) (r : Fin 8192) (k : Fin 16) : EReal := V c (Pipeline.arrRef spec3 0) (ix2 r k)
/-- The column table: window 1's array `[8192, 16]`. -/
def Y3 (c : Dev nD) (r : Fin 8192) (k : Fin 16) : EReal := V c (Pipeline.arrRef spec3 1) (ix2 r k)
/-- The row biases: window 2's array `[8192, 1]`. -/
def gx3 (c : Dev nD) (r : Fin 8192) : EReal := V c (Pipeline.arrRef spec3 2) (ix2 r (0 : Fin 1))
/-- The column biases: window 3's array `[1, 8192]`. -/
def gy3 (c : Dev nD) (q : Fin 8192) : EReal := V c (Pipeline.arrRef spec3 3) (ix2 (0 : Fin 1) q)

/-! ## The windows' block indices at a point, and the blocks read at an index -/

/-- Point `t = 8 i + j`: the row windows (0, 2, 4) are on block `i = t / 8`, the column windows (1, 3) on block `j = t % 8` —
    decided over the 64 points. -/
theorem idx_facts3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val / 8 ∧ win3_2.index t (1 : Fin 2) = 0
    ∧ win3_3.index t (0 : Fin 2) = 0 ∧ win3_3.index t (1 : Fin 2) = t.val % 8
    ∧ win3_4.index t (0 : Fin 2) = t.val / 8 ∧ win3_4.index t (1 : Fin 2) = 0 :=
  (by decide +kernel : ∀ t : Fin grid3.N, _)

/-- Row `p` of the row block at point `t` is row `1024 (t / 8) + p` of the row table. -/
theorem iblk3_0_apply (c : Dev nD) (t : Fin cfg3.N) (p : Fin 1024) (k : Fin 16) (r : Fin 8192) (hr : r.val = t.val / 8 * 1024 + p.val) :
    (iblk3 V c 0 t : Vec Ideal S1024x16 .f32) (ix2 p k) = X3 V c r k := by
  obtain ⟨e0, e1, -⟩ := idx_facts3 t
  unfold iblk3 X3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 1024 + 1 * p.val = r.val; omega
  | ⟨1, _⟩ => show win3_0.index t (1 : Fin 2) * 16 + 1 * k.val = k.val; omega

/-- Row `q` of the column block at point `t` is row `1024 (t % 8) + q` of the column table. -/
theorem iblk3_1_apply (c : Dev nD) (t : Fin cfg3.N) (q : Fin 1024) (k : Fin 16) (s : Fin 8192) (hs : s.val = t.val % 8 * 1024 + q.val) :
    (iblk3 V c 1 t : Vec Ideal S1024x16 .f32) (ix2 q k) = Y3 V c s k := by
  obtain ⟨-, -, e0, e1, -⟩ := idx_facts3 t
  unfold iblk3 Y3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 1024 + 1 * q.val = s.val; omega
  | ⟨1, _⟩ => show win3_1.index t (1 : Fin 2) * 16 + 1 * k.val = k.val; omega

/-- The row biases' block likewise. -/
theorem iblk3_2_apply (c : Dev nD) (t : Fin cfg3.N) (p : Fin 1024) (r : Fin 8192) (hr : r.val = t.val / 8 * 1024 + p.val) :
    (iblk3 V c 2 t : Vec Ideal S1024x1 .f32) (ix2 p (0 : Fin 1)) = gx3 V c r := by
  obtain ⟨-, -, -, -, e0, e1, -⟩ := idx_facts3 t
  unfold iblk3 gx3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 2) * 1024 + 1 * p.val = r.val; omega
  | ⟨1, _⟩ => show win3_2.index t (1 : Fin 2) * 1 + 1 * 0 = 0; omega

/-- The column biases' block likewise. -/
theorem iblk3_3_apply (c : Dev nD) (t : Fin cfg3.N) (q : Fin 1024) (s : Fin 8192) (hs : s.val = t.val % 8 * 1024 + q.val) :
    (iblk3 V c 3 t : Vec Ideal S1x1024 .f32) (ix2 (0 : Fin 1) q) = gy3 V c s := by
  obtain ⟨-, -, -, -, -, -, e0, e1, -⟩ := idx_facts3 t
  unfold iblk3 gy3
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t (0 : Fin 2) * 1 + 1 * 0 = 0; omega
  | ⟨1, _⟩ => show win3_3.index t (1 : Fin 2) * 1024 + 1 * q.val = s.val; omega

/-! ## One point's addend -/

/-- A tile's pair term, over blocks that are rows `r` / `s` of the tables, is the specification's pair term at `(r, s)`. -/
theorem tileTerm_eq (x0 x1 : FVec Ideal S1024x16 .f32) (x2 : FVec Ideal S1024x1 .f32) (x3 : FVec Ideal S1x1024 .f32)
    (X Y : Fin 8192 → Fin 16 → EReal) (gx gy : Fin 8192 → EReal) (p q : Fin 1024) (r s : Fin 8192)
    (h0 : ∀ k, x0 (ix2 p k) = X r k) (h1 : ∀ k, x1 (ix2 q k) = Y s k)
    (h2 : x2 (ix2 p (0 : Fin 1)) = gx r) (h3 : x3 (ix2 (0 : Fin 1) q) = gy s) :
    tileTerm x0 x1 x2 x3 p q = Cert.Spec.pairVal (Cert.Spec.cdistKer X Y) gx gy r s := by
  unfold tileTerm Cert.Spec.pairVal Cert.Spec.cdistKer Cert.Spec.sqn
  rw [h2, h3]
  simp only [h0, h1]

/-- The row of the tables that row `p` of point `n`'s row block is, and the column that column `q` of its column block is
    (total in `n`: beyond the grid the values are never used). -/
def rowOf (n : ℕ) (p : Fin 1024) : Fin 8192 := ⟨n / 8 % 8 * 1024 + p.val, by have := p.isLt; omega⟩
def colOf (n : ℕ) (q : Fin 1024) : Fin 8192 := ⟨n % 8 * 1024 + q.val, by have := q.isLt; omega⟩

/-- What point `n` adds to the accumulator at row `i`: the sum over its tile's columns of the pair terms. -/
def addend (c : Dev nD) (n : ℕ) (i : S1024x1.Idx) : EReal :=
  ∑ q : Fin 1024, Cert.Spec.pairVal (Cert.Spec.cdistKer (X3 V c) (Y3 V c)) (gx3 V c) (gy3 V c) (rowOf n ⟨(i 0).val, (i 0).isLt⟩) (colOf n q)

/-- One step at point `t`, at any row: the accumulator there plus the point's addend. -/
theorem step_at (c : Dev nD) (t : Fin cfg3.N) (acc : Vec Ideal S1024x1 .f32) (i : S1024x1.Idx) :
    step3 (iblk3 V c 0 t) (iblk3 V c 1 t) (iblk3 V c 2 t) (iblk3 V c 3 t) acc i = acc i + addend V c t.val i := by
  have hN : cfg3.N = 64 := N_3
  have ht : t.val < 64 := lt_of_lt_of_eq t.isLt hN
  obtain ⟨p, u, rfl⟩ : ∃ (p : Fin 1024) (u : Fin 1), i = ix2 p u := ⟨i 0, i 1, eq_ix2 i⟩
  obtain rfl : u = 0 := Subsingleton.elim _ _
  refine (step_apply (iblk3 V c 0 t) (iblk3 V c 1 t) (iblk3 V c 2 t) (iblk3 V c 3 t) acc p).trans (congrArg (acc (ix2 p (0 : Fin 1)) + ·) (Finset.sum_congr rfl fun q _ => ?_))
  exact tileTerm_eq (iblk3 V c 0 t) (iblk3 V c 1 t) (iblk3 V c 2 t) (iblk3 V c 3 t) (X3 V c) (Y3 V c) (gx3 V c) (gy3 V c) p q (rowOf t.val ⟨p.val, p.isLt⟩) (colOf t.val q)
    (fun k => iblk3_0_apply V c t p k _ (by show t.val / 8 % 8 * 1024 + p.val = _; omega))
    (fun k => iblk3_1_apply V c t q k _ rfl)
    (iblk3_2_apply V c t p _ (by show t.val / 8 % 8 * 1024 + p.val = _; omega))
    (iblk3_3_apply V c t q _ rfl)

/-! ## The accumulator after each point -/

/-- The accumulator after a point that resets it: one step from the zero block. -/
def resetAt (c : Dev nD) (n : ℕ) (h : n < cfg3.N) : Vec Ideal S1024x1 .f32 :=
  step3 (iblk3 V c 0 ⟨n, h⟩) (iblk3 V c 1 ⟨n, h⟩) (iblk3 V c 2 ⟨n, h⟩) (iblk3 V c 3 ⟨n, h⟩) (zero3 (F := Ideal))
/-- The accumulator after any other point: one step from what the point before left. -/
def stepAt (c : Dev nD) (n : ℕ) (h : n < cfg3.N) (acc : Vec Ideal S1024x1 .f32) : Vec Ideal S1024x1 .f32 :=
  step3 (iblk3 V c 0 ⟨n, h⟩) (iblk3 V c 1 ⟨n, h⟩) (iblk3 V c 2 ⟨n, h⟩) (iblk3 V c 3 ⟨n, h⟩) acc

theorem acc_reset (c : Dev nD) (n : ℕ) (h : n < cfg3.N) (h0 : n % 8 = 0) :
    (outsAt3 V c n h).2 = resetAt V c n h := by
  have h1 : ¬(⟨n, h⟩ : Fin cfg3.N).val % 8 = 7 := by dsimp only; omega
  rw [outsAt3_A V c ⟨n, h⟩ h0 h1]
  dsimp only
  rw [sout_A]
  rfl

theorem acc_step (c : Dev nD) (n : ℕ) (h : n + 1 < cfg3.N) (hne : ¬(n + 1) % 8 = 0) :
    (outsAt3 V c (n + 1) h).2 = stepAt V c (n + 1) h (outsAt3 V c n (Nat.lt_of_succ_lt h)).2 := by
  by_cases h7 : (n + 1) % 8 = 7
  · rw [outsAt3_C V c ⟨n + 1, h⟩ hne h7]
    dsimp only
    rw [sout_C]
    rfl
  · rw [outsAt3_B V c ⟨n + 1, h⟩ hne h7]
    dsimp only
    rw [sout_B]
    rfl

/-- The accumulator after point `t`, at row `i`: the addends of the points `8 (t / 8) … t` (the fold restarts at the
    multiples of 8 from the zero block and adds one addend per point). -/
theorem acc_eq (c : Dev nD) (t : Fin cfg3.N) (i : S1024x1.Idx) :
    (outsAt3 V c t.val t.isLt).2 i = ∑ s ∈ Finset.range (t.val % 8 + 1), addend V c (8 * (t.val / 8) + s) i := by
  have hN : cfg3.N = 64 := N_3
  have ht : t.val < 64 := lt_of_lt_of_eq t.isLt hN
  have h' : 8 * (t.val / 8) + t.val % 8 < cfg3.N := by omega
  have hfold := Pipeline.eq_accAt_of_mod (N := cfg3.N) (α := Vec Ideal S1024x1 .f32) (fun n h => (outsAt3 V c n h).2) 8
    (resetAt V c) (stepAt V c) (acc_reset V c) (acc_step V c) (by decide) t.val t.isLt h'
  have hsum := Pipeline.accAt_add_apply (N := cfg3.N) (ι := S1024x1.Idx) (β := EReal) (resetAt V c) (stepAt V c) (fun _ => 0) (addend V c) (8 * (t.val / 8)) 7
    (fun h i => (step_at V c ⟨_, h⟩ (zero3 (F := Ideal)) i).trans (congrArg (· + addend V c (8 * (t.val / 8)) i) (zero_apply i)))
    (fun n h acc i _ _ => step_at V c ⟨n, h⟩ acc i)
    (t.val % 8) (by omega) h' i
  exact (congrFun hfold i).trans (hsum.trans (zero_add _))

/-- Where the column coordinate is 7 the output buffer holds the accumulator. -/
theorem out_eq_acc (c : Dev nD) (t : Fin cfg3.N) (h0 : ¬t.val % 8 = 0) (h7 : t.val % 8 = 7) :
    (outsAt3 V c t.val t.isLt).1 = (outsAt3 V c t.val t.isLt).2 := by
  rw [outsAt3_C V c t h0 h7]
  dsimp only
  rw [out_C, sout_C]

/-! ## The result array -/

/-- The result: at row `r` the sum over all 8192 columns of the pair terms. -/
def G3 (c : Dev nD) : S8192x1.Idx → EReal := fun i =>
  ∑ q : Fin 8192, Cert.Spec.pairVal (Cert.Spec.cdistKer (X3 V c) (Y3 V c)) (gx3 V c) (gy3 V c) ⟨(i 0).val, (i 0).isLt⟩ q

/-- What a point with column coordinate 7 writes back is its block of the result. -/
theorem flushed3_eq (c : Dev nD) (t : Fin cfg3.N) (hf : (cfg3.win 4).flush t = true) :
    (dat3 (F := Ideal) V c).flushed 4 t = ((cfg3.win 4).blk t).view.read (Elt Ideal) (G3 V c) := by
  have hN : cfg3.N = 64 := N_3
  have ht : t.val < 64 := lt_of_lt_of_eq t.isLt hN
  have h7 : t.val % 8 = 7 := (flush3_4 t).mp hf
  have h0 : ¬t.val % 8 = 0 := by omega
  obtain ⟨-, -, -, -, -, -, -, -, e0, e1⟩ := idx_facts3 t
  show (cfg3.win 4).cut (grid3.coords t) ((dat3 (F := Ideal) V c).after 4 t) = _
  rw [after3_4, out_eq_acc V c t h0 h7]
  funext j
  show (outsAt3 V c t.val t.isLt).2 j = G3 V c (((cfg3.win 4).blk t).view.emb j)
  rw [acc_eq V c t j, h7]
  unfold G3 addend
  rw [Cert.Spec.sum_cols_tiled, Finset.sum_range]
  refine Finset.sum_congr rfl fun s _ => Finset.sum_congr rfl fun q _ => ?_
  have hs : s.val < 8 := s.isLt
  refine congrArg₂ (Cert.Spec.pairVal (Cert.Spec.cdistKer (X3 V c) (Y3 V c)) (gx3 V c) (gy3 V c)) (Fin.ext ?_) (Fin.ext ?_)
  · show (8 * (t.val / 8) + s.val) / 8 % 8 * 1024 + (j 0).val = win3_4.index t (0 : Fin 2) * 1024 + 1 * (j 0).val
    omega
  · show (8 * (t.val / 8) + s.val) % 8 * 1024 + q.val = s.val * 1024 + q.val
    omega

/-- An index of the result is in point `t`'s block iff each coordinate is in the block's range on its axis. -/
theorem mem_blk3 (t : Fin cfg3.N) (i : S8192x1.Idx) :
    i ∈ ((cfg3.win 4).blk t).view.set ↔ ∀ a : Fin 2, win3_4.index t a * S1024x1.size a ≤ (i a).val ∧ (i a).val < win3_4.index t a * S1024x1.size a + S1024x1.size a := by
  show i ∈ ((View.whole main_v147).slice (win3_4.rect t)).set ↔ _
  rw [View.set_slice_whole, Rect.mem_set_unit]
  exact Iff.rfl

/-- THE RESULT of region 3: its output array ends holding, at every row, the sum over all columns of the pair terms —
    row `r` is written by point `8 (r / 1024) + 7`. -/
theorem arrAt_out3 (c : Dev nD) : (dat3 (F := Ideal) V c).arrAt 4 cfg3.N = G3 V c :=
  (dat3 (F := Ideal) V c).arrAt_eq_of_cover 4 (G3 V c) (flushed3_eq V c) fun i => by
    have hN : cfg3.N = 64 := N_3
    have hi0 : (i 0).val < 8192 := (i 0).isLt
    have hi1 : (i 1).val < 1 := (i 1).isLt
    have htN : 8 * ((i 0).val / 1024) + 7 < cfg3.N := by omega
    obtain ⟨-, -, -, -, -, -, -, -, e0, e1⟩ := idx_facts3 ⟨8 * ((i 0).val / 1024) + 7, htN⟩
    refine ⟨⟨8 * ((i 0).val / 1024) + 7, htN⟩, (flush3_4 _).mpr (by show (8 * ((i 0).val / 1024) + 7) % 8 = 7; omega), ?_⟩
    rw [mem_blk3]
    intro a
    match a with
    | ⟨0, _⟩ =>
      show win3_4.index ⟨8 * ((i 0).val / 1024) + 7, htN⟩ (0 : Fin 2) * 1024 ≤ (i 0).val ∧ (i 0).val < win3_4.index ⟨8 * ((i 0).val / 1024) + 7, htN⟩ (0 : Fin 2) * 1024 + 1024
      rw [e0]; show (8 * ((i 0).val / 1024) + 7) / 8 * 1024 ≤ (i 0).val ∧ (i 0).val < (8 * ((i 0).val / 1024) + 7) / 8 * 1024 + 1024
      omega
    | ⟨1, _⟩ =>
      show win3_4.index ⟨8 * ((i 0).val / 1024) + 7, htN⟩ (1 : Fin 2) * 1 ≤ (i 1).val ∧ (i 1).val < win3_4.index ⟨8 * ((i 0).val / 1024) + 7, htN⟩ (1 : Fin 2) * 1 + 1
      rw [e1]; omega

/-- The same, spelt out: at row `r` of the result, the sum over all columns `q` of the pair term of `(r, q)`, from the four
    input arrays as the region finds them. -/
theorem arrAt_out3_apply (c : Dev nD) :
    (dat3 (F := Ideal) V c).arrAt 4 cfg3.N = fun i => ∑ q : Fin 8192,
      Cert.Spec.pairVal (Cert.Spec.cdistKer (fun r k => V c (Pipeline.arrRef spec3 0) (ix2 r k)) (fun r k => V c (Pipeline.arrRef spec3 1) (ix2 r k)))
        (fun r => V c (Pipeline.arrRef spec3 2) (ix2 r (0 : Fin 1))) (fun q => V c (Pipeline.arrRef spec3 3) (ix2 (0 : Fin 1) q)) ⟨(i 0).val, (i 0).isLt⟩ q :=
  arrAt_out3 V c

end Cert.KernelIdeal.HandVal

end
-- ==== Proof.SpecLoss.lean ====
/-
  The whole loss in the specification's terms, in the two arrangements, and their agreement for real inputs.

  The loss is the last scalar operations applied to four sums: the paper–paper link term and non-link term (pairs strictly above
  the diagonal) and the author–paper link term and non-link term (all pairs).  The reference forms each link term edge by edge
  and each pair distance with the left rows doubled; the kernel forms each link term from three separate sums and each pair
  distance with the inner product doubled.  For real inputs each of the four sums is the same in both arrangements (the link
  law twice, the pair-distance law twice), hence so is the loss.
-/
import proofs.«104416_j77807627534714_2_alg».proof.Proof.SpecLaws
import proofs.«104416_j77807627534714_2_alg».proof.Proof.SpecViews

noncomputable section

namespace Cert.Spec

/-- The loss with every sum arranged as the reference arranges it. -/
def lossRef (G0 G1 : Fin 500000 → EReal) (PSe Pe : Fin 500000 → Fin 16 → EReal) (gps gp : Fin 8192 → EReal)
    (PSs Ps : Fin 8192 → Fin 16 → EReal) (B0 B1 : Fin 500000 → EReal) (PSa Ae : Fin 500000 → Fin 16 → EReal)
    (bps ba : Fin 8192 → EReal) (As : Fin 8192 → Fin 16 → EReal) : EReal :=
  tailRef (linkRef G0 G1 PSe Pe) (nonlinkUpper (cdistRef PSs Ps) gps gp) (linkRef B0 B1 PSa Ae)
    (nonlinkAll (cdistRef PSs As) bps ba)

/-- The loss with every sum arranged as the kernel arranges it. -/
def lossKer (G0 G1 : Fin 500000 → EReal) (PSe Pe : Fin 500000 → Fin 16 → EReal) (gps gp : Fin 8192 → EReal)
    (PSs Ps : Fin 8192 → Fin 16 → EReal) (B0 B1 : Fin 500000 → EReal) (PSa Ae : Fin 500000 → Fin 16 → EReal)
    (bps ba : Fin 8192 → EReal) (As : Fin 8192 → Fin 16 → EReal) : EReal :=
  tailRef (linkKer G0 G1 PSe Pe) (nonlinkUpper (cdistKer PSs Ps) gps gp) (linkKer B0 B1 PSa Ae)
    (nonlinkAll (cdistKer PSs As) bps ba)

/-- For real inputs the two arrangements give the same loss. -/
theorem lossRef_eq_lossKer (G0 G1 : Fin 500000 → EReal) (PSe Pe : Fin 500000 → Fin 16 → EReal) (gps gp : Fin 8192 → EReal)
    (PSs Ps : Fin 8192 → Fin 16 → EReal) (B0 B1 : Fin 500000 → EReal) (PSa Ae : Fin 500000 → Fin 16 → EReal)
    (bps ba : Fin 8192 → EReal) (As : Fin 8192 → Fin 16 → EReal)
    (hG0 : Fin1 G0) (hG1 : Fin1 G1) (hPSe : Fin2 PSe) (hPe : Fin2 Pe) (hPSs : Fin2 PSs) (hPs : Fin2 Ps)
    (hB0 : Fin1 B0) (hB1 : Fin1 B1) (hPSa : Fin2 PSa) (hAe : Fin2 Ae) (hAs : Fin2 As) :
    lossRef G0 G1 PSe Pe gps gp PSs Ps B0 B1 PSa Ae bps ba As = lossKer G0 G1 PSe Pe gps gp PSs Ps B0 B1 PSa Ae bps ba As := by
  unfold lossRef lossKer
  rw [linkRef_eq_linkKer G0 G1 PSe Pe hG0 hG1 hPSe hPe, linkRef_eq_linkKer B0 B1 PSa Ae hB0 hB1 hPSa hAe,
    cdistRef_eq_cdistKer_fun PSs Ps hPSs hPs, cdistRef_eq_cdistKer_fun PSs As hPSs hAs]

end Cert.Spec

end
-- ==== Proof.KI.KVal.lean ====
import proofs.«104416_j77807627534714_2_alg».proof.Proof.KI.Main
import proofs.«104416_j77807627534714_2_alg».proof.Proof.KI.Writes
import proofs.«104416_j77807627534714_2_alg».proof.Proof.KI.Keeps
import proofs.«104416_j77807627534714_2_alg».proof.Proof.KI.Host14
import proofs.«104416_j77807627534714_2_alg».proof.Proof.KI.Val0
import proofs.«104416_j77807627534714_2_alg».proof.Proof.KI.Val1
import proofs.«104416_j77807627534714_2_alg».proof.Proof.KI.Val2
import proofs.«104416_j77807627534714_2_alg».proof.Proof.KI.Val3
import proofs.«104416_j77807627534714_2_alg».proof.Proof.SpecViews
import proofs.«104416_j77807627534714_2_alg».proof.Proof.SpecLoss

set_option maxRecDepth 16384

noncomputable section

open scoped BigOperators

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.HandHost Cert.Spec

variable (m : (ℓ : Loc nD τ sig) → Buf (Elt Ideal) ℓ) (ρ : Dev nD → PrngReg) (c : Dev nD)

/-! # The kernel program's result, read off the fold of its buffers

The buffers after the first host stretch hold the fifteen gathered arrays.  Every later reading of one of them — by a region
as an input window, by a later host stretch — finds it as the first stretch left it (nothing in between writes it), and each
region's result array is the specification's sum over its inputs.  Walking the last buffer's contents back through the
stretches and regions gives the loss in the kernel's arrangement of the sums. -/

/-- The fifteen gathered arrays, as the first host stretch leaves them. -/
abbrev aPSe : S500000x16.Idx → EReal := W1 m ρ c (Proc.devRef .tc main_v8)
abbrev aPe : S500000x16.Idx → EReal := W1 m ρ c (Proc.devRef .tc main_v17)
abbrev aG0 : S500000.Idx → EReal := W1 m ρ c (Proc.devRef .tc main_v26)
abbrev aG1 : S500000.Idx → EReal := W1 m ρ c (Proc.devRef .tc main_v37)
abbrev aPSa : S500000x16.Idx → EReal := W1 m ρ c (Proc.devRef .tc main_v46)
abbrev aAe : S500000x16.Idx → EReal := W1 m ρ c (Proc.devRef .tc main_v57)
abbrev aB0 : S500000.Idx → EReal := W1 m ρ c (Proc.devRef .tc main_v66)
abbrev aB1 : S500000.Idx → EReal := W1 m ρ c (Proc.devRef .tc main_v75)
abbrev aPSs : S8192x16.Idx → EReal := W1 m ρ c (Proc.devRef .tc main_v82)
abbrev aPs : S8192x16.Idx → EReal := W1 m ρ c (Proc.devRef .tc main_v89)
abbrev aAs : S8192x16.Idx → EReal := W1 m ρ c (Proc.devRef .tc main_v98)
abbrev aGps : S8192.Idx → EReal := W1 m ρ c (Proc.devRef .tc main_v105)
abbrev aGp : S8192.Idx → EReal := W1 m ρ c (Proc.devRef .tc main_v114)
abbrev aBps : S8192.Idx → EReal := W1 m ρ c (Proc.devRef .tc main_v121)
abbrev aBa : S8192.Idx → EReal := W1 m ρ c (Proc.devRef .tc main_v128)

/-- Region 0's result: the sum of the paper–paper edges' distances. -/
theorem out0_eq : (W2 m ρ c (Proc.devRef .tc main_v129) : S1x1.Idx → EReal)
    = fun _ => ∑ e : Fin 500000, edgeDist (rows500k (aPSe m ρ c)) (rows500k (aPe m ρ c)) e :=
  (W2_arr m ρ c 2).trans (arrAt_out0 (V1 m ρ) c)

/-- Region 1's result: the sum of the author–paper edges' distances. -/
theorem out1_eq : (W4 m ρ c (Proc.devRef .tc main_v131) : S1x1.Idx → EReal)
    = fun _ => ∑ e : Fin 500000, edgeDist (rows500k (aPSa m ρ c)) (rows500k (aAe m ρ c)) e := by
  refine (W4_arr m ρ c 2).trans ((arrAt_out1 (V3 m ρ) c).trans ?_)
  have e0 : (V3 m ρ c (Pipeline.arrRef spec1 0) : S500000x16.Idx → EReal) = aPSa m ρ c := W3_keep m ρ c main_v46 (by decide) (by decide)
  have e1 : (V3 m ρ c (Pipeline.arrRef spec1 1) : S500000x16.Idx → EReal) = aAe m ρ c := W3_keep m ρ c main_v57 (by decide) (by decide)
  rw [e0, e1]; rfl

/-- The paper–paper link term after the second stretch. -/
theorem link_pp : (W5 m ρ c (Proc.devRef .tc main_v136) : S_.Idx → EReal) ix0
    = linkKer (vec500k (aG0 m ρ c)) (vec500k (aG1 m ρ c)) (rows500k (aPSe m ρ c)) (rows500k (aPe m ρ c)) := by
  have h := congrFun (H2a (W4 m ρ c)) ix0
  refine h.trans ?_
  have e0 : (W4 m ρ c (Proc.devRef .tc main_v26) : S500000.Idx → EReal) = aG0 m ρ c := W4_keep m ρ c main_v26 (by decide) (by decide) (by decide)
  have e1 : (W4 m ρ c (Proc.devRef .tc main_v37) : S500000.Idx → EReal) = aG1 m ρ c := W4_keep m ρ c main_v37 (by decide) (by decide) (by decide)
  have e2 : (W4 m ρ c (Proc.devRef .tc main_v130) : S_.Idx → EReal) ix0 = ∑ e : Fin 500000, edgeDist (rows500k (aPSe m ρ c)) (rows500k (aPe m ρ c)) e := by
    have a : (W4 m ρ c (Proc.devRef .tc main_v130) : S_.Idx → EReal) = W3 m ρ c (Proc.devRef .tc main_v130) := W4_of_ne m ρ c main_v130 (by decide)
    rw [a]
    refine (congrFun (H1 (W2 m ρ c)) ix0).trans ?_
    exact congrFun (out0_eq m ρ c) _
  rw [e0, e1, e2]; rfl

/-- The author–paper link term after the second stretch. -/
theorem link_ap : (W5 m ρ c (Proc.devRef .tc main_v140) : S_.Idx → EReal) ix0
    = linkKer (vec500k (aB0 m ρ c)) (vec500k (aB1 m ρ c)) (rows500k (aPSa m ρ c)) (rows500k (aAe m ρ c)) := by
  have h := congrFun (H2b (W4 m ρ c)) ix0
  refine h.trans ?_
  have e0 : (W4 m ρ c (Proc.devRef .tc main_v66) : S500000.Idx → EReal) = aB0 m ρ c := W4_keep m ρ c main_v66 (by decide) (by decide) (by decide)
  have e1 : (W4 m ρ c (Proc.devRef .tc main_v75) : S500000.Idx → EReal) = aB1 m ρ c := W4_keep m ρ c main_v75 (by decide) (by decide) (by decide)
  rw [e0, e1, congrFun (out1_eq m ρ c) _]; rfl

/-- Region 2's result: per row, the masked sum over the columns. -/
theorem out2_eq : (W6 m ρ c (Proc.devRef .tc main_v143) : S8192x1.Idx → EReal)
    = fun i => ∑ q : Fin 8192, if (i 0).val < q.val then pairVal (cdistKer (rows8k (aPSs m ρ c)) (rows8k (aPs m ρ c))) (vec8k (aGps m ρ c)) (vec8k (aGp m ρ c)) ⟨(i 0).val, (i 0).isLt⟩ q else 0 := by
  refine (W6_arr m ρ c 4).trans ((Cert.KernelIdeal.HandVal2.arrAt_out2 (V5 m ρ) c).trans ?_)
  have e0 : (V5 m ρ c (Pipeline.arrRef spec2 0) : S8192x16.Idx → EReal) = aPSs m ρ c := W5_keep m ρ c main_v82 (by decide) (by decide) (by decide) (by decide)
  have e1 : (V5 m ρ c (Pipeline.arrRef spec2 1) : S8192x16.Idx → EReal) = aPs m ρ c := W5_keep m ρ c main_v89 (by decide) (by decide) (by decide) (by decide)
  have e2 : (fun r : Fin 8192 => (V5 m ρ c (Pipeline.arrRef spec2 2) : S8192x1.Idx → EReal) (ix2 r (0 : Fin 1))) = vec8k (aGps m ρ c) := by
    funext r
    refine (H2c_col (W4 m ρ c) r).trans ?_
    rw [show (W4 m ρ c (Proc.devRef .tc main_v105) : S8192.Idx → EReal) = aGps m ρ c from W4_keep m ρ c main_v105 (by decide) (by decide) (by decide)]
  have e3 : (fun q : Fin 8192 => (V5 m ρ c (Pipeline.arrRef spec2 3) : S1x8192.Idx → EReal) (ix2 (0 : Fin 1) q)) = vec8k (aGp m ρ c) := by
    funext q
    refine (H2c_row (W4 m ρ c) q).trans ?_
    rw [show (W4 m ρ c (Proc.devRef .tc main_v114) : S8192.Idx → EReal) = aGp m ρ c from W4_keep m ρ c main_v114 (by decide) (by decide) (by decide)]
  have hX : Cert.KernelIdeal.HandVal2.X2 (V5 m ρ) c = rows8k (aPSs m ρ c) := by funext r k; exact congrFun e0 (ix2 r k)
  have hY : Cert.KernelIdeal.HandVal2.Y2 (V5 m ρ) c = rows8k (aPs m ρ c) := by funext r k; exact congrFun e1 (ix2 r k)
  have hgx : Cert.KernelIdeal.HandVal2.gx2 (V5 m ρ) c = vec8k (aGps m ρ c) := e2
  have hgy : Cert.KernelIdeal.HandVal2.gy2 (V5 m ρ) c = vec8k (aGp m ρ c) := e3
  rw [hX, hY, hgx, hgy]

/-- The paper–paper non-link term after the third stretch. -/
theorem nonlink_pp : (W7 m ρ c (Proc.devRef .tc main_v144) : S_.Idx → EReal) ix0
    = nonlinkUpper (cdistKer (rows8k (aPSs m ρ c)) (rows8k (aPs m ρ c))) (vec8k (aGps m ρ c)) (vec8k (aGp m ρ c)) := by
  refine (congrFun (H3a (W6 m ρ c)) ix0).trans ?_
  rw [out2_eq m ρ c]; rfl

/-- Region 3's result: per row, the sum over the columns. -/
theorem out3_eq : (W8 m ρ c (Proc.devRef .tc main_v147) : S8192x1.Idx → EReal)
    = fun i => ∑ q : Fin 8192, pairVal (cdistKer (rows8k (aPSs m ρ c)) (rows8k (aAs m ρ c))) (vec8k (aBps m ρ c)) (vec8k (aBa m ρ c)) ⟨(i 0).val, (i 0).isLt⟩ q := by
  refine (W8_arr m ρ c 4).trans ((arrAt_out3_apply (V7 m ρ) c).trans ?_)
  have e0 : (V7 m ρ c (Pipeline.arrRef spec3 0) : S8192x16.Idx → EReal) = aPSs m ρ c :=
    (hostOps3_keeps _ main_v82 (by decide)).trans ((W6_in m ρ c 0 rfl).trans (W5_keep m ρ c main_v82 (by decide) (by decide) (by decide) (by decide)))
  have e1 : (V7 m ρ c (Pipeline.arrRef spec3 1) : S8192x16.Idx → EReal) = aAs m ρ c := W7_keep m ρ c main_v98 (by decide) (by decide) (by decide) (by decide) (by decide) (by decide)
  have e2 : (fun r : Fin 8192 => (V7 m ρ c (Pipeline.arrRef spec3 2) : S8192x1.Idx → EReal) (ix2 r (0 : Fin 1))) = vec8k (aBps m ρ c) := by
    funext r
    refine (H3b_col (W6 m ρ c) r).trans ?_
    rw [show (W6 m ρ c (Proc.devRef .tc main_v121) : S8192.Idx → EReal) = aBps m ρ c from W6_keep m ρ c main_v121 (by decide) (by decide) (by decide) (by decide) (by decide)]
  have e3 : (fun q : Fin 8192 => (V7 m ρ c (Pipeline.arrRef spec3 3) : S1x8192.Idx → EReal) (ix2 (0 : Fin 1) q)) = vec8k (aBa m ρ c) := by
    funext q
    refine (H3b_row (W6 m ρ c) q).trans ?_
    rw [show (W6 m ρ c (Proc.devRef .tc main_v128) : S8192.Idx → EReal) = aBa m ρ c from W6_keep m ρ c main_v128 (by decide) (by decide) (by decide) (by decide) (by decide)]
  rw [e0, e1, e2, e3]; rfl

/-- THE RESULT: the last buffer holds the loss in the kernel's arrangement of the sums, over the fifteen gathered arrays. -/
theorem result : (W9 m ρ c (Proc.devRef .tc main_v157) : S_.Idx → EReal)
    = fun _ => lossKer (vec500k (aG0 m ρ c)) (vec500k (aG1 m ρ c)) (rows500k (aPSe m ρ c)) (rows500k (aPe m ρ c))
        (vec8k (aGps m ρ c)) (vec8k (aGp m ρ c)) (rows8k (aPSs m ρ c)) (rows8k (aPs m ρ c))
        (vec500k (aB0 m ρ c)) (vec500k (aB1 m ρ c)) (rows500k (aPSa m ρ c)) (rows500k (aAe m ρ c))
        (vec8k (aBps m ρ c)) (vec8k (aBa m ρ c)) (rows8k (aAs m ρ c)) := by
  refine (H4 (W8 m ρ c)).trans ?_
  funext _
  have e136 : (W8 m ρ c (Proc.devRef .tc main_v136) : S_.Idx → EReal) = W5 m ρ c (Proc.devRef .tc main_v136) :=
    (W8_of_ne m ρ c main_v136 (by decide)).trans ((hostOps3_keeps _ main_v136 (by decide)).trans (W6_of_ne m ρ c main_v136 (by decide)))
  have e140 : (W8 m ρ c (Proc.devRef .tc main_v140) : S_.Idx → EReal) = W5 m ρ c (Proc.devRef .tc main_v140) :=
    (W8_of_ne m ρ c main_v140 (by decide)).trans ((hostOps3_keeps _ main_v140 (by decide)).trans (W6_of_ne m ρ c main_v140 (by decide)))
  have e144 : (W8 m ρ c (Proc.devRef .tc main_v144) : S_.Idx → EReal) = W7 m ρ c (Proc.devRef .tc main_v144) := W8_of_ne m ρ c main_v144 (by decide)
  rw [e136, e140, e144, link_pp m ρ c, link_ap m ρ c, nonlink_pp m ρ c, out3_eq m ρ c]
  rfl

end Cert.KernelIdeal.HandVal

end
-- ==== Proof.LibAfterAppend.lean ====
/-
  Folding a list of host operations over buffer contents: the fold of a concatenation is the fold of the second list
  over the fold of the first, for any signature and contents. It lets a long straight-line program be read back in
  pieces: cut the list where the computation cuts itself and carry what the buffers hold across the cuts.
-/
import Idealize.ShloMosaic.Lib.StableHlo.Run

namespace Cert.LibAfterAppend

open Idealize.ShloMosaic

/-- Running one list of operations after another is running their concatenation. -/
theorem after_append {τ : Topo} {sig : RefSig} {Val : EltTy → Type} (a b : List (HloOp τ sig Val)) (V : Valuation τ sig Val) :
    StableHlo.after (a ++ b) V = StableHlo.after b (StableHlo.after a V) := by
  induction a generalizing V with
  | nil => rfl
  | cons op a ih => simp only [List.cons_append, StableHlo.after_cons, ih]

end Cert.LibAfterAppend
-- ==== Proof.KI.Host0.lean ====
/-
  The first host stretch of the program, read back. The stretch makes fifteen gathered arrays; each is made by its own
  short chain of operations — cut a row of an index table (or take an index vector whole), shift it, make it
  non-negative, make it a one-column matrix, gather a table's rows at it — and no chain reads what another wrote: each
  reads two of the program's arguments and its own intermediate results. So the stretch is read back one chain at a time:
  a chain's last result is a fixed function of the two arguments' contents, the chains after it leave that result
  alone, and the chains before it leave the two arguments alone.
-/
import proofs.«104416_j77807627534714_2_alg».proof.Proof.Gen.KernelIdeal.Launch
import proofs.«104416_j77807627534714_2_alg».proof.Proof.LibAfterAppend

noncomputable section

namespace Cert.KernelIdeal.HandHost

open Idealize.ShloMosaic Idealize.ShloMosaic.TcCoe
open Cert.KernelIdeal Cert.KernelIdeal.Gen

variable {F : FTy → Type} [FloatOps F]

/-! ## The index vectors

Every gather of the stretch reads its table at a vector of row numbers made the same way: a row of a two-row index table
(or a whole index vector), possibly shifted by a constant, then made non-negative the way array indexing treats a
negative number — `n` is added where the number is below zero (signed comparison) —, and last turned into a
one-column matrix, the shape a gather takes its start indices in. -/

/-- Row 0 of a two-row index table, as a vector. -/
def row0 (x : (⟨S2x500000, .i32⟩ : BufTy).Contents (Elt F)) : (⟨S500000, .i32⟩ : BufTy).Contents (Elt F) :=
  shapeCast S500000 (extractStridedSlice S1x500000 ![0, 0] x slices_S2x500000_S1x500000_0_0) shapeCasts_S1x500000_S500000

/-- Row 1 of a two-row index table, as a vector. -/
def row1 (x : (⟨S2x500000, .i32⟩ : BufTy).Contents (Elt F)) : (⟨S500000, .i32⟩ : BufTy).Contents (Elt F) :=
  shapeCast S500000 (extractStridedSlice S1x500000 ![1, 0] x slices_S2x500000_S1x500000_1_0) shapeCasts_S1x500000_S500000

/-- `i + n` at every place of a long index vector (two's-complement words). -/
def offE (n : BitVec 32) (i : (⟨S500000, .i32⟩ : BufTy).Contents (Elt F)) : (⟨S500000, .i32⟩ : BufTy).Contents (Elt F) :=
  addi i (broadcastInDim S500000 ![] bcast_S_S500000 (constantI S_ 32 n))

/-- `i - n` at every place of a long index vector. -/
def subE (n : BitVec 32) (i : (⟨S500000, .i32⟩ : BufTy).Contents (Elt F)) : (⟨S500000, .i32⟩ : BufTy).Contents (Elt F) :=
  subi i (broadcastInDim S500000 ![] bcast_S_S500000 (constantI S_ 32 n))

/-- A long index vector made non-negative: `i + n` where `i < 0` (signed), `i` elsewhere. -/
def wrapE (n : BitVec 32) (i : (⟨S500000, .i32⟩ : BufTy).Contents (Elt F)) : (⟨S500000, .i32⟩ : BufTy).Contents (Elt F) :=
  select (cmpi .slt i (broadcastInDim S500000 ![] bcast_S_S500000 (constantI S_ 32 0#32)))
    (addi i (broadcastInDim S500000 ![] bcast_S_S500000 (constantI S_ 32 n))) i

/-- A long index vector as a one-column matrix. -/
def colE (i : (⟨S500000, .i32⟩ : BufTy).Contents (Elt F)) : (⟨S500000x1, .i32⟩ : BufTy).Contents (Elt F) :=
  broadcastInDim S500000x1 ![0] bcast_S500000_S500000x1_0 i

/-- `i + n` at every place of a short index vector. -/
def offP (n : BitVec 32) (i : (⟨S8192, .i32⟩ : BufTy).Contents (Elt F)) : (⟨S8192, .i32⟩ : BufTy).Contents (Elt F) :=
  addi i (broadcastInDim S8192 ![] bcast_S_S8192 (constantI S_ 32 n))

/-- `i - n` at every place of a short index vector. -/
def subP (n : BitVec 32) (i : (⟨S8192, .i32⟩ : BufTy).Contents (Elt F)) : (⟨S8192, .i32⟩ : BufTy).Contents (Elt F) :=
  subi i (broadcastInDim S8192 ![] bcast_S_S8192 (constantI S_ 32 n))

/-- A short index vector made non-negative: `i + n` where `i < 0` (signed), `i` elsewhere. -/
def wrapP (n : BitVec 32) (i : (⟨S8192, .i32⟩ : BufTy).Contents (Elt F)) : (⟨S8192, .i32⟩ : BufTy).Contents (Elt F) :=
  select (cmpi .slt i (broadcastInDim S8192 ![] bcast_S_S8192 (constantI S_ 32 0#32)))
    (addi i (broadcastInDim S8192 ![] bcast_S_S8192 (constantI S_ 32 n))) i

/-- A short index vector as a one-column matrix. -/
def colP (i : (⟨S8192, .i32⟩ : BufTy).Contents (Elt F)) : (⟨S8192x1, .i32⟩ : BufTy).Contents (Elt F) :=
  broadcastInDim S8192x1 ![0] bcast_S8192_S8192x1_0 i

/-! ## The gathered arrays, as functions of a table and an index array -/

/-- The gathered array `main_v8`: the table's rows at row 0 of the index table, wrapped into `[0, 100000)`. -/
def g8 (x : (⟨S100000x16, .f32⟩ : BufTy).Contents (Elt F)) (i : (⟨S2x500000, .i32⟩ : BufTy).Contents (Elt F)) : (⟨S500000x16, .f32⟩ : BufTy).Contents (Elt F) :=
  Host.gather gather_S100000x16_S500000x1_S500000x16_1_0_n_n_0_1_116 x (colE (wrapE 100000#32 (row0 i)))

/-- The gathered array `main_v17`: the table's rows at row 1 of the index table, wrapped into `[0, 100000)`. -/
def g17 (x : (⟨S100000x16, .f32⟩ : BufTy).Contents (Elt F)) (i : (⟨S2x500000, .i32⟩ : BufTy).Contents (Elt F)) : (⟨S500000x16, .f32⟩ : BufTy).Contents (Elt F) :=
  Host.gather gather_S100000x16_S500000x1_S500000x16_1_0_n_n_0_1_116 x (colE (wrapE 100000#32 (row1 i)))

/-- The gathered array `main_v26`: the table's rows at row 0 of the index table, wrapped into `[0, 200000)`. -/
def g26 (x : (⟨S200000, .f32⟩ : BufTy).Contents (Elt F)) (i : (⟨S2x500000, .i32⟩ : BufTy).Contents (Elt F)) : (⟨S500000, .f32⟩ : BufTy).Contents (Elt F) :=
  Host.gather gather_S200000_S500000x1_S500000_n_0_n_n_0_1_1 x (colE (wrapE 200000#32 (row0 i)))

/-- The gathered array `main_v37`: the table's rows at row 1 of the index table shifted up by 100000, wrapped into `[0, 200000)`. -/
def g37 (x : (⟨S200000, .f32⟩ : BufTy).Contents (Elt F)) (i : (⟨S2x500000, .i32⟩ : BufTy).Contents (Elt F)) : (⟨S500000, .f32⟩ : BufTy).Contents (Elt F) :=
  Host.gather gather_S200000_S500000x1_S500000_n_0_n_n_0_1_1 x (colE (wrapE 200000#32 (offE 100000#32 (row1 i))))

/-- The gathered array `main_v46`: the table's rows at row 0 of the index table, wrapped into `[0, 100000)`. -/
def g46 (x : (⟨S100000x16, .f32⟩ : BufTy).Contents (Elt F)) (i : (⟨S2x500000, .i32⟩ : BufTy).Contents (Elt F)) : (⟨S500000x16, .f32⟩ : BufTy).Contents (Elt F) :=
  Host.gather gather_S100000x16_S500000x1_S500000x16_1_0_n_n_0_1_116 x (colE (wrapE 100000#32 (row0 i)))

/-- The gathered array `main_v57`: the table's rows at row 1 of the index table shifted down by 100000, wrapped into `[0, 50000)`. -/
def g57 (x : (⟨S50000x16, .f32⟩ : BufTy).Contents (Elt F)) (i : (⟨S2x500000, .i32⟩ : BufTy).Contents (Elt F)) : (⟨S500000x16, .f32⟩ : BufTy).Contents (Elt F) :=
  Host.gather gather_S50000x16_S500000x1_S500000x16_1_0_n_n_0_1_116 x (colE (wrapE 50000#32 (subE 100000#32 (row1 i))))

/-- The gathered array `main_v66`: the table's rows at row 0 of the index table, wrapped into `[0, 150000)`. -/
def g66 (x : (⟨S150000, .f32⟩ : BufTy).Contents (Elt F)) (i : (⟨S2x500000, .i32⟩ : BufTy).Contents (Elt F)) : (⟨S500000, .f32⟩ : BufTy).Contents (Elt F) :=
  Host.gather gather_S150000_S500000x1_S500000_n_0_n_n_0_1_1 x (colE (wrapE 150000#32 (row0 i)))

/-- The gathered array `main_v75`: the table's rows at row 1 of the index table, wrapped into `[0, 150000)`. -/
def g75 (x : (⟨S150000, .f32⟩ : BufTy).Contents (Elt F)) (i : (⟨S2x500000, .i32⟩ : BufTy).Contents (Elt F)) : (⟨S500000, .f32⟩ : BufTy).Contents (Elt F) :=
  Host.gather gather_S150000_S500000x1_S500000_n_0_n_n_0_1_1 x (colE (wrapE 150000#32 (row1 i)))

/-- The gathered array `main_v82`: the table's rows at the index vector, wrapped into `[0, 100000)`. -/
def g82 (x : (⟨S100000x16, .f32⟩ : BufTy).Contents (Elt F)) (i : (⟨S8192, .i32⟩ : BufTy).Contents (Elt F)) : (⟨S8192x16, .f32⟩ : BufTy).Contents (Elt F) :=
  Host.gather gather_S100000x16_S8192x1_S8192x16_1_0_n_n_0_1_116 x (colP (wrapP 100000#32 i))

/-- The gathered array `main_v89`: the table's rows at the index vector, wrapped into `[0, 100000)`. -/
def g89 (x : (⟨S100000x16, .f32⟩ : BufTy).Contents (Elt F)) (i : (⟨S8192, .i32⟩ : BufTy).Contents (Elt F)) : (⟨S8192x16, .f32⟩ : BufTy).Contents (Elt F) :=
  Host.gather gather_S100000x16_S8192x1_S8192x16_1_0_n_n_0_1_116 x (colP (wrapP 100000#32 i))

/-- The gathered array `main_v98`: the table's rows at the index vector shifted down by 100000, wrapped into `[0, 50000)`. -/
def g98 (x : (⟨S50000x16, .f32⟩ : BufTy).Contents (Elt F)) (i : (⟨S8192, .i32⟩ : BufTy).Contents (Elt F)) : (⟨S8192x16, .f32⟩ : BufTy).Contents (Elt F) :=
  Host.gather gather_S50000x16_S8192x1_S8192x16_1_0_n_n_0_1_116 x (colP (wrapP 50000#32 (subP 100000#32 i)))

/-- The gathered array `main_v105`: the table's rows at the index vector, wrapped into `[0, 200000)`. -/
def g105 (x : (⟨S200000, .f32⟩ : BufTy).Contents (Elt F)) (i : (⟨S8192, .i32⟩ : BufTy).Contents (Elt F)) : (⟨S8192, .f32⟩ : BufTy).Contents (Elt F) :=
  Host.gather gather_S200000_S8192x1_S8192_n_0_n_n_0_1_1 x (colP (wrapP 200000#32 i))

/-- The gathered array `main_v114`: the table's rows at the index vector shifted up by 100000, wrapped into `[0, 200000)`. -/
def g114 (x : (⟨S200000, .f32⟩ : BufTy).Contents (Elt F)) (i : (⟨S8192, .i32⟩ : BufTy).Contents (Elt F)) : (⟨S8192, .f32⟩ : BufTy).Contents (Elt F) :=
  Host.gather gather_S200000_S8192x1_S8192_n_0_n_n_0_1_1 x (colP (wrapP 200000#32 (offP 100000#32 i)))

/-- The gathered array `main_v121`: the table's rows at the index vector, wrapped into `[0, 150000)`. -/
def g121 (x : (⟨S150000, .f32⟩ : BufTy).Contents (Elt F)) (i : (⟨S8192, .i32⟩ : BufTy).Contents (Elt F)) : (⟨S8192, .f32⟩ : BufTy).Contents (Elt F) :=
  Host.gather gather_S150000_S8192x1_S8192_n_0_n_n_0_1_1 x (colP (wrapP 150000#32 i))

/-- The gathered array `main_v128`: the table's rows at the index vector, wrapped into `[0, 150000)`. -/
def g128 (x : (⟨S150000, .f32⟩ : BufTy).Contents (Elt F)) (i : (⟨S8192, .i32⟩ : BufTy).Contents (Elt F)) : (⟨S8192, .f32⟩ : BufTy).Contents (Elt F) :=
  Host.gather gather_S150000_S8192x1_S8192_n_0_n_n_0_1_1 x (colP (wrapP 150000#32 i))

/-! ## The chains -/

/-- The operations that make `main_v8`, in the program's order. -/
def chain1 : List (HloOp τ sig (Elt F)) :=
  [ StableHlo.unary main_arg5 main_v0 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v0 main_v1 rfl shapeCasts_S1x500000_S500000,
    StableHlo.nullary main_c (constantI S_ 32 0#32),
    StableHlo.unary main_c main_v2 (broadcastInDim S500000 ![] bcast_S_S500000 : (⟨S_, .i32⟩ : BufTy).Contents (Elt F) → (⟨S500000, .i32⟩ : BufTy).Contents (Elt F)),
    StableHlo.binary main_v1 main_v2 main_v3 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 100000#32),
    StableHlo.unary main_c_0 main_v4 (broadcastInDim S500000 ![] bcast_S_S500000 : (⟨S_, .i32⟩ : BufTy).Contents (Elt F) → (⟨S500000, .i32⟩ : BufTy).Contents (Elt F)),
    StableHlo.binary main_v1 main_v4 main_v5 (addi : (⟨S500000, .i32⟩ : BufTy).Contents (Elt F) → (⟨S500000, .i32⟩ : BufTy).Contents (Elt F) → (⟨S500000, .i32⟩ : BufTy).Contents (Elt F)),
    StableHlo.ternary main_v3 main_v5 main_v1 main_v6 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v6 main_v7 (broadcastInDim S500000x1 ![0] bcast_S500000_S500000x1_0 : (⟨S500000, .i32⟩ : BufTy).Contents (Elt F) → (⟨S500000x1, .i32⟩ : BufTy).Contents (Elt F)),
    StableHlo.binary main_arg1 main_v7 main_v8 ((fun x i => Host.gather gather_S100000x16_S500000x1_S500000x16_1_0_n_n_0_1_116 x i) : (⟨S100000x16, .f32⟩ : BufTy).Contents (Elt F) → (⟨S500000x1, .i32⟩ : BufTy).Contents (Elt F) → (⟨S500000x16, .f32⟩ : BufTy).Contents (Elt F)) ]

/-- The references `chain1` writes. -/
def chain1_W : List (Ref sig .tc) := [main_v0, main_v1, main_c, main_v2, main_v3, main_c_0, main_v4, main_v5, main_v6, main_v7, main_v8]

theorem chain1_writes : (chain1 : List (HloOp τ sig (Elt F))).Forall fun op => op.writes ⊆ (chain1_W.map (Proc.devRef (τ := τ) .tc)).toFinset := by
  simp only [chain1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain1` does not write keeps its contents. -/
theorem chain1_keeps (V : Valuation τ sig (Elt F)) (r : Ref sig .tc) (h : r ∉ chain1_W) :
    StableHlo.after chain1 V (Proc.devRef .tc r) = V (Proc.devRef .tc r) :=
  StableHlo.after_of_writes_sub chain1 V chain1_writes h

/-- `main_v8` after `chain1`, from any contents. -/
theorem chain1_res (V : Valuation τ sig (Elt F)) :
    StableHlo.after chain1 V (Proc.devRef .tc main_v8) = g8 (V (Proc.devRef .tc main_arg1)) (V (Proc.devRef .tc main_arg5)) := by
  simp only [chain1]
  after_results_simp
  rfl

/-- The operations that make `main_v17`, in the program's order. -/
def chain2 : List (HloOp τ sig (Elt F)) :=
  [ StableHlo.unary main_arg5 main_v9 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v9 main_v10 rfl shapeCasts_S1x500000_S500000,
    StableHlo.nullary main_c_1 (constantI S_ 32 0#32),
    StableHlo.unary main_c_1 main_v11 (broadcastInDim S500000 ![] bcast_S_S500000 : (⟨S_, .i32⟩ : BufTy).Contents (Elt F) → (⟨S500000, .i32⟩ : BufTy).Contents (Elt F)),
    StableHlo.binary main_v10 main_v11 main_v12 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 100000#32),
    StableHlo.unary main_c_2 main_v13 (broadcastInDim S500000 ![] bcast_S_S500000 : (⟨S_, .i32⟩ : BufTy).Contents (Elt F) → (⟨S500000, .i32⟩ : BufTy).Contents (Elt F)),
    StableHlo.binary main_v10 main_v13 main_v14 (addi : (⟨S500000, .i32⟩ : BufTy).Contents (Elt F) → (⟨S500000, .i32⟩ : BufTy).Contents (Elt F) → (⟨S500000, .i32⟩ : BufTy).Contents (Elt F)),
    StableHlo.ternary main_v12 main_v14 main_v10 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v15 main_v16 (broadcastInDim S500000x1 ![0] bcast_S500000_S500000x1_0 : (⟨S500000, .i32⟩ : BufTy).Contents (Elt F) → (⟨S500000x1, .i32⟩ : BufTy).Contents (Elt F)),
    StableHlo.binary main_arg0 main_v16 main_v17 ((fun x i => Host.gather gather_S100000x16_S500000x1_S500000x16_1_0_n_n_0_1_116 x i) : (⟨S100000x16, .f32⟩ : BufTy).Contents (Elt F) → (⟨S500000x1, .i32⟩ : BufTy).Contents (Elt F) → (⟨S500000x16, .f32⟩ : BufTy).Contents (Elt F)) ]

/-- The references `chain2` writes. -/
def chain2_W : List (Ref sig .tc) := [main_v9, main_v10, main_c_1, main_v11, main_v12, main_c_2, main_v13, main_v14, main_v15, main_v16, main_v17]

theorem chain2_writes : (chain2 : List (HloOp τ sig (Elt F))).Forall fun op => op.writes ⊆ (chain2_W.map (Proc.devRef (τ := τ) .tc)).toFinset := by
  simp only [chain2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain2` does not write keeps its contents. -/
theorem chain2_keeps (V : Valuation τ sig (Elt F)) (r : Ref sig .tc) (h : r ∉ chain2_W) :
    StableHlo.after chain2 V (Proc.devRef .tc r) = V (Proc.devRef .tc r) :=
  StableHlo.after_of_writes_sub chain2 V chain2_writes h

/-- `main_v17` after `chain2`, from any contents. -/
theorem chain2_res (V : Valuation τ sig (Elt F)) :
    StableHlo.after chain2 V (Proc.devRef .tc main_v17) = g17 (V (Proc.devRef .tc main_arg0)) (V (Proc.devRef .tc main_arg5)) := by
  simp only [chain2]
  after_results_simp
  rfl

/-- The operations that make `main_v26`, in the program's order. -/
def chain3 : List (HloOp τ sig (Elt F)) :=
  [ StableHlo.unary main_arg5 main_v18 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v18 main_v19 rfl shapeCasts_S1x500000_S500000,
    StableHlo.nullary main_c_3 (constantI S_ 32 0#32),
    StableHlo.unary main_c_3 main_v20 (broadcastInDim S500000 ![] bcast_S_S500000 : (⟨S_, .i32⟩ : BufTy).Contents (Elt F) → (⟨S500000, .i32⟩ : BufTy).Contents (Elt F)),
    StableHlo.binary main_v19 main_v20 main_v21 (cmpi .slt : (⟨S500000, .i32⟩ : BufTy).Contents (Elt F) → (⟨S500000, .i32⟩ : BufTy).Contents (Elt F) → (⟨S500000, .i1⟩ : BufTy).Contents (Elt F)),
    StableHlo.nullary main_c_4 (constantI S_ 32 200000#32),
    StableHlo.unary main_c_4 main_v22 (broadcastInDim S500000 ![] bcast_S_S500000 : (⟨S_, .i32⟩ : BufTy).Contents (Elt F) → (⟨S500000, .i32⟩ : BufTy).Contents (Elt F)),
    StableHlo.binary main_v19 main_v22 main_v23 (addi : (⟨S500000, .i32⟩ : BufTy).Contents (Elt F) → (⟨S500000, .i32⟩ : BufTy).Contents (Elt F) → (⟨S500000, .i32⟩ : BufTy).Contents (Elt F)),
    StableHlo.ternary main_v21 main_v23 main_v19 main_v24 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v24 main_v25 (broadcastInDim S500000x1 ![0] bcast_S500000_S500000x1_0 : (⟨S500000, .i32⟩ : BufTy).Contents (Elt F) → (⟨S500000x1, .i32⟩ : BufTy).Contents (Elt F)),
    StableHlo.binary main_arg4 main_v25 main_v26 ((fun x i => Host.gather gather_S200000_S500000x1_S500000_n_0_n_n_0_1_1 x i) : (⟨S200000, .f32⟩ : BufTy).Contents (Elt F) → (⟨S500000x1, .i32⟩ : BufTy).Contents (Elt F) → (⟨S500000, .f32⟩ : BufTy).Contents (Elt F)) ]

/-- The references `chain3` writes. -/
def chain3_W : List (Ref sig .tc) := [main_v18, main_v19, main_c_3, main_v20, main_v21, main_c_4, main_v22, main_v23, main_v24, main_v25, main_v26]

theorem chain3_writes : (chain3 : List (HloOp τ sig (Elt F))).Forall fun op => op.writes ⊆ (chain3_W.map (Proc.devRef (τ := τ) .tc)).toFinset := by
  simp only [chain3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain3` does not write keeps its contents. -/
theorem chain3_keeps (V : Valuation τ sig (Elt F)) (r : Ref sig .tc) (h : r ∉ chain3_W) :
    StableHlo.after chain3 V (Proc.devRef .tc r) = V (Proc.devRef .tc r) :=
  StableHlo.after_of_writes_sub chain3 V chain3_writes h

/-- `main_v26` after `chain3`, from any contents. -/
theorem chain3_res (V : Valuation τ sig (Elt F)) :
    StableHlo.after chain3 V (Proc.devRef .tc main_v26) = g26 (V (Proc.devRef .tc main_arg4)) (V (Proc.devRef .tc main_arg5)) := by
  simp only [chain3]
  after_results_simp
  rfl

/-- The operations that make `main_v37`, in the program's order. -/
def chain4 : List (HloOp τ sig (Elt F)) :=
  [ StableHlo.unary main_arg5 main_v27 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v27 main_v28 rfl shapeCasts_S1x500000_S500000,
    StableHlo.nullary main_c_5 (constantI S_ 32 100000#32),
    StableHlo.unary main_c_5 main_v29 (broadcastInDim S500000 ![] bcast_S_S500000 : (⟨S_, .i32⟩ : BufTy).Contents (Elt F) → (⟨S500000, .i32⟩ : BufTy).Contents (Elt F)),
    StableHlo.binary main_v28 main_v29 main_v30 (addi : (⟨S500000, .i32⟩ : BufTy).Contents (Elt F) → (⟨S500000, .i32⟩ : BufTy).Contents (Elt F) → (⟨S500000, .i32⟩ : BufTy).Contents (Elt F)),
    StableHlo.nullary main_c_6 (constantI S_ 32 0#32),
    StableHlo.unary main_c_6 main_v31 (broadcastInDim S500000 ![] bcast_S_S500000 : (⟨S_, .i32⟩ : BufTy).Contents (Elt F) → (⟨S500000, .i32⟩ : BufTy).Contents (Elt F)),
    StableHlo.binary main_v30 main_v31 main_v32 (cmpi .slt : (⟨S500000, .i32⟩ : BufTy).Contents (Elt F) → (⟨S500000, .i32⟩ : BufTy).Contents (Elt F) → (⟨S500000, .i1⟩ : BufTy).Contents (Elt F)),
    StableHlo.nullary main_c_7 (constantI S_ 32 200000#32),
    StableHlo.unary main_c_7 main_v33 (broadcastInDim S500000 ![] bcast_S_S500000 : (⟨S_, .i32⟩ : BufTy).Contents (Elt F) → (⟨S500000, .i32⟩ : BufTy).Contents (Elt F)),
    StableHlo.binary main_v30 main_v33 main_v34 (addi : (⟨S500000, .i32⟩ : BufTy).Contents (Elt F) → (⟨S500000, .i32⟩ : BufTy).Contents (Elt F) → (⟨S500000, .i32⟩ : BufTy).Contents (Elt F)),
    StableHlo.ternary main_v32 main_v34 main_v30 main_v35 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v35 main_v36 (broadcastInDim S500000x1 ![0] bcast_S500000_S500000x1_0 : (⟨S500000, .i32⟩ : BufTy).Contents (Elt F) → (⟨S500000x1, .i32⟩ : BufTy).Contents (Elt F)),
    StableHlo.binary main_arg4 main_v36 main_v37 ((fun x i => Host.gather gather_S200000_S500000x1_S500000_n_0_n_n_0_1_1 x i) : (⟨S200000, .f32⟩ : BufTy).Contents (Elt F) → (⟨S500000x1, .i32⟩ : BufTy).Contents (Elt F) → (⟨S500000, .f32⟩ : BufTy).Contents (Elt F)) ]

/-- The references `chain4` writes. -/
def chain4_W : List (Ref sig .tc) := [main_v27, main_v28, main_c_5, main_v29, main_v30, main_c_6, main_v31, main_v32, main_c_7, main_v33, main_v34, main_v35, main_v36, main_v37]

theorem chain4_writes : (chain4 : List (HloOp τ sig (Elt F))).Forall fun op => op.writes ⊆ (chain4_W.map (Proc.devRef (τ := τ) .tc)).toFinset := by
  simp only [chain4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain4` does not write keeps its contents. -/
theorem chain4_keeps (V : Valuation τ sig (Elt F)) (r : Ref sig .tc) (h : r ∉ chain4_W) :
    StableHlo.after chain4 V (Proc.devRef .tc r) = V (Proc.devRef .tc r) :=
  StableHlo.after_of_writes_sub chain4 V chain4_writes h

/-- `main_v37` after `chain4`, from any contents. -/
theorem chain4_res (V : Valuation τ sig (Elt F)) :
    StableHlo.after chain4 V (Proc.devRef .tc main_v37) = g37 (V (Proc.devRef .tc main_arg4)) (V (Proc.devRef .tc main_arg5)) := by
  simp only [chain4]
  after_results_simp
  rfl

/-- The operations that make `main_v46`, in the program's order. -/
def chain5 : List (HloOp τ sig (Elt F)) :=
  [ StableHlo.unary main_arg6 main_v38 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v38 main_v39 rfl shapeCasts_S1x500000_S500000,
    StableHlo.nullary main_c_8 (constantI S_ 32 0#32),
    StableHlo.unary main_c_8 main_v40 (broadcastInDim S500000 ![] bcast_S_S500000 : (⟨S_, .i32⟩ : BufTy).Contents (Elt F) → (⟨S500000, .i32⟩ : BufTy).Contents (Elt F)),
    StableHlo.binary main_v39 main_v40 main_v41 (cmpi .slt : (⟨S500000, .i32⟩ : BufTy).Contents (Elt F) → (⟨S500000, .i32⟩ : BufTy).Contents (Elt F) → (⟨S500000, .i1⟩ : BufTy).Contents (Elt F)),
    StableHlo.nullary main_c_9 (constantI S_ 32 100000#32),
    StableHlo.unary main_c_9 main_v42 (broadcastInDim S500000 ![] bcast_S_S500000 : (⟨S_, .i32⟩ : BufTy).Contents (Elt F) → (⟨S500000, .i32⟩ : BufTy).Contents (Elt F)),
    StableHlo.binary main_v39 main_v42 main_v43 (addi : (⟨S500000, .i32⟩ : BufTy).Contents (Elt F) → (⟨S500000, .i32⟩ : BufTy).Contents (Elt F) → (⟨S500000, .i32⟩ : BufTy).Contents (Elt F)),
    StableHlo.ternary main_v41 main_v43 main_v39 main_v44 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v44 main_v45 (broadcastInDim S500000x1 ![0] bcast_S500000_S500000x1_0 : (⟨S500000, .i32⟩ : BufTy).Contents (Elt F) → (⟨S500000x1, .i32⟩ : BufTy).Contents (Elt F)),
    StableHlo.binary main_arg1 main_v45 main_v46 ((fun x i => Host.gather gather_S100000x16_S500000x1_S500000x16_1_0_n_n_0_1_116 x i) : (⟨S100000x16, .f32⟩ : BufTy).Contents (Elt F) → (⟨S500000x1, .i32⟩ : BufTy).Contents (Elt F) → (⟨S500000x16, .f32⟩ : BufTy).Contents (Elt F)) ]

/-- The references `chain5` writes. -/
def chain5_W : List (Ref sig .tc) := [main_v38, main_v39, main_c_8, main_v40, main_v41, main_c_9, main_v42, main_v43, main_v44, main_v45, main_v46]

theorem chain5_writes : (chain5 : List (HloOp τ sig (Elt F))).Forall fun op => op.writes ⊆ (chain5_W.map (Proc.devRef (τ := τ) .tc)).toFinset := by
  simp only [chain5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain5` does not write keeps its contents. -/
theorem chain5_keeps (V : Valuation τ sig (Elt F)) (r : Ref sig .tc) (h : r ∉ chain5_W) :
    StableHlo.after chain5 V (Proc.devRef .tc r) = V (Proc.devRef .tc r) :=
  StableHlo.after_of_writes_sub chain5 V chain5_writes h

/-- `main_v46` after `chain5`, from any contents. -/
theorem chain5_res (V : Valuation τ sig (Elt F)) :
    StableHlo.after chain5 V (Proc.devRef .tc main_v46) = g46 (V (Proc.devRef .tc main_arg1)) (V (Proc.devRef .tc main_arg6)) := by
  simp only [chain5]
  after_results_simp
  rfl

/-- The operations that make `main_v57`, in the program's order. -/
def chain6 : List (HloOp τ sig (Elt F)) :=
  [ StableHlo.unary main_arg6 main_v47 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v47 main_v48 rfl shapeCasts_S1x500000_S500000,
    StableHlo.nullary main_c_10 (constantI S_ 32 100000#32),
    StableHlo.unary main_c_10 main_v49 (broadcastInDim S500000 ![] bcast_S_S500000 : (⟨S_, .i32⟩ : BufTy).Contents (Elt F) → (⟨S500000, .i32⟩ : BufTy).Contents (Elt F)),
    StableHlo.binary main_v48 main_v49 main_v50 (subi : (⟨S500000, .i32⟩ : BufTy).Contents (Elt F) → (⟨S500000, .i32⟩ : BufTy).Contents (Elt F) → (⟨S500000, .i32⟩ : BufTy).Contents (Elt F)),
    StableHlo.nullary main_c_11 (constantI S_ 32 0#32),
    StableHlo.unary main_c_11 main_v51 (broadcastInDim S500000 ![] bcast_S_S500000 : (⟨S_, .i32⟩ : BufTy).Contents (Elt F) → (⟨S500000, .i32⟩ : BufTy).Contents (Elt F)),
    StableHlo.binary main_v50 main_v51 main_v52 (cmpi .slt : (⟨S500000, .i32⟩ : BufTy).Contents (Elt F) → (⟨S500000, .i32⟩ : BufTy).Contents (Elt F) → (⟨S500000, .i1⟩ : BufTy).Contents (Elt F)),
    StableHlo.nullary main_c_12 (constantI S_ 32 50000#32),
    StableHlo.unary main_c_12 main_v53 (broadcastInDim S500000 ![] bcast_S_S500000 : (⟨S_, .i32⟩ : BufTy).Contents (Elt F) → (⟨S500000, .i32⟩ : BufTy).Contents (Elt F)),
    StableHlo.binary main_v50 main_v53 main_v54 (addi : (⟨S500000, .i32⟩ : BufTy).Contents (Elt F) → (⟨S500000, .i32⟩ : BufTy).Contents (Elt F) → (⟨S500000, .i32⟩ : BufTy).Contents (Elt F)),
    StableHlo.ternary main_v52 main_v54 main_v50 main_v55 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v55 main_v56 (broadcastInDim S500000x1 ![0] bcast_S500000_S500000x1_0 : (⟨S500000, .i32⟩ : BufTy).Contents (Elt F) → (⟨S500000x1, .i32⟩ : BufTy).Contents (Elt F)),
    StableHlo.binary main_arg2 main_v56 main_v57 ((fun x i => Host.gather gather_S50000x16_S500000x1_S500000x16_1_0_n_n_0_1_116 x i) : (⟨S50000x16, .f32⟩ : BufTy).Contents (Elt F) → (⟨S500000x1, .i32⟩ : BufTy).Contents (Elt F) → (⟨S500000x16, .f32⟩ : BufTy).Contents (Elt F)) ]

/-- The references `chain6` writes. -/
def chain6_W : List (Ref sig .tc) := [main_v47, main_v48, main_c_10, main_v49, main_v50, main_c_11, main_v51, main_v52, main_c_12, main_v53, main_v54, main_v55, main_v56, main_v57]

theorem chain6_writes : (chain6 : List (HloOp τ sig (Elt F))).Forall fun op => op.writes ⊆ (chain6_W.map (Proc.devRef (τ := τ) .tc)).toFinset := by
  simp only [chain6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain6` does not write keeps its contents. -/
theorem chain6_keeps (V : Valuation τ sig (Elt F)) (r : Ref sig .tc) (h : r ∉ chain6_W) :
    StableHlo.after chain6 V (Proc.devRef .tc r) = V (Proc.devRef .tc r) :=
  StableHlo.after_of_writes_sub chain6 V chain6_writes h

/-- `main_v57` after `chain6`, from any contents. -/
theorem chain6_res (V : Valuation τ sig (Elt F)) :
    StableHlo.after chain6 V (Proc.devRef .tc main_v57) = g57 (V (Proc.devRef .tc main_arg2)) (V (Proc.devRef .tc main_arg6)) := by
  simp only [chain6]
  after_results_simp
  rfl

/-- The operations that make `main_v66`, in the program's order. -/
def chain7 : List (HloOp τ sig (Elt F)) :=
  [ StableHlo.unary main_arg6 main_v58 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v58 main_v59 rfl shapeCasts_S1x500000_S500000,
    StableHlo.nullary main_c_13 (constantI S_ 32 0#32),
    StableHlo.unary main_c_13 main_v60 (broadcastInDim S500000 ![] bcast_S_S500000 : (⟨S_, .i32⟩ : BufTy).Contents (Elt F) → (⟨S500000, .i32⟩ : BufTy).Contents (Elt F)),
    StableHlo.binary main_v59 main_v60 main_v61 (cmpi .slt : (⟨S500000, .i32⟩ : BufTy).Contents (Elt F) → (⟨S500000, .i32⟩ : BufTy).Contents (Elt F) → (⟨S500000, .i1⟩ : BufTy).Contents (Elt F)),
    StableHlo.nullary main_c_14 (constantI S_ 32 150000#32),
    StableHlo.unary main_c_14 main_v62 (broadcastInDim S500000 ![] bcast_S_S500000 : (⟨S_, .i32⟩ : BufTy).Contents (Elt F) → (⟨S500000, .i32⟩ : BufTy).Contents (Elt F)),
    StableHlo.binary main_v59 main_v62 main_v63 (addi : (⟨S500000, .i32⟩ : BufTy).Contents (Elt F) → (⟨S500000, .i32⟩ : BufTy).Contents (Elt F) → (⟨S500000, .i32⟩ : BufTy).Contents (Elt F)),
    StableHlo.ternary main_v61 main_v63 main_v59 main_v64 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v64 main_v65 (broadcastInDim S500000x1 ![0] bcast_S500000_S500000x1_0 : (⟨S500000, .i32⟩ : BufTy).Contents (Elt F) → (⟨S500000x1, .i32⟩ : BufTy).Contents (Elt F)),
    StableHlo.binary main_arg3 main_v65 main_v66 ((fun x i => Host.gather gather_S150000_S500000x1_S500000_n_0_n_n_0_1_1 x i) : (⟨S150000, .f32⟩ : BufTy).Contents (Elt F) → (⟨S500000x1, .i32⟩ : BufTy).Contents (Elt F) → (⟨S500000, .f32⟩ : BufTy).Contents (Elt F)) ]

/-- The references `chain7` writes. -/
def chain7_W : List (Ref sig .tc) := [main_v58, main_v59, main_c_13, main_v60, main_v61, main_c_14, main_v62, main_v63, main_v64, main_v65, main_v66]

theorem chain7_writes : (chain7 : List (HloOp τ sig (Elt F))).Forall fun op => op.writes ⊆ (chain7_W.map (Proc.devRef (τ := τ) .tc)).toFinset := by
  simp only [chain7, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain7` does not write keeps its contents. -/
theorem chain7_keeps (V : Valuation τ sig (Elt F)) (r : Ref sig .tc) (h : r ∉ chain7_W) :
    StableHlo.after chain7 V (Proc.devRef .tc r) = V (Proc.devRef .tc r) :=
  StableHlo.after_of_writes_sub chain7 V chain7_writes h

/-- `main_v66` after `chain7`, from any contents. -/
theorem chain7_res (V : Valuation τ sig (Elt F)) :
    StableHlo.after chain7 V (Proc.devRef .tc main_v66) = g66 (V (Proc.devRef .tc main_arg3)) (V (Proc.devRef .tc main_arg6)) := by
  simp only [chain7]
  after_results_simp
  rfl

/-- The operations that make `main_v75`, in the program's order. -/
def chain8 : List (HloOp τ sig (Elt F)) :=
  [ StableHlo.unary main_arg6 main_v67 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v67 main_v68 rfl shapeCasts_S1x500000_S500000,
    StableHlo.nullary main_c_15 (constantI S_ 32 0#32),
    StableHlo.unary main_c_15 main_v69 (broadcastInDim S500000 ![] bcast_S_S500000 : (⟨S_, .i32⟩ : BufTy).Contents (Elt F) → (⟨S500000, .i32⟩ : BufTy).Contents (Elt F)),
    StableHlo.binary main_v68 main_v69 main_v70 (cmpi .slt : (⟨S500000, .i32⟩ : BufTy).Contents (Elt F) → (⟨S500000, .i32⟩ : BufTy).Contents (Elt F) → (⟨S500000, .i1⟩ : BufTy).Contents (Elt F)),
    StableHlo.nullary main_c_16 (constantI S_ 32 150000#32),
    StableHlo.unary main_c_16 main_v71 (broadcastInDim S500000 ![] bcast_S_S500000 : (⟨S_, .i32⟩ : BufTy).Contents (Elt F) → (⟨S500000, .i32⟩ : BufTy).Contents (Elt F)),
    StableHlo.binary main_v68 main_v71 main_v72 (addi : (⟨S500000, .i32⟩ : BufTy).Contents (Elt F) → (⟨S500000, .i32⟩ : BufTy).Contents (Elt F) → (⟨S500000, .i32⟩ : BufTy).Contents (Elt F)),
    StableHlo.ternary main_v70 main_v72 main_v68 main_v73 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v73 main_v74 (broadcastInDim S500000x1 ![0] bcast_S500000_S500000x1_0 : (⟨S500000, .i32⟩ : BufTy).Contents (Elt F) → (⟨S500000x1, .i32⟩ : BufTy).Contents (Elt F)),
    StableHlo.binary main_arg3 main_v74 main_v75 ((fun x i => Host.gather gather_S150000_S500000x1_S500000_n_0_n_n_0_1_1 x i) : (⟨S150000, .f32⟩ : BufTy).Contents (Elt F) → (⟨S500000x1, .i32⟩ : BufTy).Contents (Elt F) → (⟨S500000, .f32⟩ : BufTy).Contents (Elt F)) ]

/-- The references `chain8` writes. -/
def chain8_W : List (Ref sig .tc) := [main_v67, main_v68, main_c_15, main_v69, main_v70, main_c_16, main_v71, main_v72, main_v73, main_v74, main_v75]

theorem chain8_writes : (chain8 : List (HloOp τ sig (Elt F))).Forall fun op => op.writes ⊆ (chain8_W.map (Proc.devRef (τ := τ) .tc)).toFinset := by
  simp only [chain8, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain8` does not write keeps its contents. -/
theorem chain8_keeps (V : Valuation τ sig (Elt F)) (r : Ref sig .tc) (h : r ∉ chain8_W) :
    StableHlo.after chain8 V (Proc.devRef .tc r) = V (Proc.devRef .tc r) :=
  StableHlo.after_of_writes_sub chain8 V chain8_writes h

/-- `main_v75` after `chain8`, from any contents. -/
theorem chain8_res (V : Valuation τ sig (Elt F)) :
    StableHlo.after chain8 V (Proc.devRef .tc main_v75) = g75 (V (Proc.devRef .tc main_arg3)) (V (Proc.devRef .tc main_arg6)) := by
  simp only [chain8]
  after_results_simp
  rfl

/-- The operations that make `main_v82`, in the program's order. -/
def chain9 : List (HloOp τ sig (Elt F)) :=
  [ StableHlo.nullary main_c_17 (constantI S_ 32 0#32),
    StableHlo.unary main_c_17 main_v76 (broadcastInDim S8192 ![] bcast_S_S8192 : (⟨S_, .i32⟩ : BufTy).Contents (Elt F) → (⟨S8192, .i32⟩ : BufTy).Contents (Elt F)),
    StableHlo.binary main_arg7 main_v76 main_v77 (cmpi .slt : (⟨S8192, .i32⟩ : BufTy).Contents (Elt F) → (⟨S8192, .i32⟩ : BufTy).Contents (Elt F) → (⟨S8192, .i1⟩ : BufTy).Contents (Elt F)),
    StableHlo.nullary main_c_18 (constantI S_ 32 100000#32),
    StableHlo.unary main_c_18 main_v78 (broadcastInDim S8192 ![] bcast_S_S8192 : (⟨S_, .i32⟩ : BufTy).Contents (Elt F) → (⟨S8192, .i32⟩ : BufTy).Contents (Elt F)),
    StableHlo.binary main_arg7 main_v78 main_v79 (addi : (⟨S8192, .i32⟩ : BufTy).Contents (Elt F) → (⟨S8192, .i32⟩ : BufTy).Contents (Elt F) → (⟨S8192, .i32⟩ : BufTy).Contents (Elt F)),
    StableHlo.ternary main_v77 main_v79 main_arg7 main_v80 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v80 main_v81 (broadcastInDim S8192x1 ![0] bcast_S8192_S8192x1_0 : (⟨S8192, .i32⟩ : BufTy).Contents (Elt F) → (⟨S8192x1, .i32⟩ : BufTy).Contents (Elt F)),
    StableHlo.binary main_arg1 main_v81 main_v82 ((fun x i => Host.gather gather_S100000x16_S8192x1_S8192x16_1_0_n_n_0_1_116 x i) : (⟨S100000x16, .f32⟩ : BufTy).Contents (Elt F) → (⟨S8192x1, .i32⟩ : BufTy).Contents (Elt F) → (⟨S8192x16, .f32⟩ : BufTy).Contents (Elt F)) ]

/-- The references `chain9` writes. -/
def chain9_W : List (Ref sig .tc) := [main_c_17, main_v76, main_v77, main_c_18, main_v78, main_v79, main_v80, main_v81, main_v82]

theorem chain9_writes : (chain9 : List (HloOp τ sig (Elt F))).Forall fun op => op.writes ⊆ (chain9_W.map (Proc.devRef (τ := τ) .tc)).toFinset := by
  simp only [chain9, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain9` does not write keeps its contents. -/
theorem chain9_keeps (V : Valuation τ sig (Elt F)) (r : Ref sig .tc) (h : r ∉ chain9_W) :
    StableHlo.after chain9 V (Proc.devRef .tc r) = V (Proc.devRef .tc r) :=
  StableHlo.after_of_writes_sub chain9 V chain9_writes h

/-- `main_v82` after `chain9`, from any contents. -/
theorem chain9_res (V : Valuation τ sig (Elt F)) :
    StableHlo.after chain9 V (Proc.devRef .tc main_v82) = g82 (V (Proc.devRef .tc main_arg1)) (V (Proc.devRef .tc main_arg7)) := by
  simp only [chain9]
  after_results_simp
  rfl

/-- The operations that make `main_v89`, in the program's order. -/
def chain10 : List (HloOp τ sig (Elt F)) :=
  [ StableHlo.nullary main_c_19 (constantI S_ 32 0#32),
    StableHlo.unary main_c_19 main_v83 (broadcastInDim S8192 ![] bcast_S_S8192 : (⟨S_, .i32⟩ : BufTy).Contents (Elt F) → (⟨S8192, .i32⟩ : BufTy).Contents (Elt F)),
    StableHlo.binary main_arg8 main_v83 main_v84 (cmpi .slt : (⟨S8192, .i32⟩ : BufTy).Contents (Elt F) → (⟨S8192, .i32⟩ : BufTy).Contents (Elt F) → (⟨S8192, .i1⟩ : BufTy).Contents (Elt F)),
    StableHlo.nullary main_c_20 (constantI S_ 32 100000#32),
    StableHlo.unary main_c_20 main_v85 (broadcastInDim S8192 ![] bcast_S_S8192 : (⟨S_, .i32⟩ : BufTy).Contents (Elt F) → (⟨S8192, .i32⟩ : BufTy).Contents (Elt F)),
    StableHlo.binary main_arg8 main_v85 main_v86 (addi : (⟨S8192, .i32⟩ : BufTy).Contents (Elt F) → (⟨S8192, .i32⟩ : BufTy).Contents (Elt F) → (⟨S8192, .i32⟩ : BufTy).Contents (Elt F)),
    StableHlo.ternary main_v84 main_v86 main_arg8 main_v87 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v87 main_v88 (broadcastInDim S8192x1 ![0] bcast_S8192_S8192x1_0 : (⟨S8192, .i32⟩ : BufTy).Contents (Elt F) → (⟨S8192x1, .i32⟩ : BufTy).Contents (Elt F)),
    StableHlo.binary main_arg0 main_v88 main_v89 ((fun x i => Host.gather gather_S100000x16_S8192x1_S8192x16_1_0_n_n_0_1_116 x i) : (⟨S100000x16, .f32⟩ : BufTy).Contents (Elt F) → (⟨S8192x1, .i32⟩ : BufTy).Contents (Elt F) → (⟨S8192x16, .f32⟩ : BufTy).Contents (Elt F)) ]

/-- The references `chain10` writes. -/
def chain10_W : List (Ref sig .tc) := [main_c_19, main_v83, main_v84, main_c_20, main_v85, main_v86, main_v87, main_v88, main_v89]

theorem chain10_writes : (chain10 : List (HloOp τ sig (Elt F))).Forall fun op => op.writes ⊆ (chain10_W.map (Proc.devRef (τ := τ) .tc)).toFinset := by
  simp only [chain10, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain10` does not write keeps its contents. -/
theorem chain10_keeps (V : Valuation τ sig (Elt F)) (r : Ref sig .tc) (h : r ∉ chain10_W) :
    StableHlo.after chain10 V (Proc.devRef .tc r) = V (Proc.devRef .tc r) :=
  StableHlo.after_of_writes_sub chain10 V chain10_writes h

/-- `main_v89` after `chain10`, from any contents. -/
theorem chain10_res (V : Valuation τ sig (Elt F)) :
    StableHlo.after chain10 V (Proc.devRef .tc main_v89) = g89 (V (Proc.devRef .tc main_arg0)) (V (Proc.devRef .tc main_arg8)) := by
  simp only [chain10]
  after_results_simp
  rfl

/-- The operations that make `main_v98`, in the program's order. -/
def chain11 : List (HloOp τ sig (Elt F)) :=
  [ StableHlo.nullary main_c_21 (constantI S_ 32 100000#32),
    StableHlo.unary main_c_21 main_v90 (broadcastInDim S8192 ![] bcast_S_S8192 : (⟨S_, .i32⟩ : BufTy).Contents (Elt F) → (⟨S8192, .i32⟩ : BufTy).Contents (Elt F)),
    StableHlo.binary main_arg9 main_v90 main_v91 (subi : (⟨S8192, .i32⟩ : BufTy).Contents (Elt F) → (⟨S8192, .i32⟩ : BufTy).Contents (Elt F) → (⟨S8192, .i32⟩ : BufTy).Contents (Elt F)),
    StableHlo.nullary main_c_22 (constantI S_ 32 0#32),
    StableHlo.unary main_c_22 main_v92 (broadcastInDim S8192 ![] bcast_S_S8192 : (⟨S_, .i32⟩ : BufTy).Contents (Elt F) → (⟨S8192, .i32⟩ : BufTy).Contents (Elt F)),
    StableHlo.binary main_v91 main_v92 main_v93 (cmpi .slt : (⟨S8192, .i32⟩ : BufTy).Contents (Elt F) → (⟨S8192, .i32⟩ : BufTy).Contents (Elt F) → (⟨S8192, .i1⟩ : BufTy).Contents (Elt F)),
    StableHlo.nullary main_c_23 (constantI S_ 32 50000#32),
    StableHlo.unary main_c_23 main_v94 (broadcastInDim S8192 ![] bcast_S_S8192 : (⟨S_, .i32⟩ : BufTy).Contents (Elt F) → (⟨S8192, .i32⟩ : BufTy).Contents (Elt F)),
    StableHlo.binary main_v91 main_v94 main_v95 (addi : (⟨S8192, .i32⟩ : BufTy).Contents (Elt F) → (⟨S8192, .i32⟩ : BufTy).Contents (Elt F) → (⟨S8192, .i32⟩ : BufTy).Contents (Elt F)),
    StableHlo.ternary main_v93 main_v95 main_v91 main_v96 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v96 main_v97 (broadcastInDim S8192x1 ![0] bcast_S8192_S8192x1_0 : (⟨S8192, .i32⟩ : BufTy).Contents (Elt F) → (⟨S8192x1, .i32⟩ : BufTy).Contents (Elt F)),
    StableHlo.binary main_arg2 main_v97 main_v98 ((fun x i => Host.gather gather_S50000x16_S8192x1_S8192x16_1_0_n_n_0_1_116 x i) : (⟨S50000x16, .f32⟩ : BufTy).Contents (Elt F) → (⟨S8192x1, .i32⟩ : BufTy).Contents (Elt F) → (⟨S8192x16, .f32⟩ : BufTy).Contents (Elt F)) ]

/-- The references `chain11` writes. -/
def chain11_W : List (Ref sig .tc) := [main_c_21, main_v90, main_v91, main_c_22, main_v92, main_v93, main_c_23, main_v94, main_v95, main_v96, main_v97, main_v98]

theorem chain11_writes : (chain11 : List (HloOp τ sig (Elt F))).Forall fun op => op.writes ⊆ (chain11_W.map (Proc.devRef (τ := τ) .tc)).toFinset := by
  simp only [chain11, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain11` does not write keeps its contents. -/
theorem chain11_keeps (V : Valuation τ sig (Elt F)) (r : Ref sig .tc) (h : r ∉ chain11_W) :
    StableHlo.after chain11 V (Proc.devRef .tc r) = V (Proc.devRef .tc r) :=
  StableHlo.after_of_writes_sub chain11 V chain11_writes h

/-- `main_v98` after `chain11`, from any contents. -/
theorem chain11_res (V : Valuation τ sig (Elt F)) :
    StableHlo.after chain11 V (Proc.devRef .tc main_v98) = g98 (V (Proc.devRef .tc main_arg2)) (V (Proc.devRef .tc main_arg9)) := by
  simp only [chain11]
  after_results_simp
  rfl

/-- The operations that make `main_v105`, in the program's order. -/
def chain12 : List (HloOp τ sig (Elt F)) :=
  [ StableHlo.nullary main_c_24 (constantI S_ 32 0#32),
    StableHlo.unary main_c_24 main_v99 (broadcastInDim S8192 ![] bcast_S_S8192 : (⟨S_, .i32⟩ : BufTy).Contents (Elt F) → (⟨S8192, .i32⟩ : BufTy).Contents (Elt F)),
    StableHlo.binary main_arg7 main_v99 main_v100 (cmpi .slt : (⟨S8192, .i32⟩ : BufTy).Contents (Elt F) → (⟨S8192, .i32⟩ : BufTy).Contents (Elt F) → (⟨S8192, .i1⟩ : BufTy).Contents (Elt F)),
    StableHlo.nullary main_c_25 (constantI S_ 32 200000#32),
    StableHlo.unary main_c_25 main_v101 (broadcastInDim S8192 ![] bcast_S_S8192 : (⟨S_, .i32⟩ : BufTy).Contents (Elt F) → (⟨S8192, .i32⟩ : BufTy).Contents (Elt F)),
    StableHlo.binary main_arg7 main_v101 main_v102 (addi : (⟨S8192, .i32⟩ : BufTy).Contents (Elt F) → (⟨S8192, .i32⟩ : BufTy).Contents (Elt F) → (⟨S8192, .i32⟩ : BufTy).Contents (Elt F)),
    StableHlo.ternary main_v100 main_v102 main_arg7 main_v103 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v103 main_v104 (broadcastInDim S8192x1 ![0] bcast_S8192_S8192x1_0 : (⟨S8192, .i32⟩ : BufTy).Contents (Elt F) → (⟨S8192x1, .i32⟩ : BufTy).Contents (Elt F)),
    StableHlo.binary main_arg4 main_v104 main_v105 ((fun x i => Host.gather gather_S200000_S8192x1_S8192_n_0_n_n_0_1_1 x i) : (⟨S200000, .f32⟩ : BufTy).Contents (Elt F) → (⟨S8192x1, .i32⟩ : BufTy).Contents (Elt F) → (⟨S8192, .f32⟩ : BufTy).Contents (Elt F)) ]

/-- The references `chain12` writes. -/
def chain12_W : List (Ref sig .tc) := [main_c_24, main_v99, main_v100, main_c_25, main_v101, main_v102, main_v103, main_v104, main_v105]

theorem chain12_writes : (chain12 : List (HloOp τ sig (Elt F))).Forall fun op => op.writes ⊆ (chain12_W.map (Proc.devRef (τ := τ) .tc)).toFinset := by
  simp only [chain12, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain12` does not write keeps its contents. -/
theorem chain12_keeps (V : Valuation τ sig (Elt F)) (r : Ref sig .tc) (h : r ∉ chain12_W) :
    StableHlo.after chain12 V (Proc.devRef .tc r) = V (Proc.devRef .tc r) :=
  StableHlo.after_of_writes_sub chain12 V chain12_writes h

/-- `main_v105` after `chain12`, from any contents. -/
theorem chain12_res (V : Valuation τ sig (Elt F)) :
    StableHlo.after chain12 V (Proc.devRef .tc main_v105) = g105 (V (Proc.devRef .tc main_arg4)) (V (Proc.devRef .tc main_arg7)) := by
  simp only [chain12]
  after_results_simp
  rfl

/-- The operations that make `main_v114`, in the program's order. -/
def chain13 : List (HloOp τ sig (Elt F)) :=
  [ StableHlo.nullary main_c_26 (constantI S_ 32 100000#32),
    StableHlo.unary main_c_26 main_v106 (broadcastInDim S8192 ![] bcast_S_S8192 : (⟨S_, .i32⟩ : BufTy).Contents (Elt F) → (⟨S8192, .i32⟩ : BufTy).Contents (Elt F)),
    StableHlo.binary main_arg8 main_v106 main_v107 (addi : (⟨S8192, .i32⟩ : BufTy).Contents (Elt F) → (⟨S8192, .i32⟩ : BufTy).Contents (Elt F) → (⟨S8192, .i32⟩ : BufTy).Contents (Elt F)),
    StableHlo.nullary main_c_27 (constantI S_ 32 0#32),
    StableHlo.unary main_c_27 main_v108 (broadcastInDim S8192 ![] bcast_S_S8192 : (⟨S_, .i32⟩ : BufTy).Contents (Elt F) → (⟨S8192, .i32⟩ : BufTy).Contents (Elt F)),
    StableHlo.binary main_v107 main_v108 main_v109 (cmpi .slt : (⟨S8192, .i32⟩ : BufTy).Contents (Elt F) → (⟨S8192, .i32⟩ : BufTy).Contents (Elt F) → (⟨S8192, .i1⟩ : BufTy).Contents (Elt F)),
    StableHlo.nullary main_c_28 (constantI S_ 32 200000#32),
    StableHlo.unary main_c_28 main_v110 (broadcastInDim S8192 ![] bcast_S_S8192 : (⟨S_, .i32⟩ : BufTy).Contents (Elt F) → (⟨S8192, .i32⟩ : BufTy).Contents (Elt F)),
    StableHlo.binary main_v107 main_v110 main_v111 (addi : (⟨S8192, .i32⟩ : BufTy).Contents (Elt F) → (⟨S8192, .i32⟩ : BufTy).Contents (Elt F) → (⟨S8192, .i32⟩ : BufTy).Contents (Elt F)),
    StableHlo.ternary main_v109 main_v111 main_v107 main_v112 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v112 main_v113 (broadcastInDim S8192x1 ![0] bcast_S8192_S8192x1_0 : (⟨S8192, .i32⟩ : BufTy).Contents (Elt F) → (⟨S8192x1, .i32⟩ : BufTy).Contents (Elt F)),
    StableHlo.binary main_arg4 main_v113 main_v114 ((fun x i => Host.gather gather_S200000_S8192x1_S8192_n_0_n_n_0_1_1 x i) : (⟨S200000, .f32⟩ : BufTy).Contents (Elt F) → (⟨S8192x1, .i32⟩ : BufTy).Contents (Elt F) → (⟨S8192, .f32⟩ : BufTy).Contents (Elt F)) ]

/-- The references `chain13` writes. -/
def chain13_W : List (Ref sig .tc) := [main_c_26, main_v106, main_v107, main_c_27, main_v108, main_v109, main_c_28, main_v110, main_v111, main_v112, main_v113, main_v114]

theorem chain13_writes : (chain13 : List (HloOp τ sig (Elt F))).Forall fun op => op.writes ⊆ (chain13_W.map (Proc.devRef (τ := τ) .tc)).toFinset := by
  simp only [chain13, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain13` does not write keeps its contents. -/
theorem chain13_keeps (V : Valuation τ sig (Elt F)) (r : Ref sig .tc) (h : r ∉ chain13_W) :
    StableHlo.after chain13 V (Proc.devRef .tc r) = V (Proc.devRef .tc r) :=
  StableHlo.after_of_writes_sub chain13 V chain13_writes h

/-- `main_v114` after `chain13`, from any contents. -/
theorem chain13_res (V : Valuation τ sig (Elt F)) :
    StableHlo.after chain13 V (Proc.devRef .tc main_v114) = g114 (V (Proc.devRef .tc main_arg4)) (V (Proc.devRef .tc main_arg8)) := by
  simp only [chain13]
  after_results_simp
  rfl

/-- The operations that make `main_v121`, in the program's order. -/
def chain14 : List (HloOp τ sig (Elt F)) :=
  [ StableHlo.nullary main_c_29 (constantI S_ 32 0#32),
    StableHlo.unary main_c_29 main_v115 (broadcastInDim S8192 ![] bcast_S_S8192 : (⟨S_, .i32⟩ : BufTy).Contents (Elt F) → (⟨S8192, .i32⟩ : BufTy).Contents (Elt F)),
    StableHlo.binary main_arg7 main_v115 main_v116 (cmpi .slt : (⟨S8192, .i32⟩ : BufTy).Contents (Elt F) → (⟨S8192, .i32⟩ : BufTy).Contents (Elt F) → (⟨S8192, .i1⟩ : BufTy).Contents (Elt F)),
    StableHlo.nullary main_c_30 (constantI S_ 32 150000#32),
    StableHlo.unary main_c_30 main_v117 (broadcastInDim S8192 ![] bcast_S_S8192 : (⟨S_, .i32⟩ : BufTy).Contents (Elt F) → (⟨S8192, .i32⟩ : BufTy).Contents (Elt F)),
    StableHlo.binary main_arg7 main_v117 main_v118 (addi : (⟨S8192, .i32⟩ : BufTy).Contents (Elt F) → (⟨S8192, .i32⟩ : BufTy).Contents (Elt F) → (⟨S8192, .i32⟩ : BufTy).Contents (Elt F)),
    StableHlo.ternary main_v116 main_v118 main_arg7 main_v119 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v119 main_v120 (broadcastInDim S8192x1 ![0] bcast_S8192_S8192x1_0 : (⟨S8192, .i32⟩ : BufTy).Contents (Elt F) → (⟨S8192x1, .i32⟩ : BufTy).Contents (Elt F)),
    StableHlo.binary main_arg3 main_v120 main_v121 ((fun x i => Host.gather gather_S150000_S8192x1_S8192_n_0_n_n_0_1_1 x i) : (⟨S150000, .f32⟩ : BufTy).Contents (Elt F) → (⟨S8192x1, .i32⟩ : BufTy).Contents (Elt F) → (⟨S8192, .f32⟩ : BufTy).Contents (Elt F)) ]

/-- The references `chain14` writes. -/
def chain14_W : List (Ref sig .tc) := [main_c_29, main_v115, main_v116, main_c_30, main_v117, main_v118, main_v119, main_v120, main_v121]

theorem chain14_writes : (chain14 : List (HloOp τ sig (Elt F))).Forall fun op => op.writes ⊆ (chain14_W.map (Proc.devRef (τ := τ) .tc)).toFinset := by
  simp only [chain14, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain14` does not write keeps its contents. -/
theorem chain14_keeps (V : Valuation τ sig (Elt F)) (r : Ref sig .tc) (h : r ∉ chain14_W) :
    StableHlo.after chain14 V (Proc.devRef .tc r) = V (Proc.devRef .tc r) :=
  StableHlo.after_of_writes_sub chain14 V chain14_writes h

/-- `main_v121` after `chain14`, from any contents. -/
theorem chain14_res (V : Valuation τ sig (Elt F)) :
    StableHlo.after chain14 V (Proc.devRef .tc main_v121) = g121 (V (Proc.devRef .tc main_arg3)) (V (Proc.devRef .tc main_arg7)) := by
  simp only [chain14]
  after_results_simp
  rfl

/-- The operations that make `main_v128`, in the program's order. -/
def chain15 : List (HloOp τ sig (Elt F)) :=
  [ StableHlo.nullary main_c_31 (constantI S_ 32 0#32),
    StableHlo.unary main_c_31 main_v122 (broadcastInDim S8192 ![] bcast_S_S8192 : (⟨S_, .i32⟩ : BufTy).Contents (Elt F) → (⟨S8192, .i32⟩ : BufTy).Contents (Elt F)),
    StableHlo.binary main_arg9 main_v122 main_v123 (cmpi .slt : (⟨S8192, .i32⟩ : BufTy).Contents (Elt F) → (⟨S8192, .i32⟩ : BufTy).Contents (Elt F) → (⟨S8192, .i1⟩ : BufTy).Contents (Elt F)),
    StableHlo.nullary main_c_32 (constantI S_ 32 150000#32),
    StableHlo.unary main_c_32 main_v124 (broadcastInDim S8192 ![] bcast_S_S8192 : (⟨S_, .i32⟩ : BufTy).Contents (Elt F) → (⟨S8192, .i32⟩ : BufTy).Contents (Elt F)),
    StableHlo.binary main_arg9 main_v124 main_v125 (addi : (⟨S8192, .i32⟩ : BufTy).Contents (Elt F) → (⟨S8192, .i32⟩ : BufTy).Contents (Elt F) → (⟨S8192, .i32⟩ : BufTy).Contents (Elt F)),
    StableHlo.ternary main_v123 main_v125 main_arg9 main_v126 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v126 main_v127 (broadcastInDim S8192x1 ![0] bcast_S8192_S8192x1_0 : (⟨S8192, .i32⟩ : BufTy).Contents (Elt F) → (⟨S8192x1, .i32⟩ : BufTy).Contents (Elt F)),
    StableHlo.binary main_arg3 main_v127 main_v128 ((fun x i => Host.gather gather_S150000_S8192x1_S8192_n_0_n_n_0_1_1 x i) : (⟨S150000, .f32⟩ : BufTy).Contents (Elt F) → (⟨S8192x1, .i32⟩ : BufTy).Contents (Elt F) → (⟨S8192, .f32⟩ : BufTy).Contents (Elt F)) ]

/-- The references `chain15` writes. -/
def chain15_W : List (Ref sig .tc) := [main_c_31, main_v122, main_v123, main_c_32, main_v124, main_v125, main_v126, main_v127, main_v128]

theorem chain15_writes : (chain15 : List (HloOp τ sig (Elt F))).Forall fun op => op.writes ⊆ (chain15_W.map (Proc.devRef (τ := τ) .tc)).toFinset := by
  simp only [chain15, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference `chain15` does not write keeps its contents. -/
theorem chain15_keeps (V : Valuation τ sig (Elt F)) (r : Ref sig .tc) (h : r ∉ chain15_W) :
    StableHlo.after chain15 V (Proc.devRef .tc r) = V (Proc.devRef .tc r) :=
  StableHlo.after_of_writes_sub chain15 V chain15_writes h

/-- `main_v128` after `chain15`, from any contents. -/
theorem chain15_res (V : Valuation τ sig (Elt F)) :
    StableHlo.after chain15 V (Proc.devRef .tc main_v128) = g128 (V (Proc.devRef .tc main_arg3)) (V (Proc.devRef .tc main_arg9)) := by
  simp only [chain15]
  after_results_simp
  rfl

/-! ## The stretch is its fifteen chains, one after another -/

theorem hostOps0_cut : (hostOps0 : List (HloOp τ sig (Elt F))) =
    chain1 ++ (chain2 ++ (chain3 ++ (chain4 ++ (chain5 ++ (chain6 ++ (chain7 ++ (chain8 ++ (chain9 ++ (chain10 ++ (chain11 ++ (chain12 ++ (chain13 ++ (chain14 ++ (chain15)))))))))))))) := rfl

/-! ## The gathered arrays at the end of the stretch -/

/-- `main_v8` at the end of the stretch: the later chains do not write it, and the chains before its own write neither of
    the two arguments it is made of. -/
theorem after0_v8 (W : Valuation τ sig (Elt F)) :
    StableHlo.after hostOps0 W (Proc.devRef .tc main_v8) = g8 (W (Proc.devRef .tc main_arg1)) (W (Proc.devRef .tc main_arg5)) := by
  rw [hostOps0_cut]
  simp only [Cert.LibAfterAppend.after_append]
  rw [chain15_keeps _ main_v8 (by decide),
    chain14_keeps _ main_v8 (by decide),
    chain13_keeps _ main_v8 (by decide),
    chain12_keeps _ main_v8 (by decide),
    chain11_keeps _ main_v8 (by decide),
    chain10_keeps _ main_v8 (by decide),
    chain9_keeps _ main_v8 (by decide),
    chain8_keeps _ main_v8 (by decide),
    chain7_keeps _ main_v8 (by decide),
    chain6_keeps _ main_v8 (by decide),
    chain5_keeps _ main_v8 (by decide),
    chain4_keeps _ main_v8 (by decide),
    chain3_keeps _ main_v8 (by decide),
    chain2_keeps _ main_v8 (by decide),
    chain1_res]

/-- `main_v17` at the end of the stretch: the later chains do not write it, and the chains before its own write neither of
    the two arguments it is made of. -/
theorem after0_v17 (W : Valuation τ sig (Elt F)) :
    StableHlo.after hostOps0 W (Proc.devRef .tc main_v17) = g17 (W (Proc.devRef .tc main_arg0)) (W (Proc.devRef .tc main_arg5)) := by
  rw [hostOps0_cut]
  simp only [Cert.LibAfterAppend.after_append]
  rw [chain15_keeps _ main_v17 (by decide),
    chain14_keeps _ main_v17 (by decide),
    chain13_keeps _ main_v17 (by decide),
    chain12_keeps _ main_v17 (by decide),
    chain11_keeps _ main_v17 (by decide),
    chain10_keeps _ main_v17 (by decide),
    chain9_keeps _ main_v17 (by decide),
    chain8_keeps _ main_v17 (by decide),
    chain7_keeps _ main_v17 (by decide),
    chain6_keeps _ main_v17 (by decide),
    chain5_keeps _ main_v17 (by decide),
    chain4_keeps _ main_v17 (by decide),
    chain3_keeps _ main_v17 (by decide),
    chain2_res,
    chain1_keeps _ main_arg0 (by decide),
    chain1_keeps _ main_arg5 (by decide)]

/-- `main_v26` at the end of the stretch: the later chains do not write it, and the chains before its own write neither of
    the two arguments it is made of. -/
theorem after0_v26 (W : Valuation τ sig (Elt F)) :
    StableHlo.after hostOps0 W (Proc.devRef .tc main_v26) = g26 (W (Proc.devRef .tc main_arg4)) (W (Proc.devRef .tc main_arg5)) := by
  rw [hostOps0_cut]
  simp only [Cert.LibAfterAppend.after_append]
  rw [chain15_keeps _ main_v26 (by decide),
    chain14_keeps _ main_v26 (by decide),
    chain13_keeps _ main_v26 (by decide),
    chain12_keeps _ main_v26 (by decide),
    chain11_keeps _ main_v26 (by decide),
    chain10_keeps _ main_v26 (by decide),
    chain9_keeps _ main_v26 (by decide),
    chain8_keeps _ main_v26 (by decide),
    chain7_keeps _ main_v26 (by decide),
    chain6_keeps _ main_v26 (by decide),
    chain5_keeps _ main_v26 (by decide),
    chain4_keeps _ main_v26 (by decide),
    chain3_res,
    chain2_keeps _ main_arg4 (by decide),
    chain2_keeps _ main_arg5 (by decide),
    chain1_keeps _ main_arg4 (by decide),
    chain1_keeps _ main_arg5 (by decide)]

/-- `main_v37` at the end of the stretch: the later chains do not write it, and the chains before its own write neither of
    the two arguments it is made of. -/
theorem after0_v37 (W : Valuation τ sig (Elt F)) :
    StableHlo.after hostOps0 W (Proc.devRef .tc main_v37) = g37 (W (Proc.devRef .tc main_arg4)) (W (Proc.devRef .tc main_arg5)) := by
  rw [hostOps0_cut]
  simp only [Cert.LibAfterAppend.after_append]
  rw [chain15_keeps _ main_v37 (by decide),
    chain14_keeps _ main_v37 (by decide),
    chain13_keeps _ main_v37 (by decide),
    chain12_keeps _ main_v37 (by decide),
    chain11_keeps _ main_v37 (by decide),
    chain10_keeps _ main_v37 (by decide),
    chain9_keeps _ main_v37 (by decide),
    chain8_keeps _ main_v37 (by decide),
    chain7_keeps _ main_v37 (by decide),
    chain6_keeps _ main_v37 (by decide),
    chain5_keeps _ main_v37 (by decide),
    chain4_res,
    chain3_keeps _ main_arg4 (by decide),
    chain3_keeps _ main_arg5 (by decide),
    chain2_keeps _ main_arg4 (by decide),
    chain2_keeps _ main_arg5 (by decide),
    chain1_keeps _ main_arg4 (by decide),
    chain1_keeps _ main_arg5 (by decide)]

/-- `main_v46` at the end of the stretch: the later chains do not write it, and the chains before its own write neither of
    the two arguments it is made of. -/
theorem after0_v46 (W : Valuation τ sig (Elt F)) :
    StableHlo.after hostOps0 W (Proc.devRef .tc main_v46) = g46 (W (Proc.devRef .tc main_arg1)) (W (Proc.devRef .tc main_arg6)) := by
  rw [hostOps0_cut]
  simp only [Cert.LibAfterAppend.after_append]
  rw [chain15_keeps _ main_v46 (by decide),
    chain14_keeps _ main_v46 (by decide),
    chain13_keeps _ main_v46 (by decide),
    chain12_keeps _ main_v46 (by decide),
    chain11_keeps _ main_v46 (by decide),
    chain10_keeps _ main_v46 (by decide),
    chain9_keeps _ main_v46 (by decide),
    chain8_keeps _ main_v46 (by decide),
    chain7_keeps _ main_v46 (by decide),
    chain6_keeps _ main_v46 (by decide),
    chain5_res,
    chain4_keeps _ main_arg1 (by decide),
    chain4_keeps _ main_arg6 (by decide),
    chain3_keeps _ main_arg1 (by decide),
    chain3_keeps _ main_arg6 (by decide),
    chain2_keeps _ main_arg1 (by decide),
    chain2_keeps _ main_arg6 (by decide),
    chain1_keeps _ main_arg1 (by decide),
    chain1_keeps _ main_arg6 (by decide)]

/-- `main_v57` at the end of the stretch: the later chains do not write it, and the chains before its own write neither of
    the two arguments it is made of. -/
theorem after0_v57 (W : Valuation τ sig (Elt F)) :
    StableHlo.after hostOps0 W (Proc.devRef .tc main_v57) = g57 (W (Proc.devRef .tc main_arg2)) (W (Proc.devRef .tc main_arg6)) := by
  rw [hostOps0_cut]
  simp only [Cert.LibAfterAppend.after_append]
  rw [chain15_keeps _ main_v57 (by decide),
    chain14_keeps _ main_v57 (by decide),
    chain13_keeps _ main_v57 (by decide),
    chain12_keeps _ main_v57 (by decide),
    chain11_keeps _ main_v57 (by decide),
    chain10_keeps _ main_v57 (by decide),
    chain9_keeps _ main_v57 (by decide),
    chain8_keeps _ main_v57 (by decide),
    chain7_keeps _ main_v57 (by decide),
    chain6_res,
    chain5_keeps _ main_arg2 (by decide),
    chain5_keeps _ main_arg6 (by decide),
    chain4_keeps _ main_arg2 (by decide),
    chain4_keeps _ main_arg6 (by decide),
    chain3_keeps _ main_arg2 (by decide),
    chain3_keeps _ main_arg6 (by decide),
    chain2_keeps _ main_arg2 (by decide),
    chain2_keeps _ main_arg6 (by decide),
    chain1_keeps _ main_arg2 (by decide),
    chain1_keeps _ main_arg6 (by decide)]

/-- `main_v66` at the end of the stretch: the later chains do not write it, and the chains before its own write neither of
    the two arguments it is made of. -/
theorem after0_v66 (W : Valuation τ sig (Elt F)) :
    StableHlo.after hostOps0 W (Proc.devRef .tc main_v66) = g66 (W (Proc.devRef .tc main_arg3)) (W (Proc.devRef .tc main_arg6)) := by
  rw [hostOps0_cut]
  simp only [Cert.LibAfterAppend.after_append]
  rw [chain15_keeps _ main_v66 (by decide),
    chain14_keeps _ main_v66 (by decide),
    chain13_keeps _ main_v66 (by decide),
    chain12_keeps _ main_v66 (by decide),
    chain11_keeps _ main_v66 (by decide),
    chain10_keeps _ main_v66 (by decide),
    chain9_keeps _ main_v66 (by decide),
    chain8_keeps _ main_v66 (by decide),
    chain7_res,
    chain6_keeps _ main_arg3 (by decide),
    chain6_keeps _ main_arg6 (by decide),
    chain5_keeps _ main_arg3 (by decide),
    chain5_keeps _ main_arg6 (by decide),
    chain4_keeps _ main_arg3 (by decide),
    chain4_keeps _ main_arg6 (by decide),
    chain3_keeps _ main_arg3 (by decide),
    chain3_keeps _ main_arg6 (by decide),
    chain2_keeps _ main_arg3 (by decide),
    chain2_keeps _ main_arg6 (by decide),
    chain1_keeps _ main_arg3 (by decide),
    chain1_keeps _ main_arg6 (by decide)]

/-- `main_v75` at the end of the stretch: the later chains do not write it, and the chains before its own write neither of
    the two arguments it is made of. -/
theorem after0_v75 (W : Valuation τ sig (Elt F)) :
    StableHlo.after hostOps0 W (Proc.devRef .tc main_v75) = g75 (W (Proc.devRef .tc main_arg3)) (W (Proc.devRef .tc main_arg6)) := by
  rw [hostOps0_cut]
  simp only [Cert.LibAfterAppend.after_append]
  rw [chain15_keeps _ main_v75 (by decide),
    chain14_keeps _ main_v75 (by decide),
    chain13_keeps _ main_v75 (by decide),
    chain12_keeps _ main_v75 (by decide),
    chain11_keeps _ main_v75 (by decide),
    chain10_keeps _ main_v75 (by decide),
    chain9_keeps _ main_v75 (by decide),
    chain8_res,
    chain7_keeps _ main_arg3 (by decide),
    chain7_keeps _ main_arg6 (by decide),
    chain6_keeps _ main_arg3 (by decide),
    chain6_keeps _ main_arg6 (by decide),
    chain5_keeps _ main_arg3 (by decide),
    chain5_keeps _ main_arg6 (by decide),
    chain4_keeps _ main_arg3 (by decide),
    chain4_keeps _ main_arg6 (by decide),
    chain3_keeps _ main_arg3 (by decide),
    chain3_keeps _ main_arg6 (by decide),
    chain2_keeps _ main_arg3 (by decide),
    chain2_keeps _ main_arg6 (by decide),
    chain1_keeps _ main_arg3 (by decide),
    chain1_keeps _ main_arg6 (by decide)]

/-- `main_v82` at the end of the stretch: the later chains do not write it, and the chains before its own write neither of
    the two arguments it is made of. -/
theorem after0_v82 (W : Valuation τ sig (Elt F)) :
    StableHlo.after hostOps0 W (Proc.devRef .tc main_v82) = g82 (W (Proc.devRef .tc main_arg1)) (W (Proc.devRef .tc main_arg7)) := by
  rw [hostOps0_cut]
  simp only [Cert.LibAfterAppend.after_append]
  rw [chain15_keeps _ main_v82 (by decide),
    chain14_keeps _ main_v82 (by decide),
    chain13_keeps _ main_v82 (by decide),
    chain12_keeps _ main_v82 (by decide),
    chain11_keeps _ main_v82 (by decide),
    chain10_keeps _ main_v82 (by decide),
    chain9_res,
    chain8_keeps _ main_arg1 (by decide),
    chain8_keeps _ main_arg7 (by decide),
    chain7_keeps _ main_arg1 (by decide),
    chain7_keeps _ main_arg7 (by decide),
    chain6_keeps _ main_arg1 (by decide),
    chain6_keeps _ main_arg7 (by decide),
    chain5_keeps _ main_arg1 (by decide),
    chain5_keeps _ main_arg7 (by decide),
    chain4_keeps _ main_arg1 (by decide),
    chain4_keeps _ main_arg7 (by decide),
    chain3_keeps _ main_arg1 (by decide),
    chain3_keeps _ main_arg7 (by decide),
    chain2_keeps _ main_arg1 (by decide),
    chain2_keeps _ main_arg7 (by decide),
    chain1_keeps _ main_arg1 (by decide),
    chain1_keeps _ main_arg7 (by decide)]

/-- `main_v89` at the end of the stretch: the later chains do not write it, and the chains before its own write neither of
    the two arguments it is made of. -/
theorem after0_v89 (W : Valuation τ sig (Elt F)) :
    StableHlo.after hostOps0 W (Proc.devRef .tc main_v89) = g89 (W (Proc.devRef .tc main_arg0)) (W (Proc.devRef .tc main_arg8)) := by
  rw [hostOps0_cut]
  simp only [Cert.LibAfterAppend.after_append]
  rw [chain15_keeps _ main_v89 (by decide),
    chain14_keeps _ main_v89 (by decide),
    chain13_keeps _ main_v89 (by decide),
    chain12_keeps _ main_v89 (by decide),
    chain11_keeps _ main_v89 (by decide),
    chain10_res,
    chain9_keeps _ main_arg0 (by decide),
    chain9_keeps _ main_arg8 (by decide),
    chain8_keeps _ main_arg0 (by decide),
    chain8_keeps _ main_arg8 (by decide),
    chain7_keeps _ main_arg0 (by decide),
    chain7_keeps _ main_arg8 (by decide),
    chain6_keeps _ main_arg0 (by decide),
    chain6_keeps _ main_arg8 (by decide),
    chain5_keeps _ main_arg0 (by decide),
    chain5_keeps _ main_arg8 (by decide),
    chain4_keeps _ main_arg0 (by decide),
    chain4_keeps _ main_arg8 (by decide),
    chain3_keeps _ main_arg0 (by decide),
    chain3_keeps _ main_arg8 (by decide),
    chain2_keeps _ main_arg0 (by decide),
    chain2_keeps _ main_arg8 (by decide),
    chain1_keeps _ main_arg0 (by decide),
    chain1_keeps _ main_arg8 (by decide)]

/-- `main_v98` at the end of the stretch: the later chains do not write it, and the chains before its own write neither of
    the two arguments it is made of. -/
theorem after0_v98 (W : Valuation τ sig (Elt F)) :
    StableHlo.after hostOps0 W (Proc.devRef .tc main_v98) = g98 (W (Proc.devRef .tc main_arg2)) (W (Proc.devRef .tc main_arg9)) := by
  rw [hostOps0_cut]
  simp only [Cert.LibAfterAppend.after_append]
  rw [chain15_keeps _ main_v98 (by decide),
    chain14_keeps _ main_v98 (by decide),
    chain13_keeps _ main_v98 (by decide),
    chain12_keeps _ main_v98 (by decide),
    chain11_res,
    chain10_keeps _ main_arg2 (by decide),
    chain10_keeps _ main_arg9 (by decide),
    chain9_keeps _ main_arg2 (by decide),
    chain9_keeps _ main_arg9 (by decide),
    chain8_keeps _ main_arg2 (by decide),
    chain8_keeps _ main_arg9 (by decide),
    chain7_keeps _ main_arg2 (by decide),
    chain7_keeps _ main_arg9 (by decide),
    chain6_keeps _ main_arg2 (by decide),
    chain6_keeps _ main_arg9 (by decide),
    chain5_keeps _ main_arg2 (by decide),
    chain5_keeps _ main_arg9 (by decide),
    chain4_keeps _ main_arg2 (by decide),
    chain4_keeps _ main_arg9 (by decide),
    chain3_keeps _ main_arg2 (by decide),
    chain3_keeps _ main_arg9 (by decide),
    chain2_keeps _ main_arg2 (by decide),
    chain2_keeps _ main_arg9 (by decide),
    chain1_keeps _ main_arg2 (by decide),
    chain1_keeps _ main_arg9 (by decide)]

/-- `main_v105` at the end of the stretch: the later chains do not write it, and the chains before its own write neither of
    the two arguments it is made of. -/
theorem after0_v105 (W : Valuation τ sig (Elt F)) :
    StableHlo.after hostOps0 W (Proc.devRef .tc main_v105) = g105 (W (Proc.devRef .tc main_arg4)) (W (Proc.devRef .tc main_arg7)) := by
  rw [hostOps0_cut]
  simp only [Cert.LibAfterAppend.after_append]
  rw [chain15_keeps _ main_v105 (by decide),
    chain14_keeps _ main_v105 (by decide),
    chain13_keeps _ main_v105 (by decide),
    chain12_res,
    chain11_keeps _ main_arg4 (by decide),
    chain11_keeps _ main_arg7 (by decide),
    chain10_keeps _ main_arg4 (by decide),
    chain10_keeps _ main_arg7 (by decide),
    chain9_keeps _ main_arg4 (by decide),
    chain9_keeps _ main_arg7 (by decide),
    chain8_keeps _ main_arg4 (by decide),
    chain8_keeps _ main_arg7 (by decide),
    chain7_keeps _ main_arg4 (by decide),
    chain7_keeps _ main_arg7 (by decide),
    chain6_keeps _ main_arg4 (by decide),
    chain6_keeps _ main_arg7 (by decide),
    chain5_keeps _ main_arg4 (by decide),
    chain5_keeps _ main_arg7 (by decide),
    chain4_keeps _ main_arg4 (by decide),
    chain4_keeps _ main_arg7 (by decide),
    chain3_keeps _ main_arg4 (by decide),
    chain3_keeps _ main_arg7 (by decide),
    chain2_keeps _ main_arg4 (by decide),
    chain2_keeps _ main_arg7 (by decide),
    chain1_keeps _ main_arg4 (by decide),
    chain1_keeps _ main_arg7 (by decide)]

/-- `main_v114` at the end of the stretch: the later chains do not write it, and the chains before its own write neither of
    the two arguments it is made of. -/
theorem after0_v114 (W : Valuation τ sig (Elt F)) :
    StableHlo.after hostOps0 W (Proc.devRef .tc main_v114) = g114 (W (Proc.devRef .tc main_arg4)) (W (Proc.devRef .tc main_arg8)) := by
  rw [hostOps0_cut]
  simp only [Cert.LibAfterAppend.after_append]
  rw [chain15_keeps _ main_v114 (by decide),
    chain14_keeps _ main_v114 (by decide),
    chain13_res,
    chain12_keeps _ main_arg4 (by decide),
    chain12_keeps _ main_arg8 (by decide),
    chain11_keeps _ main_arg4 (by decide),
    chain11_keeps _ main_arg8 (by decide),
    chain10_keeps _ main_arg4 (by decide),
    chain10_keeps _ main_arg8 (by decide),
    chain9_keeps _ main_arg4 (by decide),
    chain9_keeps _ main_arg8 (by decide),
    chain8_keeps _ main_arg4 (by decide),
    chain8_keeps _ main_arg8 (by decide),
    chain7_keeps _ main_arg4 (by decide),
    chain7_keeps _ main_arg8 (by decide),
    chain6_keeps _ main_arg4 (by decide),
    chain6_keeps _ main_arg8 (by decide),
    chain5_keeps _ main_arg4 (by decide),
    chain5_keeps _ main_arg8 (by decide),
    chain4_keeps _ main_arg4 (by decide),
    chain4_keeps _ main_arg8 (by decide),
    chain3_keeps _ main_arg4 (by decide),
    chain3_keeps _ main_arg8 (by decide),
    chain2_keeps _ main_arg4 (by decide),
    chain2_keeps _ main_arg8 (by decide),
    chain1_keeps _ main_arg4 (by decide),
    chain1_keeps _ main_arg8 (by decide)]

/-- `main_v121` at the end of the stretch: the later chains do not write it, and the chains before its own write neither of
    the two arguments it is made of. -/
theorem after0_v121 (W : Valuation τ sig (Elt F)) :
    StableHlo.after hostOps0 W (Proc.devRef .tc main_v121) = g121 (W (Proc.devRef .tc main_arg3)) (W (Proc.devRef .tc main_arg7)) := by
  rw [hostOps0_cut]
  simp only [Cert.LibAfterAppend.after_append]
  rw [chain15_keeps _ main_v121 (by decide),
    chain14_res,
    chain13_keeps _ main_arg3 (by decide),
    chain13_keeps _ main_arg7 (by decide),
    chain12_keeps _ main_arg3 (by decide),
    chain12_keeps _ main_arg7 (by decide),
    chain11_keeps _ main_arg3 (by decide),
    chain11_keeps _ main_arg7 (by decide),
    chain10_keeps _ main_arg3 (by decide),
    chain10_keeps _ main_arg7 (by decide),
    chain9_keeps _ main_arg3 (by decide),
    chain9_keeps _ main_arg7 (by decide),
    chain8_keeps _ main_arg3 (by decide),
    chain8_keeps _ main_arg7 (by decide),
    chain7_keeps _ main_arg3 (by decide),
    chain7_keeps _ main_arg7 (by decide),
    chain6_keeps _ main_arg3 (by decide),
    chain6_keeps _ main_arg7 (by decide),
    chain5_keeps _ main_arg3 (by decide),
    chain5_keeps _ main_arg7 (by decide),
    chain4_keeps _ main_arg3 (by decide),
    chain4_keeps _ main_arg7 (by decide),
    chain3_keeps _ main_arg3 (by decide),
    chain3_keeps _ main_arg7 (by decide),
    chain2_keeps _ main_arg3 (by decide),
    chain2_keeps _ main_arg7 (by decide),
    chain1_keeps _ main_arg3 (by decide),
    chain1_keeps _ main_arg7 (by decide)]

/-- `main_v128` at the end of the stretch: the later chains do not write it, and the chains before its own write neither of
    the two arguments it is made of. -/
theorem after0_v128 (W : Valuation τ sig (Elt F)) :
    StableHlo.after hostOps0 W (Proc.devRef .tc main_v128) = g128 (W (Proc.devRef .tc main_arg3)) (W (Proc.devRef .tc main_arg9)) := by
  rw [hostOps0_cut]
  simp only [Cert.LibAfterAppend.after_append]
  rw [chain15_res,
    chain14_keeps _ main_arg3 (by decide),
    chain14_keeps _ main_arg9 (by decide),
    chain13_keeps _ main_arg3 (by decide),
    chain13_keeps _ main_arg9 (by decide),
    chain12_keeps _ main_arg3 (by decide),
    chain12_keeps _ main_arg9 (by decide),
    chain11_keeps _ main_arg3 (by decide),
    chain11_keeps _ main_arg9 (by decide),
    chain10_keeps _ main_arg3 (by decide),
    chain10_keeps _ main_arg9 (by decide),
    chain9_keeps _ main_arg3 (by decide),
    chain9_keeps _ main_arg9 (by decide),
    chain8_keeps _ main_arg3 (by decide),
    chain8_keeps _ main_arg9 (by decide),
    chain7_keeps _ main_arg3 (by decide),
    chain7_keeps _ main_arg9 (by decide),
    chain6_keeps _ main_arg3 (by decide),
    chain6_keeps _ main_arg9 (by decide),
    chain5_keeps _ main_arg3 (by decide),
    chain5_keeps _ main_arg9 (by decide),
    chain4_keeps _ main_arg3 (by decide),
    chain4_keeps _ main_arg9 (by decide),
    chain3_keeps _ main_arg3 (by decide),
    chain3_keeps _ main_arg9 (by decide),
    chain2_keeps _ main_arg3 (by decide),
    chain2_keeps _ main_arg9 (by decide),
    chain1_keeps _ main_arg3 (by decide),
    chain1_keeps _ main_arg9 (by decide)]

end Cert.KernelIdeal.HandHost
-- ==== Proof.RefValueLink.lean ====
/-
  The reference's two LINK terms, read off its operations one at a time: each is the sum over the 500000 edges of
  g0 e + g1 e − √(Σ_d (x e d − y e d)² + ε), where g0, g1 (the two gathered bias vectors) and x, y (the two gathered row
  matrices) are the program's gather stages, kept as they are — which rows a gather picks is never opened here.
  The sum's initial value is the word of 0.0, which is the real 0; ε stays the word both programs print.
-/
import proofs.«104416_j77807627534714_2_alg».proof.Proof.Gen.ReferenceIdeal.Read
import proofs.«104416_j77807627534714_2_alg».proof.Proof.Spec
import proofs.«104416_j77807627534714_2_alg».proof.Proof.SpecViews

noncomputable section

open scoped BigOperators

namespace Cert.ReferenceIdeal.HandRef

open Cert.ReferenceIdeal Cert.ReferenceIdeal.Gen Cert.ReferenceIdeal.Read Idealize.ShloMosaic Idealize.ShloMosaic.TcCoe
open Idealize.ShloMosaic.ValueIdx Cert.Spec

/-- The per-edge reduction index of the pp link term, at edge `e` and coordinate `d`, is the matrix index `(e, d)`. -/
theorem idx_red_pp (e : Fin 500000) (d : Fin 16) : idx_main_v41 (ix1 e) d = ix2 e d :=
  funext fun a => by match a with | ⟨0, _⟩ => rfl | ⟨1, _⟩ => rfl

/-- The pp link term: the reference sums `g0 e + g1 e − √(Σ_d (x e d − y e d)² + ε)` over the edges, the four gathered arrays
    kept as they are. -/
theorem link_pp (x0 : (⟨S100000x16, .f32⟩ : BufTy).Contents (Elt Ideal)) (x1 : (⟨S100000x16, .f32⟩ : BufTy).Contents (Elt Ideal)) (x4 : (⟨S200000, .f32⟩ : BufTy).Contents (Elt Ideal)) (x5 : (⟨S2x500000, .i32⟩ : BufTy).Contents (Elt Ideal)) :
    val_main_v46 (F := Ideal) x0 x1 x4 x5 ix0
      = Cert.Spec.linkRef (vec500k (val_main_v8 (F := Ideal) x4 x5)) (vec500k (val_main_v19 (F := Ideal) x4 x5))
          (rows500k (val_main_v29 (F := Ideal) x1 x5)) (rows500k (val_main_v38 (F := Ideal) x0 x5)) := by
  rw [val_main_v46_apply, val_main_cst_9_apply, Ideal.ofBits_def, Ideal.ofBits_zero_f32, zero_add, sum_idx1]
  unfold Cert.Spec.linkRef
  refine Finset.sum_congr rfl fun e _ => ?_
  rw [val_main_v45_apply, val_main_v20_apply, val_main_v44_apply, val_main_v43_apply, val_main_v41_apply, val_main_v42_apply,
    val_main_cst_8_apply, val_main_cst_apply]
  simp only [val_main_v40_apply, val_main_v39_apply, idx_red_pp, Ideal.subf_def, Ideal.addf_def, Ideal.mulf_def, Ideal.hostUnary_sqrt_def,
    Ideal.ofBits_def, Ideal.ofBits_zero_f32, zero_add]
  rfl

/-- The per-edge reduction index of the ap link term, at edge `e` and coordinate `d`, is the matrix index `(e, d)`. -/
theorem idx_red_ap (e : Fin 500000) (d : Fin 16) : idx_main_v146 (ix1 e) d = ix2 e d :=
  funext fun a => by match a with | ⟨0, _⟩ => rfl | ⟨1, _⟩ => rfl

/-- The ap link term: the reference sums `g0 e + g1 e − √(Σ_d (x e d − y e d)² + ε)` over the edges, the four gathered arrays
    kept as they are. -/
theorem link_ap (x1 : (⟨S100000x16, .f32⟩ : BufTy).Contents (Elt Ideal)) (x2 : (⟨S50000x16, .f32⟩ : BufTy).Contents (Elt Ideal)) (x3 : (⟨S150000, .f32⟩ : BufTy).Contents (Elt Ideal)) (x6 : (⟨S2x500000, .i32⟩ : BufTy).Contents (Elt Ideal)) :
    val_main_v151 (F := Ideal) x1 x2 x3 x6 ix0
      = Cert.Spec.linkRef (vec500k (val_main_v113 (F := Ideal) x3 x6)) (vec500k (val_main_v122 (F := Ideal) x3 x6))
          (rows500k (val_main_v132 (F := Ideal) x1 x6)) (rows500k (val_main_v143 (F := Ideal) x2 x6)) := by
  rw [val_main_v151_apply, val_main_cst_35_apply, Ideal.ofBits_def, Ideal.ofBits_zero_f32, zero_add, sum_idx1]
  unfold Cert.Spec.linkRef
  refine Finset.sum_congr rfl fun e _ => ?_
  rw [val_main_v150_apply, val_main_v123_apply, val_main_v149_apply, val_main_v148_apply, val_main_v146_apply, val_main_v147_apply,
    val_main_cst_34_apply, val_main_cst_33_apply]
  simp only [val_main_v145_apply, val_main_v144_apply, idx_red_ap, Ideal.subf_def, Ideal.addf_def, Ideal.mulf_def, Ideal.hostUnary_sqrt_def,
    Ideal.ofBits_def, Ideal.ofBits_zero_f32, zero_add]
  rfl

end Cert.ReferenceIdeal.HandRef

end
-- ==== Proof.RefValuePairs.lean ====
/-
  The reference's two NON-LINK terms, read off its operations one at a time. Entry (r, c) of the pair matrix is
  exp ((gx r + gy c) − √(max (|x r|² + |y c|² − Σ_k (2 · x r k) · y c k, ε))): the row and column biases and the two squared
  norms reach the entry through broadcasts, the inner product is ONE contraction whose left operand was doubled first (so
  the 2 sits inside the sum, on the left factor). The paper–paper modality then keeps the entries strictly above the
  diagonal (a select on "row ≥ column" between zero and the entry) and sums the matrix; the author–paper modality sums it
  whole. The sum over the rank-2 index set is the double sum, rows outside. The gather stages stay unopened.
-/
import proofs.«104416_j77807627534714_2_alg».proof.Proof.Gen.ReferenceIdeal.Read
import proofs.«104416_j77807627534714_2_alg».proof.Proof.Spec
import proofs.«104416_j77807627534714_2_alg».proof.Proof.SpecViews
import Idealize.ShloMosaic.Lib.Affine

noncomputable section

open scoped BigOperators

namespace Cert.ReferenceIdeal.HandRef

open Cert.ReferenceIdeal Cert.ReferenceIdeal.Gen Cert.ReferenceIdeal.Read Idealize.ShloMosaic Idealize.ShloMosaic.TcCoe
open Idealize.ShloMosaic.ValueIdx Cert.Spec

/-! ### The pp pair term -/

/-- The row bias reaches entry `(r, c)` of the pair matrix through two broadcasts: it is read at `r`. -/
theorem idx_gx_pp (r c : Fin 8192) : idx_main_v63 (idx_main_v65 (ix2 r c)) = ix1 r :=
  funext fun a => by match a with | ⟨0, _⟩ => rfl
/-- The column bias reaches entry `(r, c)` through two broadcasts: it is read at `c`. -/
theorem idx_gy_pp (r c : Fin 8192) : idx_main_v64 (idx_main_v66 (ix2 r c)) = ix1 c :=
  funext fun a => by match a with | ⟨0, _⟩ => rfl
/-- The squared norm of the left rows, broadcast along the columns, is summed over row `r`'s coordinates. -/
theorem idx_sx_pp (r c : Fin 8192) (k : Fin 16) : idx_main_v83 (idx_main_v84 (idx_main_v88 (ix2 r c))) k = ix2 r k :=
  funext fun a => by match a with | ⟨0, _⟩ => rfl | ⟨1, _⟩ => rfl
/-- The squared norm of the right rows, broadcast along the rows, is summed over row `c`'s coordinates. -/
theorem idx_sy_pp (r c : Fin 8192) (k : Fin 16) : idx_main_v86 (idx_main_v87 (idx_main_v89 (ix2 r c))) k = ix2 c k :=
  funext fun a => by match a with | ⟨0, _⟩ => rfl | ⟨1, _⟩ => rfl
/-- The contraction reads the doubled left matrix at `(r, k)` … -/
theorem idx_dl_pp (r c : Fin 8192) (k : Fin 16) : lidx_main_v94 (ix2 r c) k = ix2 r k :=
  funext fun a => by match a with | ⟨0, _⟩ => rfl | ⟨1, _⟩ => rfl
/-- … and the transposed right matrix at `(k, c)`, which is the right matrix at `(c, k)`. -/
theorem idx_dr_pp (r c : Fin 8192) (k : Fin 16) : idx_main_v93 (ridx_main_v94 (ix2 r c) k) = ix2 c k :=
  funext fun a => by match a with | ⟨0, _⟩ => rfl | ⟨1, _⟩ => rfl

/-- The bias of pair `(r, c)`: the row's plus the column's. -/
theorem bias_pp (x4 : (⟨S200000, .f32⟩ : BufTy).Contents (Elt Ideal)) (x7 : (⟨S8192, .i32⟩ : BufTy).Contents (Elt Ideal)) (x8 : (⟨S8192, .i32⟩ : BufTy).Contents (Elt Ideal)) (r c : Fin 8192) :
    val_main_v67 (F := Ideal) x4 x7 x8 (ix2 r c) = vec8k (val_main_v53 (F := Ideal) x4 x7) r + vec8k (val_main_v62 (F := Ideal) x4 x8) c := by
  rw [val_main_v67_apply, val_main_v65_apply, val_main_v66_apply, val_main_v63_apply, val_main_v64_apply, idx_gx_pp, idx_gy_pp]
  rfl

/-- The left squared norm at pair `(r, c)` is row `r`'s. -/
theorem sqx_pp (x1 : (⟨S100000x16, .f32⟩ : BufTy).Contents (Elt Ideal)) (x7 : (⟨S8192, .i32⟩ : BufTy).Contents (Elt Ideal)) (r c : Fin 8192) :
    val_main_v88 (F := Ideal) x1 x7 (ix2 r c) = Cert.Spec.sqn (rows8k (val_main_v74 (F := Ideal) x1 x7)) r := by
  rw [val_main_v88_apply, val_main_v84_apply, val_main_v83_apply, val_main_cst_19_apply, Ideal.ofBits_def, Ideal.ofBits_zero_f32, zero_add]
  unfold Cert.Spec.sqn
  refine Finset.sum_congr rfl fun k _ => ?_
  rw [val_main_v82_apply, idx_sx_pp]
  rfl

/-- The right squared norm at pair `(r, c)` is row `c`'s. -/
theorem sqy_pp (x0 : (⟨S100000x16, .f32⟩ : BufTy).Contents (Elt Ideal)) (x8 : (⟨S8192, .i32⟩ : BufTy).Contents (Elt Ideal)) (r c : Fin 8192) :
    val_main_v89 (F := Ideal) x0 x8 (ix2 r c) = Cert.Spec.sqn (rows8k (val_main_v81 (F := Ideal) x0 x8)) c := by
  rw [val_main_v89_apply, val_main_v87_apply, val_main_v86_apply, val_main_cst_20_apply, Ideal.ofBits_def, Ideal.ofBits_zero_f32, zero_add]
  unfold Cert.Spec.sqn
  refine Finset.sum_congr rfl fun k _ => ?_
  rw [val_main_v85_apply, idx_sy_pp]
  rfl

/-- The inner product as the reference forms it: the left row doubled BEFORE the contraction, Σ_k (2 · x r k) · y c k. -/
theorem dot_pp (x0 : (⟨S100000x16, .f32⟩ : BufTy).Contents (Elt Ideal)) (x1 : (⟨S100000x16, .f32⟩ : BufTy).Contents (Elt Ideal)) (x7 : (⟨S8192, .i32⟩ : BufTy).Contents (Elt Ideal)) (x8 : (⟨S8192, .i32⟩ : BufTy).Contents (Elt Ideal)) (r c : Fin 8192) :
    val_main_v94 (F := Ideal) x0 x1 x7 x8 (ix2 r c) = ∑ k : Fin 16, (Cert.Spec.two * rows8k (val_main_v74 (F := Ideal) x1 x7) r k) * rows8k (val_main_v81 (F := Ideal) x0 x8) c k := by
  rw [val_main_v94_apply]
  refine Finset.sum_congr rfl fun k _ => ?_
  rw [val_main_v92_apply, val_main_v93_apply, val_main_v91_apply, val_main_cst_21_apply, idx_dl_pp, idx_dr_pp]
  rfl

/-- One pair's term: exp (bias − √(max (|x r|² + |y c|² − Σ_k (2 · x r k) · y c k, ε))). -/
theorem pair_pp (x0 : (⟨S100000x16, .f32⟩ : BufTy).Contents (Elt Ideal)) (x1 : (⟨S100000x16, .f32⟩ : BufTy).Contents (Elt Ideal)) (x4 : (⟨S200000, .f32⟩ : BufTy).Contents (Elt Ideal)) (x7 : (⟨S8192, .i32⟩ : BufTy).Contents (Elt Ideal)) (x8 : (⟨S8192, .i32⟩ : BufTy).Contents (Elt Ideal)) (r c : Fin 8192) :
    val_main_v100 (F := Ideal) x0 x1 x4 x7 x8 (ix2 r c)
      = Cert.Spec.pairVal (Cert.Spec.cdistRef (rows8k (val_main_v74 (F := Ideal) x1 x7)) (rows8k (val_main_v81 (F := Ideal) x0 x8))) (vec8k (val_main_v53 (F := Ideal) x4 x7)) (vec8k (val_main_v62 (F := Ideal) x4 x8)) r c := by
  rw [val_main_v100_apply, val_main_v99_apply, val_main_v98_apply, val_main_v97_apply, val_main_v95_apply, val_main_v90_apply, val_main_v96_apply,
    val_main_cst_22_apply, bias_pp, sqx_pp, sqy_pp, dot_pp]
  rfl

/-- The mask of the strict upper triangle: the word of "row + 0 ≥ column" (signed, both below 2³¹) is `1` exactly when `c ≤ r`. -/
theorem triu_bit (r c : Fin 8192) :
    IntOp.cmpi .sge (IntOp.addi (BitVec.ofNat 32 r.val) 0#32) (BitVec.ofNat 32 c.val) = 1#1 ↔ c.val ≤ r.val := by
  have hr : (BitVec.ofNat 32 r.val).toInt = (r.val : Int) := by
    rw [BitVec.toInt_eq_toNat_of_lt (by rw [BitVec.toNat_ofNat]; have := r.isLt; omega), BitVec.toNat_ofNat]; have := r.isLt; omega
  have hc : (BitVec.ofNat 32 c.val).toInt = (c.val : Int) := by
    rw [BitVec.toInt_eq_toNat_of_lt (by rw [BitVec.toNat_ofNat]; have := c.isLt; omega), BitVec.toNat_ofNat]; have := c.isLt; omega
  rw [IntOp.cmpi_sge]
  unfold IntOp.addi
  rw [BitVec.add_zero, hr, hc]
  omega

/-- The pp non-link term: the sum over the whole pair matrix of the entries kept by the mask, i.e. of the pairs strictly above
    the diagonal. -/
theorem nonlink_pp (x0 : (⟨S100000x16, .f32⟩ : BufTy).Contents (Elt Ideal)) (x1 : (⟨S100000x16, .f32⟩ : BufTy).Contents (Elt Ideal)) (x4 : (⟨S200000, .f32⟩ : BufTy).Contents (Elt Ideal)) (x7 : (⟨S8192, .i32⟩ : BufTy).Contents (Elt Ideal)) (x8 : (⟨S8192, .i32⟩ : BufTy).Contents (Elt Ideal)) :
    val_main_v102 (F := Ideal) x0 x1 x4 x7 x8 ix0
      = Cert.Spec.nonlinkUpper (Cert.Spec.cdistRef (rows8k (val_main_v74 (F := Ideal) x1 x7)) (rows8k (val_main_v81 (F := Ideal) x0 x8))) (vec8k (val_main_v53 (F := Ideal) x4 x7)) (vec8k (val_main_v62 (F := Ideal) x4 x8)) := by
  rw [val_main_v102_apply, val_main_cst_23_apply, Ideal.ofBits_def, Ideal.ofBits_zero_f32, zero_add, sum_idx2]
  unfold Cert.Spec.nonlinkUpper
  refine Finset.sum_congr rfl fun r _ => Finset.sum_congr rfl fun c _ => ?_
  rw [val_main_v101_apply, val_main_call0_v4_apply, val_main_call0_v2_apply, val_main_call0_v0_apply, val_main_call0_v1_apply,
    val_main_call0_c_apply, val_main_call0_v3_apply, val_main_call0_v5_apply, val_main_call0_cst_apply, pair_pp,
    Ideal.ofBits_def, Ideal.ofBits_zero_f32]
  show Scalar.select (IntOp.cmpi .sge (IntOp.addi (BitVec.ofNat 32 r.val) 0#32) (BitVec.ofNat 32 c.val)) _ _ = _
  by_cases h : r.val < c.val
  · rw [if_pos h, eq_zero_of_ne_one (fun hb => absurd ((triu_bit r c).mp hb) (by omega)), select_zero]
  · rw [if_neg h, (triu_bit r c).mpr (by omega), select_one]

/-! ### The ap pair term -/

/-- The row bias reaches entry `(r, c)` of the pair matrix through two broadcasts: it is read at `r`. -/
theorem idx_gx_ap (r c : Fin 8192) : idx_main_v166 (idx_main_v168 (ix2 r c)) = ix1 r :=
  funext fun a => by match a with | ⟨0, _⟩ => rfl
/-- The column bias reaches entry `(r, c)` through two broadcasts: it is read at `c`. -/
theorem idx_gy_ap (r c : Fin 8192) : idx_main_v167 (idx_main_v169 (ix2 r c)) = ix1 c :=
  funext fun a => by match a with | ⟨0, _⟩ => rfl
/-- The squared norm of the left rows, broadcast along the columns, is summed over row `r`'s coordinates. -/
theorem idx_sx_ap (r c : Fin 8192) (k : Fin 16) : idx_main_v188 (idx_main_v189 (idx_main_v193 (ix2 r c))) k = ix2 r k :=
  funext fun a => by match a with | ⟨0, _⟩ => rfl | ⟨1, _⟩ => rfl
/-- The squared norm of the right rows, broadcast along the rows, is summed over row `c`'s coordinates. -/
theorem idx_sy_ap (r c : Fin 8192) (k : Fin 16) : idx_main_v191 (idx_main_v192 (idx_main_v194 (ix2 r c))) k = ix2 c k :=
  funext fun a => by match a with | ⟨0, _⟩ => rfl | ⟨1, _⟩ => rfl
/-- The contraction reads the doubled left matrix at `(r, k)` … -/
theorem idx_dl_ap (r c : Fin 8192) (k : Fin 16) : lidx_main_v199 (ix2 r c) k = ix2 r k :=
  funext fun a => by match a with | ⟨0, _⟩ => rfl | ⟨1, _⟩ => rfl
/-- … and the transposed right matrix at `(k, c)`, which is the right matrix at `(c, k)`. -/
theorem idx_dr_ap (r c : Fin 8192) (k : Fin 16) : idx_main_v198 (ridx_main_v199 (ix2 r c) k) = ix2 c k :=
  funext fun a => by match a with | ⟨0, _⟩ => rfl | ⟨1, _⟩ => rfl

/-- The bias of pair `(r, c)`: the row's plus the column's. -/
theorem bias_ap (x3 : (⟨S150000, .f32⟩ : BufTy).Contents (Elt Ideal)) (x7 : (⟨S8192, .i32⟩ : BufTy).Contents (Elt Ideal)) (x9 : (⟨S8192, .i32⟩ : BufTy).Contents (Elt Ideal)) (r c : Fin 8192) :
    val_main_v170 (F := Ideal) x3 x7 x9 (ix2 r c) = vec8k (val_main_v158 (F := Ideal) x3 x7) r + vec8k (val_main_v165 (F := Ideal) x3 x9) c := by
  rw [val_main_v170_apply, val_main_v168_apply, val_main_v169_apply, val_main_v166_apply, val_main_v167_apply, idx_gx_ap, idx_gy_ap]
  rfl

/-- The left squared norm at pair `(r, c)` is row `r`'s. -/
theorem sqx_ap (x1 : (⟨S100000x16, .f32⟩ : BufTy).Contents (Elt Ideal)) (x7 : (⟨S8192, .i32⟩ : BufTy).Contents (Elt Ideal)) (r c : Fin 8192) :
    val_main_v193 (F := Ideal) x1 x7 (ix2 r c) = Cert.Spec.sqn (rows8k (val_main_v177 (F := Ideal) x1 x7)) r := by
  rw [val_main_v193_apply, val_main_v189_apply, val_main_v188_apply, val_main_cst_45_apply, Ideal.ofBits_def, Ideal.ofBits_zero_f32, zero_add]
  unfold Cert.Spec.sqn
  refine Finset.sum_congr rfl fun k _ => ?_
  rw [val_main_v187_apply, idx_sx_ap]
  rfl

/-- The right squared norm at pair `(r, c)` is row `c`'s. -/
theorem sqy_ap (x2 : (⟨S50000x16, .f32⟩ : BufTy).Contents (Elt Ideal)) (x9 : (⟨S8192, .i32⟩ : BufTy).Contents (Elt Ideal)) (r c : Fin 8192) :
    val_main_v194 (F := Ideal) x2 x9 (ix2 r c) = Cert.Spec.sqn (rows8k (val_main_v186 (F := Ideal) x2 x9)) c := by
  rw [val_main_v194_apply, val_main_v192_apply, val_main_v191_apply, val_main_cst_46_apply, Ideal.ofBits_def, Ideal.ofBits_zero_f32, zero_add]
  unfold Cert.Spec.sqn
  refine Finset.sum_congr rfl fun k _ => ?_
  rw [val_main_v190_apply, idx_sy_ap]
  rfl

/-- The inner product as the reference forms it: the left row doubled BEFORE the contraction, Σ_k (2 · x r k) · y c k. -/
theorem dot_ap (x1 : (⟨S100000x16, .f32⟩ : BufTy).Contents (Elt Ideal)) (x2 : (⟨S50000x16, .f32⟩ : BufTy).Contents (Elt Ideal)) (x7 : (⟨S8192, .i32⟩ : BufTy).Contents (Elt Ideal)) (x9 : (⟨S8192, .i32⟩ : BufTy).Contents (Elt Ideal)) (r c : Fin 8192) :
    val_main_v199 (F := Ideal) x1 x2 x7 x9 (ix2 r c) = ∑ k : Fin 16, (Cert.Spec.two * rows8k (val_main_v177 (F := Ideal) x1 x7) r k) * rows8k (val_main_v186 (F := Ideal) x2 x9) c k := by
  rw [val_main_v199_apply]
  refine Finset.sum_congr rfl fun k _ => ?_
  rw [val_main_v197_apply, val_main_v198_apply, val_main_v196_apply, val_main_cst_47_apply, idx_dl_ap, idx_dr_ap]
  rfl

/-- One pair's term: exp (bias − √(max (|x r|² + |y c|² − Σ_k (2 · x r k) · y c k, ε))). -/
theorem pair_ap (x1 : (⟨S100000x16, .f32⟩ : BufTy).Contents (Elt Ideal)) (x2 : (⟨S50000x16, .f32⟩ : BufTy).Contents (Elt Ideal)) (x3 : (⟨S150000, .f32⟩ : BufTy).Contents (Elt Ideal)) (x7 : (⟨S8192, .i32⟩ : BufTy).Contents (Elt Ideal)) (x9 : (⟨S8192, .i32⟩ : BufTy).Contents (Elt Ideal)) (r c : Fin 8192) :
    val_main_v205 (F := Ideal) x1 x2 x3 x7 x9 (ix2 r c)
      = Cert.Spec.pairVal (Cert.Spec.cdistRef (rows8k (val_main_v177 (F := Ideal) x1 x7)) (rows8k (val_main_v186 (F := Ideal) x2 x9))) (vec8k (val_main_v158 (F := Ideal) x3 x7)) (vec8k (val_main_v165 (F := Ideal) x3 x9)) r c := by
  rw [val_main_v205_apply, val_main_v204_apply, val_main_v203_apply, val_main_v202_apply, val_main_v200_apply, val_main_v195_apply, val_main_v201_apply,
    val_main_cst_48_apply, bias_ap, sqx_ap, sqy_ap, dot_ap]
  rfl

/-- The ap non-link term: the sum over the whole pair matrix, rows outside. -/
theorem nonlink_ap (x1 : (⟨S100000x16, .f32⟩ : BufTy).Contents (Elt Ideal)) (x2 : (⟨S50000x16, .f32⟩ : BufTy).Contents (Elt Ideal)) (x3 : (⟨S150000, .f32⟩ : BufTy).Contents (Elt Ideal)) (x7 : (⟨S8192, .i32⟩ : BufTy).Contents (Elt Ideal)) (x9 : (⟨S8192, .i32⟩ : BufTy).Contents (Elt Ideal)) :
    val_main_v206 (F := Ideal) x1 x2 x3 x7 x9 ix0
      = Cert.Spec.nonlinkAll (Cert.Spec.cdistRef (rows8k (val_main_v177 (F := Ideal) x1 x7)) (rows8k (val_main_v186 (F := Ideal) x2 x9))) (vec8k (val_main_v158 (F := Ideal) x3 x7)) (vec8k (val_main_v165 (F := Ideal) x3 x9)) := by
  rw [val_main_v206_apply, val_main_cst_49_apply, Ideal.ofBits_def, Ideal.ofBits_zero_f32, zero_add, sum_idx2]
  unfold Cert.Spec.nonlinkAll
  refine Finset.sum_congr rfl fun r _ => Finset.sum_congr rfl fun c _ => ?_
  rw [pair_ap]

end Cert.ReferenceIdeal.HandRef

end
-- ==== Proof.RefValue.lean ====
/-
  The reference's result as ONE function of fifteen gathered arrays. Its last scalar operations combine four sums: the
  paper–paper link term and non-link term (strict upper triangle), the author–paper link term and non-link term (all pairs);
  each is the specification's function of the gather stages feeding it (the two link modules, the two pair modules). The gather
  stages are named here and never opened: which element a gather picks depends on the index arrays' values, and the other
  program makes the very same gathers. The p⋆ rows of the sampled p⋆ nodes are gathered twice by the program (once per
  modality), by the same operations on the same arguments: one array.
-/
import proofs.«104416_j77807627534714_2_alg».proof.Proof.RefValueLink
import proofs.«104416_j77807627534714_2_alg».proof.Proof.RefValuePairs

noncomputable section

open scoped BigOperators

namespace Cert.ReferenceIdeal.HandRef

open Cert.ReferenceIdeal Cert.ReferenceIdeal.Gen Cert.ReferenceIdeal.Read Idealize.ShloMosaic Idealize.ShloMosaic.TcCoe
open Idealize.ShloMosaic.ValueIdx Cert.Spec

/-! ## The fifteen gather stages -/

/-- Gather stage: the bias γ at the first endpoint (the p⋆ side) of each paper–paper edge. -/
def g_gpp0 (x4 : (⟨S200000, .f32⟩ : BufTy).Contents (Elt Ideal)) (x5 : (⟨S2x500000, .i32⟩ : BufTy).Contents (Elt Ideal)) : (⟨S500000, .f32⟩ : BufTy).Contents (Elt Ideal) :=
  val_main_v8 (F := Ideal) x4 x5
/-- Gather stage: the bias γ, second half, at the second endpoint (the p side) of each paper–paper edge. -/
def g_gpp1 (x4 : (⟨S200000, .f32⟩ : BufTy).Contents (Elt Ideal)) (x5 : (⟨S2x500000, .i32⟩ : BufTy).Contents (Elt Ideal)) : (⟨S500000, .f32⟩ : BufTy).Contents (Elt Ideal) :=
  val_main_v19 (F := Ideal) x4 x5
/-- Gather stage: the p⋆ row of each paper–paper edge's first endpoint. -/
def g_pse (x1 : (⟨S100000x16, .f32⟩ : BufTy).Contents (Elt Ideal)) (x5 : (⟨S2x500000, .i32⟩ : BufTy).Contents (Elt Ideal)) : (⟨S500000x16, .f32⟩ : BufTy).Contents (Elt Ideal) :=
  val_main_v29 (F := Ideal) x1 x5
/-- Gather stage: the p row of each paper–paper edge's second endpoint. -/
def g_pe (x0 : (⟨S100000x16, .f32⟩ : BufTy).Contents (Elt Ideal)) (x5 : (⟨S2x500000, .i32⟩ : BufTy).Contents (Elt Ideal)) : (⟨S500000x16, .f32⟩ : BufTy).Contents (Elt Ideal) :=
  val_main_v38 (F := Ideal) x0 x5
/-- Gather stage: the bias γ at the sampled p⋆ nodes. -/
def g_gps (x4 : (⟨S200000, .f32⟩ : BufTy).Contents (Elt Ideal)) (x7 : (⟨S8192, .i32⟩ : BufTy).Contents (Elt Ideal)) : (⟨S8192, .f32⟩ : BufTy).Contents (Elt Ideal) :=
  val_main_v53 (F := Ideal) x4 x7
/-- Gather stage: the bias γ, second half, at the sampled p nodes. -/
def g_gp (x4 : (⟨S200000, .f32⟩ : BufTy).Contents (Elt Ideal)) (x8 : (⟨S8192, .i32⟩ : BufTy).Contents (Elt Ideal)) : (⟨S8192, .f32⟩ : BufTy).Contents (Elt Ideal) :=
  val_main_v62 (F := Ideal) x4 x8
/-- Gather stage: the p⋆ rows of the sampled p⋆ nodes. -/
def g_pss (x1 : (⟨S100000x16, .f32⟩ : BufTy).Contents (Elt Ideal)) (x7 : (⟨S8192, .i32⟩ : BufTy).Contents (Elt Ideal)) : (⟨S8192x16, .f32⟩ : BufTy).Contents (Elt Ideal) :=
  val_main_v74 (F := Ideal) x1 x7
/-- Gather stage: the p rows of the sampled p nodes. -/
def g_ps (x0 : (⟨S100000x16, .f32⟩ : BufTy).Contents (Elt Ideal)) (x8 : (⟨S8192, .i32⟩ : BufTy).Contents (Elt Ideal)) : (⟨S8192x16, .f32⟩ : BufTy).Contents (Elt Ideal) :=
  val_main_v81 (F := Ideal) x0 x8
/-- Gather stage: the bias β at the first endpoint (the paper) of each author–paper edge. -/
def g_bap0 (x3 : (⟨S150000, .f32⟩ : BufTy).Contents (Elt Ideal)) (x6 : (⟨S2x500000, .i32⟩ : BufTy).Contents (Elt Ideal)) : (⟨S500000, .f32⟩ : BufTy).Contents (Elt Ideal) :=
  val_main_v113 (F := Ideal) x3 x6
/-- Gather stage: the bias β at the second endpoint (the author) of each author–paper edge. -/
def g_bap1 (x3 : (⟨S150000, .f32⟩ : BufTy).Contents (Elt Ideal)) (x6 : (⟨S2x500000, .i32⟩ : BufTy).Contents (Elt Ideal)) : (⟨S500000, .f32⟩ : BufTy).Contents (Elt Ideal) :=
  val_main_v122 (F := Ideal) x3 x6
/-- Gather stage: the p⋆ row of each author–paper edge's paper. -/
def g_psa (x1 : (⟨S100000x16, .f32⟩ : BufTy).Contents (Elt Ideal)) (x6 : (⟨S2x500000, .i32⟩ : BufTy).Contents (Elt Ideal)) : (⟨S500000x16, .f32⟩ : BufTy).Contents (Elt Ideal) :=
  val_main_v132 (F := Ideal) x1 x6
/-- Gather stage: the author row of each author–paper edge's author. -/
def g_ae (x2 : (⟨S50000x16, .f32⟩ : BufTy).Contents (Elt Ideal)) (x6 : (⟨S2x500000, .i32⟩ : BufTy).Contents (Elt Ideal)) : (⟨S500000x16, .f32⟩ : BufTy).Contents (Elt Ideal) :=
  val_main_v143 (F := Ideal) x2 x6
/-- Gather stage: the bias β at the sampled p⋆ nodes. -/
def g_bps (x3 : (⟨S150000, .f32⟩ : BufTy).Contents (Elt Ideal)) (x7 : (⟨S8192, .i32⟩ : BufTy).Contents (Elt Ideal)) : (⟨S8192, .f32⟩ : BufTy).Contents (Elt Ideal) :=
  val_main_v158 (F := Ideal) x3 x7
/-- Gather stage: the bias β at the sampled author nodes. -/
def g_ba (x3 : (⟨S150000, .f32⟩ : BufTy).Contents (Elt Ideal)) (x9 : (⟨S8192, .i32⟩ : BufTy).Contents (Elt Ideal)) : (⟨S8192, .f32⟩ : BufTy).Contents (Elt Ideal) :=
  val_main_v165 (F := Ideal) x3 x9
/-- Gather stage: the author rows of the sampled author nodes. -/
def g_as (x2 : (⟨S50000x16, .f32⟩ : BufTy).Contents (Elt Ideal)) (x9 : (⟨S8192, .i32⟩ : BufTy).Contents (Elt Ideal)) : (⟨S8192x16, .f32⟩ : BufTy).Contents (Elt Ideal) :=
  val_main_v186 (F := Ideal) x2 x9

/-- The program gathers the p⋆ rows of the sampled p⋆ nodes a second time for the author–paper modality: the same operations on
    the same arguments, hence the same array. -/
theorem pss_again (x1 : (⟨S100000x16, .f32⟩ : BufTy).Contents (Elt Ideal)) (x7 : (⟨S8192, .i32⟩ : BufTy).Contents (Elt Ideal)) :
    val_main_v177 (F := Ideal) x1 x7 = g_pss x1 x7 := rfl

/-! ## The result -/

/-- The loss as the reference computes it, a function of the ten arguments through the fifteen gather stages. -/
def refLoss (x0 : (⟨S100000x16, .f32⟩ : BufTy).Contents (Elt Ideal))
    (x1 : (⟨S100000x16, .f32⟩ : BufTy).Contents (Elt Ideal))
    (x2 : (⟨S50000x16, .f32⟩ : BufTy).Contents (Elt Ideal))
    (x3 : (⟨S150000, .f32⟩ : BufTy).Contents (Elt Ideal))
    (x4 : (⟨S200000, .f32⟩ : BufTy).Contents (Elt Ideal))
    (x5 : (⟨S2x500000, .i32⟩ : BufTy).Contents (Elt Ideal))
    (x6 : (⟨S2x500000, .i32⟩ : BufTy).Contents (Elt Ideal))
    (x7 : (⟨S8192, .i32⟩ : BufTy).Contents (Elt Ideal))
    (x8 : (⟨S8192, .i32⟩ : BufTy).Contents (Elt Ideal))
    (x9 : (⟨S8192, .i32⟩ : BufTy).Contents (Elt Ideal)) : EReal :=
  tailRef
    (linkRef (vec500k (g_gpp0 x4 x5)) (vec500k (g_gpp1 x4 x5)) (rows500k (g_pse x1 x5)) (rows500k (g_pe x0 x5)))
    (nonlinkUpper (cdistRef (rows8k (g_pss x1 x7)) (rows8k (g_ps x0 x8))) (vec8k (g_gps x4 x7)) (vec8k (g_gp x4 x8)))
    (linkRef (vec500k (g_bap0 x3 x6)) (vec500k (g_bap1 x3 x6)) (rows500k (g_psa x1 x6)) (rows500k (g_ae x2 x6)))
    (nonlinkAll (cdistRef (rows8k (g_pss x1 x7)) (rows8k (g_as x2 x9))) (vec8k (g_bps x3 x7)) (vec8k (g_ba x3 x9)))

/-- The reference's result stage is that loss at its one index. -/
theorem ref_value (x0 : (⟨S100000x16, .f32⟩ : BufTy).Contents (Elt Ideal))
    (x1 : (⟨S100000x16, .f32⟩ : BufTy).Contents (Elt Ideal))
    (x2 : (⟨S50000x16, .f32⟩ : BufTy).Contents (Elt Ideal))
    (x3 : (⟨S150000, .f32⟩ : BufTy).Contents (Elt Ideal))
    (x4 : (⟨S200000, .f32⟩ : BufTy).Contents (Elt Ideal))
    (x5 : (⟨S2x500000, .i32⟩ : BufTy).Contents (Elt Ideal))
    (x6 : (⟨S2x500000, .i32⟩ : BufTy).Contents (Elt Ideal))
    (x7 : (⟨S8192, .i32⟩ : BufTy).Contents (Elt Ideal))
    (x8 : (⟨S8192, .i32⟩ : BufTy).Contents (Elt Ideal))
    (x9 : (⟨S8192, .i32⟩ : BufTy).Contents (Elt Ideal)) :
    val_main_v213 (F := Ideal) x0 x1 x2 x3 x4 x5 x6 x7 x8 x9 = fun _ => refLoss x0 x1 x2 x3 x4 x5 x6 x7 x8 x9 := by
  funext i
  rw [eq_ix0 i, val_main_v213_apply, val_main_v210_apply, val_main_v209_apply, val_main_cst_50_apply, val_main_v104_apply,
    val_main_v103_apply, val_main_cst_51_apply, val_main_v212_apply, val_main_v211_apply, val_main_cst_52_apply,
    val_main_v208_apply, val_main_v207_apply, val_main_cst_53_apply, link_pp, nonlink_pp, link_ap, nonlink_ap, pss_again]
  rfl

/-- What the reference's run leaves in its result buffer: the loss of the arguments' launch contents. -/
theorem ref_result (m : (ℓ : Loc nD τ sig) → Buf (Elt Ideal) ℓ) (c : Dev nD) :
    Cert.ReferenceIdeal.Value.res_main_v213 (F := Ideal) m c
      = fun _ => refLoss (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  rw [val_main_v213_eq]
  exact ref_value _ _ _ _ _ _ _ _ _ _

end Cert.ReferenceIdeal.HandRef

end
-- ==== Proof.Host0Match.lean ====
/-
  The two programs make the same fifteen gathered arrays.

  Each program gathers rows of an embedding table (or entries of a bias vector) at a vector of row numbers made from one of
  the index arguments: a row of a two-row edge table or a whole sample vector, shifted by a constant for the second half of a
  table, made non-negative the way array indexing treats a negative number, and turned into a one-column matrix.  The two
  programs print these chains operation for operation alike — the same slices, the same constants, the same comparison, the
  same gather dimension numbers on the same shapes — so each of the kernel program's gathered arrays and the reference's
  gather stage of the same role are one and the same term, as functions of the table and the index array: equal by unfolding.
-/
import proofs.«104416_j77807627534714_2_alg».proof.Proof.KI.Host0
import proofs.«104416_j77807627534714_2_alg».proof.Proof.RefValue

noncomputable section

namespace Cert.Match

open Idealize.ShloMosaic Idealize.ShloMosaic.TcCoe
open Cert.KernelIdeal.HandHost Cert.ReferenceIdeal.HandRef

/-- The p⋆ row of each paper–paper edge's first endpoint: the same gather in both programs. -/
theorem g8_eq (x : (⟨Cert.ReferenceIdeal.S100000x16, .f32⟩ : BufTy).Contents (Elt Ideal)) (i : (⟨Cert.ReferenceIdeal.S2x500000, .i32⟩ : BufTy).Contents (Elt Ideal)) :
    g8 (F := Ideal) x i = g_pse x i := rfl

/-- The p row of each paper–paper edge's second endpoint: the same gather in both programs. -/
theorem g17_eq (x : (⟨Cert.ReferenceIdeal.S100000x16, .f32⟩ : BufTy).Contents (Elt Ideal)) (i : (⟨Cert.ReferenceIdeal.S2x500000, .i32⟩ : BufTy).Contents (Elt Ideal)) :
    g17 (F := Ideal) x i = g_pe x i := rfl

/-- The bias γ at each paper–paper edge's first endpoint: the same gather in both programs. -/
theorem g26_eq (x : (⟨Cert.ReferenceIdeal.S200000, .f32⟩ : BufTy).Contents (Elt Ideal)) (i : (⟨Cert.ReferenceIdeal.S2x500000, .i32⟩ : BufTy).Contents (Elt Ideal)) :
    g26 (F := Ideal) x i = g_gpp0 x i := rfl

/-- The bias γ, second half, at each paper–paper edge's second endpoint: the same gather in both programs. -/
theorem g37_eq (x : (⟨Cert.ReferenceIdeal.S200000, .f32⟩ : BufTy).Contents (Elt Ideal)) (i : (⟨Cert.ReferenceIdeal.S2x500000, .i32⟩ : BufTy).Contents (Elt Ideal)) :
    g37 (F := Ideal) x i = g_gpp1 x i := rfl

/-- The p⋆ row of each author–paper edge's paper: the same gather in both programs. -/
theorem g46_eq (x : (⟨Cert.ReferenceIdeal.S100000x16, .f32⟩ : BufTy).Contents (Elt Ideal)) (i : (⟨Cert.ReferenceIdeal.S2x500000, .i32⟩ : BufTy).Contents (Elt Ideal)) :
    g46 (F := Ideal) x i = g_psa x i := rfl

/-- The author row of each author–paper edge's author: the same gather in both programs. -/
theorem g57_eq (x : (⟨Cert.ReferenceIdeal.S50000x16, .f32⟩ : BufTy).Contents (Elt Ideal)) (i : (⟨Cert.ReferenceIdeal.S2x500000, .i32⟩ : BufTy).Contents (Elt Ideal)) :
    g57 (F := Ideal) x i = g_ae x i := rfl

/-- The bias β at each author–paper edge's paper: the same gather in both programs. -/
theorem g66_eq (x : (⟨Cert.ReferenceIdeal.S150000, .f32⟩ : BufTy).Contents (Elt Ideal)) (i : (⟨Cert.ReferenceIdeal.S2x500000, .i32⟩ : BufTy).Contents (Elt Ideal)) :
    g66 (F := Ideal) x i = g_bap0 x i := rfl

/-- The bias β at each author–paper edge's author: the same gather in both programs. -/
theorem g75_eq (x : (⟨Cert.ReferenceIdeal.S150000, .f32⟩ : BufTy).Contents (Elt Ideal)) (i : (⟨Cert.ReferenceIdeal.S2x500000, .i32⟩ : BufTy).Contents (Elt Ideal)) :
    g75 (F := Ideal) x i = g_bap1 x i := rfl

/-- The p⋆ rows of the sampled p⋆ nodes: the same gather in both programs. -/
theorem g82_eq (x : (⟨Cert.ReferenceIdeal.S100000x16, .f32⟩ : BufTy).Contents (Elt Ideal)) (i : (⟨Cert.ReferenceIdeal.S8192, .i32⟩ : BufTy).Contents (Elt Ideal)) :
    g82 (F := Ideal) x i = g_pss x i := rfl

/-- The p rows of the sampled p nodes: the same gather in both programs. -/
theorem g89_eq (x : (⟨Cert.ReferenceIdeal.S100000x16, .f32⟩ : BufTy).Contents (Elt Ideal)) (i : (⟨Cert.ReferenceIdeal.S8192, .i32⟩ : BufTy).Contents (Elt Ideal)) :
    g89 (F := Ideal) x i = g_ps x i := rfl

/-- The author rows of the sampled author nodes: the same gather in both programs. -/
theorem g98_eq (x : (⟨Cert.ReferenceIdeal.S50000x16, .f32⟩ : BufTy).Contents (Elt Ideal)) (i : (⟨Cert.ReferenceIdeal.S8192, .i32⟩ : BufTy).Contents (Elt Ideal)) :
    g98 (F := Ideal) x i = g_as x i := rfl

/-- The bias γ at the sampled p⋆ nodes: the same gather in both programs. -/
theorem g105_eq (x : (⟨Cert.ReferenceIdeal.S200000, .f32⟩ : BufTy).Contents (Elt Ideal)) (i : (⟨Cert.ReferenceIdeal.S8192, .i32⟩ : BufTy).Contents (Elt Ideal)) :
    g105 (F := Ideal) x i = g_gps x i := rfl

/-- The bias γ, second half, at the sampled p nodes: the same gather in both programs. -/
theorem g114_eq (x : (⟨Cert.ReferenceIdeal.S200000, .f32⟩ : BufTy).Contents (Elt Ideal)) (i : (⟨Cert.ReferenceIdeal.S8192, .i32⟩ : BufTy).Contents (Elt Ideal)) :
    g114 (F := Ideal) x i = g_gp x i := rfl

/-- The bias β at the sampled p⋆ nodes: the same gather in both programs. -/
theorem g121_eq (x : (⟨Cert.ReferenceIdeal.S150000, .f32⟩ : BufTy).Contents (Elt Ideal)) (i : (⟨Cert.ReferenceIdeal.S8192, .i32⟩ : BufTy).Contents (Elt Ideal)) :
    g121 (F := Ideal) x i = g_bps x i := rfl

/-- The bias β at the sampled author nodes: the same gather in both programs. -/
theorem g128_eq (x : (⟨Cert.ReferenceIdeal.S150000, .f32⟩ : BufTy).Contents (Elt Ideal)) (i : (⟨Cert.ReferenceIdeal.S8192, .i32⟩ : BufTy).Contents (Elt Ideal)) :
    g128 (F := Ideal) x i = g_ba x i := rfl

end Cert.Match

end
-- ==== Proof.Finite.lean ====
/-
  Finiteness: the printed precondition says that every entry of the five real-valued inputs is a real number, and a gathered
  array of a real-valued array is real-valued.

    * The precondition is the conjunction (by "and" on one-bit words) of five tests "all |x| < +∞".  A conjunction is 1 exactly
      when both sides are 1; a reduction by "and" from 1 that comes out 1 met a 1 at every index; and the test at one index,
      max (x, −x) < ⊤ on the extended reals (the word 0x7F800000 denotes ⊤), fails at x = ⊤ (max is ⊤) and at x = ⊥ (−⊥ = ⊤),
      so it leaves the real numbers.
    * Every element of a gather's result is an element of the operand (at the clamped start index plus the offset), so whatever
      the indices are, gathering from a real-valued array gives a real-valued array.
-/
import proofs.«104416_j77807627534714_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.Pre_finite_inputs

/-- The scalar shape has one index. -/
instance : Subsingleton S_.Idx := ⟨fun a b => funext fun d => d.elim0⟩

/-- The word 0x7F800000 (sign 0, exponent field all ones, significand field 0) denotes +∞. -/
theorem inf_word : Ideal.ofBits .f32 0x7F800000#32 = ⊤ := by simp [Ideal.ofBits, Ideal.ieee]

/-- |x| < +∞ on the extended reals leaves the real numbers. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

/-- One test "all |x| < +∞" that came out 1: every entry of x is a real number. -/
theorem all_real {s : Shape} {axes : List (Fin s.rank)} (x : FVec Ideal s .f32)
    (hb : S_.BroadcastsInDim s (![] : Fin 0 → Fin s.rank)) (hr : s.ReducesTo axes S_) (hn : 0 < S_.numel)
    (e : Host.reduce IntOp.andi
          (cmpf .olt (Host.absf x) (broadcastInDim s ![] hb (constant (F := Ideal) S_ .f32 0x7F800000#32)))
          (constantI S_ 1 1#1) hr hn ValueIdx.ix0 = 1#1) :
    ∀ i, ∃ r : ℝ, x i = (r : EReal) := fun i =>
  real_of_abs_lt_inf (x i) (Host.reduce_andi_all _ _ hr hn ValueIdx.ix0 e i)

/-- The precondition decoded: every entry of the five real-valued inputs is a real number. -/
theorem pre_real (x0 x1 : FVec Ideal S100000x16 .f32) (x2 : FVec Ideal S50000x16 .f32) (x3 : FVec Ideal S150000 .f32)
    (x4 : FVec Ideal S200000 .f32) (x5 x6 : IVec S2x500000 32) (x7 x8 x9 : IVec S8192 32)
    (h : Cert.Pre_finite_inputs.fn (F := Ideal) x0 x1 x2 x3 x4 x5 x6 x7 x8 x9 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have e := congrFun h ValueIdx.ix0
  dsimp only [fn, fn_part1] at e
  simp only [andi, IntOp.andi_eq_one] at e
  obtain ⟨⟨⟨⟨e0, e1⟩, e2⟩, e3⟩, e4⟩ := e
  exact ⟨all_real x0 _ _ _ e0, all_real x1 _ _ _ e1, all_real x2 _ _ _ e2, all_real x3 _ _ _ e3, all_real x4 _ _ _ e4⟩

/-- A gather from a real-valued array is real-valued, whatever the indices: each result element is an operand element. -/
theorem gather_real {s si t : Shape} {w : ℕ} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

end Cert.Finite

end
-- ==== Proof.RefFinite.lean ====
/-
  The reference's loss, under the precondition, in the kernel's arrangement of the sums.

  The precondition makes every entry of the five real-valued arguments a real number; each of the fifteen gather stages picks
  its elements out of one of those arguments, so every stage is real-valued, whatever the index arrays hold; and for real-valued
  stages the reference's arrangement of the four sums and the kernel's give the same loss.
-/
import proofs.«104416_j77807627534714_2_alg».proof.Proof.RefValue
import proofs.«104416_j77807627534714_2_alg».proof.Proof.Finite
import proofs.«104416_j77807627534714_2_alg».proof.Proof.SpecLoss

noncomputable section

namespace Cert.ReferenceIdeal.HandRef

open Cert.ReferenceIdeal Cert.ReferenceIdeal.Gen Cert.ReferenceIdeal.Read Idealize.ShloMosaic Idealize.ShloMosaic.TcCoe
open Idealize.ShloMosaic.ValueIdx Cert.Spec

/-- Under the precondition, the reference's loss is the specification's loss in the kernel's arrangement, at the same fifteen
    gather stages. -/
theorem refLoss_eq_lossKer (x0 : (⟨S100000x16, .f32⟩ : BufTy).Contents (Elt Ideal))
    (x1 : (⟨S100000x16, .f32⟩ : BufTy).Contents (Elt Ideal))
    (x2 : (⟨S50000x16, .f32⟩ : BufTy).Contents (Elt Ideal))
    (x3 : (⟨S150000, .f32⟩ : BufTy).Contents (Elt Ideal))
    (x4 : (⟨S200000, .f32⟩ : BufTy).Contents (Elt Ideal))
    (x5 : (⟨S2x500000, .i32⟩ : BufTy).Contents (Elt Ideal))
    (x6 : (⟨S2x500000, .i32⟩ : BufTy).Contents (Elt Ideal))
    (x7 : (⟨S8192, .i32⟩ : BufTy).Contents (Elt Ideal))
    (x8 : (⟨S8192, .i32⟩ : BufTy).Contents (Elt Ideal))
    (x9 : (⟨S8192, .i32⟩ : BufTy).Contents (Elt Ideal))
    (h : Cert.Pre_finite_inputs.fn (F := Ideal) x0 x1 x2 x3 x4 x5 x6 x7 x8 x9 = fun _ => 1#1) :
    refLoss x0 x1 x2 x3 x4 x5 x6 x7 x8 x9
      = Cert.Spec.lossKer (vec500k (g_gpp0 x4 x5)) (vec500k (g_gpp1 x4 x5)) (rows500k (g_pse x1 x5)) (rows500k (g_pe x0 x5))
          (vec8k (g_gps x4 x7)) (vec8k (g_gp x4 x8)) (rows8k (g_pss x1 x7)) (rows8k (g_ps x0 x8))
          (vec500k (g_bap0 x3 x6)) (vec500k (g_bap1 x3 x6)) (rows500k (g_psa x1 x6)) (rows500k (g_ae x2 x6))
          (vec8k (g_bps x3 x7)) (vec8k (g_ba x3 x9)) (rows8k (g_as x2 x9)) := by
  obtain ⟨h0, h1, h2, h3, h4⟩ := Cert.Finite.pre_real x0 x1 x2 x3 x4 x5 x6 x7 x8 x9 h
  exact lossRef_eq_lossKer _ _ _ _ _ _ _ _ _ _ _ _ _ _ _
    (fun e => Cert.Finite.gather_real _ x4 _ h4 (ix1 e))
    (fun e => Cert.Finite.gather_real _ x4 _ h4 (ix1 e))
    (fun e d => Cert.Finite.gather_real _ x1 _ h1 (ix2 e d))
    (fun e d => Cert.Finite.gather_real _ x0 _ h0 (ix2 e d))
    (fun e d => Cert.Finite.gather_real _ x1 _ h1 (ix2 e d))
    (fun e d => Cert.Finite.gather_real _ x0 _ h0 (ix2 e d))
    (fun e => Cert.Finite.gather_real _ x3 _ h3 (ix1 e))
    (fun e => Cert.Finite.gather_real _ x3 _ h3 (ix1 e))
    (fun e d => Cert.Finite.gather_real _ x1 _ h1 (ix2 e d))
    (fun e d => Cert.Finite.gather_real _ x2 _ h2 (ix2 e d))
    (fun e d => Cert.Finite.gather_real _ x2 _ h2 (ix2 e d))

end Cert.ReferenceIdeal.HandRef

end
-- ==== Proof.Algebraic.lean ====
/-
  The algebraic claim: both idealized programs, run from memories that agree on the arguments, end with the same loss.
  The kernel program's result is the loss in its own arrangement of the sums over the fifteen gathered arrays (read off the
  fold of its buffers); the reference's is the loss in the reference's arrangement over the same fifteen arrays (the two
  programs make the same gathers: the terms coincide); and where the argument arrays hold real numbers — the precondition —
  the gathered arrays do too, and the two arrangements are equal.
-/
import proofs.«104416_j77807627534714_2_alg».proof.Defs
import proofs.«104416_j77807627534714_2_alg».proof.Proof.KI.Args
import proofs.«104416_j77807627534714_2_alg».proof.Proof.KI.KVal
import proofs.«104416_j77807627534714_2_alg».proof.Proof.KI.Host0
import proofs.«104416_j77807627534714_2_alg».proof.Proof.Host0Match
import proofs.«104416_j77807627534714_2_alg».proof.Proof.RefFinite
import proofs.«104416_j77807627534714_2_alg».proof.Proof.Gen.ReferenceIdeal.Run

set_option maxRecDepth 16384

noncomputable section

namespace Cert.Proof

open Idealize.ShloMosaic Idealize.ShloMosaic.TcCoe Idealize.SL.Sem
open Cert.Spec Cert.ReferenceIdeal.HandRef

section
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The loss, in the kernel's arrangement of the sums, of the arguments a memory holds. -/
def lossOf : EReal :=
  lossKer (vec500k (g_gpp0 (m ((c.tc : Thread Cert.KernelIdeal.nD Cert.KernelIdeal.τ).loc Cert.KernelIdeal.main_arg4)) (m ((c.tc : Thread Cert.KernelIdeal.nD Cert.KernelIdeal.τ).loc Cert.KernelIdeal.main_arg5))))
    (vec500k (g_gpp1 (m ((c.tc : Thread Cert.KernelIdeal.nD Cert.KernelIdeal.τ).loc Cert.KernelIdeal.main_arg4)) (m ((c.tc : Thread Cert.KernelIdeal.nD Cert.KernelIdeal.τ).loc Cert.KernelIdeal.main_arg5))))
    (rows500k (g_pse (m ((c.tc : Thread Cert.KernelIdeal.nD Cert.KernelIdeal.τ).loc Cert.KernelIdeal.main_arg1)) (m ((c.tc : Thread Cert.KernelIdeal.nD Cert.KernelIdeal.τ).loc Cert.KernelIdeal.main_arg5))))
    (rows500k (g_pe (m ((c.tc : Thread Cert.KernelIdeal.nD Cert.KernelIdeal.τ).loc Cert.KernelIdeal.main_arg0)) (m ((c.tc : Thread Cert.KernelIdeal.nD Cert.KernelIdeal.τ).loc Cert.KernelIdeal.main_arg5))))
    (vec8k (g_gps (m ((c.tc : Thread Cert.KernelIdeal.nD Cert.KernelIdeal.τ).loc Cert.KernelIdeal.main_arg4)) (m ((c.tc : Thread Cert.KernelIdeal.nD Cert.KernelIdeal.τ).loc Cert.KernelIdeal.main_arg7))))
    (vec8k (g_gp (m ((c.tc : Thread Cert.KernelIdeal.nD Cert.KernelIdeal.τ).loc Cert.KernelIdeal.main_arg4)) (m ((c.tc : Thread Cert.KernelIdeal.nD Cert.KernelIdeal.τ).loc Cert.KernelIdeal.main_arg8))))
    (rows8k (g_pss (m ((c.tc : Thread Cert.KernelIdeal.nD Cert.KernelIdeal.τ).loc Cert.KernelIdeal.main_arg1)) (m ((c.tc : Thread Cert.KernelIdeal.nD Cert.KernelIdeal.τ).loc Cert.KernelIdeal.main_arg7))))
    (rows8k (g_ps (m ((c.tc : Thread Cert.KernelIdeal.nD Cert.KernelIdeal.τ).loc Cert.KernelIdeal.main_arg0)) (m ((c.tc : Thread Cert.KernelIdeal.nD Cert.KernelIdeal.τ).loc Cert.KernelIdeal.main_arg8))))
    (vec500k (g_bap0 (m ((c.tc : Thread Cert.KernelIdeal.nD Cert.KernelIdeal.τ).loc Cert.KernelIdeal.main_arg3)) (m ((c.tc : Thread Cert.KernelIdeal.nD Cert.KernelIdeal.τ).loc Cert.KernelIdeal.main_arg6))))
    (vec500k (g_bap1 (m ((c.tc : Thread Cert.KernelIdeal.nD Cert.KernelIdeal.τ).loc Cert.KernelIdeal.main_arg3)) (m ((c.tc : Thread Cert.KernelIdeal.nD Cert.KernelIdeal.τ).loc Cert.KernelIdeal.main_arg6))))
    (rows500k (g_psa (m ((c.tc : Thread Cert.KernelIdeal.nD Cert.KernelIdeal.τ).loc Cert.KernelIdeal.main_arg1)) (m ((c.tc : Thread Cert.KernelIdeal.nD Cert.KernelIdeal.τ).loc Cert.KernelIdeal.main_arg6))))
    (rows500k (g_ae (m ((c.tc : Thread Cert.KernelIdeal.nD Cert.KernelIdeal.τ).loc Cert.KernelIdeal.main_arg2)) (m ((c.tc : Thread Cert.KernelIdeal.nD Cert.KernelIdeal.τ).loc Cert.KernelIdeal.main_arg6))))
    (vec8k (g_bps (m ((c.tc : Thread Cert.KernelIdeal.nD Cert.KernelIdeal.τ).loc Cert.KernelIdeal.main_arg3)) (m ((c.tc : Thread Cert.KernelIdeal.nD Cert.KernelIdeal.τ).loc Cert.KernelIdeal.main_arg7))))
    (vec8k (g_ba (m ((c.tc : Thread Cert.KernelIdeal.nD Cert.KernelIdeal.τ).loc Cert.KernelIdeal.main_arg3)) (m ((c.tc : Thread Cert.KernelIdeal.nD Cert.KernelIdeal.τ).loc Cert.KernelIdeal.main_arg9))))
    (rows8k (g_as (m ((c.tc : Thread Cert.KernelIdeal.nD Cert.KernelIdeal.τ).loc Cert.KernelIdeal.main_arg2)) (m ((c.tc : Thread Cert.KernelIdeal.nD Cert.KernelIdeal.τ).loc Cert.KernelIdeal.main_arg9))))

/-! Each gathered array after the first host stretch is the gather stage of the launch memory's arguments. -/

theorem aPSe_eq : Cert.KernelIdeal.HandVal.aPSe m ρ c = g_pse (m ((c.tc : Thread Cert.KernelIdeal.nD Cert.KernelIdeal.τ).loc Cert.KernelIdeal.main_arg1)) (m ((c.tc : Thread Cert.KernelIdeal.nD Cert.KernelIdeal.τ).loc Cert.KernelIdeal.main_arg5)) :=
  (Cert.KernelIdeal.HandHost.after0_v8 (Cert.KernelIdeal.Hand.W0 m ρ c)).trans (Cert.Match.g8_eq _ _)
theorem aPe_eq : Cert.KernelIdeal.HandVal.aPe m ρ c = g_pe (m ((c.tc : Thread Cert.KernelIdeal.nD Cert.KernelIdeal.τ).loc Cert.KernelIdeal.main_arg0)) (m ((c.tc : Thread Cert.KernelIdeal.nD Cert.KernelIdeal.τ).loc Cert.KernelIdeal.main_arg5)) :=
  (Cert.KernelIdeal.HandHost.after0_v17 (Cert.KernelIdeal.Hand.W0 m ρ c)).trans (Cert.Match.g17_eq _ _)
theorem aG0_eq : Cert.KernelIdeal.HandVal.aG0 m ρ c = g_gpp0 (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  (Cert.KernelIdeal.HandHost.after0_v26 (Cert.KernelIdeal.Hand.W0 m ρ c)).trans (Cert.Match.g26_eq _ _)
theorem aG1_eq : Cert.KernelIdeal.HandVal.aG1 m ρ c = g_gpp1 (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  (Cert.KernelIdeal.HandHost.after0_v37 (Cert.KernelIdeal.Hand.W0 m ρ c)).trans (Cert.Match.g37_eq _ _)
theorem aPSa_eq : Cert.KernelIdeal.HandVal.aPSa m ρ c = g_psa (m ((c.tc : Thread Cert.KernelIdeal.nD Cert.KernelIdeal.τ).loc Cert.KernelIdeal.main_arg1)) (m ((c.tc : Thread Cert.KernelIdeal.nD Cert.KernelIdeal.τ).loc Cert.KernelIdeal.main_arg6)) :=
  (Cert.KernelIdeal.HandHost.after0_v46 (Cert.KernelIdeal.Hand.W0 m ρ c)).trans (Cert.Match.g46_eq _ _)
theorem aAe_eq : Cert.KernelIdeal.HandVal.aAe m ρ c = g_ae (m ((c.tc : Thread Cert.KernelIdeal.nD Cert.KernelIdeal.τ).loc Cert.KernelIdeal.main_arg2)) (m ((c.tc : Thread Cert.KernelIdeal.nD Cert.KernelIdeal.τ).loc Cert.KernelIdeal.main_arg6)) :=
  (Cert.KernelIdeal.HandHost.after0_v57 (Cert.KernelIdeal.Hand.W0 m ρ c)).trans (Cert.Match.g57_eq _ _)
theorem aB0_eq : Cert.KernelIdeal.HandVal.aB0 m ρ c = g_bap0 (m ((c.tc : Thread Cert.KernelIdeal.nD Cert.KernelIdeal.τ).loc Cert.KernelIdeal.main_arg3)) (m ((c.tc : Thread Cert.KernelIdeal.nD Cert.KernelIdeal.τ).loc Cert.KernelIdeal.main_arg6)) :=
  (Cert.KernelIdeal.HandHost.after0_v66 (Cert.KernelIdeal.Hand.W0 m ρ c)).trans (Cert.Match.g66_eq _ _)
theorem aB1_eq : Cert.KernelIdeal.HandVal.aB1 m ρ c = g_bap1 (m ((c.tc : Thread Cert.KernelIdeal.nD Cert.KernelIdeal.τ).loc Cert.KernelIdeal.main_arg3)) (m ((c.tc : Thread Cert.KernelIdeal.nD Cert.KernelIdeal.τ).loc Cert.KernelIdeal.main_arg6)) :=
  (Cert.KernelIdeal.HandHost.after0_v75 (Cert.KernelIdeal.Hand.W0 m ρ c)).trans (Cert.Match.g75_eq _ _)
theorem aPSs_eq : Cert.KernelIdeal.HandVal.aPSs m ρ c = g_pss (m ((c.tc : Thread Cert.KernelIdeal.nD Cert.KernelIdeal.τ).loc Cert.KernelIdeal.main_arg1)) (m ((c.tc : Thread Cert.KernelIdeal.nD Cert.KernelIdeal.τ).loc Cert.KernelIdeal.main_arg7)) :=
  (Cert.KernelIdeal.HandHost.after0_v82 (Cert.KernelIdeal.Hand.W0 m ρ c)).trans (Cert.Match.g82_eq _ _)
theorem aPs_eq : Cert.KernelIdeal.HandVal.aPs m ρ c = g_ps (m ((c.tc : Thread Cert.KernelIdeal.nD Cert.KernelIdeal.τ).loc Cert.KernelIdeal.main_arg0)) (m ((c.tc : Thread Cert.KernelIdeal.nD Cert.KernelIdeal.τ).loc Cert.KernelIdeal.main_arg8)) :=
  (Cert.KernelIdeal.HandHost.after0_v89 (Cert.KernelIdeal.Hand.W0 m ρ c)).trans (Cert.Match.g89_eq _ _)
theorem aAs_eq : Cert.KernelIdeal.HandVal.aAs m ρ c = g_as (m ((c.tc : Thread Cert.KernelIdeal.nD Cert.KernelIdeal.τ).loc Cert.KernelIdeal.main_arg2)) (m ((c.tc : Thread Cert.KernelIdeal.nD Cert.KernelIdeal.τ).loc Cert.KernelIdeal.main_arg9)) :=
  (Cert.KernelIdeal.HandHost.after0_v98 (Cert.KernelIdeal.Hand.W0 m ρ c)).trans (Cert.Match.g98_eq _ _)
theorem aGps_eq : Cert.KernelIdeal.HandVal.aGps m ρ c = g_gps (m ((c.tc : Thread Cert.KernelIdeal.nD Cert.KernelIdeal.τ).loc Cert.KernelIdeal.main_arg4)) (m ((c.tc : Thread Cert.KernelIdeal.nD Cert.KernelIdeal.τ).loc Cert.KernelIdeal.main_arg7)) :=
  (Cert.KernelIdeal.HandHost.after0_v105 (Cert.KernelIdeal.Hand.W0 m ρ c)).trans (Cert.Match.g105_eq _ _)
theorem aGp_eq : Cert.KernelIdeal.HandVal.aGp m ρ c = g_gp (m ((c.tc : Thread Cert.KernelIdeal.nD Cert.KernelIdeal.τ).loc Cert.KernelIdeal.main_arg4)) (m ((c.tc : Thread Cert.KernelIdeal.nD Cert.KernelIdeal.τ).loc Cert.KernelIdeal.main_arg8)) :=
  (Cert.KernelIdeal.HandHost.after0_v114 (Cert.KernelIdeal.Hand.W0 m ρ c)).trans (Cert.Match.g114_eq _ _)
theorem aBps_eq : Cert.KernelIdeal.HandVal.aBps m ρ c = g_bps (m ((c.tc : Thread Cert.KernelIdeal.nD Cert.KernelIdeal.τ).loc Cert.KernelIdeal.main_arg3)) (m ((c.tc : Thread Cert.KernelIdeal.nD Cert.KernelIdeal.τ).loc Cert.KernelIdeal.main_arg7)) :=
  (Cert.KernelIdeal.HandHost.after0_v121 (Cert.KernelIdeal.Hand.W0 m ρ c)).trans (Cert.Match.g121_eq _ _)
theorem aBa_eq : Cert.KernelIdeal.HandVal.aBa m ρ c = g_ba (m ((c.tc : Thread Cert.KernelIdeal.nD Cert.KernelIdeal.τ).loc Cert.KernelIdeal.main_arg3)) (m ((c.tc : Thread Cert.KernelIdeal.nD Cert.KernelIdeal.τ).loc Cert.KernelIdeal.main_arg9)) :=
  (Cert.KernelIdeal.HandHost.after0_v128 (Cert.KernelIdeal.Hand.W0 m ρ c)).trans (Cert.Match.g128_eq _ _)

/-- The kernel program's result buffer ends holding that loss. -/
theorem kernel_result : (Cert.KernelIdeal.Hand.W9 m ρ c (Proc.devRef .tc Cert.KernelIdeal.main_v157) : Cert.KernelIdeal.S_.Idx → EReal) = fun _ => lossOf m c := by
  rw [Cert.KernelIdeal.HandVal.result m ρ c, aPSe_eq m ρ c, aPe_eq m ρ c, aG0_eq m ρ c, aG1_eq m ρ c, aPSa_eq m ρ c, aAe_eq m ρ c, aB0_eq m ρ c, aB1_eq m ρ c, aPSs_eq m ρ c, aPs_eq m ρ c, aAs_eq m ρ c, aGps_eq m ρ c, aGp_eq m ρ c, aBps_eq m ρ c, aBa_eq m ρ c]
  rfl
end

theorem algebraic : Cert.algebraic_KernelIdeal_ReferenceIdeal := by
  intro m ρ m' ρ' hpre hagree
  refine ⟨fun c => fun _ => lossOf m c, ?_, ?_⟩
  · exact (θ_run Cert.KernelIdeal.defs _ _).mono (fun r h c => ⟨(h c _ (Cert.KernelIdeal.Hand.mem_uc Cert.KernelIdeal.main_v157 (by decide))).trans (kernel_result m ρ c),
      (h c _ (Cert.KernelIdeal.Hand.mem_uc Cert.KernelIdeal.main_arg0 (by decide))).trans (Cert.KernelIdeal.Hand.W9_main_arg0 m ρ c),
      (h c _ (Cert.KernelIdeal.Hand.mem_uc Cert.KernelIdeal.main_arg1 (by decide))).trans (Cert.KernelIdeal.Hand.W9_main_arg1 m ρ c),
      (h c _ (Cert.KernelIdeal.Hand.mem_uc Cert.KernelIdeal.main_arg2 (by decide))).trans (Cert.KernelIdeal.Hand.W9_main_arg2 m ρ c),
      (h c _ (Cert.KernelIdeal.Hand.mem_uc Cert.KernelIdeal.main_arg3 (by decide))).trans (Cert.KernelIdeal.Hand.W9_main_arg3 m ρ c),
      (h c _ (Cert.KernelIdeal.Hand.mem_uc Cert.KernelIdeal.main_arg4 (by decide))).trans (Cert.KernelIdeal.Hand.W9_main_arg4 m ρ c),
      (h c _ (Cert.KernelIdeal.Hand.mem_uc Cert.KernelIdeal.main_arg5 (by decide))).trans (Cert.KernelIdeal.Hand.W9_main_arg5 m ρ c),
      (h c _ (Cert.KernelIdeal.Hand.mem_uc Cert.KernelIdeal.main_arg6 (by decide))).trans (Cert.KernelIdeal.Hand.W9_main_arg6 m ρ c),
      (h c _ (Cert.KernelIdeal.Hand.mem_uc Cert.KernelIdeal.main_arg7 (by decide))).trans (Cert.KernelIdeal.Hand.W9_main_arg7 m ρ c),
      (h c _ (Cert.KernelIdeal.Hand.mem_uc Cert.KernelIdeal.main_arg8 (by decide))).trans (Cert.KernelIdeal.Hand.W9_main_arg8 m ρ c),
      (h c _ (Cert.KernelIdeal.Hand.mem_uc Cert.KernelIdeal.main_arg9 (by decide))).trans (Cert.KernelIdeal.Hand.W9_main_arg9 m ρ c)⟩)
      (Cert.KernelIdeal.Hand.run_main (F := Ideal) m ρ)
  · refine (θ_run Cert.ReferenceIdeal.defs _ _).mono (fun _ h c => ⟨(h c).1.trans ?_, (h c).2⟩) (Cert.ReferenceIdeal.Value.run (F := Ideal) m' ρ')
    rw [ref_result m' c, (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    funext _
    exact refLoss_eq_lossKer _ _ _ _ _ _ _ _ _ _ (hpre c)

end Cert.Proof

end
-- ==== Proof.lean ====
/-
  The certificate's claims assembled.

  The kernel's program is five stretches of host operations around four kernel regions; the two frames (the program as
  printed, read at words, and its idealization, read at extended reals) are ONE proof written generically in the float
  instance and instantiated twice: each region's body obligation with its accumulator carried between grid points, the
  nine segments of @main chained from the launch to the return, and every argument's buffer walked back to the launch
  memory.  The reference is host operations only: its frame is its run with the result dropped.  The idealization
  rewrote nothing.  For the algebraic claim both results are read as one function of fifteen gathered arrays, and the two
  arrangements of the sums are joined by laws that hold where every entry is a real number — which the precondition says
  of the argument arrays, and gathering preserves.
-/
import proofs.«104416_j77807627534714_2_alg».proof.Defs
import proofs.«104416_j77807627534714_2_alg».proof.Proof.Gen.Kernel
import proofs.«104416_j77807627534714_2_alg».proof.Proof.Gen.KernelIdeal
import proofs.«104416_j77807627534714_2_alg».proof.Proof.Gen.ReferenceIdeal
import proofs.«104416_j77807627534714_2_alg».proof.Proof.Gen.Pre_finite_inputs
import proofs.«104416_j77807627534714_2_alg».proof.Proof.K.Args
import proofs.«104416_j77807627534714_2_alg».proof.Proof.KI.Args
import proofs.«104416_j77807627534714_2_alg».proof.Proof.RefFrame
import proofs.«104416_j77807627534714_2_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.ReferenceIdeal.HandRef.frame_ri,
  trivial,
  Cert.Proof.algebraic⟩

end Cert.Proof

end
